-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x32x32 : Shape := ⟨4, ![32, 2048, 32, 32]⟩
abbrev S_ : Shape := ⟨0, ![]⟩

class Facts : Prop where
  bcast_S_S32x2048x32x32 : S_.BroadcastsInDim S32x2048x32x32 (![] : Fin 0 → Fin S32x2048x32x32.rank)
  reducesTo_S32x2048x32x32_S_d0_1_2_3 : S32x2048x32x32.ReducesTo [0, 1, 2, 3] S_
  h_S_ : 0 < S_.numel

variable [Facts]

def fn {F : FTy → Type} [FloatOps F] (main_arg0 : FVec F S32x2048x32x32 .f32) : IVec S_ 1 :=
  let main_v0 : FVec F S32x2048x32x32 .f32 := Host.absf main_arg0
  let main_cst : FVec F S_ .f32 := constant S_ .f32 0x7F800000#32
  let main_v1 : FVec F S32x2048x32x32 .f32 := broadcastInDim S32x2048x32x32 ![] bcast_S_S32x2048x32x32 main_cst
  let main_v2 : IVec S32x2048x32x32 1 := cmpf .olt main_v0 main_v1
  let main_c : IVec S_ 1 := constantI S_ 1 1#1
  let main_v3 : IVec S_ 1 := (fun x v => Host.reduce IntOp.andi x v reducesTo_S32x2048x32x32_S_d0_1_2_3 h_S_) main_v2 main_c
  main_v3
-- ==== Kernel.lean ====
abbrev S32x2048x32x32 : Shape := ⟨4, ![32, 2048, 32, 32]⟩
abbrev S32x2048x1024 : Shape := ⟨3, ![32, 2048, 1024]⟩
abbrev S32x2048x1 : Shape := ⟨3, ![32, 2048, 1]⟩
abbrev S2x2048x1024 : Shape := ⟨3, ![2, 2048, 1024]⟩
abbrev S2x2048x1 : Shape := ⟨3, ![2, 2048, 1]⟩
abbrev S2x2048 : Shape := ⟨2, ![2, 2048]⟩
abbrev S2 : Shape := ⟨1, ![2]⟩
abbrev S2x1 : Shape := ⟨2, ![2, 1]⟩
abbrev S2x2048x21 : Shape := ⟨3, ![2, 2048, 21]⟩
abbrev S2x2048x16 : Shape := ⟨3, ![2, 2048, 16]⟩
abbrev S32x2048 : Shape := ⟨2, ![32, 2048]⟩

abbrev nBuf : Space → Nat
  | .hbm => 4
  | .vmem => 4
  | .smem => 0
  | _ => 0

abbrev bufTy : (tb : Table) → Fin (tcTables nBuf tb) → BufTy
  | .hbm, ⟨0, _⟩ => ⟨S32x2048x32x32, .f32⟩
  | .hbm, ⟨1, _⟩ => ⟨S32x2048x1024, .f32⟩
  | .hbm, ⟨2, _⟩ => ⟨S32x2048x1, .f32⟩
  | .hbm, ⟨3, _⟩ => ⟨S32x2048, .f32⟩
  | .local _ .vmem, ⟨0, _⟩ => ⟨S2x2048x1024, .f32⟩
  | .local _ .vmem, ⟨1, _⟩ => ⟨S2x2048x1024, .f32⟩
  | .local _ .vmem, ⟨2, _⟩ => ⟨S2x2048x1, .f32⟩
  | .local _ .vmem, ⟨3, _⟩ => ⟨S2x2048x1, .f32⟩
  | _, _ => ⟨S32x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x2048x32x32_S32x2048x1024 : S32x2048x32x32.ShapeCasts S32x2048x1024
  inb_S2x2048x1024_S2x2048x1024_0_0_0 : ∀ a, (![0, 0, 0] : Fin 3 → Nat) a + S2x2048x1024.size a ≤ S2x2048x1024.size a
  h_S2x2048x1024 : 0 < S2x2048x1024.numel
  shapeCasts_S2x2048x1024_S2x2048x1024 : S2x2048x1024.ShapeCasts S2x2048x1024
  reduces_S2x2048x1024_S2x2048 : S2x2048x1024.Reduces [2] S2x2048
  reduces_S2x2048_S2 : S2x2048.Reduces [1] S2
  shapeCasts_S2_S2x1 : S2.ShapeCasts S2x1
  broadcasts_S2x1_S2x2048 : S2x1.Broadcasts S2x2048
  inb_S2x2048x1024_S2x2048x21_0_0_0 : ∀ a, (![0, 0, 0] : Fin 3 → Nat) a + S2x2048x21.size a ≤ S2x2048x1024.size a
  h_S2x2048x21 : 0 < S2x2048x21.numel
  shapeCasts_S2x2048x21_S2x2048x21 : S2x2048x21.ShapeCasts S2x2048x21
  reduces_S2x2048x21_S2x2048 : S2x2048x21.Reduces [2] S2x2048
  inb_S2x2048x1024_S2x2048x21_0_0_32 : ∀ a, (![0, 0, 32] : Fin 3 → Nat) a + S2x2048x21.size a ≤ S2x2048x1024.size a
  inb_S2x2048x1024_S2x2048x21_0_0_64 : ∀ a, (![0, 0, 64] : Fin 3 → Nat) a + S2x2048x21.size a ≤ S2x2048x1024.size a
  inb_S2x2048x1024_S2x2048x21_0_0_96 : ∀ a, (![0, 0, 96] : Fin 3 → Nat) a + S2x2048x21.size a ≤ S2x2048x1024.size a
  inb_S2x2048x1024_S2x2048x21_0_0_128 : ∀ a, (![0, 0, 128] : Fin 3 → Nat) a + S2x2048x21.size a ≤ S2x2048x1024.size a
  inb_S2x2048x1024_S2x2048x21_0_0_160 : ∀ a, (![0, 0, 160] : Fin 3 → Nat) a + S2x2048x21.size a ≤ S2x2048x1024.size a
  inb_S2x2048x1024_S2x2048x21_0_0_192 : ∀ a, (![0, 0, 192] : Fin 3 → Nat) a + S2x2048x21.size a ≤ S2x2048x1024.size a
  inb_S2x2048x1024_S2x2048x21_0_0_224 : ∀ a, (![0, 0, 224] : Fin 3 → Nat) a + S2x2048x21.size a ≤ S2x2048x1024.size a
  inb_S2x2048x1024_S2x2048x21_0_0_256 : ∀ a, (![0, 0, 256] : Fin 3 → Nat) a + S2x2048x21.size a ≤ S2x2048x1024.size a
  inb_S2x2048x1024_S2x2048x21_0_0_288 : ∀ a, (![0, 0, 288] : Fin 3 → Nat) a + S2x2048x21.size a ≤ S2x2048x1024.size a
  inb_S2x2048x1024_S2x2048x21_0_0_320 : ∀ a, (![0, 0, 320] : Fin 3 → Nat) a + S2x2048x21.size a ≤ S2x2048x1024.size a
  inb_S2x2048x1024_S2x2048x21_0_0_352 : ∀ a, (![0, 0, 352] : Fin 3 → Nat) a + S2x2048x21.size a ≤ S2x2048x1024.size a
  inb_S2x2048x1024_S2x2048x21_0_0_384 : ∀ a, (![0, 0, 384] : Fin 3 → Nat) a + S2x2048x21.size a ≤ S2x2048x1024.size a
  inb_S2x2048x1024_S2x2048x21_0_0_416 : ∀ a, (![0, 0, 416] : Fin 3 → Nat) a + S2x2048x21.size a ≤ S2x2048x1024.size a
  inb_S2x2048x1024_S2x2048x21_0_0_448 : ∀ a, (![0, 0, 448] : Fin 3 → Nat) a + S2x2048x21.size a ≤ S2x2048x1024.size a
  inb_S2x2048x1024_S2x2048x21_0_0_480 : ∀ a, (![0, 0, 480] : Fin 3 → Nat) a + S2x2048x21.size a ≤ S2x2048x1024.size a
  inb_S2x2048x1024_S2x2048x21_0_0_512 : ∀ a, (![0, 0, 512] : Fin 3 → Nat) a + S2x2048x21.size a ≤ S2x2048x1024.size a
  inb_S2x2048x1024_S2x2048x21_0_0_544 : ∀ a, (![0, 0, 544] : Fin 3 → Nat) a + S2x2048x21.size a ≤ S2x2048x1024.size a
  inb_S2x2048x1024_S2x2048x21_0_0_576 : ∀ a, (![0, 0, 576] : Fin 3 → Nat) a + S2x2048x21.size a ≤ S2x2048x1024.size a
  inb_S2x2048x1024_S2x2048x21_0_0_608 : ∀ a, (![0, 0, 608] : Fin 3 → Nat) a + S2x2048x21.size a ≤ S2x2048x1024.size a
  inb_S2x2048x1024_S2x2048x21_0_0_640 : ∀ a, (![0, 0, 640] : Fin 3 → Nat) a + S2x2048x21.size a ≤ S2x2048x1024.size a
  inb_S2x2048x1024_S2x2048x21_0_0_6 : ∀ a, (![0, 0, 6] : Fin 3 → Nat) a + S2x2048x21.size a ≤ S2x2048x1024.size a
  inb_S2x2048x1024_S2x2048x21_0_0_38 : ∀ a, (![0, 0, 38] : Fin 3 → Nat) a + S2x2048x21.size a ≤ S2x2048x1024.size a
  inb_S2x2048x1024_S2x2048x21_0_0_70 : ∀ a, (![0, 0, 70] : Fin 3 → Nat) a + S2x2048x21.size a ≤ S2x2048x1024.size a
  inb_S2x2048x1024_S2x2048x21_0_0_102 : ∀ a, (![0, 0, 102] : Fin 3 → Nat) a + S2x2048x21.size a ≤ S2x2048x1024.size a
  inb_S2x2048x1024_S2x2048x21_0_0_134 : ∀ a, (![0, 0, 134] : Fin 3 → Nat) a + S2x2048x21.size a ≤ S2x2048x1024.size a
  inb_S2x2048x1024_S2x2048x21_0_0_166 : ∀ a, (![0, 0, 166] : Fin 3 → Nat) a + S2x2048x21.size a ≤ S2x2048x1024.size a
  inb_S2x2048x1024_S2x2048x21_0_0_198 : ∀ a, (![0, 0, 198] : Fin 3 → Nat) a + S2x2048x21.size a ≤ S2x2048x1024.size a
  inb_S2x2048x1024_S2x2048x21_0_0_230 : ∀ a, (![0, 0, 230] : Fin 3 → Nat) a + S2x2048x21.size a ≤ S2x2048x1024.size a
  inb_S2x2048x1024_S2x2048x21_0_0_262 : ∀ a, (![0, 0, 262] : Fin 3 → Nat) a + S2x2048x21.size a ≤ S2x2048x1024.size a
  inb_S2x2048x1024_S2x2048x21_0_0_294 : ∀ a, (![0, 0, 294] : Fin 3 → Nat) a + S2x2048x21.size a ≤ S2x2048x1024.size a
  inb_S2x2048x1024_S2x2048x21_0_0_326 : ∀ a, (![0, 0, 326] : Fin 3 → Nat) a + S2x2048x21.size a ≤ S2x2048x1024.size a
  inb_S2x2048x1024_S2x2048x21_0_0_358 : ∀ a, (![0, 0, 358] : Fin 3 → Nat) a + S2x2048x21.size a ≤ S2x2048x1024.size a
  inb_S2x2048x1024_S2x2048x21_0_0_390 : ∀ a, (![0, 0, 390] : Fin 3 → Nat) a + S2x2048x21.size a ≤ S2x2048x1024.size a
  inb_S2x2048x1024_S2x2048x21_0_0_422 : ∀ a, (![0, 0, 422] : Fin 3 → Nat) a + S2x2048x21.size a ≤ S2x2048x1024.size a
  inb_S2x2048x1024_S2x2048x21_0_0_454 : ∀ a, (![0, 0, 454] : Fin 3 → Nat) a + S2x2048x21.size a ≤ S2x2048x1024.size a
  inb_S2x2048x1024_S2x2048x21_0_0_486 : ∀ a, (![0, 0, 486] : Fin 3 → Nat) a + S2x2048x21.size a ≤ S2x2048x1024.size a
  inb_S2x2048x1024_S2x2048x21_0_0_518 : ∀ a, (![0, 0, 518] : Fin 3 → Nat) a + S2x2048x21.size a ≤ S2x2048x1024.size a
  inb_S2x2048x1024_S2x2048x21_0_0_550 : ∀ a, (![0, 0, 550] : Fin 3 → Nat) a + S2x2048x21.size a ≤ S2x2048x1024.size a
  inb_S2x2048x1024_S2x2048x21_0_0_582 : ∀ a, (![0, 0, 582] : Fin 3 → Nat) a + S2x2048x21.size a ≤ S2x2048x1024.size a
  inb_S2x2048x1024_S2x2048x21_0_0_614 : ∀ a, (![0, 0, 614] : Fin 3 → Nat) a + S2x2048x21.size a ≤ S2x2048x1024.size a
  inb_S2x2048x1024_S2x2048x21_0_0_646 : ∀ a, (![0, 0, 646] : Fin 3 → Nat) a + S2x2048x21.size a ≤ S2x2048x1024.size a
  inb_S2x2048x1024_S2x2048x21_0_0_11 : ∀ a, (![0, 0, 11] : Fin 3 → Nat) a + S2x2048x21.size a ≤ S2x2048x1024.size a
  inb_S2x2048x1024_S2x2048x21_0_0_43 : ∀ a, (![0, 0, 43] : Fin 3 → Nat) a + S2x2048x21.size a ≤ S2x2048x1024.size a
  inb_S2x2048x1024_S2x2048x21_0_0_75 : ∀ a, (![0, 0, 75] : Fin 3 → Nat) a + S2x2048x21.size a ≤ S2x2048x1024.size a
  inb_S2x2048x1024_S2x2048x21_0_0_107 : ∀ a, (![0, 0, 107] : Fin 3 → Nat) a + S2x2048x21.size a ≤ S2x2048x1024.size a
  inb_S2x2048x1024_S2x2048x21_0_0_139 : ∀ a, (![0, 0, 139] : Fin 3 → Nat) a + S2x2048x21.size a ≤ S2x2048x1024.size a
  inb_S2x2048x1024_S2x2048x21_0_0_171 : ∀ a, (![0, 0, 171] : Fin 3 → Nat) a + S2x2048x21.size a ≤ S2x2048x1024.size a
  inb_S2x2048x1024_S2x2048x21_0_0_203 : ∀ a, (![0, 0, 203] : Fin 3 → Nat) a + S2x2048x21.size a ≤ S2x2048x1024.size a
  inb_S2x2048x1024_S2x2048x21_0_0_235 : ∀ a, (![0, 0, 235] : Fin 3 → Nat) a + S2x2048x21.size a ≤ S2x2048x1024.size a
  inb_S2x2048x1024_S2x2048x21_0_0_267 : ∀ a, (![0, 0, 267] : Fin 3 → Nat) a + S2x2048x21.size a ≤ S2x2048x1024.size a
  inb_S2x2048x1024_S2x2048x21_0_0_299 : ∀ a, (![0, 0, 299] : Fin 3 → Nat) a + S2x2048x21.size a ≤ S2x2048x1024.size a
  inb_S2x2048x1024_S2x2048x21_0_0_331 : ∀ a, (![0, 0, 331] : Fin 3 → Nat) a + S2x2048x21.size a ≤ S2x2048x1024.size a
  inb_S2x2048x1024_S2x2048x21_0_0_363 : ∀ a, (![0, 0, 363] : Fin 3 → Nat) a + S2x2048x21.size a ≤ S2x2048x1024.size a
  inb_S2x2048x1024_S2x2048x21_0_0_395 : ∀ a, (![0, 0, 395] : Fin 3 → Nat) a + S2x2048x21.size a ≤ S2x2048x1024.size a
  inb_S2x2048x1024_S2x2048x21_0_0_427 : ∀ a, (![0, 0, 427] : Fin 3 → Nat) a + S2x2048x21.size a ≤ S2x2048x1024.size a
  inb_S2x2048x1024_S2x2048x21_0_0_459 : ∀ a, (![0, 0, 459] : Fin 3 → Nat) a + S2x2048x21.size a ≤ S2x2048x1024.size a
  inb_S2x2048x1024_S2x2048x21_0_0_491 : ∀ a, (![0, 0, 491] : Fin 3 → Nat) a + S2x2048x21.size a ≤ S2x2048x1024.size a
  inb_S2x2048x1024_S2x2048x21_0_0_523 : ∀ a, (![0, 0, 523] : Fin 3 → Nat) a + S2x2048x21.size a ≤ S2x2048x1024.size a
  inb_S2x2048x1024_S2x2048x21_0_0_555 : ∀ a, (![0, 0, 555] : Fin 3 → Nat) a + S2x2048x21.size a ≤ S2x2048x1024.size a
  inb_S2x2048x1024_S2x2048x21_0_0_587 : ∀ a, (![0, 0, 587] : Fin 3 → Nat) a + S2x2048x21.size a ≤ S2x2048x1024.size a
  inb_S2x2048x1024_S2x2048x21_0_0_619 : ∀ a, (![0, 0, 619] : Fin 3 → Nat) a + S2x2048x21.size a ≤ S2x2048x1024.size a
  inb_S2x2048x1024_S2x2048x21_0_0_651 : ∀ a, (![0, 0, 651] : Fin 3 → Nat) a + S2x2048x21.size a ≤ S2x2048x1024.size a
  inb_S2x2048x1024_S2x2048x21_0_0_672 : ∀ a, (![0, 0, 672] : Fin 3 → Nat) a + S2x2048x21.size a ≤ S2x2048x1024.size a
  inb_S2x2048x1024_S2x2048x21_0_0_704 : ∀ a, (![0, 0, 704] : Fin 3 → Nat) a + S2x2048x21.size a ≤ S2x2048x1024.size a
  inb_S2x2048x1024_S2x2048x21_0_0_736 : ∀ a, (![0, 0, 736] : Fin 3 → Nat) a + S2x2048x21.size a ≤ S2x2048x1024.size a
  inb_S2x2048x1024_S2x2048x21_0_0_768 : ∀ a, (![0, 0, 768] : Fin 3 → Nat) a + S2x2048x21.size a ≤ S2x2048x1024.size a
  inb_S2x2048x1024_S2x2048x21_0_0_800 : ∀ a, (![0, 0, 800] : Fin 3 → Nat) a + S2x2048x21.size a ≤ S2x2048x1024.size a
  inb_S2x2048x1024_S2x2048x21_0_0_832 : ∀ a, (![0, 0, 832] : Fin 3 → Nat) a + S2x2048x21.size a ≤ S2x2048x1024.size a
  inb_S2x2048x1024_S2x2048x21_0_0_678 : ∀ a, (![0, 0, 678] : Fin 3 → Nat) a + S2x2048x21.size a ≤ S2x2048x1024.size a
  inb_S2x2048x1024_S2x2048x21_0_0_710 : ∀ a, (![0, 0, 710] : Fin 3 → Nat) a + S2x2048x21.size a ≤ S2x2048x1024.size a
  inb_S2x2048x1024_S2x2048x21_0_0_742 : ∀ a, (![0, 0, 742] : Fin 3 → Nat) a + S2x2048x21.size a ≤ S2x2048x1024.size a
  inb_S2x2048x1024_S2x2048x21_0_0_774 : ∀ a, (![0, 0, 774] : Fin 3 → Nat) a + S2x2048x21.size a ≤ S2x2048x1024.size a
  inb_S2x2048x1024_S2x2048x21_0_0_806 : ∀ a, (![0, 0, 806] : Fin 3 → Nat) a + S2x2048x21.size a ≤ S2x2048x1024.size a
  inb_S2x2048x1024_S2x2048x21_0_0_838 : ∀ a, (![0, 0, 838] : Fin 3 → Nat) a + S2x2048x21.size a ≤ S2x2048x1024.size a
  inb_S2x2048x1024_S2x2048x21_0_0_683 : ∀ a, (![0, 0, 683] : Fin 3 → Nat) a + S2x2048x21.size a ≤ S2x2048x1024.size a
  inb_S2x2048x1024_S2x2048x21_0_0_715 : ∀ a, (![0, 0, 715] : Fin 3 → Nat) a + S2x2048x21.size a ≤ S2x2048x1024.size a
  inb_S2x2048x1024_S2x2048x21_0_0_747 : ∀ a, (![0, 0, 747] : Fin 3 → Nat) a + S2x2048x21.size a ≤ S2x2048x1024.size a
  inb_S2x2048x1024_S2x2048x21_0_0_779 : ∀ a, (![0, 0, 779] : Fin 3 → Nat) a + S2x2048x21.size a ≤ S2x2048x1024.size a
  inb_S2x2048x1024_S2x2048x21_0_0_811 : ∀ a, (![0, 0, 811] : Fin 3 → Nat) a + S2x2048x21.size a ≤ S2x2048x1024.size a
  inb_S2x2048x1024_S2x2048x21_0_0_843 : ∀ a, (![0, 0, 843] : Fin 3 → Nat) a + S2x2048x21.size a ≤ S2x2048x1024.size a
  inb_S2x2048x1024_S2x2048x21_0_0_864 : ∀ a, (![0, 0, 864] : Fin 3 → Nat) a + S2x2048x21.size a ≤ S2x2048x1024.size a
  inb_S2x2048x1024_S2x2048x21_0_0_896 : ∀ a, (![0, 0, 896] : Fin 3 → Nat) a + S2x2048x21.size a ≤ S2x2048x1024.size a
  inb_S2x2048x1024_S2x2048x21_0_0_928 : ∀ a, (![0, 0, 928] : Fin 3 → Nat) a + S2x2048x21.size a ≤ S2x2048x1024.size a
  inb_S2x2048x1024_S2x2048x21_0_0_960 : ∀ a, (![0, 0, 960] : Fin 3 → Nat) a + S2x2048x21.size a ≤ S2x2048x1024.size a
  inb_S2x2048x1024_S2x2048x21_0_0_992 : ∀ a, (![0, 0, 992] : Fin 3 → Nat) a + S2x2048x21.size a ≤ S2x2048x1024.size a
  inb_S2x2048x1024_S2x2048x21_0_0_870 : ∀ a, (![0, 0, 870] : Fin 3 → Nat) a + S2x2048x21.size a ≤ S2x2048x1024.size a
  inb_S2x2048x1024_S2x2048x21_0_0_902 : ∀ a, (![0, 0, 902] : Fin 3 → Nat) a + S2x2048x21.size a ≤ S2x2048x1024.size a
  inb_S2x2048x1024_S2x2048x21_0_0_934 : ∀ a, (![0, 0, 934] : Fin 3 → Nat) a + S2x2048x21.size a ≤ S2x2048x1024.size a
  inb_S2x2048x1024_S2x2048x21_0_0_966 : ∀ a, (![0, 0, 966] : Fin 3 → Nat) a + S2x2048x21.size a ≤ S2x2048x1024.size a
  inb_S2x2048x1024_S2x2048x21_0_0_998 : ∀ a, (![0, 0, 998] : Fin 3 → Nat) a + S2x2048x21.size a ≤ S2x2048x1024.size a
  inb_S2x2048x1024_S2x2048x21_0_0_875 : ∀ a, (![0, 0, 875] : Fin 3 → Nat) a + S2x2048x21.size a ≤ S2x2048x1024.size a
  inb_S2x2048x1024_S2x2048x21_0_0_907 : ∀ a, (![0, 0, 907] : Fin 3 → Nat) a + S2x2048x21.size a ≤ S2x2048x1024.size a
  inb_S2x2048x1024_S2x2048x21_0_0_939 : ∀ a, (![0, 0, 939] : Fin 3 → Nat) a + S2x2048x21.size a ≤ S2x2048x1024.size a
  inb_S2x2048x1024_S2x2048x21_0_0_971 : ∀ a, (![0, 0, 971] : Fin 3 → Nat) a + S2x2048x21.size a ≤ S2x2048x1024.size a
  inb_S2x2048x1024_S2x2048x21_0_0_1003 : ∀ a, (![0, 0, 1003] : Fin 3 → Nat) a + S2x2048x21.size a ≤ S2x2048x1024.size a
  inb_S2x2048x1024_S2x2048x16_0_0_0 : ∀ a, (![0, 0, 0] : Fin 3 → Nat) a + S2x2048x16.size a ≤ S2x2048x1024.size a
  h_S2x2048x16 : 0 < S2x2048x16.numel
  shapeCasts_S2x2048x16_S2x2048x16 : S2x2048x16.ShapeCasts S2x2048x16
  reduces_S2x2048x16_S2x2048 : S2x2048x16.Reduces [2] S2x2048
  inb_S2x2048x1024_S2x2048x16_0_0_32 : ∀ a, (![0, 0, 32] : Fin 3 → Nat) a + S2x2048x16.size a ≤ S2x2048x1024.size a
  inb_S2x2048x1024_S2x2048x16_0_0_64 : ∀ a, (![0, 0, 64] : Fin 3 → Nat) a + S2x2048x16.size a ≤ S2x2048x1024.size a
  inb_S2x2048x1024_S2x2048x16_0_0_96 : ∀ a, (![0, 0, 96] : Fin 3 → Nat) a + S2x2048x16.size a ≤ S2x2048x1024.size a
  inb_S2x2048x1024_S2x2048x16_0_0_128 : ∀ a, (![0, 0, 128] : Fin 3 → Nat) a + S2x2048x16.size a ≤ S2x2048x1024.size a
  inb_S2x2048x1024_S2x2048x16_0_0_160 : ∀ a, (![0, 0, 160] : Fin 3 → Nat) a + S2x2048x16.size a ≤ S2x2048x1024.size a
  inb_S2x2048x1024_S2x2048x16_0_0_192 : ∀ a, (![0, 0, 192] : Fin 3 → Nat) a + S2x2048x16.size a ≤ S2x2048x1024.size a
  inb_S2x2048x1024_S2x2048x16_0_0_224 : ∀ a, (![0, 0, 224] : Fin 3 → Nat) a + S2x2048x16.size a ≤ S2x2048x1024.size a
  inb_S2x2048x1024_S2x2048x16_0_0_256 : ∀ a, (![0, 0, 256] : Fin 3 → Nat) a + S2x2048x16.size a ≤ S2x2048x1024.size a
  inb_S2x2048x1024_S2x2048x16_0_0_288 : ∀ a, (![0, 0, 288] : Fin 3 → Nat) a + S2x2048x16.size a ≤ S2x2048x1024.size a
  inb_S2x2048x1024_S2x2048x16_0_0_320 : ∀ a, (![0, 0, 320] : Fin 3 → Nat) a + S2x2048x16.size a ≤ S2x2048x1024.size a
  inb_S2x2048x1024_S2x2048x16_0_0_352 : ∀ a, (![0, 0, 352] : Fin 3 → Nat) a + S2x2048x16.size a ≤ S2x2048x1024.size a
  inb_S2x2048x1024_S2x2048x16_0_0_384 : ∀ a, (![0, 0, 384] : Fin 3 → Nat) a + S2x2048x16.size a ≤ S2x2048x1024.size a
  inb_S2x2048x1024_S2x2048x16_0_0_416 : ∀ a, (![0, 0, 416] : Fin 3 → Nat) a + S2x2048x16.size a ≤ S2x2048x1024.size a
  inb_S2x2048x1024_S2x2048x16_0_0_448 : ∀ a, (![0, 0, 448] : Fin 3 → Nat) a + S2x2048x16.size a ≤ S2x2048x1024.size a
  inb_S2x2048x1024_S2x2048x16_0_0_480 : ∀ a, (![0, 0, 480] : Fin 3 → Nat) a + S2x2048x16.size a ≤ S2x2048x1024.size a
  inb_S2x2048x1024_S2x2048x16_0_0_5 : ∀ a, (![0, 0, 5] : Fin 3 → Nat) a + S2x2048x16.size a ≤ S2x2048x1024.size a
  inb_S2x2048x1024_S2x2048x16_0_0_37 : ∀ a, (![0, 0, 37] : Fin 3 → Nat) a + S2x2048x16.size a ≤ S2x2048x1024.size a
  inb_S2x2048x1024_S2x2048x16_0_0_69 : ∀ a, (![0, 0, 69] : Fin 3 → Nat) a + S2x2048x16.size a ≤ S2x2048x1024.size a
  inb_S2x2048x1024_S2x2048x16_0_0_101 : ∀ a, (![0, 0, 101] : Fin 3 → Nat) a + S2x2048x16.size a ≤ S2x2048x1024.size a
  inb_S2x2048x1024_S2x2048x16_0_0_133 : ∀ a, (![0, 0, 133] : Fin 3 → Nat) a + S2x2048x16.size a ≤ S2x2048x1024.size a
  inb_S2x2048x1024_S2x2048x16_0_0_165 : ∀ a, (![0, 0, 165] : Fin 3 → Nat) a + S2x2048x16.size a ≤ S2x2048x1024.size a
  inb_S2x2048x1024_S2x2048x16_0_0_197 : ∀ a, (![0, 0, 197] : Fin 3 → Nat) a + S2x2048x16.size a ≤ S2x2048x1024.size a
  inb_S2x2048x1024_S2x2048x16_0_0_229 : ∀ a, (![0, 0, 229] : Fin 3 → Nat) a + S2x2048x16.size a ≤ S2x2048x1024.size a
  inb_S2x2048x1024_S2x2048x16_0_0_261 : ∀ a, (![0, 0, 261] : Fin 3 → Nat) a + S2x2048x16.size a ≤ S2x2048x1024.size a
  inb_S2x2048x1024_S2x2048x16_0_0_293 : ∀ a, (![0, 0, 293] : Fin 3 → Nat) a + S2x2048x16.size a ≤ S2x2048x1024.size a
  inb_S2x2048x1024_S2x2048x16_0_0_325 : ∀ a, (![0, 0, 325] : Fin 3 → Nat) a + S2x2048x16.size a ≤ S2x2048x1024.size a
  inb_S2x2048x1024_S2x2048x16_0_0_357 : ∀ a, (![0, 0, 357] : Fin 3 → Nat) a + S2x2048x16.size a ≤ S2x2048x1024.size a
  inb_S2x2048x1024_S2x2048x16_0_0_389 : ∀ a, (![0, 0, 389] : Fin 3 → Nat) a + S2x2048x16.size a ≤ S2x2048x1024.size a
  inb_S2x2048x1024_S2x2048x16_0_0_421 : ∀ a, (![0, 0, 421] : Fin 3 → Nat) a + S2x2048x16.size a ≤ S2x2048x1024.size a
  inb_S2x2048x1024_S2x2048x16_0_0_453 : ∀ a, (![0, 0, 453] : Fin 3 → Nat) a + S2x2048x16.size a ≤ S2x2048x1024.size a
  inb_S2x2048x1024_S2x2048x16_0_0_485 : ∀ a, (![0, 0, 485] : Fin 3 → Nat) a + S2x2048x16.size a ≤ S2x2048x1024.size a
  inb_S2x2048x1024_S2x2048x16_0_0_11 : ∀ a, (![0, 0, 11] : Fin 3 → Nat) a + S2x2048x16.size a ≤ S2x2048x1024.size a
  inb_S2x2048x1024_S2x2048x16_0_0_43 : ∀ a, (![0, 0, 43] : Fin 3 → Nat) a + S2x2048x16.size a ≤ S2x2048x1024.size a
  inb_S2x2048x1024_S2x2048x16_0_0_75 : ∀ a, (![0, 0, 75] : Fin 3 → Nat) a + S2x2048x16.size a ≤ S2x2048x1024.size a
  inb_S2x2048x1024_S2x2048x16_0_0_107 : ∀ a, (![0, 0, 107] : Fin 3 → Nat) a + S2x2048x16.size a ≤ S2x2048x1024.size a
  inb_S2x2048x1024_S2x2048x16_0_0_139 : ∀ a, (![0, 0, 139] : Fin 3 → Nat) a + S2x2048x16.size a ≤ S2x2048x1024.size a
  inb_S2x2048x1024_S2x2048x16_0_0_171 : ∀ a, (![0, 0, 171] : Fin 3 → Nat) a + S2x2048x16.size a ≤ S2x2048x1024.size a
  inb_S2x2048x1024_S2x2048x16_0_0_203 : ∀ a, (![0, 0, 203] : Fin 3 → Nat) a + S2x2048x16.size a ≤ S2x2048x1024.size a
  inb_S2x2048x1024_S2x2048x16_0_0_235 : ∀ a, (![0, 0, 235] : Fin 3 → Nat) a + S2x2048x16.size a ≤ S2x2048x1024.size a
  inb_S2x2048x1024_S2x2048x16_0_0_267 : ∀ a, (![0, 0, 267] : Fin 3 → Nat) a + S2x2048x16.size a ≤ S2x2048x1024.size a
  inb_S2x2048x1024_S2x2048x16_0_0_299 : ∀ a, (![0, 0, 299] : Fin 3 → Nat) a + S2x2048x16.size a ≤ S2x2048x1024.size a
  inb_S2x2048x1024_S2x2048x16_0_0_331 : ∀ a, (![0, 0, 331] : Fin 3 → Nat) a + S2x2048x16.size a ≤ S2x2048x1024.size a
  inb_S2x2048x1024_S2x2048x16_0_0_363 : ∀ a, (![0, 0, 363] : Fin 3 → Nat) a + S2x2048x16.size a ≤ S2x2048x1024.size a
  inb_S2x2048x1024_S2x2048x16_0_0_395 : ∀ a, (![0, 0, 395] : Fin 3 → Nat) a + S2x2048x16.size a ≤ S2x2048x1024.size a
  inb_S2x2048x1024_S2x2048x16_0_0_427 : ∀ a, (![0, 0, 427] : Fin 3 → Nat) a + S2x2048x16.size a ≤ S2x2048x1024.size a
  inb_S2x2048x1024_S2x2048x16_0_0_459 : ∀ a, (![0, 0, 459] : Fin 3 → Nat) a + S2x2048x16.size a ≤ S2x2048x1024.size a
  inb_S2x2048x1024_S2x2048x16_0_0_491 : ∀ a, (![0, 0, 491] : Fin 3 → Nat) a + S2x2048x16.size a ≤ S2x2048x1024.size a
  inb_S2x2048x1024_S2x2048x16_0_0_16 : ∀ a, (![0, 0, 16] : Fin 3 → Nat) a + S2x2048x16.size a ≤ S2x2048x1024.size a
  inb_S2x2048x1024_S2x2048x16_0_0_48 : ∀ a, (![0, 0, 48] : Fin 3 → Nat) a + S2x2048x16.size a ≤ S2x2048x1024.size a
  inb_S2x2048x1024_S2x2048x16_0_0_80 : ∀ a, (![0, 0, 80] : Fin 3 → Nat) a + S2x2048x16.size a ≤ S2x2048x1024.size a
  inb_S2x2048x1024_S2x2048x16_0_0_112 : ∀ a, (![0, 0, 112] : Fin 3 → Nat) a + S2x2048x16.size a ≤ S2x2048x1024.size a
  inb_S2x2048x1024_S2x2048x16_0_0_144 : ∀ a, (![0, 0, 144] : Fin 3 → Nat) a + S2x2048x16.size a ≤ S2x2048x1024.size a
  inb_S2x2048x1024_S2x2048x16_0_0_176 : ∀ a, (![0, 0, 176] : Fin 3 → Nat) a + S2x2048x16.size a ≤ S2x2048x1024.size a
  inb_S2x2048x1024_S2x2048x16_0_0_208 : ∀ a, (![0, 0, 208] : Fin 3 → Nat) a + S2x2048x16.size a ≤ S2x2048x1024.size a
  inb_S2x2048x1024_S2x2048x16_0_0_240 : ∀ a, (![0, 0, 240] : Fin 3 → Nat) a + S2x2048x16.size a ≤ S2x2048x1024.size a
  inb_S2x2048x1024_S2x2048x16_0_0_272 : ∀ a, (![0, 0, 272] : Fin 3 → Nat) a + S2x2048x16.size a ≤ S2x2048x1024.size a
  inb_S2x2048x1024_S2x2048x16_0_0_304 : ∀ a, (![0, 0, 304] : Fin 3 → Nat) a + S2x2048x16.size a ≤ S2x2048x1024.size a
  inb_S2x2048x1024_S2x2048x16_0_0_336 : ∀ a, (![0, 0, 336] : Fin 3 → Nat) a + S2x2048x16.size a ≤ S2x2048x1024.size a
  inb_S2x2048x1024_S2x2048x16_0_0_368 : ∀ a, (![0, 0, 368] : Fin 3 → Nat) a + S2x2048x16.size a ≤ S2x2048x1024.size a
  inb_S2x2048x1024_S2x2048x16_0_0_400 : ∀ a, (![0, 0, 400] : Fin 3 → Nat) a + S2x2048x16.size a ≤ S2x2048x1024.size a
  inb_S2x2048x1024_S2x2048x16_0_0_432 : ∀ a, (![0, 0, 432] : Fin 3 → Nat) a + S2x2048x16.size a ≤ S2x2048x1024.size a
  inb_S2x2048x1024_S2x2048x16_0_0_464 : ∀ a, (![0, 0, 464] : Fin 3 → Nat) a + S2x2048x16.size a ≤ S2x2048x1024.size a
  inb_S2x2048x1024_S2x2048x16_0_0_496 : ∀ a, (![0, 0, 496] : Fin 3 → Nat) a + S2x2048x16.size a ≤ S2x2048x1024.size a
  inb_S2x2048x1024_S2x2048x16_0_0_512 : ∀ a, (![0, 0, 512] : Fin 3 → Nat) a + S2x2048x16.size a ≤ S2x2048x1024.size a
  inb_S2x2048x1024_S2x2048x16_0_0_544 : ∀ a, (![0, 0, 544] : Fin 3 → Nat) a + S2x2048x16.size a ≤ S2x2048x1024.size a
  inb_S2x2048x1024_S2x2048x16_0_0_576 : ∀ a, (![0, 0, 576] : Fin 3 → Nat) a + S2x2048x16.size a ≤ S2x2048x1024.size a
  inb_S2x2048x1024_S2x2048x16_0_0_608 : ∀ a, (![0, 0, 608] : Fin 3 → Nat) a + S2x2048x16.size a ≤ S2x2048x1024.size a
  inb_S2x2048x1024_S2x2048x16_0_0_640 : ∀ a, (![0, 0, 640] : Fin 3 → Nat) a + S2x2048x16.size a ≤ S2x2048x1024.size a
  inb_S2x2048x1024_S2x2048x16_0_0_517 : ∀ a, (![0, 0, 517] : Fin 3 → Nat) a + S2x2048x16.size a ≤ S2x2048x1024.size a
  inb_S2x2048x1024_S2x2048x16_0_0_549 : ∀ a, (![0, 0, 549] : Fin 3 → Nat) a + S2x2048x16.size a ≤ S2x2048x1024.size a
  inb_S2x2048x1024_S2x2048x16_0_0_581 : ∀ a, (![0, 0, 581] : Fin 3 → Nat) a + S2x2048x16.size a ≤ S2x2048x1024.size a
  inb_S2x2048x1024_S2x2048x16_0_0_613 : ∀ a, (![0, 0, 613] : Fin 3 → Nat) a + S2x2048x16.size a ≤ S2x2048x1024.size a
  inb_S2x2048x1024_S2x2048x16_0_0_645 : ∀ a, (![0, 0, 645] : Fin 3 → Nat) a + S2x2048x16.size a ≤ S2x2048x1024.size a
  inb_S2x2048x1024_S2x2048x16_0_0_523 : ∀ a, (![0, 0, 523] : Fin 3 → Nat) a + S2x2048x16.size a ≤ S2x2048x1024.size a
  inb_S2x2048x1024_S2x2048x16_0_0_555 : ∀ a, (![0, 0, 555] : Fin 3 → Nat) a + S2x2048x16.size a ≤ S2x2048x1024.size a
  inb_S2x2048x1024_S2x2048x16_0_0_587 : ∀ a, (![0, 0, 587] : Fin 3 → Nat) a + S2x2048x16.size a ≤ S2x2048x1024.size a
  inb_S2x2048x1024_S2x2048x16_0_0_619 : ∀ a, (![0, 0, 619] : Fin 3 → Nat) a + S2x2048x16.size a ≤ S2x2048x1024.size a
  inb_S2x2048x1024_S2x2048x16_0_0_651 : ∀ a, (![0, 0, 651] : Fin 3 → Nat) a + S2x2048x16.size a ≤ S2x2048x1024.size a
  inb_S2x2048x1024_S2x2048x16_0_0_528 : ∀ a, (![0, 0, 528] : Fin 3 → Nat) a + S2x2048x16.size a ≤ S2x2048x1024.size a
  inb_S2x2048x1024_S2x2048x16_0_0_560 : ∀ a, (![0, 0, 560] : Fin 3 → Nat) a + S2x2048x16.size a ≤ S2x2048x1024.size a
  inb_S2x2048x1024_S2x2048x16_0_0_592 : ∀ a, (![0, 0, 592] : Fin 3 → Nat) a + S2x2048x16.size a ≤ S2x2048x1024.size a
  inb_S2x2048x1024_S2x2048x16_0_0_624 : ∀ a, (![0, 0, 624] : Fin 3 → Nat) a + S2x2048x16.size a ≤ S2x2048x1024.size a
  inb_S2x2048x1024_S2x2048x16_0_0_656 : ∀ a, (![0, 0, 656] : Fin 3 → Nat) a + S2x2048x16.size a ≤ S2x2048x1024.size a
  inb_S2x2048x1024_S2x2048x16_0_0_672 : ∀ a, (![0, 0, 672] : Fin 3 → Nat) a + S2x2048x16.size a ≤ S2x2048x1024.size a
  inb_S2x2048x1024_S2x2048x16_0_0_704 : ∀ a, (![0, 0, 704] : Fin 3 → Nat) a + S2x2048x16.size a ≤ S2x2048x1024.size a
  inb_S2x2048x1024_S2x2048x16_0_0_736 : ∀ a, (![0, 0, 736] : Fin 3 → Nat) a + S2x2048x16.size a ≤ S2x2048x1024.size a
  inb_S2x2048x1024_S2x2048x16_0_0_768 : ∀ a, (![0, 0, 768] : Fin 3 → Nat) a + S2x2048x16.size a ≤ S2x2048x1024.size a
  inb_S2x2048x1024_S2x2048x16_0_0_800 : ∀ a, (![0, 0, 800] : Fin 3 → Nat) a + S2x2048x16.size a ≤ S2x2048x1024.size a
  inb_S2x2048x1024_S2x2048x16_0_0_832 : ∀ a, (![0, 0, 832] : Fin 3 → Nat) a + S2x2048x16.size a ≤ S2x2048x1024.size a
  inb_S2x2048x1024_S2x2048x16_0_0_677 : ∀ a, (![0, 0, 677] : Fin 3 → Nat) a + S2x2048x16.size a ≤ S2x2048x1024.size a
  inb_S2x2048x1024_S2x2048x16_0_0_709 : ∀ a, (![0, 0, 709] : Fin 3 → Nat) a + S2x2048x16.size a ≤ S2x2048x1024.size a
  inb_S2x2048x1024_S2x2048x16_0_0_741 : ∀ a, (![0, 0, 741] : Fin 3 → Nat) a + S2x2048x16.size a ≤ S2x2048x1024.size a
  inb_S2x2048x1024_S2x2048x16_0_0_773 : ∀ a, (![0, 0, 773] : Fin 3 → Nat) a + S2x2048x16.size a ≤ S2x2048x1024.size a
  inb_S2x2048x1024_S2x2048x16_0_0_805 : ∀ a, (![0, 0, 805] : Fin 3 → Nat) a + S2x2048x16.size a ≤ S2x2048x1024.size a
  inb_S2x2048x1024_S2x2048x16_0_0_837 : ∀ a, (![0, 0, 837] : Fin 3 → Nat) a + S2x2048x16.size a ≤ S2x2048x1024.size a
  inb_S2x2048x1024_S2x2048x16_0_0_683 : ∀ a, (![0, 0, 683] : Fin 3 → Nat) a + S2x2048x16.size a ≤ S2x2048x1024.size a
  inb_S2x2048x1024_S2x2048x16_0_0_715 : ∀ a, (![0, 0, 715] : Fin 3 → Nat) a + S2x2048x16.size a ≤ S2x2048x1024.size a
  inb_S2x2048x1024_S2x2048x16_0_0_747 : ∀ a, (![0, 0, 747] : Fin 3 → Nat) a + S2x2048x16.size a ≤ S2x2048x1024.size a
  inb_S2x2048x1024_S2x2048x16_0_0_779 : ∀ a, (![0, 0, 779] : Fin 3 → Nat) a + S2x2048x16.size a ≤ S2x2048x1024.size a
  inb_S2x2048x1024_S2x2048x16_0_0_811 : ∀ a, (![0, 0, 811] : Fin 3 → Nat) a + S2x2048x16.size a ≤ S2x2048x1024.size a
  inb_S2x2048x1024_S2x2048x16_0_0_843 : ∀ a, (![0, 0, 843] : Fin 3 → Nat) a + S2x2048x16.size a ≤ S2x2048x1024.size a
  inb_S2x2048x1024_S2x2048x16_0_0_688 : ∀ a, (![0, 0, 688] : Fin 3 → Nat) a + S2x2048x16.size a ≤ S2x2048x1024.size a
  inb_S2x2048x1024_S2x2048x16_0_0_720 : ∀ a, (![0, 0, 720] : Fin 3 → Nat) a + S2x2048x16.size a ≤ S2x2048x1024.size a
  inb_S2x2048x1024_S2x2048x16_0_0_752 : ∀ a, (![0, 0, 752] : Fin 3 → Nat) a + S2x2048x16.size a ≤ S2x2048x1024.size a
  inb_S2x2048x1024_S2x2048x16_0_0_784 : ∀ a, (![0, 0, 784] : Fin 3 → Nat) a + S2x2048x16.size a ≤ S2x2048x1024.size a
  inb_S2x2048x1024_S2x2048x16_0_0_816 : ∀ a, (![0, 0, 816] : Fin 3 → Nat) a + S2x2048x16.size a ≤ S2x2048x1024.size a
  inb_S2x2048x1024_S2x2048x16_0_0_848 : ∀ a, (![0, 0, 848] : Fin 3 → Nat) a + S2x2048x16.size a ≤ S2x2048x1024.size a
  inb_S2x2048x1024_S2x2048x16_0_0_864 : ∀ a, (![0, 0, 864] : Fin 3 → Nat) a + S2x2048x16.size a ≤ S2x2048x1024.size a
  inb_S2x2048x1024_S2x2048x16_0_0_896 : ∀ a, (![0, 0, 896] : Fin 3 → Nat) a + S2x2048x16.size a ≤ S2x2048x1024.size a
  inb_S2x2048x1024_S2x2048x16_0_0_928 : ∀ a, (![0, 0, 928] : Fin 3 → Nat) a + S2x2048x16.size a ≤ S2x2048x1024.size a
  inb_S2x2048x1024_S2x2048x16_0_0_960 : ∀ a, (![0, 0, 960] : Fin 3 → Nat) a + S2x2048x16.size a ≤ S2x2048x1024.size a
  inb_S2x2048x1024_S2x2048x16_0_0_992 : ∀ a, (![0, 0, 992] : Fin 3 → Nat) a + S2x2048x16.size a ≤ S2x2048x1024.size a
  inb_S2x2048x1024_S2x2048x16_0_0_869 : ∀ a, (![0, 0, 869] : Fin 3 → Nat) a + S2x2048x16.size a ≤ S2x2048x1024.size a
  inb_S2x2048x1024_S2x2048x16_0_0_901 : ∀ a, (![0, 0, 901] : Fin 3 → Nat) a + S2x2048x16.size a ≤ S2x2048x1024.size a
  inb_S2x2048x1024_S2x2048x16_0_0_933 : ∀ a, (![0, 0, 933] : Fin 3 → Nat) a + S2x2048x16.size a ≤ S2x2048x1024.size a
  inb_S2x2048x1024_S2x2048x16_0_0_965 : ∀ a, (![0, 0, 965] : Fin 3 → Nat) a + S2x2048x16.size a ≤ S2x2048x1024.size a
  inb_S2x2048x1024_S2x2048x16_0_0_997 : ∀ a, (![0, 0, 997] : Fin 3 → Nat) a + S2x2048x16.size a ≤ S2x2048x1024.size a
  inb_S2x2048x1024_S2x2048x16_0_0_875 : ∀ a, (![0, 0, 875] : Fin 3 → Nat) a + S2x2048x16.size a ≤ S2x2048x1024.size a
  inb_S2x2048x1024_S2x2048x16_0_0_907 : ∀ a, (![0, 0, 907] : Fin 3 → Nat) a + S2x2048x16.size a ≤ S2x2048x1024.size a
  inb_S2x2048x1024_S2x2048x16_0_0_939 : ∀ a, (![0, 0, 939] : Fin 3 → Nat) a + S2x2048x16.size a ≤ S2x2048x1024.size a
  inb_S2x2048x1024_S2x2048x16_0_0_971 : ∀ a, (![0, 0, 971] : Fin 3 → Nat) a + S2x2048x16.size a ≤ S2x2048x1024.size a
  inb_S2x2048x1024_S2x2048x16_0_0_1003 : ∀ a, (![0, 0, 1003] : Fin 3 → Nat) a + S2x2048x16.size a ≤ S2x2048x1024.size a
  inb_S2x2048x1024_S2x2048x16_0_0_880 : ∀ a, (![0, 0, 880] : Fin 3 → Nat) a + S2x2048x16.size a ≤ S2x2048x1024.size a
  inb_S2x2048x1024_S2x2048x16_0_0_912 : ∀ a, (![0, 0, 912] : Fin 3 → Nat) a + S2x2048x16.size a ≤ S2x2048x1024.size a
  inb_S2x2048x1024_S2x2048x16_0_0_944 : ∀ a, (![0, 0, 944] : Fin 3 → Nat) a + S2x2048x16.size a ≤ S2x2048x1024.size a
  inb_S2x2048x1024_S2x2048x16_0_0_976 : ∀ a, (![0, 0, 976] : Fin 3 → Nat) a + S2x2048x16.size a ≤ S2x2048x1024.size a
  inb_S2x2048x1024_S2x2048x16_0_0_1008 : ∀ a, (![0, 0, 1008] : Fin 3 → Nat) a + S2x2048x16.size a ≤ S2x2048x1024.size a
  shapeCasts_S2x2048_S2x2048x1 : S2x2048.ShapeCasts S2x2048x1
  inb_S2x2048x1_S2x2048x1_0_0_0 : ∀ a, (![0, 0, 0] : Fin 3 → Nat) a + S2x2048x1.size a ≤ S2x2048x1.size a
  h_S2x2048x1 : 0 < S2x2048x1.numel
  shapeCasts_S32x2048x1_S32x2048 : S32x2048x1.ShapeCasts S32x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x1024.size a ≤ S32x2048x1024.size a
  hwx0_0 : ∀ i : grid0.Coords, EltTy.bits .f32 = 32 ∨ (Rect.block (s := S32x2048x1024) S2x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x1.size a ≤ S32x2048x1.size a
  hwx0_1 : ∀ i : grid0.Coords, EltTy.bits .f32 = 32 ∨ (Rect.block (s := S32x2048x1) S2x2048x1.size (cc0_transform_1 i) (hinb0_1 i)).WholeWords (EltTy.packing .f32)

variable [Facts₀]

abbrev win0_0 : Pipeline.Window sig grid0 :=
  Pipeline.Window.ofSpec (Memref.whole main_v0) S2x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x32x32 : Shape := ⟨4, ![32, 2048, 32, 32]⟩
abbrev S_ : Shape := ⟨0, ![]⟩
abbrev S32x2048 : Shape := ⟨2, ![32, 2048]⟩
abbrev S32 : Shape := ⟨1, ![32]⟩
abbrev S32x1 : Shape := ⟨2, ![32, 1]⟩
abbrev S32x2048x21x21 : Shape := ⟨4, ![32, 2048, 21, 21]⟩
abbrev S32x2048x16x16 : Shape := ⟨4, ![32, 2048, 16, 16]⟩

abbrev nBuf : Space → Nat
  | .hbm => 415
  | .vmem => 0
  | .smem => 0
  | _ => 0

abbrev hbmTy0_0 (i : Nat) : BufTy := match i % 128 with
  | 0 => ⟨S32x2048x32x32, .f32⟩
  | 1 => ⟨S_, .f32⟩
  | 2 => ⟨S32x2048, .f32⟩
  | 3 => ⟨S_, .f32⟩
  | 4 => ⟨S32x2048, .f32⟩
  | 5 => ⟨S32x2048, .f32⟩
  | 6 => ⟨S_, .f32⟩
  | 7 => ⟨S32, .f32⟩
  | 8 => ⟨S32x1, .f32⟩
  | 9 => ⟨S32x1, .f32⟩
  | 10 => ⟨S_, .f32⟩
  | 11 => ⟨S32x1, .f32⟩
  | 12 => ⟨S32x1, .f32⟩
  | 13 => ⟨S32x2048, .f32⟩
  | 14 => ⟨S32x2048, .f32⟩
  | 15 => ⟨S32x2048, .f32⟩
  | 16 => ⟨S_, .f32⟩
  | 17 => ⟨S32x2048, .f32⟩
  | 18 => ⟨S32x2048, .f32⟩
  | 19 => ⟨S_, .f32⟩
  | 20 => ⟨S32, .f32⟩
  | 21 => ⟨S32x1, .f32⟩
  | 22 => ⟨S32x1, .f32⟩
  | 23 => ⟨S_, .f32⟩
  | 24 => ⟨S32x1, .f32⟩
  | 25 => ⟨S32x1, .f32⟩
  | 26 => ⟨S32x2048, .f32⟩
  | 27 => ⟨S32x2048, .f32⟩
  | 28 => ⟨S32x2048, .f32⟩
  | 29 => ⟨S_, .f32⟩
  | 30 => ⟨S32x2048, .f32⟩
  | 31 => ⟨S32x2048, .f32⟩
  | 32 => ⟨S_, .f32⟩
  | 33 => ⟨S32, .f32⟩
  | 34 => ⟨S32x1, .f32⟩
  | 35 => ⟨S32x1, .f32⟩
  | 36 => ⟨S_, .f32⟩
  | 37 => ⟨S32x1, .f32⟩
  | 38 => ⟨S32x1, .f32⟩
  | 39 => ⟨S32x2048, .f32⟩
  | 40 => ⟨S32x2048, .f32⟩
  | 41 => ⟨S32x2048, .f32⟩
  | 42 => ⟨S_, .f32⟩
  | 43 => ⟨S32x2048, .f32⟩
  | 44 => ⟨S32x2048, .f32⟩
  | 45 => ⟨S_, .f32⟩
  | 46 => ⟨S32, .f32⟩
  | 47 => ⟨S32x1, .f32⟩
  | 48 => ⟨S32x1, .f32⟩
  | 49 => ⟨S_, .f32⟩
  | 50 => ⟨S32x1, .f32⟩
  | 51 => ⟨S32x1, .f32⟩
  | 52 => ⟨S32x2048, .f32⟩
  | 53 => ⟨S32x2048, .f32⟩
  | 54 => ⟨S32x2048, .f32⟩
  | 55 => ⟨S32x2048x21x21, .f32⟩
  | 56 => ⟨S_, .f32⟩
  | 57 => ⟨S32x2048, .f32⟩
  | 58 => ⟨S32x2048, .f32⟩
  | 59 => ⟨S_, .f32⟩
  | 60 => ⟨S32, .f32⟩
  | 61 => ⟨S32x1, .f32⟩
  | 62 => ⟨S32x1, .f32⟩
  | 63 => ⟨S_, .f32⟩
  | 64 => ⟨S32x1, .f32⟩
  | 65 => ⟨S32x1, .f32⟩
  | 66 => ⟨S32x2048, .f32⟩
  | 67 => ⟨S32x2048, .f32⟩
  | 68 => ⟨S32x2048, .f32⟩
  | 69 => ⟨S32x2048x21x21, .f32⟩
  | 70 => ⟨S_, .f32⟩
  | 71 => ⟨S32x2048, .f32⟩
  | 72 => ⟨S32x2048, .f32⟩
  | 73 => ⟨S_, .f32⟩
  | 74 => ⟨S32, .f32⟩
  | 75 => ⟨S32x1, .f32⟩
  | 76 => ⟨S32x1, .f32⟩
  | 77 => ⟨S_, .f32⟩
  | 78 => ⟨S32x1, .f32⟩
  | 79 => ⟨S32x1, .f32⟩
  | 80 => ⟨S32x2048, .f32⟩
  | 81 => ⟨S32x2048, .f32⟩
  | 82 => ⟨S32x2048, .f32⟩
  | 83 => ⟨S32x2048x21x21, .f32⟩
  | 84 => ⟨S_, .f32⟩
  | 85 => ⟨S32x2048, .f32⟩
  | 86 => ⟨S32x2048, .f32⟩
  | 87 => ⟨S_, .f32⟩
  | 88 => ⟨S32, .f32⟩
  | 89 => ⟨S32x1, .f32⟩
  | 90 => ⟨S32x1, .f32⟩
  | 91 => ⟨S_, .f32⟩
  | 92 => ⟨S32x1, .f32⟩
  | 93 => ⟨S32x1, .f32⟩
  | 94 => ⟨S32x2048, .f32⟩
  | 95 => ⟨S32x2048, .f32⟩
  | 96 => ⟨S32x2048, .f32⟩
  | 97 => ⟨S32x2048x21x21, .f32⟩
  | 98 => ⟨S_, .f32⟩
  | 99 => ⟨S32x2048, .f32⟩
  | 100 => ⟨S32x2048, .f32⟩
  | 101 => ⟨S_, .f32⟩
  | 102 => ⟨S32, .f32⟩
  | 103 => ⟨S32x1, .f32⟩
  | 104 => ⟨S32x1, .f32⟩
  | 105 => ⟨S_, .f32⟩
  | 106 => ⟨S32x1, .f32⟩
  | 107 => ⟨S32x1, .f32⟩
  | 108 => ⟨S32x2048, .f32⟩
  | 109 => ⟨S32x2048, .f32⟩
  | 110 => ⟨S32x2048, .f32⟩
  | 111 => ⟨S32x2048x21x21, .f32⟩
  | 112 => ⟨S_, .f32⟩
  | 113 => ⟨S32x2048, .f32⟩
  | 114 => ⟨S32x2048, .f32⟩
  | 115 => ⟨S_, .f32⟩
  | 116 => ⟨S32, .f32⟩
  | 117 => ⟨S32x1, .f32⟩
  | 118 => ⟨S32x1, .f32⟩
  | 119 => ⟨S_, .f32⟩
  | 120 => ⟨S32x1, .f32⟩
  | 121 => ⟨S32x1, .f32⟩
  | 122 => ⟨S32x2048, .f32⟩
  | 123 => ⟨S32x2048, .f32⟩
  | 124 => ⟨S32x2048, .f32⟩
  | 125 => ⟨S32x2048x21x21, .f32⟩
  | 126 => ⟨S_, .f32⟩
  | 127 => ⟨S32x2048, .f32⟩
  | _ => ⟨S32x2048x32x32, .f32⟩

abbrev hbmTy0_1 (i : Nat) : BufTy := match i % 128 with
  | 0 => ⟨S32x2048, .f32⟩
  | 1 => ⟨S_, .f32⟩
  | 2 => ⟨S32, .f32⟩
  | 3 => ⟨S32x1, .f32⟩
  | 4 => ⟨S32x1, .f32⟩
  | 5 => ⟨S_, .f32⟩
  | 6 => ⟨S32x1, .f32⟩
  | 7 => ⟨S32x1, .f32⟩
  | 8 => ⟨S32x2048, .f32⟩
  | 9 => ⟨S32x2048, .f32⟩
  | 10 => ⟨S32x2048, .f32⟩
  | 11 => ⟨S32x2048x21x21, .f32⟩
  | 12 => ⟨S_, .f32⟩
  | 13 => ⟨S32x2048, .f32⟩
  | 14 => ⟨S32x2048, .f32⟩
  | 15 => ⟨S_, .f32⟩
  | 16 => ⟨S32, .f32⟩
  | 17 => ⟨S32x1, .f32⟩
  | 18 => ⟨S32x1, .f32⟩
  | 19 => ⟨S_, .f32⟩
  | 20 => ⟨S32x1, .f32⟩
  | 21 => ⟨S32x1, .f32⟩
  | 22 => ⟨S32x2048, .f32⟩
  | 23 => ⟨S32x2048, .f32⟩
  | 24 => ⟨S32x2048, .f32⟩
  | 25 => ⟨S32x2048x21x21, .f32⟩
  | 26 => ⟨S_, .f32⟩
  | 27 => ⟨S32x2048, .f32⟩
  | 28 => ⟨S32x2048, .f32⟩
  | 29 => ⟨S_, .f32⟩
  | 30 => ⟨S32, .f32⟩
  | 31 => ⟨S32x1, .f32⟩
  | 32 => ⟨S32x1, .f32⟩
  | 33 => ⟨S_, .f32⟩
  | 34 => ⟨S32x1, .f32⟩
  | 35 => ⟨S32x1, .f32⟩
  | 36 => ⟨S32x2048, .f32⟩
  | 37 => ⟨S32x2048, .f32⟩
  | 38 => ⟨S32x2048, .f32⟩
  | 39 => ⟨S32x2048x21x21, .f32⟩
  | 40 => ⟨S_, .f32⟩
  | 41 => ⟨S32x2048, .f32⟩
  | 42 => ⟨S32x2048, .f32⟩
  | 43 => ⟨S_, .f32⟩
  | 44 => ⟨S32, .f32⟩
  | 45 => ⟨S32x1, .f32⟩
  | 46 => ⟨S32x1, .f32⟩
  | 47 => ⟨S_, .f32⟩
  | 48 => ⟨S32x1, .f32⟩
  | 49 => ⟨S32x1, .f32⟩
  | 50 => ⟨S32x2048, .f32⟩
  | 51 => ⟨S32x2048, .f32⟩
  | 52 => ⟨S32x2048, .f32⟩
  | 53 => ⟨S32x2048x16x16, .f32⟩
  | 54 => ⟨S_, .f32⟩
  | 55 => ⟨S32x2048, .f32⟩
  | 56 => ⟨S32x2048, .f32⟩
  | 57 => ⟨S_, .f32⟩
  | 58 => ⟨S32, .f32⟩
  | 59 => ⟨S32x1, .f32⟩
  | 60 => ⟨S32x1, .f32⟩
  | 61 => ⟨S_, .f32⟩
  | 62 => ⟨S32x1, .f32⟩
  | 63 => ⟨S32x1, .f32⟩
  | 64 => ⟨S32x2048, .f32⟩
  | 65 => ⟨S32x2048, .f32⟩
  | 66 => ⟨S32x2048, .f32⟩
  | 67 => ⟨S32x2048x16x16, .f32⟩
  | 68 => ⟨S_, .f32⟩
  | 69 => ⟨S32x2048, .f32⟩
  | 70 => ⟨S32x2048, .f32⟩
  | 71 => ⟨S_, .f32⟩
  | 72 => ⟨S32, .f32⟩
  | 73 => ⟨S32x1, .f32⟩
  | 74 => ⟨S32x1, .f32⟩
  | 75 => ⟨S_, .f32⟩
  | 76 => ⟨S32x1, .f32⟩
  | 77 => ⟨S32x1, .f32⟩
  | 78 => ⟨S32x2048, .f32⟩
  | 79 => ⟨S32x2048, .f32⟩
  | 80 => ⟨S32x2048, .f32⟩
  | 81 => ⟨S32x2048x16x16, .f32⟩
  | 82 => ⟨S_, .f32⟩
  | 83 => ⟨S32x2048, .f32⟩
  | 84 => ⟨S32x2048, .f32⟩
  | 85 => ⟨S_, .f32⟩
  | 86 => ⟨S32, .f32⟩
  | 87 => ⟨S32x1, .f32⟩
  | 88 => ⟨S32x1, .f32⟩
  | 89 => ⟨S_, .f32⟩
  | 90 => ⟨S32x1, .f32⟩
  | 91 => ⟨S32x1, .f32⟩
  | 92 => ⟨S32x2048, .f32⟩
  | 93 => ⟨S32x2048, .f32⟩
  | 94 => ⟨S32x2048, .f32⟩
  | 95 => ⟨S32x2048x16x16, .f32⟩
  | 96 => ⟨S_, .f32⟩
  | 97 => ⟨S32x2048, .f32⟩
  | 98 => ⟨S32x2048, .f32⟩
  | 99 => ⟨S_, .f32⟩
  | 100 => ⟨S32, .f32⟩
  | 101 => ⟨S32x1, .f32⟩
  | 102 => ⟨S32x1, .f32⟩
  | 103 => ⟨S_, .f32⟩
  | 104 => ⟨S32x1, .f32⟩
  | 105 => ⟨S32x1, .f32⟩
  | 106 => ⟨S32x2048, .f32⟩
  | 107 => ⟨S32x2048, .f32⟩
  | 108 => ⟨S32x2048, .f32⟩
  | 109 => ⟨S32x2048x16x16, .f32⟩
  | 110 => ⟨S_, .f32⟩
  | 111 => ⟨S32x2048, .f32⟩
  | 112 => ⟨S32x2048, .f32⟩
  | 113 => ⟨S_, .f32⟩
  | 114 => ⟨S32, .f32⟩
  | 115 => ⟨S32x1, .f32⟩
  | 116 => ⟨S32x1, .f32⟩
  | 117 => ⟨S_, .f32⟩
  | 118 => ⟨S32x1, .f32⟩
  | 119 => ⟨S32x1, .f32⟩
  | 120 => ⟨S32x2048, .f32⟩
  | 121 => ⟨S32x2048, .f32⟩
  | 122 => ⟨S32x2048, .f32⟩
  | 123 => ⟨S32x2048x16x16, .f32⟩
  | 124 => ⟨S_, .f32⟩
  | 125 => ⟨S32x2048, .f32⟩
  | 126 => ⟨S32x2048, .f32⟩
  | 127 => ⟨S_, .f32⟩
  | _ => ⟨S32x2048x32x32, .f32⟩

abbrev hbmTy0_2 (i : Nat) : BufTy := match i % 128 with
  | 0 => ⟨S32, .f32⟩
  | 1 => ⟨S32x1, .f32⟩
  | 2 => ⟨S32x1, .f32⟩
  | 3 => ⟨S_, .f32⟩
  | 4 => ⟨S32x1, .f32⟩
  | 5 => ⟨S32x1, .f32⟩
  | 6 => ⟨S32x2048, .f32⟩
  | 7 => ⟨S32x2048, .f32⟩
  | 8 => ⟨S32x2048, .f32⟩
  | 9 => ⟨S32x2048x16x16, .f32⟩
  | 10 => ⟨S_, .f32⟩
  | 11 => ⟨S32x2048, .f32⟩
  | 12 => ⟨S32x2048, .f32⟩
  | 13 => ⟨S_, .f32⟩
  | 14 => ⟨S32, .f32⟩
  | 15 => ⟨S32x1, .f32⟩
  | 16 => ⟨S32x1, .f32⟩
  | 17 => ⟨S_, .f32⟩
  | 18 => ⟨S32x1, .f32⟩
  | 19 => ⟨S32x1, .f32⟩
  | 20 => ⟨S32x2048, .f32⟩
  | 21 => ⟨S32x2048, .f32⟩
  | 22 => ⟨S32x2048, .f32⟩
  | 23 => ⟨S32x2048x16x16, .f32⟩
  | 24 => ⟨S_, .f32⟩
  | 25 => ⟨S32x2048, .f32⟩
  | 26 => ⟨S32x2048, .f32⟩
  | 27 => ⟨S_, .f32⟩
  | 28 => ⟨S32, .f32⟩
  | 29 => ⟨S32x1, .f32⟩
  | 30 => ⟨S32x1, .f32⟩
  | 31 => ⟨S_, .f32⟩
  | 32 => ⟨S32x1, .f32⟩
  | 33 => ⟨S32x1, .f32⟩
  | 34 => ⟨S32x2048, .f32⟩
  | 35 => ⟨S32x2048, .f32⟩
  | 36 => ⟨S32x2048, .f32⟩
  | 37 => ⟨S32x2048x16x16, .f32⟩
  | 38 => ⟨S_, .f32⟩
  | 39 => ⟨S32x2048, .f32⟩
  | 40 => ⟨S32x2048, .f32⟩
  | 41 => ⟨S_, .f32⟩
  | 42 => ⟨S32, .f32⟩
  | 43 => ⟨S32x1, .f32⟩
  | 44 => ⟨S32x1, .f32⟩
  | 45 => ⟨S_, .f32⟩
  | 46 => ⟨S32x1, .f32⟩
  | 47 => ⟨S32x1, .f32⟩
  | 48 => ⟨S32x2048, .f32⟩
  | 49 => ⟨S32x2048, .f32⟩
  | 50 => ⟨S32x2048, .f32⟩
  | 51 => ⟨S32x2048x16x16, .f32⟩
  | 52 => ⟨S_, .f32⟩
  | 53 => ⟨S32x2048, .f32⟩
  | 54 => ⟨S32x2048, .f32⟩
  | 55 => ⟨S_, .f32⟩
  | 56 => ⟨S32, .f32⟩
  | 57 => ⟨S32x1, .f32⟩
  | 58 => ⟨S32x1, .f32⟩
  | 59 => ⟨S_, .f32⟩
  | 60 => ⟨S32x1, .f32⟩
  | 61 => ⟨S32x1, .f32⟩
  | 62 => ⟨S32x2048, .f32⟩
  | 63 => ⟨S32x2048, .f32⟩
  | 64 => ⟨S32x2048, .f32⟩
  | 65 => ⟨S32x2048x16x16, .f32⟩
  | 66 => ⟨S_, .f32⟩
  | 67 => ⟨S32x2048, .f32⟩
  | 68 => ⟨S32x2048, .f32⟩
  | 69 => ⟨S_, .f32⟩
  | 70 => ⟨S32, .f32⟩
  | 71 => ⟨S32x1, .f32⟩
  | 72 => ⟨S32x1, .f32⟩
  | 73 => ⟨S_, .f32⟩
  | 74 => ⟨S32x1, .f32⟩
  | 75 => ⟨S32x1, .f32⟩
  | 76 => ⟨S32x2048, .f32⟩
  | 77 => ⟨S32x2048, .f32⟩
  | 78 => ⟨S32x2048, .f32⟩
  | 79 => ⟨S32x2048x16x16, .f32⟩
  | 80 => ⟨S_, .f32⟩
  | 81 => ⟨S32x2048, .f32⟩
  | 82 => ⟨S32x2048, .f32⟩
  | 83 => ⟨S_, .f32⟩
  | 84 => ⟨S32, .f32⟩
  | 85 => ⟨S32x1, .f32⟩
  | 86 => ⟨S32x1, .f32⟩
  | 87 => ⟨S_, .f32⟩
  | 88 => ⟨S32x1, .f32⟩
  | 89 => ⟨S32x1, .f32⟩
  | 90 => ⟨S32x2048, .f32⟩
  | 91 => ⟨S32x2048, .f32⟩
  | 92 => ⟨S32x2048, .f32⟩
  | 93 => ⟨S32x2048x16x16, .f32⟩
  | 94 => ⟨S_, .f32⟩
  | 95 => ⟨S32x2048, .f32⟩
  | 96 => ⟨S32x2048, .f32⟩
  | 97 => ⟨S_, .f32⟩
  | 98 => ⟨S32, .f32⟩
  | 99 => ⟨S32x1, .f32⟩
  | 100 => ⟨S32x1, .f32⟩
  | 101 => ⟨S_, .f32⟩
  | 102 => ⟨S32x1, .f32⟩
  | 103 => ⟨S32x1, .f32⟩
  | 104 => ⟨S32x2048, .f32⟩
  | 105 => ⟨S32x2048, .f32⟩
  | 106 => ⟨S32x2048, .f32⟩
  | 107 => ⟨S32x2048x16x16, .f32⟩
  | 108 => ⟨S_, .f32⟩
  | 109 => ⟨S32x2048, .f32⟩
  | 110 => ⟨S32x2048, .f32⟩
  | 111 => ⟨S_, .f32⟩
  | 112 => ⟨S32, .f32⟩
  | 113 => ⟨S32x1, .f32⟩
  | 114 => ⟨S32x1, .f32⟩
  | 115 => ⟨S_, .f32⟩
  | 116 => ⟨S32x1, .f32⟩
  | 117 => ⟨S32x1, .f32⟩
  | 118 => ⟨S32x2048, .f32⟩
  | 119 => ⟨S32x2048, .f32⟩
  | 120 => ⟨S32x2048, .f32⟩
  | 121 => ⟨S32x2048x16x16, .f32⟩
  | 122 => ⟨S_, .f32⟩
  | 123 => ⟨S32x2048, .f32⟩
  | 124 => ⟨S32x2048, .f32⟩
  | 125 => ⟨S_, .f32⟩
  | 126 => ⟨S32, .f32⟩
  | 127 => ⟨S32x1, .f32⟩
  | _ => ⟨S32x2048x32x32, .f32⟩

abbrev hbmTy0_3 (i : Nat) : BufTy := match i % 128 with
  | 0 => ⟨S32x1, .f32⟩
  | 1 => ⟨S_, .f32⟩
  | 2 => ⟨S32x1, .f32⟩
  | 3 => ⟨S32x1, .f32⟩
  | 4 => ⟨S32x2048, .f32⟩
  | 5 => ⟨S32x2048, .f32⟩
  | 6 => ⟨S32x2048, .f32⟩
  | 7 => ⟨S32x2048x16x16, .f32⟩
  | 8 => ⟨S_, .f32⟩
  | 9 => ⟨S32x2048, .f32⟩
  | 10 => ⟨S32x2048, .f32⟩
  | 11 => ⟨S_, .f32⟩
  | 12 => ⟨S32, .f32⟩
  | 13 => ⟨S32x1, .f32⟩
  | 14 => ⟨S32x1, .f32⟩
  | 15 => ⟨S_, .f32⟩
  | 16 => ⟨S32x1, .f32⟩
  | 17 => ⟨S32x1, .f32⟩
  | 18 => ⟨S32x2048, .f32⟩
  | 19 => ⟨S32x2048, .f32⟩
  | 20 => ⟨S32x2048, .f32⟩
  | 21 => ⟨S32x2048, .f32⟩
  | 22 => ⟨S_, .f32⟩
  | 23 => ⟨S32, .f32⟩
  | 24 => ⟨S32x1, .f32⟩
  | 25 => ⟨S32x1, .f32⟩
  | 26 => ⟨S_, .f32⟩
  | 27 => ⟨S32x1, .f32⟩
  | 28 => ⟨S32x1, .f32⟩
  | 29 => ⟨S32x2048, .f32⟩
  | 30 => ⟨S32x2048, .f32⟩
  | _ => ⟨S32x2048x32x32, .f32⟩

abbrev hbmTy (i : Nat) : BufTy := match i / 128 with
  | 0 => hbmTy0_0 i
  | 1 => hbmTy0_1 i
  | 2 => hbmTy0_2 i
  | 3 => hbmTy0_3 i
  | _ => ⟨S32x2048x32x32, .f32⟩

abbrev bufTy : (tb : Table) → Fin (tcTables nBuf tb) → BufTy
  | .hbm, ⟨i, _⟩ => hbmTy i
  | _, _ => ⟨S32x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_call2_v2 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_call4_v0 : Ref sig .tc := ⟨.hbm, 58, rfl⟩
abbrev main_call4_cst : Ref sig .tc := ⟨.hbm, 59, rfl⟩
abbrev main_call4_v1 : Ref sig .tc := ⟨.hbm, 60, rfl⟩
abbrev main_call4_v2 : Ref sig .tc := ⟨.hbm, 61, rfl⟩
abbrev main_v31 : Ref sig .tc := ⟨.hbm, 62, rfl⟩
abbrev main_cst_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_call5_v0 : Ref sig .tc := ⟨.hbm, 72, rfl⟩
abbrev main_call5_cst : Ref sig .tc := ⟨.hbm, 73, rfl⟩
abbrev main_call5_v1 : Ref sig .tc := ⟨.hbm, 74, rfl⟩
abbrev main_call5_v2 : Ref sig .tc := ⟨.hbm, 75, rfl⟩
abbrev main_v39 : Ref sig .tc := ⟨.hbm, 76, rfl⟩
abbrev main_cst_11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_call6_v0 : Ref sig .tc := ⟨.hbm, 86, rfl⟩
abbrev main_call6_cst : Ref sig .tc := ⟨.hbm, 87, rfl⟩
abbrev main_call6_v1 : Ref sig .tc := ⟨.hbm, 88, rfl⟩
abbrev main_call6_v2 : Ref sig .tc := ⟨.hbm, 89, rfl⟩
abbrev main_v47 : Ref sig .tc := ⟨.hbm, 90, rfl⟩
abbrev main_cst_13 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_14 : Ref sig .tc := ⟨.hbm, 98, rfl⟩
abbrev main_v54 : Ref sig .tc := ⟨.hbm, 99, rfl⟩
abbrev main_call7_v0 : Ref sig .tc := ⟨.hbm, 100, rfl⟩
abbrev main_call7_cst : Ref sig .tc := ⟨.hbm, 101, rfl⟩
abbrev main_call7_v1 : Ref sig .tc := ⟨.hbm, 102, rfl⟩
abbrev main_call7_v2 : Ref sig .tc := ⟨.hbm, 103, rfl⟩
abbrev main_v55 : Ref sig .tc := ⟨.hbm, 104, rfl⟩
abbrev main_cst_15 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_16 : Ref sig .tc := ⟨.hbm, 112, rfl⟩
abbrev main_v62 : Ref sig .tc := ⟨.hbm, 113, rfl⟩
abbrev main_call8_v0 : Ref sig .tc := ⟨.hbm, 114, rfl⟩
abbrev main_call8_cst : Ref sig .tc := ⟨.hbm, 115, rfl⟩
abbrev main_call8_v1 : Ref sig .tc := ⟨.hbm, 116, rfl⟩
abbrev main_call8_v2 : Ref sig .tc := ⟨.hbm, 117, rfl⟩
abbrev main_v63 : Ref sig .tc := ⟨.hbm, 118, rfl⟩
abbrev main_cst_17 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_18 : Ref sig .tc := ⟨.hbm, 126, rfl⟩
abbrev main_v70 : Ref sig .tc := ⟨.hbm, 127, rfl⟩
abbrev main_call9_v0 : Ref sig .tc := ⟨.hbm, 128, rfl⟩
abbrev main_call9_cst : Ref sig .tc := ⟨.hbm, 129, rfl⟩
abbrev main_call9_v1 : Ref sig .tc := ⟨.hbm, 130, rfl⟩
abbrev main_call9_v2 : Ref sig .tc := ⟨.hbm, 131, rfl⟩
abbrev main_v71 : Ref sig .tc := ⟨.hbm, 132, rfl⟩
abbrev main_cst_19 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_20 : Ref sig .tc := ⟨.hbm, 140, rfl⟩
abbrev main_v78 : Ref sig .tc := ⟨.hbm, 141, rfl⟩
abbrev main_call10_v0 : Ref sig .tc := ⟨.hbm, 142, rfl⟩
abbrev main_call10_cst : Ref sig .tc := ⟨.hbm, 143, rfl⟩
abbrev main_call10_v1 : Ref sig .tc := ⟨.hbm, 144, rfl⟩
abbrev main_call10_v2 : Ref sig .tc := ⟨.hbm, 145, rfl⟩
abbrev main_v79 : Ref sig .tc := ⟨.hbm, 146, rfl⟩
abbrev main_cst_21 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_22 : Ref sig .tc := ⟨.hbm, 154, rfl⟩
abbrev main_v86 : Ref sig .tc := ⟨.hbm, 155, rfl⟩
abbrev main_call11_v0 : Ref sig .tc := ⟨.hbm, 156, rfl⟩
abbrev main_call11_cst : Ref sig .tc := ⟨.hbm, 157, rfl⟩
abbrev main_call11_v1 : Ref sig .tc := ⟨.hbm, 158, rfl⟩
abbrev main_call11_v2 : Ref sig .tc := ⟨.hbm, 159, rfl⟩
abbrev main_v87 : Ref sig .tc := ⟨.hbm, 160, rfl⟩
abbrev main_cst_23 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_cst_24 : Ref sig .tc := ⟨.hbm, 168, rfl⟩
abbrev main_v94 : Ref sig .tc := ⟨.hbm, 169, rfl⟩
abbrev main_call12_v0 : Ref sig .tc := ⟨.hbm, 170, rfl⟩
abbrev main_call12_cst : Ref sig .tc := ⟨.hbm, 171, rfl⟩
abbrev main_call12_v1 : Ref sig .tc := ⟨.hbm, 172, rfl⟩
abbrev main_call12_v2 : Ref sig .tc := ⟨.hbm, 173, rfl⟩
abbrev main_v95 : Ref sig .tc := ⟨.hbm, 174, rfl⟩
abbrev main_cst_25 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_cst_26 : Ref sig .tc := ⟨.hbm, 182, rfl⟩
abbrev main_v102 : Ref sig .tc := ⟨.hbm, 183, rfl⟩
abbrev main_call13_v0 : Ref sig .tc := ⟨.hbm, 184, rfl⟩
abbrev main_call13_cst : Ref sig .tc := ⟨.hbm, 185, rfl⟩
abbrev main_call13_v1 : Ref sig .tc := ⟨.hbm, 186, rfl⟩
abbrev main_call13_v2 : Ref sig .tc := ⟨.hbm, 187, rfl⟩
abbrev main_v103 : Ref sig .tc := ⟨.hbm, 188, rfl⟩
abbrev main_cst_27 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_cst_28 : Ref sig .tc := ⟨.hbm, 196, rfl⟩
abbrev main_v110 : Ref sig .tc := ⟨.hbm, 197, rfl⟩
abbrev main_call14_v0 : Ref sig .tc := ⟨.hbm, 198, rfl⟩
abbrev main_call14_cst : Ref sig .tc := ⟨.hbm, 199, rfl⟩
abbrev main_call14_v1 : Ref sig .tc := ⟨.hbm, 200, rfl⟩
abbrev main_call14_v2 : Ref sig .tc := ⟨.hbm, 201, rfl⟩
abbrev main_v111 : Ref sig .tc := ⟨.hbm, 202, rfl⟩
abbrev main_cst_29 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_30 : Ref sig .tc := ⟨.hbm, 210, rfl⟩
abbrev main_v118 : Ref sig .tc := ⟨.hbm, 211, rfl⟩
abbrev main_call15_v0 : Ref sig .tc := ⟨.hbm, 212, rfl⟩
abbrev main_call15_cst : Ref sig .tc := ⟨.hbm, 213, rfl⟩
abbrev main_call15_v1 : Ref sig .tc := ⟨.hbm, 214, rfl⟩
abbrev main_call15_v2 : Ref sig .tc := ⟨.hbm, 215, rfl⟩
abbrev main_v119 : Ref sig .tc := ⟨.hbm, 216, rfl⟩
abbrev main_cst_31 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_cst_32 : Ref sig .tc := ⟨.hbm, 224, rfl⟩
abbrev main_v126 : Ref sig .tc := ⟨.hbm, 225, rfl⟩
abbrev main_call16_v0 : Ref sig .tc := ⟨.hbm, 226, rfl⟩
abbrev main_call16_cst : Ref sig .tc := ⟨.hbm, 227, rfl⟩
abbrev main_call16_v1 : Ref sig .tc := ⟨.hbm, 228, rfl⟩
abbrev main_call16_v2 : Ref sig .tc := ⟨.hbm, 229, rfl⟩
abbrev main_v127 : Ref sig .tc := ⟨.hbm, 230, rfl⟩
abbrev main_cst_33 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_cst_34 : Ref sig .tc := ⟨.hbm, 238, rfl⟩
abbrev main_v134 : Ref sig .tc := ⟨.hbm, 239, rfl⟩
abbrev main_call17_v0 : Ref sig .tc := ⟨.hbm, 240, rfl⟩
abbrev main_call17_cst : Ref sig .tc := ⟨.hbm, 241, rfl⟩
abbrev main_call17_v1 : Ref sig .tc := ⟨.hbm, 242, rfl⟩
abbrev main_call17_v2 : Ref sig .tc := ⟨.hbm, 243, rfl⟩
abbrev main_v135 : Ref sig .tc := ⟨.hbm, 244, rfl⟩
abbrev main_cst_35 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_cst_36 : Ref sig .tc := ⟨.hbm, 252, rfl⟩
abbrev main_v142 : Ref sig .tc := ⟨.hbm, 253, rfl⟩
abbrev main_call18_v0 : Ref sig .tc := ⟨.hbm, 254, rfl⟩
abbrev main_call18_cst : Ref sig .tc := ⟨.hbm, 255, rfl⟩
abbrev main_call18_v1 : Ref sig .tc := ⟨.hbm, 256, rfl⟩
abbrev main_call18_v2 : Ref sig .tc := ⟨.hbm, 257, rfl⟩
abbrev main_v143 : Ref sig .tc := ⟨.hbm, 258, rfl⟩
abbrev main_cst_37 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_cst_38 : Ref sig .tc := ⟨.hbm, 266, rfl⟩
abbrev main_v150 : Ref sig .tc := ⟨.hbm, 267, rfl⟩
abbrev main_call19_v0 : Ref sig .tc := ⟨.hbm, 268, rfl⟩
abbrev main_call19_cst : Ref sig .tc := ⟨.hbm, 269, rfl⟩
abbrev main_call19_v1 : Ref sig .tc := ⟨.hbm, 270, rfl⟩
abbrev main_call19_v2 : Ref sig .tc := ⟨.hbm, 271, rfl⟩
abbrev main_v151 : Ref sig .tc := ⟨.hbm, 272, rfl⟩
abbrev main_cst_39 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_cst_40 : Ref sig .tc := ⟨.hbm, 280, rfl⟩
abbrev main_v158 : Ref sig .tc := ⟨.hbm, 281, rfl⟩
abbrev main_call20_v0 : Ref sig .tc := ⟨.hbm, 282, rfl⟩
abbrev main_call20_cst : Ref sig .tc := ⟨.hbm, 283, rfl⟩
abbrev main_call20_v1 : Ref sig .tc := ⟨.hbm, 284, rfl⟩
abbrev main_call20_v2 : Ref sig .tc := ⟨.hbm, 285, rfl⟩
abbrev main_v159 : Ref sig .tc := ⟨.hbm, 286, rfl⟩
abbrev main_cst_41 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_cst_42 : Ref sig .tc := ⟨.hbm, 294, rfl⟩
abbrev main_v166 : Ref sig .tc := ⟨.hbm, 295, rfl⟩
abbrev main_call21_v0 : Ref sig .tc := ⟨.hbm, 296, rfl⟩
abbrev main_call21_cst : Ref sig .tc := ⟨.hbm, 297, rfl⟩
abbrev main_call21_v1 : Ref sig .tc := ⟨.hbm, 298, rfl⟩
abbrev main_call21_v2 : Ref sig .tc := ⟨.hbm, 299, rfl⟩
abbrev main_v167 : Ref sig .tc := ⟨.hbm, 300, rfl⟩
abbrev main_cst_43 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_cst_44 : Ref sig .tc := ⟨.hbm, 308, rfl⟩
abbrev main_v174 : Ref sig .tc := ⟨.hbm, 309, rfl⟩
abbrev main_call22_v0 : Ref sig .tc := ⟨.hbm, 310, rfl⟩
abbrev main_call22_cst : Ref sig .tc := ⟨.hbm, 311, rfl⟩
abbrev main_call22_v1 : Ref sig .tc := ⟨.hbm, 312, rfl⟩
abbrev main_call22_v2 : Ref sig .tc := ⟨.hbm, 313, rfl⟩
abbrev main_v175 : Ref sig .tc := ⟨.hbm, 314, rfl⟩
abbrev main_cst_45 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_cst_46 : Ref sig .tc := ⟨.hbm, 322, rfl⟩
abbrev main_v182 : Ref sig .tc := ⟨.hbm, 323, rfl⟩
abbrev main_call23_v0 : Ref sig .tc := ⟨.hbm, 324, rfl⟩
abbrev main_call23_cst : Ref sig .tc := ⟨.hbm, 325, rfl⟩
abbrev main_call23_v1 : Ref sig .tc := ⟨.hbm, 326, rfl⟩
abbrev main_call23_v2 : Ref sig .tc := ⟨.hbm, 327, rfl⟩
abbrev main_v183 : Ref sig .tc := ⟨.hbm, 328, rfl⟩
abbrev main_cst_47 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_cst_48 : Ref sig .tc := ⟨.hbm, 336, rfl⟩
abbrev main_v190 : Ref sig .tc := ⟨.hbm, 337, rfl⟩
abbrev main_call24_v0 : Ref sig .tc := ⟨.hbm, 338, rfl⟩
abbrev main_call24_cst : Ref sig .tc := ⟨.hbm, 339, rfl⟩
abbrev main_call24_v1 : Ref sig .tc := ⟨.hbm, 340, rfl⟩
abbrev main_call24_v2 : Ref sig .tc := ⟨.hbm, 341, rfl⟩
abbrev main_v191 : Ref sig .tc := ⟨.hbm, 342, rfl⟩
abbrev main_cst_49 : Ref sig .tc := ⟨.hbm, 343, rfl⟩
abbrev main_v192 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_v196 : Ref sig .tc := ⟨.hbm, 348, rfl⟩
abbrev main_v197 : Ref sig .tc := ⟨.hbm, 349, rfl⟩
abbrev main_cst_50 : Ref sig .tc := ⟨.hbm, 350, rfl⟩
abbrev main_v198 : Ref sig .tc := ⟨.hbm, 351, rfl⟩
abbrev main_call25_v0 : Ref sig .tc := ⟨.hbm, 352, rfl⟩
abbrev main_call25_cst : Ref sig .tc := ⟨.hbm, 353, rfl⟩
abbrev main_call25_v1 : Ref sig .tc := ⟨.hbm, 354, rfl⟩
abbrev main_call25_v2 : Ref sig .tc := ⟨.hbm, 355, rfl⟩
abbrev main_v199 : Ref sig .tc := ⟨.hbm, 356, rfl⟩
abbrev main_cst_51 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_cst_52 : Ref sig .tc := ⟨.hbm, 364, rfl⟩
abbrev main_v206 : Ref sig .tc := ⟨.hbm, 365, rfl⟩
abbrev main_call26_v0 : Ref sig .tc := ⟨.hbm, 366, rfl⟩
abbrev main_call26_cst : Ref sig .tc := ⟨.hbm, 367, rfl⟩
abbrev main_call26_v1 : Ref sig .tc := ⟨.hbm, 368, rfl⟩
abbrev main_call26_v2 : Ref sig .tc := ⟨.hbm, 369, rfl⟩
abbrev main_v207 : Ref sig .tc := ⟨.hbm, 370, rfl⟩
abbrev main_cst_53 : Ref sig .tc := ⟨.hbm, 371, rfl⟩
abbrev main_v208 : Ref sig .tc := ⟨.hbm, 372, rfl⟩
abbrev main_v209 : Ref sig .tc := ⟨.hbm, 373, rfl⟩
abbrev main_v210 : Ref sig .tc := ⟨.hbm, 374, rfl⟩
abbrev main_v211 : Ref sig .tc := ⟨.hbm, 375, rfl⟩
abbrev main_v212 : Ref sig .tc := ⟨.hbm, 376, rfl⟩
abbrev main_v213 : Ref sig .tc := ⟨.hbm, 377, rfl⟩
abbrev main_cst_54 : Ref sig .tc := ⟨.hbm, 378, rfl⟩
abbrev main_v214 : Ref sig .tc := ⟨.hbm, 379, rfl⟩
abbrev main_call27_v0 : Ref sig .tc := ⟨.hbm, 380, rfl⟩
abbrev main_call27_cst : Ref sig .tc := ⟨.hbm, 381, rfl⟩
abbrev main_call27_v1 : Ref sig .tc := ⟨.hbm, 382, rfl⟩
abbrev main_call27_v2 : Ref sig .tc := ⟨.hbm, 383, rfl⟩
abbrev main_v215 : Ref sig .tc := ⟨.hbm, 384, rfl⟩
abbrev main_cst_55 : Ref sig .tc := ⟨.hbm, 385, rfl⟩
abbrev main_v216 : Ref sig .tc := ⟨.hbm, 386, rfl⟩
abbrev main_v217 : Ref sig .tc := ⟨.hbm, 387, rfl⟩
abbrev main_v218 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_cst_56 : Ref sig .tc := ⟨.hbm, 392, rfl⟩
abbrev main_v222 : Ref sig .tc := ⟨.hbm, 393, rfl⟩
abbrev main_call28_v0 : Ref sig .tc := ⟨.hbm, 394, rfl⟩
abbrev main_call28_cst : Ref sig .tc := ⟨.hbm, 395, rfl⟩
abbrev main_call28_v1 : Ref sig .tc := ⟨.hbm, 396, rfl⟩
abbrev main_call28_v2 : Ref sig .tc := ⟨.hbm, 397, rfl⟩
abbrev main_v223 : Ref sig .tc := ⟨.hbm, 398, rfl⟩
abbrev main_cst_57 : Ref sig .tc := ⟨.hbm, 399, rfl⟩
abbrev main_v224 : Ref sig .tc := ⟨.hbm, 400, rfl⟩
abbrev main_v225 : Ref sig .tc := ⟨.hbm, 401, rfl⟩
abbrev main_v226 : Ref sig .tc := ⟨.hbm, 402, rfl⟩
abbrev main_v227 : Ref sig .tc := ⟨.hbm, 403, rfl⟩
abbrev main_v228 : Ref sig .tc := ⟨.hbm, 404, rfl⟩
abbrev main_call29_v0 : Ref sig .tc := ⟨.hbm, 405, rfl⟩
abbrev main_call29_cst : Ref sig .tc := ⟨.hbm, 406, rfl⟩
abbrev main_call29_v1 : Ref sig .tc := ⟨.hbm, 407, rfl⟩
abbrev main_call29_v2 : Ref sig .tc := ⟨.hbm, 408, rfl⟩
abbrev main_v229 : Ref sig .tc := ⟨.hbm, 409, rfl⟩
abbrev main_cst_58 : Ref sig .tc := ⟨.hbm, 410, rfl⟩
abbrev main_v230 : Ref sig .tc := ⟨.hbm, 411, rfl⟩
abbrev main_v231 : Ref sig .tc := ⟨.hbm, 412, rfl⟩
abbrev main_v232 : Ref sig .tc := ⟨.hbm, 413, rfl⟩
abbrev main_v233 : Ref sig .tc := ⟨.hbm, 414, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  reducesTo_S32x2048x32x32_S32x2048_d2_3 : S32x2048x32x32.ReducesTo [2, 3] S32x2048
  h_S_ : 0 < S_.numel
  reducesTo_S32x2048_S32_d1 : S32x2048.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x2048_0_1 : S32x1.BroadcastsInDim S32x2048 (![0, 1] : Fin 2 → Fin S32x2048.rank)
  slices_S32x2048x32x32_S32x2048x21x21_0_0_0_0 : S32x2048x32x32.Slices ![0, 0, 0, 0] S32x2048x21x21
  reducesTo_S32x2048x21x21_S32x2048_d2_3 : S32x2048x21x21.ReducesTo [2, 3] S32x2048
  slices_S32x2048x32x32_S32x2048x21x21_0_0_0_6 : S32x2048x32x32.Slices ![0, 0, 0, 6] S32x2048x21x21
  slices_S32x2048x32x32_S32x2048x21x21_0_0_0_11 : S32x2048x32x32.Slices ![0, 0, 0, 11] S32x2048x21x21
  slices_S32x2048x32x32_S32x2048x21x21_0_0_6_0 : S32x2048x32x32.Slices ![0, 0, 6, 0] S32x2048x21x21
  slices_S32x2048x32x32_S32x2048x21x21_0_0_6_6 : S32x2048x32x32.Slices ![0, 0, 6, 6] S32x2048x21x21
  slices_S32x2048x32x32_S32x2048x21x21_0_0_6_11 : S32x2048x32x32.Slices ![0, 0, 6, 11] S32x2048x21x21
  slices_S32x2048x32x32_S32x2048x21x21_0_0_11_0 : S32x2048x32x32.Slices ![0, 0, 11, 0] S32x2048x21x21
  slices_S32x2048x32x32_S32x2048x21x21_0_0_11_6 : S32x2048x32x32.Slices ![0, 0, 11, 6] S32x2048x21x21
  slices_S32x2048x32x32_S32x2048x21x21_0_0_11_11 : S32x2048x32x32.Slices ![0, 0, 11, 11] S32x2048x21x21
  slices_S32x2048x32x32_S32x2048x16x16_0_0_0_0 : S32x2048x32x32.Slices ![0, 0, 0, 0] S32x2048x16x16
  reducesTo_S32x2048x16x16_S32x2048_d2_3 : S32x2048x16x16.ReducesTo [2, 3] S32x2048
  slices_S32x2048x32x32_S32x2048x16x16_0_0_0_5 : S32x2048x32x32.Slices ![0, 0, 0, 5] S32x2048x16x16
  slices_S32x2048x32x32_S32x2048x16x16_0_0_0_11 : S32x2048x32x32.Slices ![0, 0, 0, 11] S32x2048x16x16
  slices_S32x2048x32x32_S32x2048x16x16_0_0_0_16 : S32x2048x32x32.Slices ![0, 0, 0, 16] S32x2048x16x16
  slices_S32x2048x32x32_S32x2048x16x16_0_0_5_0 : S32x2048x32x32.Slices ![0, 0, 5, 0] S32x2048x16x16
  slices_S32x2048x32x32_S32x2048x16x16_0_0_5_5 : S32x2048x32x32.Slices ![0, 0, 5, 5] S32x2048x16x16
  slices_S32x2048x32x32_S32x2048x16x16_0_0_5_11 : S32x2048x32x32.Slices ![0, 0, 5, 11] S32x2048x16x16
  slices_S32x2048x32x32_S32x2048x16x16_0_0_5_16 : S32x2048x32x32.Slices ![0, 0, 5, 16] S32x2048x16x16
  slices_S32x2048x32x32_S32x2048x16x16_0_0_11_0 : S32x2048x32x32.Slices ![0, 0, 11, 0] S32x2048x16x16
  slices_S32x2048x32x32_S32x2048x16x16_0_0_11_5 : S32x2048x32x32.Slices ![0, 0, 11, 5] S32x2048x16x16
  slices_S32x2048x32x32_S32x2048x16x16_0_0_11_11 : S32x2048x32x32.Slices ![0, 0, 11, 11] S32x2048x16x16
  slices_S32x2048x32x32_S32x2048x16x16_0_0_11_16 : S32x2048x32x32.Slices ![0, 0, 11, 16] S32x2048x16x16
  slices_S32x2048x32x32_S32x2048x16x16_0_0_16_0 : S32x2048x32x32.Slices ![0, 0, 16, 0] S32x2048x16x16
  slices_S32x2048x32x32_S32x2048x16x16_0_0_16_5 : S32x2048x32x32.Slices ![0, 0, 16, 5] S32x2048x16x16
  slices_S32x2048x32x32_S32x2048x16x16_0_0_16_11 : S32x2048x32x32.Slices ![0, 0, 16, 11] S32x2048x16x16
  slices_S32x2048x32x32_S32x2048x16x16_0_0_16_16 : S32x2048x32x32.Slices ![0, 0, 16, 16] S32x2048x16x16

variable [Facts₀]

class Facts : Prop extends Facts₀ where

variable [Facts]
-- ==== Proof.RefWindow0.lean ====
/-
  The reference program's statements, window 0 of 5 (60 statements of @main, 84 host operations once each call
  of the norm function stands as its body's five operations — the square of its argument, the zero, the sum of the squares over the
  channel axis, that sum as a column, its square root), as a LIST, and the window read as the run of that list in order.
-/
import proofs.«131176_j28467043238140_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The operations of window 0, in program order. -/
abbrev ops0 : List (HloOp τ sig (Elt F)) :=
  [ nullary main_cst (constant S_ .f32 0x00000000#32),
    unary main_cst main_v0 (broadcastInDim S32x2048 ![] bcast_S_S32x2048 : (⟨S_, .f32⟩ : BufTy).Contents (Elt F) → (⟨S32x2048, .f32⟩ : BufTy).Contents (Elt F)),
    nullary main_cst_0 (constant S_ .f32 0xFF800000#32),
    binary main_arg0 main_cst_0 main_v1 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v1) (TRef.of (T := ⟨S32x2048, .f32⟩) main_v1) main_call0.v0 mulf,
    TRef.nullary main_call0.cst (constant S_ .f32 0x00000000#32),
    TRef.binary main_call0.v0 main_call0.cst main_call0.v1 (fun x v => Host.reduceAdd x v reducesTo_S32x2048_S32_d1 h_S_),
    TRef.unary main_call0.v1 main_call0.v2 (broadcastInDim S32x1 ![0] bcast_S32_S32x1_0),
    TRef.unary main_call0.v2 main_call0.v3 Host.sqrt,
    nullary main_cst_1 (constant S_ .f32 0x358637BD#32),
    unary main_cst_1 main_v3 (broadcastInDim S32x1 ![] bcast_S_S32x1 : (⟨S_, .f32⟩ : BufTy).Contents (Elt F) → (⟨S32x1, .f32⟩ : BufTy).Contents (Elt F)),
    binary main_v2 main_v3 main_v4 (addf : (⟨S32x1, .f32⟩ : BufTy).Contents (Elt F) → (⟨S32x1, .f32⟩ : BufTy).Contents (Elt F) → (⟨S32x1, .f32⟩ : BufTy).Contents (Elt F)),
    unary main_v4 main_v5 (broadcastInDim S32x2048 ![0, 1] bcast_S32x1_S32x2048_0_1 : (⟨S32x1, .f32⟩ : BufTy).Contents (Elt F) → (⟨S32x2048, .f32⟩ : BufTy).Contents (Elt F)),
    binary main_v1 main_v5 main_v6 (Host.divf : (⟨S32x2048, .f32⟩ : BufTy).Contents (Elt F) → (⟨S32x2048, .f32⟩ : BufTy).Contents (Elt F) → (⟨S32x2048, .f32⟩ : BufTy).Contents (Elt F)),
    binary main_v0 main_v6 main_v7 (addf : (⟨S32x2048, .f32⟩ : BufTy).Contents (Elt F) → (⟨S32x2048, .f32⟩ : BufTy).Contents (Elt F) → (⟨S32x2048, .f32⟩ : BufTy).Contents (Elt F)),
    nullary main_cst_2 (constant S_ .f32 0xFF800000#32),
    binary main_arg0 main_cst_2 main_v8 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v8) (TRef.of (T := ⟨S32x2048, .f32⟩) main_v8) main_call1.v0 mulf,
    TRef.nullary main_call1.cst (constant S_ .f32 0x00000000#32),
    TRef.binary main_call1.v0 main_call1.cst main_call1.v1 (fun x v => Host.reduceAdd x v reducesTo_S32x2048_S32_d1 h_S_),
    TRef.unary main_call1.v1 main_call1.v2 (broadcastInDim S32x1 ![0] bcast_S32_S32x1_0),
    TRef.unary main_call1.v2 main_call1.v3 Host.sqrt,
    nullary main_cst_3 (constant S_ .f32 0x358637BD#32),
    unary main_cst_3 main_v10 (broadcastInDim S32x1 ![] bcast_S_S32x1 : (⟨S_, .f32⟩ : BufTy).Contents (Elt F) → (⟨S32x1, .f32⟩ : BufTy).Contents (Elt F)),
    binary main_v9 main_v10 main_v11 (addf : (⟨S32x1, .f32⟩ : BufTy).Contents (Elt F) → (⟨S32x1, .f32⟩ : BufTy).Contents (Elt F) → (⟨S32x1, .f32⟩ : BufTy).Contents (Elt F)),
    unary main_v11 main_v12 (broadcastInDim S32x2048 ![0, 1] bcast_S32x1_S32x2048_0_1 : (⟨S32x1, .f32⟩ : BufTy).Contents (Elt F) → (⟨S32x2048, .f32⟩ : BufTy).Contents (Elt F)),
    binary main_v8 main_v12 main_v13 (Host.divf : (⟨S32x2048, .f32⟩ : BufTy).Contents (Elt F) → (⟨S32x2048, .f32⟩ : BufTy).Contents (Elt F) → (⟨S32x2048, .f32⟩ : BufTy).Contents (Elt F)),
    binary main_v7 main_v13 main_v14 (addf : (⟨S32x2048, .f32⟩ : BufTy).Contents (Elt F) → (⟨S32x2048, .f32⟩ : BufTy).Contents (Elt F) → (⟨S32x2048, .f32⟩ : BufTy).Contents (Elt F)),
    nullary main_cst_4 (constant S_ .f32 0xFF800000#32),
    binary main_arg0 main_cst_4 main_v15 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v15) (TRef.of (T := ⟨S32x2048, .f32⟩) main_v15) main_call2.v0 mulf,
    TRef.nullary main_call2.cst (constant S_ .f32 0x00000000#32),
    TRef.binary main_call2.v0 main_call2.cst main_call2.v1 (fun x v => Host.reduceAdd x v reducesTo_S32x2048_S32_d1 h_S_),
    TRef.unary main_call2.v1 main_call2.v2 (broadcastInDim S32x1 ![0] bcast_S32_S32x1_0),
    TRef.unary main_call2.v2 main_call2.v3 Host.sqrt,
    nullary main_cst_5 (constant S_ .f32 0x358637BD#32),
    unary main_cst_5 main_v17 (broadcastInDim S32x1 ![] bcast_S_S32x1 : (⟨S_, .f32⟩ : BufTy).Contents (Elt F) → (⟨S32x1, .f32⟩ : BufTy).Contents (Elt F)),
    binary main_v16 main_v17 main_v18 (addf : (⟨S32x1, .f32⟩ : BufTy).Contents (Elt F) → (⟨S32x1, .f32⟩ : BufTy).Contents (Elt F) → (⟨S32x1, .f32⟩ : BufTy).Contents (Elt F)),
    unary main_v18 main_v19 (broadcastInDim S32x2048 ![0, 1] bcast_S32x1_S32x2048_0_1 : (⟨S32x1, .f32⟩ : BufTy).Contents (Elt F) → (⟨S32x2048, .f32⟩ : BufTy).Contents (Elt F)),
    binary main_v15 main_v19 main_v20 (Host.divf : (⟨S32x2048, .f32⟩ : BufTy).Contents (Elt F) → (⟨S32x2048, .f32⟩ : BufTy).Contents (Elt F) → (⟨S32x2048, .f32⟩ : BufTy).Contents (Elt F)),
    binary main_v14 main_v20 main_v21 (addf : (⟨S32x2048, .f32⟩ : BufTy).Contents (Elt F) → (⟨S32x2048, .f32⟩ : BufTy).Contents (Elt F) → (⟨S32x2048, .f32⟩ : BufTy).Contents (Elt F)),
    nullary main_cst_6 (constant S_ .f32 0xFF800000#32),
    binary main_arg0 main_cst_6 main_v22 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v22) (TRef.of (T := ⟨S32x2048, .f32⟩) main_v22) main_call3.v0 mulf,
    TRef.nullary main_call3.cst (constant S_ .f32 0x00000000#32),
    TRef.binary main_call3.v0 main_call3.cst main_call3.v1 (fun x v => Host.reduceAdd x v reducesTo_S32x2048_S32_d1 h_S_),
    TRef.unary main_call3.v1 main_call3.v2 (broadcastInDim S32x1 ![0] bcast_S32_S32x1_0),
    TRef.unary main_call3.v2 main_call3.v3 Host.sqrt,
    nullary main_cst_7 (constant S_ .f32 0x358637BD#32),
    unary main_cst_7 main_v24 (broadcastInDim S32x1 ![] bcast_S_S32x1 : (⟨S_, .f32⟩ : BufTy).Contents (Elt F) → (⟨S32x1, .f32⟩ : BufTy).Contents (Elt F)),
    binary main_v23 main_v24 main_v25 (addf : (⟨S32x1, .f32⟩ : BufTy).Contents (Elt F) → (⟨S32x1, .f32⟩ : BufTy).Contents (Elt F) → (⟨S32x1, .f32⟩ : BufTy).Contents (Elt F)),
    unary main_v25 main_v26 (broadcastInDim S32x2048 ![0, 1] bcast_S32x1_S32x2048_0_1 : (⟨S32x1, .f32⟩ : BufTy).Contents (Elt F) → (⟨S32x2048, .f32⟩ : BufTy).Contents (Elt F)),
    binary main_v22 main_v26 main_v27 (Host.divf : (⟨S32x2048, .f32⟩ : BufTy).Contents (Elt F) → (⟨S32x2048, .f32⟩ : BufTy).Contents (Elt F) → (⟨S32x2048, .f32⟩ : BufTy).Contents (Elt F)),
    binary main_v21 main_v27 main_v28 (addf : (⟨S32x2048, .f32⟩ : BufTy).Contents (Elt F) → (⟨S32x2048, .f32⟩ : BufTy).Contents (Elt F) → (⟨S32x2048, .f32⟩ : BufTy).Contents (Elt F)),
    unary main_arg0 main_v29 ((extractStridedSlice S32x2048x21x21 ![0, 0, 0, 0] · slices_S32x2048x32x32_S32x2048x21x21_0_0_0_0) : (⟨S32x2048x32x32, .f32⟩ : BufTy).Contents (Elt F) → (⟨S32x2048x21x21, .f32⟩ : BufTy).Contents (Elt F)),
    nullary main_cst_8 (constant S_ .f32 0xFF800000#32),
    binary main_v29 main_cst_8 main_v30 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v30) (TRef.of (T := ⟨S32x2048, .f32⟩) main_v30) main_call4.v0 mulf,
    TRef.nullary main_call4.cst (constant S_ .f32 0x00000000#32),
    TRef.binary main_call4.v0 main_call4.cst main_call4.v1 (fun x v => Host.reduceAdd x v reducesTo_S32x2048_S32_d1 h_S_),
    TRef.unary main_call4.v1 main_call4.v2 (broadcastInDim S32x1 ![0] bcast_S32_S32x1_0),
    TRef.unary main_call4.v2 main_call4.v3 Host.sqrt,
    nullary main_cst_9 (constant S_ .f32 0x358637BD#32),
    unary main_cst_9 main_v32 (broadcastInDim S32x1 ![] bcast_S_S32x1 : (⟨S_, .f32⟩ : BufTy).Contents (Elt F) → (⟨S32x1, .f32⟩ : BufTy).Contents (Elt F)),
    binary main_v31 main_v32 main_v33 (addf : (⟨S32x1, .f32⟩ : BufTy).Contents (Elt F) → (⟨S32x1, .f32⟩ : BufTy).Contents (Elt F) → (⟨S32x1, .f32⟩ : BufTy).Contents (Elt F)),
    unary main_v33 main_v34 (broadcastInDim S32x2048 ![0, 1] bcast_S32x1_S32x2048_0_1 : (⟨S32x1, .f32⟩ : BufTy).Contents (Elt F) → (⟨S32x2048, .f32⟩ : BufTy).Contents (Elt F)),
    binary main_v30 main_v34 main_v35 (Host.divf : (⟨S32x2048, .f32⟩ : BufTy).Contents (Elt F) → (⟨S32x2048, .f32⟩ : BufTy).Contents (Elt F) → (⟨S32x2048, .f32⟩ : BufTy).Contents (Elt F)),
    binary main_v28 main_v35 main_v36 (addf : (⟨S32x2048, .f32⟩ : BufTy).Contents (Elt F) → (⟨S32x2048, .f32⟩ : BufTy).Contents (Elt F) → (⟨S32x2048, .f32⟩ : BufTy).Contents (Elt F)),
    unary main_arg0 main_v37 ((extractStridedSlice S32x2048x21x21 ![0, 0, 0, 6] · slices_S32x2048x32x32_S32x2048x21x21_0_0_0_6) : (⟨S32x2048x32x32, .f32⟩ : BufTy).Contents (Elt F) → (⟨S32x2048x21x21, .f32⟩ : BufTy).Contents (Elt F)),
    nullary main_cst_10 (constant S_ .f32 0xFF800000#32),
    binary main_v37 main_cst_10 main_v38 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v38) (TRef.of (T := ⟨S32x2048, .f32⟩) main_v38) main_call5.v0 mulf,
    TRef.nullary main_call5.cst (constant S_ .f32 0x00000000#32),
    TRef.binary main_call5.v0 main_call5.cst main_call5.v1 (fun x v => Host.reduceAdd x v reducesTo_S32x2048_S32_d1 h_S_),
    TRef.unary main_call5.v1 main_call5.v2 (broadcastInDim S32x1 ![0] bcast_S32_S32x1_0),
    TRef.unary main_call5.v2 main_call5.v3 Host.sqrt,
    nullary main_cst_11 (constant S_ .f32 0x358637BD#32),
    unary main_cst_11 main_v40 (broadcastInDim S32x1 ![] bcast_S_S32x1 : (⟨S_, .f32⟩ : BufTy).Contents (Elt F) → (⟨S32x1, .f32⟩ : BufTy).Contents (Elt F)),
    binary main_v39 main_v40 main_v41 (addf : (⟨S32x1, .f32⟩ : BufTy).Contents (Elt F) → (⟨S32x1, .f32⟩ : BufTy).Contents (Elt F) → (⟨S32x1, .f32⟩ : BufTy).Contents (Elt F)),
    unary main_v41 main_v42 (broadcastInDim S32x2048 ![0, 1] bcast_S32x1_S32x2048_0_1 : (⟨S32x1, .f32⟩ : BufTy).Contents (Elt F) → (⟨S32x2048, .f32⟩ : BufTy).Contents (Elt F)),
    binary main_v38 main_v42 main_v43 (Host.divf : (⟨S32x2048, .f32⟩ : BufTy).Contents (Elt F) → (⟨S32x2048, .f32⟩ : BufTy).Contents (Elt F) → (⟨S32x2048, .f32⟩ : BufTy).Contents (Elt F)),
    binary main_v36 main_v43 main_v44 (addf : (⟨S32x2048, .f32⟩ : BufTy).Contents (Elt F) → (⟨S32x2048, .f32⟩ : BufTy).Contents (Elt F) → (⟨S32x2048, .f32⟩ : BufTy).Contents (Elt F)),
    unary main_arg0 main_v45 ((extractStridedSlice S32x2048x21x21 ![0, 0, 0, 11] · slices_S32x2048x32x32_S32x2048x21x21_0_0_0_11) : (⟨S32x2048x32x32, .f32⟩ : BufTy).Contents (Elt F) → (⟨S32x2048x21x21, .f32⟩ : BufTy).Contents (Elt F)),
    nullary main_cst_12 (constant S_ .f32 0xFF800000#32) ]

set_option maxRecDepth 8192 in
set_option maxHeartbeats 8000000 in
/-- Window 0 of @main is the run of its operations one after the other. -/
theorem part0_eq (d : Dev nD) : main_part0 (F := F) d = seq ops0 := rfl

set_option maxRecDepth 8192 in
set_option maxHeartbeats 8000000 in
/-- Every operation of the window reads and writes TensorCore buffers only. -/
theorem ops0_sub : (ops0 : List (HloOp τ sig (Elt F))).Forall fun op => op.bufs ⊆ tcRefs τ sig :=
  ⟨nullary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub ..⟩

end Cert.ReferenceIdeal.RefRun

end
-- ==== Proof.RefWindow1.lean ====
/-
  The reference program's statements, window 1 of 5 (60 statements of @main, 84 host operations once each call
  of the norm function stands as its body's five operations — the square of its argument, the zero, the sum of the squares over the
  channel axis, that sum as a column, its square root), as a LIST, and the window read as the run of that list in order.
-/
import proofs.«131176_j28467043238140_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The operations of window 1, in program order. -/
abbrev ops1 : List (HloOp τ sig (Elt F)) :=
  [ binary main_v45 main_cst_12 main_v46 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v46) (TRef.of (T := ⟨S32x2048, .f32⟩) main_v46) main_call6.v0 mulf,
    TRef.nullary main_call6.cst (constant S_ .f32 0x00000000#32),
    TRef.binary main_call6.v0 main_call6.cst main_call6.v1 (fun x v => Host.reduceAdd x v reducesTo_S32x2048_S32_d1 h_S_),
    TRef.unary main_call6.v1 main_call6.v2 (broadcastInDim S32x1 ![0] bcast_S32_S32x1_0),
    TRef.unary main_call6.v2 main_call6.v3 Host.sqrt,
    nullary main_cst_13 (constant S_ .f32 0x358637BD#32),
    unary main_cst_13 main_v48 (broadcastInDim S32x1 ![] bcast_S_S32x1 : (⟨S_, .f32⟩ : BufTy).Contents (Elt F) → (⟨S32x1, .f32⟩ : BufTy).Contents (Elt F)),
    binary main_v47 main_v48 main_v49 (addf : (⟨S32x1, .f32⟩ : BufTy).Contents (Elt F) → (⟨S32x1, .f32⟩ : BufTy).Contents (Elt F) → (⟨S32x1, .f32⟩ : BufTy).Contents (Elt F)),
    unary main_v49 main_v50 (broadcastInDim S32x2048 ![0, 1] bcast_S32x1_S32x2048_0_1 : (⟨S32x1, .f32⟩ : BufTy).Contents (Elt F) → (⟨S32x2048, .f32⟩ : BufTy).Contents (Elt F)),
    binary main_v46 main_v50 main_v51 (Host.divf : (⟨S32x2048, .f32⟩ : BufTy).Contents (Elt F) → (⟨S32x2048, .f32⟩ : BufTy).Contents (Elt F) → (⟨S32x2048, .f32⟩ : BufTy).Contents (Elt F)),
    binary main_v44 main_v51 main_v52 (addf : (⟨S32x2048, .f32⟩ : BufTy).Contents (Elt F) → (⟨S32x2048, .f32⟩ : BufTy).Contents (Elt F) → (⟨S32x2048, .f32⟩ : BufTy).Contents (Elt F)),
    unary main_arg0 main_v53 ((extractStridedSlice S32x2048x21x21 ![0, 0, 6, 0] · slices_S32x2048x32x32_S32x2048x21x21_0_0_6_0) : (⟨S32x2048x32x32, .f32⟩ : BufTy).Contents (Elt F) → (⟨S32x2048x21x21, .f32⟩ : BufTy).Contents (Elt F)),
    nullary main_cst_14 (constant S_ .f32 0xFF800000#32),
    binary main_v53 main_cst_14 main_v54 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v54) (TRef.of (T := ⟨S32x2048, .f32⟩) main_v54) main_call7.v0 mulf,
    TRef.nullary main_call7.cst (constant S_ .f32 0x00000000#32),
    TRef.binary main_call7.v0 main_call7.cst main_call7.v1 (fun x v => Host.reduceAdd x v reducesTo_S32x2048_S32_d1 h_S_),
    TRef.unary main_call7.v1 main_call7.v2 (broadcastInDim S32x1 ![0] bcast_S32_S32x1_0),
    TRef.unary main_call7.v2 main_call7.v3 Host.sqrt,
    nullary main_cst_15 (constant S_ .f32 0x358637BD#32),
    unary main_cst_15 main_v56 (broadcastInDim S32x1 ![] bcast_S_S32x1 : (⟨S_, .f32⟩ : BufTy).Contents (Elt F) → (⟨S32x1, .f32⟩ : BufTy).Contents (Elt F)),
    binary main_v55 main_v56 main_v57 (addf : (⟨S32x1, .f32⟩ : BufTy).Contents (Elt F) → (⟨S32x1, .f32⟩ : BufTy).Contents (Elt F) → (⟨S32x1, .f32⟩ : BufTy).Contents (Elt F)),
    unary main_v57 main_v58 (broadcastInDim S32x2048 ![0, 1] bcast_S32x1_S32x2048_0_1 : (⟨S32x1, .f32⟩ : BufTy).Contents (Elt F) → (⟨S32x2048, .f32⟩ : BufTy).Contents (Elt F)),
    binary main_v54 main_v58 main_v59 (Host.divf : (⟨S32x2048, .f32⟩ : BufTy).Contents (Elt F) → (⟨S32x2048, .f32⟩ : BufTy).Contents (Elt F) → (⟨S32x2048, .f32⟩ : BufTy).Contents (Elt F)),
    binary main_v52 main_v59 main_v60 (addf : (⟨S32x2048, .f32⟩ : BufTy).Contents (Elt F) → (⟨S32x2048, .f32⟩ : BufTy).Contents (Elt F) → (⟨S32x2048, .f32⟩ : BufTy).Contents (Elt F)),
    unary main_arg0 main_v61 ((extractStridedSlice S32x2048x21x21 ![0, 0, 6, 6] · slices_S32x2048x32x32_S32x2048x21x21_0_0_6_6) : (⟨S32x2048x32x32, .f32⟩ : BufTy).Contents (Elt F) → (⟨S32x2048x21x21, .f32⟩ : BufTy).Contents (Elt F)),
    nullary main_cst_16 (constant S_ .f32 0xFF800000#32),
    binary main_v61 main_cst_16 main_v62 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v62) (TRef.of (T := ⟨S32x2048, .f32⟩) main_v62) main_call8.v0 mulf,
    TRef.nullary main_call8.cst (constant S_ .f32 0x00000000#32),
    TRef.binary main_call8.v0 main_call8.cst main_call8.v1 (fun x v => Host.reduceAdd x v reducesTo_S32x2048_S32_d1 h_S_),
    TRef.unary main_call8.v1 main_call8.v2 (broadcastInDim S32x1 ![0] bcast_S32_S32x1_0),
    TRef.unary main_call8.v2 main_call8.v3 Host.sqrt,
    nullary main_cst_17 (constant S_ .f32 0x358637BD#32),
    unary main_cst_17 main_v64 (broadcastInDim S32x1 ![] bcast_S_S32x1 : (⟨S_, .f32⟩ : BufTy).Contents (Elt F) → (⟨S32x1, .f32⟩ : BufTy).Contents (Elt F)),
    binary main_v63 main_v64 main_v65 (addf : (⟨S32x1, .f32⟩ : BufTy).Contents (Elt F) → (⟨S32x1, .f32⟩ : BufTy).Contents (Elt F) → (⟨S32x1, .f32⟩ : BufTy).Contents (Elt F)),
    unary main_v65 main_v66 (broadcastInDim S32x2048 ![0, 1] bcast_S32x1_S32x2048_0_1 : (⟨S32x1, .f32⟩ : BufTy).Contents (Elt F) → (⟨S32x2048, .f32⟩ : BufTy).Contents (Elt F)),
    binary main_v62 main_v66 main_v67 (Host.divf : (⟨S32x2048, .f32⟩ : BufTy).Contents (Elt F) → (⟨S32x2048, .f32⟩ : BufTy).Contents (Elt F) → (⟨S32x2048, .f32⟩ : BufTy).Contents (Elt F)),
    binary main_v60 main_v67 main_v68 (addf : (⟨S32x2048, .f32⟩ : BufTy).Contents (Elt F) → (⟨S32x2048, .f32⟩ : BufTy).Contents (Elt F) → (⟨S32x2048, .f32⟩ : BufTy).Contents (Elt F)),
    unary main_arg0 main_v69 ((extractStridedSlice S32x2048x21x21 ![0, 0, 6, 11] · slices_S32x2048x32x32_S32x2048x21x21_0_0_6_11) : (⟨S32x2048x32x32, .f32⟩ : BufTy).Contents (Elt F) → (⟨S32x2048x21x21, .f32⟩ : BufTy).Contents (Elt F)),
    nullary main_cst_18 (constant S_ .f32 0xFF800000#32),
    binary main_v69 main_cst_18 main_v70 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v70) (TRef.of (T := ⟨S32x2048, .f32⟩) main_v70) main_call9.v0 mulf,
    TRef.nullary main_call9.cst (constant S_ .f32 0x00000000#32),
    TRef.binary main_call9.v0 main_call9.cst main_call9.v1 (fun x v => Host.reduceAdd x v reducesTo_S32x2048_S32_d1 h_S_),
    TRef.unary main_call9.v1 main_call9.v2 (broadcastInDim S32x1 ![0] bcast_S32_S32x1_0),
    TRef.unary main_call9.v2 main_call9.v3 Host.sqrt,
    nullary main_cst_19 (constant S_ .f32 0x358637BD#32),
    unary main_cst_19 main_v72 (broadcastInDim S32x1 ![] bcast_S_S32x1 : (⟨S_, .f32⟩ : BufTy).Contents (Elt F) → (⟨S32x1, .f32⟩ : BufTy).Contents (Elt F)),
    binary main_v71 main_v72 main_v73 (addf : (⟨S32x1, .f32⟩ : BufTy).Contents (Elt F) → (⟨S32x1, .f32⟩ : BufTy).Contents (Elt F) → (⟨S32x1, .f32⟩ : BufTy).Contents (Elt F)),
    unary main_v73 main_v74 (broadcastInDim S32x2048 ![0, 1] bcast_S32x1_S32x2048_0_1 : (⟨S32x1, .f32⟩ : BufTy).Contents (Elt F) → (⟨S32x2048, .f32⟩ : BufTy).Contents (Elt F)),
    binary main_v70 main_v74 main_v75 (Host.divf : (⟨S32x2048, .f32⟩ : BufTy).Contents (Elt F) → (⟨S32x2048, .f32⟩ : BufTy).Contents (Elt F) → (⟨S32x2048, .f32⟩ : BufTy).Contents (Elt F)),
    binary main_v68 main_v75 main_v76 (addf : (⟨S32x2048, .f32⟩ : BufTy).Contents (Elt F) → (⟨S32x2048, .f32⟩ : BufTy).Contents (Elt F) → (⟨S32x2048, .f32⟩ : BufTy).Contents (Elt F)),
    unary main_arg0 main_v77 ((extractStridedSlice S32x2048x21x21 ![0, 0, 11, 0] · slices_S32x2048x32x32_S32x2048x21x21_0_0_11_0) : (⟨S32x2048x32x32, .f32⟩ : BufTy).Contents (Elt F) → (⟨S32x2048x21x21, .f32⟩ : BufTy).Contents (Elt F)),
    nullary main_cst_20 (constant S_ .f32 0xFF800000#32),
    binary main_v77 main_cst_20 main_v78 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v78) (TRef.of (T := ⟨S32x2048, .f32⟩) main_v78) main_call10.v0 mulf,
    TRef.nullary main_call10.cst (constant S_ .f32 0x00000000#32),
    TRef.binary main_call10.v0 main_call10.cst main_call10.v1 (fun x v => Host.reduceAdd x v reducesTo_S32x2048_S32_d1 h_S_),
    TRef.unary main_call10.v1 main_call10.v2 (broadcastInDim S32x1 ![0] bcast_S32_S32x1_0),
    TRef.unary main_call10.v2 main_call10.v3 Host.sqrt,
    nullary main_cst_21 (constant S_ .f32 0x358637BD#32),
    unary main_cst_21 main_v80 (broadcastInDim S32x1 ![] bcast_S_S32x1 : (⟨S_, .f32⟩ : BufTy).Contents (Elt F) → (⟨S32x1, .f32⟩ : BufTy).Contents (Elt F)),
    binary main_v79 main_v80 main_v81 (addf : (⟨S32x1, .f32⟩ : BufTy).Contents (Elt F) → (⟨S32x1, .f32⟩ : BufTy).Contents (Elt F) → (⟨S32x1, .f32⟩ : BufTy).Contents (Elt F)),
    unary main_v81 main_v82 (broadcastInDim S32x2048 ![0, 1] bcast_S32x1_S32x2048_0_1 : (⟨S32x1, .f32⟩ : BufTy).Contents (Elt F) → (⟨S32x2048, .f32⟩ : BufTy).Contents (Elt F)),
    binary main_v78 main_v82 main_v83 (Host.divf : (⟨S32x2048, .f32⟩ : BufTy).Contents (Elt F) → (⟨S32x2048, .f32⟩ : BufTy).Contents (Elt F) → (⟨S32x2048, .f32⟩ : BufTy).Contents (Elt F)),
    binary main_v76 main_v83 main_v84 (addf : (⟨S32x2048, .f32⟩ : BufTy).Contents (Elt F) → (⟨S32x2048, .f32⟩ : BufTy).Contents (Elt F) → (⟨S32x2048, .f32⟩ : BufTy).Contents (Elt F)),
    unary main_arg0 main_v85 ((extractStridedSlice S32x2048x21x21 ![0, 0, 11, 6] · slices_S32x2048x32x32_S32x2048x21x21_0_0_11_6) : (⟨S32x2048x32x32, .f32⟩ : BufTy).Contents (Elt F) → (⟨S32x2048x21x21, .f32⟩ : BufTy).Contents (Elt F)),
    nullary main_cst_22 (constant S_ .f32 0xFF800000#32),
    binary main_v85 main_cst_22 main_v86 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v86) (TRef.of (T := ⟨S32x2048, .f32⟩) main_v86) main_call11.v0 mulf,
    TRef.nullary main_call11.cst (constant S_ .f32 0x00000000#32),
    TRef.binary main_call11.v0 main_call11.cst main_call11.v1 (fun x v => Host.reduceAdd x v reducesTo_S32x2048_S32_d1 h_S_),
    TRef.unary main_call11.v1 main_call11.v2 (broadcastInDim S32x1 ![0] bcast_S32_S32x1_0),
    TRef.unary main_call11.v2 main_call11.v3 Host.sqrt,
    nullary main_cst_23 (constant S_ .f32 0x358637BD#32),
    unary main_cst_23 main_v88 (broadcastInDim S32x1 ![] bcast_S_S32x1 : (⟨S_, .f32⟩ : BufTy).Contents (Elt F) → (⟨S32x1, .f32⟩ : BufTy).Contents (Elt F)),
    binary main_v87 main_v88 main_v89 (addf : (⟨S32x1, .f32⟩ : BufTy).Contents (Elt F) → (⟨S32x1, .f32⟩ : BufTy).Contents (Elt F) → (⟨S32x1, .f32⟩ : BufTy).Contents (Elt F)),
    unary main_v89 main_v90 (broadcastInDim S32x2048 ![0, 1] bcast_S32x1_S32x2048_0_1 : (⟨S32x1, .f32⟩ : BufTy).Contents (Elt F) → (⟨S32x2048, .f32⟩ : BufTy).Contents (Elt F)),
    binary main_v86 main_v90 main_v91 (Host.divf : (⟨S32x2048, .f32⟩ : BufTy).Contents (Elt F) → (⟨S32x2048, .f32⟩ : BufTy).Contents (Elt F) → (⟨S32x2048, .f32⟩ : BufTy).Contents (Elt F)),
    binary main_v84 main_v91 main_v92 (addf : (⟨S32x2048, .f32⟩ : BufTy).Contents (Elt F) → (⟨S32x2048, .f32⟩ : BufTy).Contents (Elt F) → (⟨S32x2048, .f32⟩ : BufTy).Contents (Elt F)),
    unary main_arg0 main_v93 ((extractStridedSlice S32x2048x21x21 ![0, 0, 11, 11] · slices_S32x2048x32x32_S32x2048x21x21_0_0_11_11) : (⟨S32x2048x32x32, .f32⟩ : BufTy).Contents (Elt F) → (⟨S32x2048x21x21, .f32⟩ : BufTy).Contents (Elt F)),
    nullary main_cst_24 (constant S_ .f32 0xFF800000#32) ]

set_option maxRecDepth 8192 in
set_option maxHeartbeats 8000000 in
/-- Window 1 of @main is the run of its operations one after the other. -/
theorem part1_eq (d : Dev nD) : main_part1 (F := F) d = seq ops1 := rfl

set_option maxRecDepth 8192 in
set_option maxHeartbeats 8000000 in
/-- Every operation of the window reads and writes TensorCore buffers only. -/
theorem ops1_sub : (ops1 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub ..⟩

end Cert.ReferenceIdeal.RefRun

end
-- ==== Proof.RefWindow2.lean ====
/-
  The reference program's statements, window 2 of 5 (60 statements of @main, 84 host operations once each call
  of the norm function stands as its body's five operations — the square of its argument, the zero, the sum of the squares over the
  channel axis, that sum as a column, its square root), as a LIST, and the window read as the run of that list in order.
-/
import proofs.«131176_j28467043238140_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The operations of window 2, in program order. -/
abbrev ops2 : List (HloOp τ sig (Elt F)) :=
  [ binary main_v93 main_cst_24 main_v94 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v94) (TRef.of (T := ⟨S32x2048, .f32⟩) main_v94) main_call12.v0 mulf,
    TRef.nullary main_call12.cst (constant S_ .f32 0x00000000#32),
    TRef.binary main_call12.v0 main_call12.cst main_call12.v1 (fun x v => Host.reduceAdd x v reducesTo_S32x2048_S32_d1 h_S_),
    TRef.unary main_call12.v1 main_call12.v2 (broadcastInDim S32x1 ![0] bcast_S32_S32x1_0),
    TRef.unary main_call12.v2 main_call12.v3 Host.sqrt,
    nullary main_cst_25 (constant S_ .f32 0x358637BD#32),
    unary main_cst_25 main_v96 (broadcastInDim S32x1 ![] bcast_S_S32x1 : (⟨S_, .f32⟩ : BufTy).Contents (Elt F) → (⟨S32x1, .f32⟩ : BufTy).Contents (Elt F)),
    binary main_v95 main_v96 main_v97 (addf : (⟨S32x1, .f32⟩ : BufTy).Contents (Elt F) → (⟨S32x1, .f32⟩ : BufTy).Contents (Elt F) → (⟨S32x1, .f32⟩ : BufTy).Contents (Elt F)),
    unary main_v97 main_v98 (broadcastInDim S32x2048 ![0, 1] bcast_S32x1_S32x2048_0_1 : (⟨S32x1, .f32⟩ : BufTy).Contents (Elt F) → (⟨S32x2048, .f32⟩ : BufTy).Contents (Elt F)),
    binary main_v94 main_v98 main_v99 (Host.divf : (⟨S32x2048, .f32⟩ : BufTy).Contents (Elt F) → (⟨S32x2048, .f32⟩ : BufTy).Contents (Elt F) → (⟨S32x2048, .f32⟩ : BufTy).Contents (Elt F)),
    binary main_v92 main_v99 main_v100 (addf : (⟨S32x2048, .f32⟩ : BufTy).Contents (Elt F) → (⟨S32x2048, .f32⟩ : BufTy).Contents (Elt F) → (⟨S32x2048, .f32⟩ : BufTy).Contents (Elt F)),
    unary main_arg0 main_v101 ((extractStridedSlice S32x2048x16x16 ![0, 0, 0, 0] · slices_S32x2048x32x32_S32x2048x16x16_0_0_0_0) : (⟨S32x2048x32x32, .f32⟩ : BufTy).Contents (Elt F) → (⟨S32x2048x16x16, .f32⟩ : BufTy).Contents (Elt F)),
    nullary main_cst_26 (constant S_ .f32 0xFF800000#32),
    binary main_v101 main_cst_26 main_v102 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v102) (TRef.of (T := ⟨S32x2048, .f32⟩) main_v102) main_call13.v0 mulf,
    TRef.nullary main_call13.cst (constant S_ .f32 0x00000000#32),
    TRef.binary main_call13.v0 main_call13.cst main_call13.v1 (fun x v => Host.reduceAdd x v reducesTo_S32x2048_S32_d1 h_S_),
    TRef.unary main_call13.v1 main_call13.v2 (broadcastInDim S32x1 ![0] bcast_S32_S32x1_0),
    TRef.unary main_call13.v2 main_call13.v3 Host.sqrt,
    nullary main_cst_27 (constant S_ .f32 0x358637BD#32),
    unary main_cst_27 main_v104 (broadcastInDim S32x1 ![] bcast_S_S32x1 : (⟨S_, .f32⟩ : BufTy).Contents (Elt F) → (⟨S32x1, .f32⟩ : BufTy).Contents (Elt F)),
    binary main_v103 main_v104 main_v105 (addf : (⟨S32x1, .f32⟩ : BufTy).Contents (Elt F) → (⟨S32x1, .f32⟩ : BufTy).Contents (Elt F) → (⟨S32x1, .f32⟩ : BufTy).Contents (Elt F)),
    unary main_v105 main_v106 (broadcastInDim S32x2048 ![0, 1] bcast_S32x1_S32x2048_0_1 : (⟨S32x1, .f32⟩ : BufTy).Contents (Elt F) → (⟨S32x2048, .f32⟩ : BufTy).Contents (Elt F)),
    binary main_v102 main_v106 main_v107 (Host.divf : (⟨S32x2048, .f32⟩ : BufTy).Contents (Elt F) → (⟨S32x2048, .f32⟩ : BufTy).Contents (Elt F) → (⟨S32x2048, .f32⟩ : BufTy).Contents (Elt F)),
    binary main_v100 main_v107 main_v108 (addf : (⟨S32x2048, .f32⟩ : BufTy).Contents (Elt F) → (⟨S32x2048, .f32⟩ : BufTy).Contents (Elt F) → (⟨S32x2048, .f32⟩ : BufTy).Contents (Elt F)),
    unary main_arg0 main_v109 ((extractStridedSlice S32x2048x16x16 ![0, 0, 0, 5] · slices_S32x2048x32x32_S32x2048x16x16_0_0_0_5) : (⟨S32x2048x32x32, .f32⟩ : BufTy).Contents (Elt F) → (⟨S32x2048x16x16, .f32⟩ : BufTy).Contents (Elt F)),
    nullary main_cst_28 (constant S_ .f32 0xFF800000#32),
    binary main_v109 main_cst_28 main_v110 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v110) (TRef.of (T := ⟨S32x2048, .f32⟩) main_v110) main_call14.v0 mulf,
    TRef.nullary main_call14.cst (constant S_ .f32 0x00000000#32),
    TRef.binary main_call14.v0 main_call14.cst main_call14.v1 (fun x v => Host.reduceAdd x v reducesTo_S32x2048_S32_d1 h_S_),
    TRef.unary main_call14.v1 main_call14.v2 (broadcastInDim S32x1 ![0] bcast_S32_S32x1_0),
    TRef.unary main_call14.v2 main_call14.v3 Host.sqrt,
    nullary main_cst_29 (constant S_ .f32 0x358637BD#32),
    unary main_cst_29 main_v112 (broadcastInDim S32x1 ![] bcast_S_S32x1 : (⟨S_, .f32⟩ : BufTy).Contents (Elt F) → (⟨S32x1, .f32⟩ : BufTy).Contents (Elt F)),
    binary main_v111 main_v112 main_v113 (addf : (⟨S32x1, .f32⟩ : BufTy).Contents (Elt F) → (⟨S32x1, .f32⟩ : BufTy).Contents (Elt F) → (⟨S32x1, .f32⟩ : BufTy).Contents (Elt F)),
    unary main_v113 main_v114 (broadcastInDim S32x2048 ![0, 1] bcast_S32x1_S32x2048_0_1 : (⟨S32x1, .f32⟩ : BufTy).Contents (Elt F) → (⟨S32x2048, .f32⟩ : BufTy).Contents (Elt F)),
    binary main_v110 main_v114 main_v115 (Host.divf : (⟨S32x2048, .f32⟩ : BufTy).Contents (Elt F) → (⟨S32x2048, .f32⟩ : BufTy).Contents (Elt F) → (⟨S32x2048, .f32⟩ : BufTy).Contents (Elt F)),
    binary main_v108 main_v115 main_v116 (addf : (⟨S32x2048, .f32⟩ : BufTy).Contents (Elt F) → (⟨S32x2048, .f32⟩ : BufTy).Contents (Elt F) → (⟨S32x2048, .f32⟩ : BufTy).Contents (Elt F)),
    unary main_arg0 main_v117 ((extractStridedSlice S32x2048x16x16 ![0, 0, 0, 11] · slices_S32x2048x32x32_S32x2048x16x16_0_0_0_11) : (⟨S32x2048x32x32, .f32⟩ : BufTy).Contents (Elt F) → (⟨S32x2048x16x16, .f32⟩ : BufTy).Contents (Elt F)),
    nullary main_cst_30 (constant S_ .f32 0xFF800000#32),
    binary main_v117 main_cst_30 main_v118 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v118) (TRef.of (T := ⟨S32x2048, .f32⟩) main_v118) main_call15.v0 mulf,
    TRef.nullary main_call15.cst (constant S_ .f32 0x00000000#32),
    TRef.binary main_call15.v0 main_call15.cst main_call15.v1 (fun x v => Host.reduceAdd x v reducesTo_S32x2048_S32_d1 h_S_),
    TRef.unary main_call15.v1 main_call15.v2 (broadcastInDim S32x1 ![0] bcast_S32_S32x1_0),
    TRef.unary main_call15.v2 main_call15.v3 Host.sqrt,
    nullary main_cst_31 (constant S_ .f32 0x358637BD#32),
    unary main_cst_31 main_v120 (broadcastInDim S32x1 ![] bcast_S_S32x1 : (⟨S_, .f32⟩ : BufTy).Contents (Elt F) → (⟨S32x1, .f32⟩ : BufTy).Contents (Elt F)),
    binary main_v119 main_v120 main_v121 (addf : (⟨S32x1, .f32⟩ : BufTy).Contents (Elt F) → (⟨S32x1, .f32⟩ : BufTy).Contents (Elt F) → (⟨S32x1, .f32⟩ : BufTy).Contents (Elt F)),
    unary main_v121 main_v122 (broadcastInDim S32x2048 ![0, 1] bcast_S32x1_S32x2048_0_1 : (⟨S32x1, .f32⟩ : BufTy).Contents (Elt F) → (⟨S32x2048, .f32⟩ : BufTy).Contents (Elt F)),
    binary main_v118 main_v122 main_v123 (Host.divf : (⟨S32x2048, .f32⟩ : BufTy).Contents (Elt F) → (⟨S32x2048, .f32⟩ : BufTy).Contents (Elt F) → (⟨S32x2048, .f32⟩ : BufTy).Contents (Elt F)),
    binary main_v116 main_v123 main_v124 (addf : (⟨S32x2048, .f32⟩ : BufTy).Contents (Elt F) → (⟨S32x2048, .f32⟩ : BufTy).Contents (Elt F) → (⟨S32x2048, .f32⟩ : BufTy).Contents (Elt F)),
    unary main_arg0 main_v125 ((extractStridedSlice S32x2048x16x16 ![0, 0, 0, 16] · slices_S32x2048x32x32_S32x2048x16x16_0_0_0_16) : (⟨S32x2048x32x32, .f32⟩ : BufTy).Contents (Elt F) → (⟨S32x2048x16x16, .f32⟩ : BufTy).Contents (Elt F)),
    nullary main_cst_32 (constant S_ .f32 0xFF800000#32),
    binary main_v125 main_cst_32 main_v126 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v126) (TRef.of (T := ⟨S32x2048, .f32⟩) main_v126) main_call16.v0 mulf,
    TRef.nullary main_call16.cst (constant S_ .f32 0x00000000#32),
    TRef.binary main_call16.v0 main_call16.cst main_call16.v1 (fun x v => Host.reduceAdd x v reducesTo_S32x2048_S32_d1 h_S_),
    TRef.unary main_call16.v1 main_call16.v2 (broadcastInDim S32x1 ![0] bcast_S32_S32x1_0),
    TRef.unary main_call16.v2 main_call16.v3 Host.sqrt,
    nullary main_cst_33 (constant S_ .f32 0x358637BD#32),
    unary main_cst_33 main_v128 (broadcastInDim S32x1 ![] bcast_S_S32x1 : (⟨S_, .f32⟩ : BufTy).Contents (Elt F) → (⟨S32x1, .f32⟩ : BufTy).Contents (Elt F)),
    binary main_v127 main_v128 main_v129 (addf : (⟨S32x1, .f32⟩ : BufTy).Contents (Elt F) → (⟨S32x1, .f32⟩ : BufTy).Contents (Elt F) → (⟨S32x1, .f32⟩ : BufTy).Contents (Elt F)),
    unary main_v129 main_v130 (broadcastInDim S32x2048 ![0, 1] bcast_S32x1_S32x2048_0_1 : (⟨S32x1, .f32⟩ : BufTy).Contents (Elt F) → (⟨S32x2048, .f32⟩ : BufTy).Contents (Elt F)),
    binary main_v126 main_v130 main_v131 (Host.divf : (⟨S32x2048, .f32⟩ : BufTy).Contents (Elt F) → (⟨S32x2048, .f32⟩ : BufTy).Contents (Elt F) → (⟨S32x2048, .f32⟩ : BufTy).Contents (Elt F)),
    binary main_v124 main_v131 main_v132 (addf : (⟨S32x2048, .f32⟩ : BufTy).Contents (Elt F) → (⟨S32x2048, .f32⟩ : BufTy).Contents (Elt F) → (⟨S32x2048, .f32⟩ : BufTy).Contents (Elt F)),
    unary main_arg0 main_v133 ((extractStridedSlice S32x2048x16x16 ![0, 0, 5, 0] · slices_S32x2048x32x32_S32x2048x16x16_0_0_5_0) : (⟨S32x2048x32x32, .f32⟩ : BufTy).Contents (Elt F) → (⟨S32x2048x16x16, .f32⟩ : BufTy).Contents (Elt F)),
    nullary main_cst_34 (constant S_ .f32 0xFF800000#32),
    binary main_v133 main_cst_34 main_v134 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v134) (TRef.of (T := ⟨S32x2048, .f32⟩) main_v134) main_call17.v0 mulf,
    TRef.nullary main_call17.cst (constant S_ .f32 0x00000000#32),
    TRef.binary main_call17.v0 main_call17.cst main_call17.v1 (fun x v => Host.reduceAdd x v reducesTo_S32x2048_S32_d1 h_S_),
    TRef.unary main_call17.v1 main_call17.v2 (broadcastInDim S32x1 ![0] bcast_S32_S32x1_0),
    TRef.unary main_call17.v2 main_call17.v3 Host.sqrt,
    nullary main_cst_35 (constant S_ .f32 0x358637BD#32),
    unary main_cst_35 main_v136 (broadcastInDim S32x1 ![] bcast_S_S32x1 : (⟨S_, .f32⟩ : BufTy).Contents (Elt F) → (⟨S32x1, .f32⟩ : BufTy).Contents (Elt F)),
    binary main_v135 main_v136 main_v137 (addf : (⟨S32x1, .f32⟩ : BufTy).Contents (Elt F) → (⟨S32x1, .f32⟩ : BufTy).Contents (Elt F) → (⟨S32x1, .f32⟩ : BufTy).Contents (Elt F)),
    unary main_v137 main_v138 (broadcastInDim S32x2048 ![0, 1] bcast_S32x1_S32x2048_0_1 : (⟨S32x1, .f32⟩ : BufTy).Contents (Elt F) → (⟨S32x2048, .f32⟩ : BufTy).Contents (Elt F)),
    binary main_v134 main_v138 main_v139 (Host.divf : (⟨S32x2048, .f32⟩ : BufTy).Contents (Elt F) → (⟨S32x2048, .f32⟩ : BufTy).Contents (Elt F) → (⟨S32x2048, .f32⟩ : BufTy).Contents (Elt F)),
    binary main_v132 main_v139 main_v140 (addf : (⟨S32x2048, .f32⟩ : BufTy).Contents (Elt F) → (⟨S32x2048, .f32⟩ : BufTy).Contents (Elt F) → (⟨S32x2048, .f32⟩ : BufTy).Contents (Elt F)),
    unary main_arg0 main_v141 ((extractStridedSlice S32x2048x16x16 ![0, 0, 5, 5] · slices_S32x2048x32x32_S32x2048x16x16_0_0_5_5) : (⟨S32x2048x32x32, .f32⟩ : BufTy).Contents (Elt F) → (⟨S32x2048x16x16, .f32⟩ : BufTy).Contents (Elt F)),
    nullary main_cst_36 (constant S_ .f32 0xFF800000#32) ]

set_option maxRecDepth 8192 in
set_option maxHeartbeats 8000000 in
/-- Window 2 of @main is the run of its operations one after the other. -/
theorem part2_eq (d : Dev nD) : main_part2 (F := F) d = seq ops2 := rfl

set_option maxRecDepth 8192 in
set_option maxHeartbeats 8000000 in
/-- Every operation of the window reads and writes TensorCore buffers only. -/
theorem ops2_sub : (ops2 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub ..⟩

end Cert.ReferenceIdeal.RefRun

end
-- ==== Proof.RefWindow3.lean ====
/-
  The reference program's statements, window 3 of 5 (60 statements of @main, 84 host operations once each call
  of the norm function stands as its body's five operations — the square of its argument, the zero, the sum of the squares over the
  channel axis, that sum as a column, its square root), as a LIST, and the window read as the run of that list in order.
-/
import proofs.«131176_j28467043238140_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The operations of window 3, in program order. -/
abbrev ops3 : List (HloOp τ sig (Elt F)) :=
  [ binary main_v141 main_cst_36 main_v142 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v142) (TRef.of (T := ⟨S32x2048, .f32⟩) main_v142) main_call18.v0 mulf,
    TRef.nullary main_call18.cst (constant S_ .f32 0x00000000#32),
    TRef.binary main_call18.v0 main_call18.cst main_call18.v1 (fun x v => Host.reduceAdd x v reducesTo_S32x2048_S32_d1 h_S_),
    TRef.unary main_call18.v1 main_call18.v2 (broadcastInDim S32x1 ![0] bcast_S32_S32x1_0),
    TRef.unary main_call18.v2 main_call18.v3 Host.sqrt,
    nullary main_cst_37 (constant S_ .f32 0x358637BD#32),
    unary main_cst_37 main_v144 (broadcastInDim S32x1 ![] bcast_S_S32x1 : (⟨S_, .f32⟩ : BufTy).Contents (Elt F) → (⟨S32x1, .f32⟩ : BufTy).Contents (Elt F)),
    binary main_v143 main_v144 main_v145 (addf : (⟨S32x1, .f32⟩ : BufTy).Contents (Elt F) → (⟨S32x1, .f32⟩ : BufTy).Contents (Elt F) → (⟨S32x1, .f32⟩ : BufTy).Contents (Elt F)),
    unary main_v145 main_v146 (broadcastInDim S32x2048 ![0, 1] bcast_S32x1_S32x2048_0_1 : (⟨S32x1, .f32⟩ : BufTy).Contents (Elt F) → (⟨S32x2048, .f32⟩ : BufTy).Contents (Elt F)),
    binary main_v142 main_v146 main_v147 (Host.divf : (⟨S32x2048, .f32⟩ : BufTy).Contents (Elt F) → (⟨S32x2048, .f32⟩ : BufTy).Contents (Elt F) → (⟨S32x2048, .f32⟩ : BufTy).Contents (Elt F)),
    binary main_v140 main_v147 main_v148 (addf : (⟨S32x2048, .f32⟩ : BufTy).Contents (Elt F) → (⟨S32x2048, .f32⟩ : BufTy).Contents (Elt F) → (⟨S32x2048, .f32⟩ : BufTy).Contents (Elt F)),
    unary main_arg0 main_v149 ((extractStridedSlice S32x2048x16x16 ![0, 0, 5, 11] · slices_S32x2048x32x32_S32x2048x16x16_0_0_5_11) : (⟨S32x2048x32x32, .f32⟩ : BufTy).Contents (Elt F) → (⟨S32x2048x16x16, .f32⟩ : BufTy).Contents (Elt F)),
    nullary main_cst_38 (constant S_ .f32 0xFF800000#32),
    binary main_v149 main_cst_38 main_v150 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v150) (TRef.of (T := ⟨S32x2048, .f32⟩) main_v150) main_call19.v0 mulf,
    TRef.nullary main_call19.cst (constant S_ .f32 0x00000000#32),
    TRef.binary main_call19.v0 main_call19.cst main_call19.v1 (fun x v => Host.reduceAdd x v reducesTo_S32x2048_S32_d1 h_S_),
    TRef.unary main_call19.v1 main_call19.v2 (broadcastInDim S32x1 ![0] bcast_S32_S32x1_0),
    TRef.unary main_call19.v2 main_call19.v3 Host.sqrt,
    nullary main_cst_39 (constant S_ .f32 0x358637BD#32),
    unary main_cst_39 main_v152 (broadcastInDim S32x1 ![] bcast_S_S32x1 : (⟨S_, .f32⟩ : BufTy).Contents (Elt F) → (⟨S32x1, .f32⟩ : BufTy).Contents (Elt F)),
    binary main_v151 main_v152 main_v153 (addf : (⟨S32x1, .f32⟩ : BufTy).Contents (Elt F) → (⟨S32x1, .f32⟩ : BufTy).Contents (Elt F) → (⟨S32x1, .f32⟩ : BufTy).Contents (Elt F)),
    unary main_v153 main_v154 (broadcastInDim S32x2048 ![0, 1] bcast_S32x1_S32x2048_0_1 : (⟨S32x1, .f32⟩ : BufTy).Contents (Elt F) → (⟨S32x2048, .f32⟩ : BufTy).Contents (Elt F)),
    binary main_v150 main_v154 main_v155 (Host.divf : (⟨S32x2048, .f32⟩ : BufTy).Contents (Elt F) → (⟨S32x2048, .f32⟩ : BufTy).Contents (Elt F) → (⟨S32x2048, .f32⟩ : BufTy).Contents (Elt F)),
    binary main_v148 main_v155 main_v156 (addf : (⟨S32x2048, .f32⟩ : BufTy).Contents (Elt F) → (⟨S32x2048, .f32⟩ : BufTy).Contents (Elt F) → (⟨S32x2048, .f32⟩ : BufTy).Contents (Elt F)),
    unary main_arg0 main_v157 ((extractStridedSlice S32x2048x16x16 ![0, 0, 5, 16] · slices_S32x2048x32x32_S32x2048x16x16_0_0_5_16) : (⟨S32x2048x32x32, .f32⟩ : BufTy).Contents (Elt F) → (⟨S32x2048x16x16, .f32⟩ : BufTy).Contents (Elt F)),
    nullary main_cst_40 (constant S_ .f32 0xFF800000#32),
    binary main_v157 main_cst_40 main_v158 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v158) (TRef.of (T := ⟨S32x2048, .f32⟩) main_v158) main_call20.v0 mulf,
    TRef.nullary main_call20.cst (constant S_ .f32 0x00000000#32),
    TRef.binary main_call20.v0 main_call20.cst main_call20.v1 (fun x v => Host.reduceAdd x v reducesTo_S32x2048_S32_d1 h_S_),
    TRef.unary main_call20.v1 main_call20.v2 (broadcastInDim S32x1 ![0] bcast_S32_S32x1_0),
    TRef.unary main_call20.v2 main_call20.v3 Host.sqrt,
    nullary main_cst_41 (constant S_ .f32 0x358637BD#32),
    unary main_cst_41 main_v160 (broadcastInDim S32x1 ![] bcast_S_S32x1 : (⟨S_, .f32⟩ : BufTy).Contents (Elt F) → (⟨S32x1, .f32⟩ : BufTy).Contents (Elt F)),
    binary main_v159 main_v160 main_v161 (addf : (⟨S32x1, .f32⟩ : BufTy).Contents (Elt F) → (⟨S32x1, .f32⟩ : BufTy).Contents (Elt F) → (⟨S32x1, .f32⟩ : BufTy).Contents (Elt F)),
    unary main_v161 main_v162 (broadcastInDim S32x2048 ![0, 1] bcast_S32x1_S32x2048_0_1 : (⟨S32x1, .f32⟩ : BufTy).Contents (Elt F) → (⟨S32x2048, .f32⟩ : BufTy).Contents (Elt F)),
    binary main_v158 main_v162 main_v163 (Host.divf : (⟨S32x2048, .f32⟩ : BufTy).Contents (Elt F) → (⟨S32x2048, .f32⟩ : BufTy).Contents (Elt F) → (⟨S32x2048, .f32⟩ : BufTy).Contents (Elt F)),
    binary main_v156 main_v163 main_v164 (addf : (⟨S32x2048, .f32⟩ : BufTy).Contents (Elt F) → (⟨S32x2048, .f32⟩ : BufTy).Contents (Elt F) → (⟨S32x2048, .f32⟩ : BufTy).Contents (Elt F)),
    unary main_arg0 main_v165 ((extractStridedSlice S32x2048x16x16 ![0, 0, 11, 0] · slices_S32x2048x32x32_S32x2048x16x16_0_0_11_0) : (⟨S32x2048x32x32, .f32⟩ : BufTy).Contents (Elt F) → (⟨S32x2048x16x16, .f32⟩ : BufTy).Contents (Elt F)),
    nullary main_cst_42 (constant S_ .f32 0xFF800000#32),
    binary main_v165 main_cst_42 main_v166 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v166) (TRef.of (T := ⟨S32x2048, .f32⟩) main_v166) main_call21.v0 mulf,
    TRef.nullary main_call21.cst (constant S_ .f32 0x00000000#32),
    TRef.binary main_call21.v0 main_call21.cst main_call21.v1 (fun x v => Host.reduceAdd x v reducesTo_S32x2048_S32_d1 h_S_),
    TRef.unary main_call21.v1 main_call21.v2 (broadcastInDim S32x1 ![0] bcast_S32_S32x1_0),
    TRef.unary main_call21.v2 main_call21.v3 Host.sqrt,
    nullary main_cst_43 (constant S_ .f32 0x358637BD#32),
    unary main_cst_43 main_v168 (broadcastInDim S32x1 ![] bcast_S_S32x1 : (⟨S_, .f32⟩ : BufTy).Contents (Elt F) → (⟨S32x1, .f32⟩ : BufTy).Contents (Elt F)),
    binary main_v167 main_v168 main_v169 (addf : (⟨S32x1, .f32⟩ : BufTy).Contents (Elt F) → (⟨S32x1, .f32⟩ : BufTy).Contents (Elt F) → (⟨S32x1, .f32⟩ : BufTy).Contents (Elt F)),
    unary main_v169 main_v170 (broadcastInDim S32x2048 ![0, 1] bcast_S32x1_S32x2048_0_1 : (⟨S32x1, .f32⟩ : BufTy).Contents (Elt F) → (⟨S32x2048, .f32⟩ : BufTy).Contents (Elt F)),
    binary main_v166 main_v170 main_v171 (Host.divf : (⟨S32x2048, .f32⟩ : BufTy).Contents (Elt F) → (⟨S32x2048, .f32⟩ : BufTy).Contents (Elt F) → (⟨S32x2048, .f32⟩ : BufTy).Contents (Elt F)),
    binary main_v164 main_v171 main_v172 (addf : (⟨S32x2048, .f32⟩ : BufTy).Contents (Elt F) → (⟨S32x2048, .f32⟩ : BufTy).Contents (Elt F) → (⟨S32x2048, .f32⟩ : BufTy).Contents (Elt F)),
    unary main_arg0 main_v173 ((extractStridedSlice S32x2048x16x16 ![0, 0, 11, 5] · slices_S32x2048x32x32_S32x2048x16x16_0_0_11_5) : (⟨S32x2048x32x32, .f32⟩ : BufTy).Contents (Elt F) → (⟨S32x2048x16x16, .f32⟩ : BufTy).Contents (Elt F)),
    nullary main_cst_44 (constant S_ .f32 0xFF800000#32),
    binary main_v173 main_cst_44 main_v174 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v174) (TRef.of (T := ⟨S32x2048, .f32⟩) main_v174) main_call22.v0 mulf,
    TRef.nullary main_call22.cst (constant S_ .f32 0x00000000#32),
    TRef.binary main_call22.v0 main_call22.cst main_call22.v1 (fun x v => Host.reduceAdd x v reducesTo_S32x2048_S32_d1 h_S_),
    TRef.unary main_call22.v1 main_call22.v2 (broadcastInDim S32x1 ![0] bcast_S32_S32x1_0),
    TRef.unary main_call22.v2 main_call22.v3 Host.sqrt,
    nullary main_cst_45 (constant S_ .f32 0x358637BD#32),
    unary main_cst_45 main_v176 (broadcastInDim S32x1 ![] bcast_S_S32x1 : (⟨S_, .f32⟩ : BufTy).Contents (Elt F) → (⟨S32x1, .f32⟩ : BufTy).Contents (Elt F)),
    binary main_v175 main_v176 main_v177 (addf : (⟨S32x1, .f32⟩ : BufTy).Contents (Elt F) → (⟨S32x1, .f32⟩ : BufTy).Contents (Elt F) → (⟨S32x1, .f32⟩ : BufTy).Contents (Elt F)),
    unary main_v177 main_v178 (broadcastInDim S32x2048 ![0, 1] bcast_S32x1_S32x2048_0_1 : (⟨S32x1, .f32⟩ : BufTy).Contents (Elt F) → (⟨S32x2048, .f32⟩ : BufTy).Contents (Elt F)),
    binary main_v174 main_v178 main_v179 (Host.divf : (⟨S32x2048, .f32⟩ : BufTy).Contents (Elt F) → (⟨S32x2048, .f32⟩ : BufTy).Contents (Elt F) → (⟨S32x2048, .f32⟩ : BufTy).Contents (Elt F)),
    binary main_v172 main_v179 main_v180 (addf : (⟨S32x2048, .f32⟩ : BufTy).Contents (Elt F) → (⟨S32x2048, .f32⟩ : BufTy).Contents (Elt F) → (⟨S32x2048, .f32⟩ : BufTy).Contents (Elt F)),
    unary main_arg0 main_v181 ((extractStridedSlice S32x2048x16x16 ![0, 0, 11, 11] · slices_S32x2048x32x32_S32x2048x16x16_0_0_11_11) : (⟨S32x2048x32x32, .f32⟩ : BufTy).Contents (Elt F) → (⟨S32x2048x16x16, .f32⟩ : BufTy).Contents (Elt F)),
    nullary main_cst_46 (constant S_ .f32 0xFF800000#32),
    binary main_v181 main_cst_46 main_v182 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v182) (TRef.of (T := ⟨S32x2048, .f32⟩) main_v182) main_call23.v0 mulf,
    TRef.nullary main_call23.cst (constant S_ .f32 0x00000000#32),
    TRef.binary main_call23.v0 main_call23.cst main_call23.v1 (fun x v => Host.reduceAdd x v reducesTo_S32x2048_S32_d1 h_S_),
    TRef.unary main_call23.v1 main_call23.v2 (broadcastInDim S32x1 ![0] bcast_S32_S32x1_0),
    TRef.unary main_call23.v2 main_call23.v3 Host.sqrt,
    nullary main_cst_47 (constant S_ .f32 0x358637BD#32),
    unary main_cst_47 main_v184 (broadcastInDim S32x1 ![] bcast_S_S32x1 : (⟨S_, .f32⟩ : BufTy).Contents (Elt F) → (⟨S32x1, .f32⟩ : BufTy).Contents (Elt F)),
    binary main_v183 main_v184 main_v185 (addf : (⟨S32x1, .f32⟩ : BufTy).Contents (Elt F) → (⟨S32x1, .f32⟩ : BufTy).Contents (Elt F) → (⟨S32x1, .f32⟩ : BufTy).Contents (Elt F)),
    unary main_v185 main_v186 (broadcastInDim S32x2048 ![0, 1] bcast_S32x1_S32x2048_0_1 : (⟨S32x1, .f32⟩ : BufTy).Contents (Elt F) → (⟨S32x2048, .f32⟩ : BufTy).Contents (Elt F)),
    binary main_v182 main_v186 main_v187 (Host.divf : (⟨S32x2048, .f32⟩ : BufTy).Contents (Elt F) → (⟨S32x2048, .f32⟩ : BufTy).Contents (Elt F) → (⟨S32x2048, .f32⟩ : BufTy).Contents (Elt F)),
    binary main_v180 main_v187 main_v188 (addf : (⟨S32x2048, .f32⟩ : BufTy).Contents (Elt F) → (⟨S32x2048, .f32⟩ : BufTy).Contents (Elt F) → (⟨S32x2048, .f32⟩ : BufTy).Contents (Elt F)),
    unary main_arg0 main_v189 ((extractStridedSlice S32x2048x16x16 ![0, 0, 11, 16] · slices_S32x2048x32x32_S32x2048x16x16_0_0_11_16) : (⟨S32x2048x32x32, .f32⟩ : BufTy).Contents (Elt F) → (⟨S32x2048x16x16, .f32⟩ : BufTy).Contents (Elt F)),
    nullary main_cst_48 (constant S_ .f32 0xFF800000#32) ]

set_option maxRecDepth 8192 in
set_option maxHeartbeats 8000000 in
/-- Window 3 of @main is the run of its operations one after the other. -/
theorem part3_eq (d : Dev nD) : main_part3 (F := F) d = seq ops3 := rfl

set_option maxRecDepth 8192 in
set_option maxHeartbeats 8000000 in
/-- Every operation of the window reads and writes TensorCore buffers only. -/
theorem ops3_sub : (ops3 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub ..⟩

end Cert.ReferenceIdeal.RefRun

end
-- ==== Proof.RefWindow4.lean ====
/-
  The reference program's statements, window 4 of 5 (55 statements of @main, 78 host operations once each call
  of the norm function stands as its body's five operations — the square of its argument, the zero, the sum of the squares over the
  channel axis, that sum as a column, its square root), as a LIST, and the window read as the run of that list in order.
-/
import proofs.«131176_j28467043238140_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The operations of window 4, in program order. -/
abbrev ops4 : List (HloOp τ sig (Elt F)) :=
  [ binary main_v189 main_cst_48 main_v190 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v190) (TRef.of (T := ⟨S32x2048, .f32⟩) main_v190) main_call24.v0 mulf,
    TRef.nullary main_call24.cst (constant S_ .f32 0x00000000#32),
    TRef.binary main_call24.v0 main_call24.cst main_call24.v1 (fun x v => Host.reduceAdd x v reducesTo_S32x2048_S32_d1 h_S_),
    TRef.unary main_call24.v1 main_call24.v2 (broadcastInDim S32x1 ![0] bcast_S32_S32x1_0),
    TRef.unary main_call24.v2 main_call24.v3 Host.sqrt,
    nullary main_cst_49 (constant S_ .f32 0x358637BD#32),
    unary main_cst_49 main_v192 (broadcastInDim S32x1 ![] bcast_S_S32x1 : (⟨S_, .f32⟩ : BufTy).Contents (Elt F) → (⟨S32x1, .f32⟩ : BufTy).Contents (Elt F)),
    binary main_v191 main_v192 main_v193 (addf : (⟨S32x1, .f32⟩ : BufTy).Contents (Elt F) → (⟨S32x1, .f32⟩ : BufTy).Contents (Elt F) → (⟨S32x1, .f32⟩ : BufTy).Contents (Elt F)),
    unary main_v193 main_v194 (broadcastInDim S32x2048 ![0, 1] bcast_S32x1_S32x2048_0_1 : (⟨S32x1, .f32⟩ : BufTy).Contents (Elt F) → (⟨S32x2048, .f32⟩ : BufTy).Contents (Elt F)),
    binary main_v190 main_v194 main_v195 (Host.divf : (⟨S32x2048, .f32⟩ : BufTy).Contents (Elt F) → (⟨S32x2048, .f32⟩ : BufTy).Contents (Elt F) → (⟨S32x2048, .f32⟩ : BufTy).Contents (Elt F)),
    binary main_v188 main_v195 main_v196 (addf : (⟨S32x2048, .f32⟩ : BufTy).Contents (Elt F) → (⟨S32x2048, .f32⟩ : BufTy).Contents (Elt F) → (⟨S32x2048, .f32⟩ : BufTy).Contents (Elt F)),
    unary main_arg0 main_v197 ((extractStridedSlice S32x2048x16x16 ![0, 0, 16, 0] · slices_S32x2048x32x32_S32x2048x16x16_0_0_16_0) : (⟨S32x2048x32x32, .f32⟩ : BufTy).Contents (Elt F) → (⟨S32x2048x16x16, .f32⟩ : BufTy).Contents (Elt F)),
    nullary main_cst_50 (constant S_ .f32 0xFF800000#32),
    binary main_v197 main_cst_50 main_v198 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v198) (TRef.of (T := ⟨S32x2048, .f32⟩) main_v198) main_call25.v0 mulf,
    TRef.nullary main_call25.cst (constant S_ .f32 0x00000000#32),
    TRef.binary main_call25.v0 main_call25.cst main_call25.v1 (fun x v => Host.reduceAdd x v reducesTo_S32x2048_S32_d1 h_S_),
    TRef.unary main_call25.v1 main_call25.v2 (broadcastInDim S32x1 ![0] bcast_S32_S32x1_0),
    TRef.unary main_call25.v2 main_call25.v3 Host.sqrt,
    nullary main_cst_51 (constant S_ .f32 0x358637BD#32),
    unary main_cst_51 main_v200 (broadcastInDim S32x1 ![] bcast_S_S32x1 : (⟨S_, .f32⟩ : BufTy).Contents (Elt F) → (⟨S32x1, .f32⟩ : BufTy).Contents (Elt F)),
    binary main_v199 main_v200 main_v201 (addf : (⟨S32x1, .f32⟩ : BufTy).Contents (Elt F) → (⟨S32x1, .f32⟩ : BufTy).Contents (Elt F) → (⟨S32x1, .f32⟩ : BufTy).Contents (Elt F)),
    unary main_v201 main_v202 (broadcastInDim S32x2048 ![0, 1] bcast_S32x1_S32x2048_0_1 : (⟨S32x1, .f32⟩ : BufTy).Contents (Elt F) → (⟨S32x2048, .f32⟩ : BufTy).Contents (Elt F)),
    binary main_v198 main_v202 main_v203 (Host.divf : (⟨S32x2048, .f32⟩ : BufTy).Contents (Elt F) → (⟨S32x2048, .f32⟩ : BufTy).Contents (Elt F) → (⟨S32x2048, .f32⟩ : BufTy).Contents (Elt F)),
    binary main_v196 main_v203 main_v204 (addf : (⟨S32x2048, .f32⟩ : BufTy).Contents (Elt F) → (⟨S32x2048, .f32⟩ : BufTy).Contents (Elt F) → (⟨S32x2048, .f32⟩ : BufTy).Contents (Elt F)),
    unary main_arg0 main_v205 ((extractStridedSlice S32x2048x16x16 ![0, 0, 16, 5] · slices_S32x2048x32x32_S32x2048x16x16_0_0_16_5) : (⟨S32x2048x32x32, .f32⟩ : BufTy).Contents (Elt F) → (⟨S32x2048x16x16, .f32⟩ : BufTy).Contents (Elt F)),
    nullary main_cst_52 (constant S_ .f32 0xFF800000#32),
    binary main_v205 main_cst_52 main_v206 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v206) (TRef.of (T := ⟨S32x2048, .f32⟩) main_v206) main_call26.v0 mulf,
    TRef.nullary main_call26.cst (constant S_ .f32 0x00000000#32),
    TRef.binary main_call26.v0 main_call26.cst main_call26.v1 (fun x v => Host.reduceAdd x v reducesTo_S32x2048_S32_d1 h_S_),
    TRef.unary main_call26.v1 main_call26.v2 (broadcastInDim S32x1 ![0] bcast_S32_S32x1_0),
    TRef.unary main_call26.v2 main_call26.v3 Host.sqrt,
    nullary main_cst_53 (constant S_ .f32 0x358637BD#32),
    unary main_cst_53 main_v208 (broadcastInDim S32x1 ![] bcast_S_S32x1 : (⟨S_, .f32⟩ : BufTy).Contents (Elt F) → (⟨S32x1, .f32⟩ : BufTy).Contents (Elt F)),
    binary main_v207 main_v208 main_v209 (addf : (⟨S32x1, .f32⟩ : BufTy).Contents (Elt F) → (⟨S32x1, .f32⟩ : BufTy).Contents (Elt F) → (⟨S32x1, .f32⟩ : BufTy).Contents (Elt F)),
    unary main_v209 main_v210 (broadcastInDim S32x2048 ![0, 1] bcast_S32x1_S32x2048_0_1 : (⟨S32x1, .f32⟩ : BufTy).Contents (Elt F) → (⟨S32x2048, .f32⟩ : BufTy).Contents (Elt F)),
    binary main_v206 main_v210 main_v211 (Host.divf : (⟨S32x2048, .f32⟩ : BufTy).Contents (Elt F) → (⟨S32x2048, .f32⟩ : BufTy).Contents (Elt F) → (⟨S32x2048, .f32⟩ : BufTy).Contents (Elt F)),
    binary main_v204 main_v211 main_v212 (addf : (⟨S32x2048, .f32⟩ : BufTy).Contents (Elt F) → (⟨S32x2048, .f32⟩ : BufTy).Contents (Elt F) → (⟨S32x2048, .f32⟩ : BufTy).Contents (Elt F)),
    unary main_arg0 main_v213 ((extractStridedSlice S32x2048x16x16 ![0, 0, 16, 11] · slices_S32x2048x32x32_S32x2048x16x16_0_0_16_11) : (⟨S32x2048x32x32, .f32⟩ : BufTy).Contents (Elt F) → (⟨S32x2048x16x16, .f32⟩ : BufTy).Contents (Elt F)),
    nullary main_cst_54 (constant S_ .f32 0xFF800000#32),
    binary main_v213 main_cst_54 main_v214 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v214) (TRef.of (T := ⟨S32x2048, .f32⟩) main_v214) main_call27.v0 mulf,
    TRef.nullary main_call27.cst (constant S_ .f32 0x00000000#32),
    TRef.binary main_call27.v0 main_call27.cst main_call27.v1 (fun x v => Host.reduceAdd x v reducesTo_S32x2048_S32_d1 h_S_),
    TRef.unary main_call27.v1 main_call27.v2 (broadcastInDim S32x1 ![0] bcast_S32_S32x1_0),
    TRef.unary main_call27.v2 main_call27.v3 Host.sqrt,
    nullary main_cst_55 (constant S_ .f32 0x358637BD#32),
    unary main_cst_55 main_v216 (broadcastInDim S32x1 ![] bcast_S_S32x1 : (⟨S_, .f32⟩ : BufTy).Contents (Elt F) → (⟨S32x1, .f32⟩ : BufTy).Contents (Elt F)),
    binary main_v215 main_v216 main_v217 (addf : (⟨S32x1, .f32⟩ : BufTy).Contents (Elt F) → (⟨S32x1, .f32⟩ : BufTy).Contents (Elt F) → (⟨S32x1, .f32⟩ : BufTy).Contents (Elt F)),
    unary main_v217 main_v218 (broadcastInDim S32x2048 ![0, 1] bcast_S32x1_S32x2048_0_1 : (⟨S32x1, .f32⟩ : BufTy).Contents (Elt F) → (⟨S32x2048, .f32⟩ : BufTy).Contents (Elt F)),
    binary main_v214 main_v218 main_v219 (Host.divf : (⟨S32x2048, .f32⟩ : BufTy).Contents (Elt F) → (⟨S32x2048, .f32⟩ : BufTy).Contents (Elt F) → (⟨S32x2048, .f32⟩ : BufTy).Contents (Elt F)),
    binary main_v212 main_v219 main_v220 (addf : (⟨S32x2048, .f32⟩ : BufTy).Contents (Elt F) → (⟨S32x2048, .f32⟩ : BufTy).Contents (Elt F) → (⟨S32x2048, .f32⟩ : BufTy).Contents (Elt F)),
    unary main_arg0 main_v221 ((extractStridedSlice S32x2048x16x16 ![0, 0, 16, 16] · slices_S32x2048x32x32_S32x2048x16x16_0_0_16_16) : (⟨S32x2048x32x32, .f32⟩ : BufTy).Contents (Elt F) → (⟨S32x2048x16x16, .f32⟩ : BufTy).Contents (Elt F)),
    nullary main_cst_56 (constant S_ .f32 0xFF800000#32),
    binary main_v221 main_cst_56 main_v222 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v222) (TRef.of (T := ⟨S32x2048, .f32⟩) main_v222) main_call28.v0 mulf,
    TRef.nullary main_call28.cst (constant S_ .f32 0x00000000#32),
    TRef.binary main_call28.v0 main_call28.cst main_call28.v1 (fun x v => Host.reduceAdd x v reducesTo_S32x2048_S32_d1 h_S_),
    TRef.unary main_call28.v1 main_call28.v2 (broadcastInDim S32x1 ![0] bcast_S32_S32x1_0),
    TRef.unary main_call28.v2 main_call28.v3 Host.sqrt,
    nullary main_cst_57 (constant S_ .f32 0x358637BD#32),
    unary main_cst_57 main_v224 (broadcastInDim S32x1 ![] bcast_S_S32x1 : (⟨S_, .f32⟩ : BufTy).Contents (Elt F) → (⟨S32x1, .f32⟩ : BufTy).Contents (Elt F)),
    binary main_v223 main_v224 main_v225 (addf : (⟨S32x1, .f32⟩ : BufTy).Contents (Elt F) → (⟨S32x1, .f32⟩ : BufTy).Contents (Elt F) → (⟨S32x1, .f32⟩ : BufTy).Contents (Elt F)),
    unary main_v225 main_v226 (broadcastInDim S32x2048 ![0, 1] bcast_S32x1_S32x2048_0_1 : (⟨S32x1, .f32⟩ : BufTy).Contents (Elt F) → (⟨S32x2048, .f32⟩ : BufTy).Contents (Elt F)),
    binary main_v222 main_v226 main_v227 (Host.divf : (⟨S32x2048, .f32⟩ : BufTy).Contents (Elt F) → (⟨S32x2048, .f32⟩ : BufTy).Contents (Elt F) → (⟨S32x2048, .f32⟩ : BufTy).Contents (Elt F)),
    binary main_v220 main_v227 main_v228 (addf : (⟨S32x2048, .f32⟩ : BufTy).Contents (Elt F) → (⟨S32x2048, .f32⟩ : BufTy).Contents (Elt F) → (⟨S32x2048, .f32⟩ : BufTy).Contents (Elt F)),
    TRef.binary (TRef.of (T := ⟨S32x2048, .f32⟩) main_v228) (TRef.of (T := ⟨S32x2048, .f32⟩) main_v228) main_call29.v0 mulf,
    TRef.nullary main_call29.cst (constant S_ .f32 0x00000000#32),
    TRef.binary main_call29.v0 main_call29.cst main_call29.v1 (fun x v => Host.reduceAdd x v reducesTo_S32x2048_S32_d1 h_S_),
    TRef.unary main_call29.v1 main_call29.v2 (broadcastInDim S32x1 ![0] bcast_S32_S32x1_0),
    TRef.unary main_call29.v2 main_call29.v3 Host.sqrt,
    nullary main_cst_58 (constant S_ .f32 0x358637BD#32),
    unary main_cst_58 main_v230 (broadcastInDim S32x1 ![] bcast_S_S32x1 : (⟨S_, .f32⟩ : BufTy).Contents (Elt F) → (⟨S32x1, .f32⟩ : BufTy).Contents (Elt F)),
    binary main_v229 main_v230 main_v231 (addf : (⟨S32x1, .f32⟩ : BufTy).Contents (Elt F) → (⟨S32x1, .f32⟩ : BufTy).Contents (Elt F) → (⟨S32x1, .f32⟩ : BufTy).Contents (Elt F)),
    unary main_v231 main_v232 (broadcastInDim S32x2048 ![0, 1] bcast_S32x1_S32x2048_0_1 : (⟨S32x1, .f32⟩ : BufTy).Contents (Elt F) → (⟨S32x2048, .f32⟩ : BufTy).Contents (Elt F)),
    binary main_v228 main_v232 main_v233 (Host.divf : (⟨S32x2048, .f32⟩ : BufTy).Contents (Elt F) → (⟨S32x2048, .f32⟩ : BufTy).Contents (Elt F) → (⟨S32x2048, .f32⟩ : BufTy).Contents (Elt F)) ]

set_option maxRecDepth 8192 in
set_option maxHeartbeats 8000000 in
/-- Window 4 of @main is the run of its operations one after the other. -/
theorem part4_eq (d : Dev nD) : main_part4 (F := F) d = seq ops4 := rfl

set_option maxRecDepth 8192 in
set_option maxHeartbeats 8000000 in
/-- Every operation of the window reads and writes TensorCore buffers only. -/
theorem ops4_sub : (ops4 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

end Cert.ReferenceIdeal.RefRun

end
-- ==== Proof.RefRun.lean ====
/-
  The reference program's whole run. @main is its five windows in order, so its operations are the five windows' lists
  joined; the run of a joined list is the run of the first followed by the run of the second, and the buffers after it
  are the second list's effect on the first's. Every weakly fair execution of the reference therefore terminates, and
  ends with each TensorCore buffer holding the operations' effect, taken in program order, on its contents at launch.
-/
import proofs.«131176_j28467043238140_1_alg».proof.Proof.RefWindow0
import proofs.«131176_j28467043238140_1_alg».proof.Proof.RefWindow1
import proofs.«131176_j28467043238140_1_alg».proof.Proof.RefWindow2
import proofs.«131176_j28467043238140_1_alg».proof.Proof.RefWindow3
import proofs.«131176_j28467043238140_1_alg».proof.Proof.RefWindow4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers after two lines of operations run one after the other: the second line's effect on the first's. -/
theorem after_append {Val : EltTy → Type} {τ : Topo} {sig : RefSig} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- @main's operations: the five windows' lists, in order. -/
def ops : List (HloOp τ sig (Elt F)) := ops0 ++ (ops1 ++ (ops2 ++ (ops3 ++ ops4)))

/-- @main is the run of its operations one after the other. -/
theorem main_eq (d : Dev nD) : main (F := F) d = seq ops := by
  unfold main ops
  rw [seq_append, seq_append, seq_append, seq_append, part0_eq, part1_eq, part2_eq, part3_eq, part4_eq]

theorem scopedRefs_eq : (Finset.univ.filter fun b : Ref sig .tc => b.isScoped) = ∅ := by decide
theorem scopedSems_eq : (Finset.univ.filter fun sm : SemLoc sig => sm.isScoped .tc) = ∅ := by decide

/-- A property of every operation of each of five lists holds of every operation of the five joined. -/
theorem mem_five {α : Type} {p : α → Prop} {a b c d e : List α} (ha : ∀ x ∈ a, p x) (hb : ∀ x ∈ b, p x) (hc : ∀ x ∈ c, p x)
    (hd : ∀ x ∈ d, p x) (he : ∀ x ∈ e, p x) : ∀ x ∈ a ++ (b ++ (c ++ (d ++ e))), p x := by
  intro x h
  rcases List.mem_append.1 h with h | h
  · exact ha x h
  rcases List.mem_append.1 h with h | h
  · exact hb x h
  rcases List.mem_append.1 h with h | h
  · exact hc x h
  rcases List.mem_append.1 h with h | h
  · exact hd x h
  · exact he x h

/-- Every operation reads and writes TensorCore buffers only. -/
theorem ops_sub : (ops : List (HloOp τ sig (Elt F))).Forall fun op => op.bufs ⊆ tcRefs τ sig :=
  List.forall_iff_forall_mem.2 (mem_five (List.forall_iff_forall_mem.1 ops0_sub) (List.forall_iff_forall_mem.1 ops1_sub)
    (List.forall_iff_forall_mem.1 ops2_sub) (List.forall_iff_forall_mem.1 ops3_sub) (List.forall_iff_forall_mem.1 ops4_sub))

set_option maxRecDepth 8192 in
set_option maxHeartbeats 8000000 in
theorem ops0_fresh : ∀ op ∈ (ops0 : List (HloOp τ sig (Elt F))), op.fresh = ∅ := by intro _ h; (repeat (cases h with | head => rfl | tail _ h => ?_)); exact nomatch h
set_option maxRecDepth 8192 in
set_option maxHeartbeats 8000000 in
theorem ops1_fresh : ∀ op ∈ (ops1 : List (HloOp τ sig (Elt F))), op.fresh = ∅ := by intro _ h; (repeat (cases h with | head => rfl | tail _ h => ?_)); exact nomatch h
set_option maxRecDepth 8192 in
set_option maxHeartbeats 8000000 in
theorem ops2_fresh : ∀ op ∈ (ops2 : List (HloOp τ sig (Elt F))), op.fresh = ∅ := by intro _ h; (repeat (cases h with | head => rfl | tail _ h => ?_)); exact nomatch h
set_option maxRecDepth 8192 in
set_option maxHeartbeats 8000000 in
theorem ops3_fresh : ∀ op ∈ (ops3 : List (HloOp τ sig (Elt F))), op.fresh = ∅ := by intro _ h; (repeat (cases h with | head => rfl | tail _ h => ?_)); exact nomatch h
set_option maxRecDepth 8192 in
set_option maxHeartbeats 8000000 in
theorem ops4_fresh : ∀ op ∈ (ops4 : List (HloOp τ sig (Elt F))), op.fresh = ∅ := by intro _ h; (repeat (cases h with | head => rfl | tail _ h => ?_)); exact nomatch h

/-- Every operation determines its results: none allocates. -/
theorem ops_fresh : ∀ op ∈ (ops : List (HloOp τ sig (Elt F))), op.fresh = ∅ :=
  mem_five ops0_fresh ops1_fresh ops2_fresh ops3_fresh ops4_fresh

/-- On every device, from any memory with zero counters: every weakly fair execution of the reference terminates, and
    ends with each TensorCore buffer at the operations' effect, in order, on the contents at launch. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefFrame.lean ====
/-
  The reference never writes its argument: each of its operations writes its own result buffer, and none of those is the
  argument array, so the array's contents after all the operations are its contents at launch. With the run of the
  operations this is the reference's frame: it terminates without a fault and its argument ends unchanged.
-/
import proofs.«131176_j28467043238140_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- No operation of window 0 writes the argument array. -/
theorem ops0_keeps_arg (V : Valuation τ sig (Elt F)) :
    after ops0 V (Proc.devRef .tc main_arg0) = V (Proc.devRef .tc main_arg0) := by
  after_results_simp

set_option maxRecDepth 8192 in
set_option maxHeartbeats 8000000 in
/-- No operation of window 1 writes the argument array. -/
theorem ops1_keeps_arg (V : Valuation τ sig (Elt F)) :
    after ops1 V (Proc.devRef .tc main_arg0) = V (Proc.devRef .tc main_arg0) := by
  after_results_simp

set_option maxRecDepth 8192 in
set_option maxHeartbeats 8000000 in
/-- No operation of window 2 writes the argument array. -/
theorem ops2_keeps_arg (V : Valuation τ sig (Elt F)) :
    after ops2 V (Proc.devRef .tc main_arg0) = V (Proc.devRef .tc main_arg0) := by
  after_results_simp

set_option maxRecDepth 8192 in
set_option maxHeartbeats 8000000 in
/-- No operation of window 3 writes the argument array. -/
theorem ops3_keeps_arg (V : Valuation τ sig (Elt F)) :
    after ops3 V (Proc.devRef .tc main_arg0) = V (Proc.devRef .tc main_arg0) := by
  after_results_simp

set_option maxRecDepth 8192 in
set_option maxHeartbeats 8000000 in
/-- No operation of window 4 writes the argument array. -/
theorem ops4_keeps_arg (V : Valuation τ sig (Elt F)) :
    after ops4 V (Proc.devRef .tc main_arg0) = V (Proc.devRef .tc main_arg0) := by
  after_results_simp

/-- No operation of @main writes the argument array. -/
theorem ops_keeps_arg (V : Valuation τ sig (Elt F)) :
    after ops V (Proc.devRef .tc main_arg0) = V (Proc.devRef .tc main_arg0) := by
  unfold ops
  rw [after_append, after_append, after_append, after_append, ops4_keeps_arg, ops3_keeps_arg, ops2_keeps_arg,
    ops1_keeps_arg, ops0_keeps_arg]

/-- Every weakly fair execution of the reference terminates, without a fault, with the argument array as it was. -/
theorem run_keeps (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (ops_keeps_arg _)) (run_after m ρ)

end Cert.ReferenceIdeal.RefRun

end
-- ==== Proof.RefRegions.lean ====
/-
  The reference's operations grouped by region instead of by printed window: for each of the 29 regions the operations that
  take the region's maximum, normalize it and add it to the running sum (the first group also makes the zero the sum starts
  from), then the ten operations that normalize the sum. Joined in order the groups are the same list as the windows joined.
-/
import proofs.«131176_j28467043238140_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Region 1: corner (0, 0), side 32. -/
abbrev reg1 : List (HloOp τ sig (Elt F)) :=
  [ nullary main_cst (constant S_ .f32 0x00000000#32),
    unary main_cst main_v0 (broadcastInDim S32x2048 ![] bcast_S_S32x2048 : (⟨S_, .f32⟩ : BufTy).Contents (Elt F) → (⟨S32x2048, .f32⟩ : BufTy).Contents (Elt F)),
    nullary main_cst_0 (constant S_ .f32 0xFF800000#32),
    binary main_arg0 main_cst_0 main_v1 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v1) (TRef.of (T := ⟨S32x2048, .f32⟩) main_v1) main_call0.v0 mulf,
    TRef.nullary main_call0.cst (constant S_ .f32 0x00000000#32),
    TRef.binary main_call0.v0 main_call0.cst main_call0.v1 (fun x v => Host.reduceAdd x v reducesTo_S32x2048_S32_d1 h_S_),
    TRef.unary main_call0.v1 main_call0.v2 (broadcastInDim S32x1 ![0] bcast_S32_S32x1_0),
    TRef.unary main_call0.v2 main_call0.v3 Host.sqrt,
    nullary main_cst_1 (constant S_ .f32 0x358637BD#32),
    unary main_cst_1 main_v3 (broadcastInDim S32x1 ![] bcast_S_S32x1 : (⟨S_, .f32⟩ : BufTy).Contents (Elt F) → (⟨S32x1, .f32⟩ : BufTy).Contents (Elt F)),
    binary main_v2 main_v3 main_v4 (addf : (⟨S32x1, .f32⟩ : BufTy).Contents (Elt F) → (⟨S32x1, .f32⟩ : BufTy).Contents (Elt F) → (⟨S32x1, .f32⟩ : BufTy).Contents (Elt F)),
    unary main_v4 main_v5 (broadcastInDim S32x2048 ![0, 1] bcast_S32x1_S32x2048_0_1 : (⟨S32x1, .f32⟩ : BufTy).Contents (Elt F) → (⟨S32x2048, .f32⟩ : BufTy).Contents (Elt F)),
    binary main_v1 main_v5 main_v6 (Host.divf : (⟨S32x2048, .f32⟩ : BufTy).Contents (Elt F) → (⟨S32x2048, .f32⟩ : BufTy).Contents (Elt F) → (⟨S32x2048, .f32⟩ : BufTy).Contents (Elt F)),
    binary main_v0 main_v6 main_v7 (addf : (⟨S32x2048, .f32⟩ : BufTy).Contents (Elt F) → (⟨S32x2048, .f32⟩ : BufTy).Contents (Elt F) → (⟨S32x2048, .f32⟩ : BufTy).Contents (Elt F)) ]

/-- Region 2: corner (0, 0), side 32. -/
abbrev reg2 : List (HloOp τ sig (Elt F)) :=
  [ nullary main_cst_2 (constant S_ .f32 0xFF800000#32),
    binary main_arg0 main_cst_2 main_v8 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v8) (TRef.of (T := ⟨S32x2048, .f32⟩) main_v8) main_call1.v0 mulf,
    TRef.nullary main_call1.cst (constant S_ .f32 0x00000000#32),
    TRef.binary main_call1.v0 main_call1.cst main_call1.v1 (fun x v => Host.reduceAdd x v reducesTo_S32x2048_S32_d1 h_S_),
    TRef.unary main_call1.v1 main_call1.v2 (broadcastInDim S32x1 ![0] bcast_S32_S32x1_0),
    TRef.unary main_call1.v2 main_call1.v3 Host.sqrt,
    nullary main_cst_3 (constant S_ .f32 0x358637BD#32),
    unary main_cst_3 main_v10 (broadcastInDim S32x1 ![] bcast_S_S32x1 : (⟨S_, .f32⟩ : BufTy).Contents (Elt F) → (⟨S32x1, .f32⟩ : BufTy).Contents (Elt F)),
    binary main_v9 main_v10 main_v11 (addf : (⟨S32x1, .f32⟩ : BufTy).Contents (Elt F) → (⟨S32x1, .f32⟩ : BufTy).Contents (Elt F) → (⟨S32x1, .f32⟩ : BufTy).Contents (Elt F)),
    unary main_v11 main_v12 (broadcastInDim S32x2048 ![0, 1] bcast_S32x1_S32x2048_0_1 : (⟨S32x1, .f32⟩ : BufTy).Contents (Elt F) → (⟨S32x2048, .f32⟩ : BufTy).Contents (Elt F)),
    binary main_v8 main_v12 main_v13 (Host.divf : (⟨S32x2048, .f32⟩ : BufTy).Contents (Elt F) → (⟨S32x2048, .f32⟩ : BufTy).Contents (Elt F) → (⟨S32x2048, .f32⟩ : BufTy).Contents (Elt F)),
    binary main_v7 main_v13 main_v14 (addf : (⟨S32x2048, .f32⟩ : BufTy).Contents (Elt F) → (⟨S32x2048, .f32⟩ : BufTy).Contents (Elt F) → (⟨S32x2048, .f32⟩ : BufTy).Contents (Elt F)) ]

/-- Region 3: corner (0, 0), side 32. -/
abbrev reg3 : List (HloOp τ sig (Elt F)) :=
  [ nullary main_cst_4 (constant S_ .f32 0xFF800000#32),
    binary main_arg0 main_cst_4 main_v15 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v15) (TRef.of (T := ⟨S32x2048, .f32⟩) main_v15) main_call2.v0 mulf,
    TRef.nullary main_call2.cst (constant S_ .f32 0x00000000#32),
    TRef.binary main_call2.v0 main_call2.cst main_call2.v1 (fun x v => Host.reduceAdd x v reducesTo_S32x2048_S32_d1 h_S_),
    TRef.unary main_call2.v1 main_call2.v2 (broadcastInDim S32x1 ![0] bcast_S32_S32x1_0),
    TRef.unary main_call2.v2 main_call2.v3 Host.sqrt,
    nullary main_cst_5 (constant S_ .f32 0x358637BD#32),
    unary main_cst_5 main_v17 (broadcastInDim S32x1 ![] bcast_S_S32x1 : (⟨S_, .f32⟩ : BufTy).Contents (Elt F) → (⟨S32x1, .f32⟩ : BufTy).Contents (Elt F)),
    binary main_v16 main_v17 main_v18 (addf : (⟨S32x1, .f32⟩ : BufTy).Contents (Elt F) → (⟨S32x1, .f32⟩ : BufTy).Contents (Elt F) → (⟨S32x1, .f32⟩ : BufTy).Contents (Elt F)),
    unary main_v18 main_v19 (broadcastInDim S32x2048 ![0, 1] bcast_S32x1_S32x2048_0_1 : (⟨S32x1, .f32⟩ : BufTy).Contents (Elt F) → (⟨S32x2048, .f32⟩ : BufTy).Contents (Elt F)),
    binary main_v15 main_v19 main_v20 (Host.divf : (⟨S32x2048, .f32⟩ : BufTy).Contents (Elt F) → (⟨S32x2048, .f32⟩ : BufTy).Contents (Elt F) → (⟨S32x2048, .f32⟩ : BufTy).Contents (Elt F)),
    binary main_v14 main_v20 main_v21 (addf : (⟨S32x2048, .f32⟩ : BufTy).Contents (Elt F) → (⟨S32x2048, .f32⟩ : BufTy).Contents (Elt F) → (⟨S32x2048, .f32⟩ : BufTy).Contents (Elt F)) ]

/-- Region 4: corner (0, 0), side 32. -/
abbrev reg4 : List (HloOp τ sig (Elt F)) :=
  [ nullary main_cst_6 (constant S_ .f32 0xFF800000#32),
    binary main_arg0 main_cst_6 main_v22 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)),
    TRef.binary (TRef.of (T := ⟨S32x2048, .f32⟩) main_v22) (TRef.of (T := ⟨S32x2048, .f32⟩) main_v22) main_call3.v0 mulf,
    TRef.nullary main_call3.cst (constant S_ .f32 0x00000000#32),
    TRef.binary main_call3.v0 main_call3.cst main_call3.v1 (fun x v => Host.reduceAdd x v reducesTo_S32x2048_S32_d1 h_S_),
    TRef.unary main_call3.v1 main_call3.v2 (broadcastInDim S32x1 ![0] bcast_S32_S32x1_0),
    TRef.unary main_call3.v2 main_call3.v3 Host.sqrt,
    nullary main_cst_7 (constant S_ .f32 0x358637BD#32),
    unary main_cst_7 main_v24 (broadcastInDim S32x1 ![] bcast_S_S32x1 : (⟨S_, .f32⟩ : BufTy).Contents (Elt F) → (⟨S32x1, .f32⟩ : BufTy).Contents (Elt F)),
    binary main_v23 main_v24 main_v25 (addf : (⟨S32x1, .f32⟩ : BufTy).Contents (Elt F) → (⟨S32x1, .f32⟩ : BufTy).Contents (Elt F) → (⟨S32x1, .f32⟩ : BufTy).Contents (Elt F)),
    unary main_v25 main_v26 (broadcastInDim S32x2048 ![0, 1] bcast_S32x1_S32x2048_0_1 : (⟨S32x1, .f32⟩ : BufTy).Contents (Elt F) → (⟨S32x2048, .f32⟩ : BufTy).Contents (Elt F)),
    binary main_v22 main_v26 main_v27 (Host.divf : (⟨S32x2048, .f32⟩ : BufTy).Contents (Elt F) → (⟨S32x2048, .f32⟩ : BufTy).Contents (Elt F) → (⟨S32x2048, .f32⟩ : BufTy).Contents (Elt F)),
    binary main_v21 main_v27 main_v28 (addf : (⟨S32x2048, .f32⟩ : BufTy).Contents (Elt F) → (⟨S32x2048, .f32⟩ : BufTy).Contents (Elt F) → (⟨S32x2048, .f32⟩ : BufTy).Contents (Elt F)) ]

/-- Region 5: corner (0, 0), side 21. -/
abbrev reg5 : List (HloOp τ sig (Elt F)) :=
  [ unary main_arg0 main_v29 ((extractStridedSlice S32x2048x21x21 ![0, 0, 0, 0] · slices_S32x2048x32x32_S32x2048x21x21_0_0_0_0) : (⟨S32x2048x32x32, .f32⟩ : BufTy).Contents (Elt F) → (⟨S32x2048x21x21, .f32⟩ : BufTy).Contents (Elt F)),
    nullary main_cst_8 (constant S_ .f32 0xFF800000#32),
    binary main_v29 main_cst_8 main_v30 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v30) (TRef.of (T := ⟨S32x2048, .f32⟩) main_v30) main_call4.v0 mulf,
    TRef.nullary main_call4.cst (constant S_ .f32 0x00000000#32),
    TRef.binary main_call4.v0 main_call4.cst main_call4.v1 (fun x v => Host.reduceAdd x v reducesTo_S32x2048_S32_d1 h_S_),
    TRef.unary main_call4.v1 main_call4.v2 (broadcastInDim S32x1 ![0] bcast_S32_S32x1_0),
    TRef.unary main_call4.v2 main_call4.v3 Host.sqrt,
    nullary main_cst_9 (constant S_ .f32 0x358637BD#32),
    unary main_cst_9 main_v32 (broadcastInDim S32x1 ![] bcast_S_S32x1 : (⟨S_, .f32⟩ : BufTy).Contents (Elt F) → (⟨S32x1, .f32⟩ : BufTy).Contents (Elt F)),
    binary main_v31 main_v32 main_v33 (addf : (⟨S32x1, .f32⟩ : BufTy).Contents (Elt F) → (⟨S32x1, .f32⟩ : BufTy).Contents (Elt F) → (⟨S32x1, .f32⟩ : BufTy).Contents (Elt F)),
    unary main_v33 main_v34 (broadcastInDim S32x2048 ![0, 1] bcast_S32x1_S32x2048_0_1 : (⟨S32x1, .f32⟩ : BufTy).Contents (Elt F) → (⟨S32x2048, .f32⟩ : BufTy).Contents (Elt F)),
    binary main_v30 main_v34 main_v35 (Host.divf : (⟨S32x2048, .f32⟩ : BufTy).Contents (Elt F) → (⟨S32x2048, .f32⟩ : BufTy).Contents (Elt F) → (⟨S32x2048, .f32⟩ : BufTy).Contents (Elt F)),
    binary main_v28 main_v35 main_v36 (addf : (⟨S32x2048, .f32⟩ : BufTy).Contents (Elt F) → (⟨S32x2048, .f32⟩ : BufTy).Contents (Elt F) → (⟨S32x2048, .f32⟩ : BufTy).Contents (Elt F)) ]

/-- Region 6: corner (0, 6), side 21. -/
abbrev reg6 : List (HloOp τ sig (Elt F)) :=
  [ unary main_arg0 main_v37 ((extractStridedSlice S32x2048x21x21 ![0, 0, 0, 6] · slices_S32x2048x32x32_S32x2048x21x21_0_0_0_6) : (⟨S32x2048x32x32, .f32⟩ : BufTy).Contents (Elt F) → (⟨S32x2048x21x21, .f32⟩ : BufTy).Contents (Elt F)),
    nullary main_cst_10 (constant S_ .f32 0xFF800000#32),
    binary main_v37 main_cst_10 main_v38 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v38) (TRef.of (T := ⟨S32x2048, .f32⟩) main_v38) main_call5.v0 mulf,
    TRef.nullary main_call5.cst (constant S_ .f32 0x00000000#32),
    TRef.binary main_call5.v0 main_call5.cst main_call5.v1 (fun x v => Host.reduceAdd x v reducesTo_S32x2048_S32_d1 h_S_),
    TRef.unary main_call5.v1 main_call5.v2 (broadcastInDim S32x1 ![0] bcast_S32_S32x1_0),
    TRef.unary main_call5.v2 main_call5.v3 Host.sqrt,
    nullary main_cst_11 (constant S_ .f32 0x358637BD#32),
    unary main_cst_11 main_v40 (broadcastInDim S32x1 ![] bcast_S_S32x1 : (⟨S_, .f32⟩ : BufTy).Contents (Elt F) → (⟨S32x1, .f32⟩ : BufTy).Contents (Elt F)),
    binary main_v39 main_v40 main_v41 (addf : (⟨S32x1, .f32⟩ : BufTy).Contents (Elt F) → (⟨S32x1, .f32⟩ : BufTy).Contents (Elt F) → (⟨S32x1, .f32⟩ : BufTy).Contents (Elt F)),
    unary main_v41 main_v42 (broadcastInDim S32x2048 ![0, 1] bcast_S32x1_S32x2048_0_1 : (⟨S32x1, .f32⟩ : BufTy).Contents (Elt F) → (⟨S32x2048, .f32⟩ : BufTy).Contents (Elt F)),
    binary main_v38 main_v42 main_v43 (Host.divf : (⟨S32x2048, .f32⟩ : BufTy).Contents (Elt F) → (⟨S32x2048, .f32⟩ : BufTy).Contents (Elt F) → (⟨S32x2048, .f32⟩ : BufTy).Contents (Elt F)),
    binary main_v36 main_v43 main_v44 (addf : (⟨S32x2048, .f32⟩ : BufTy).Contents (Elt F) → (⟨S32x2048, .f32⟩ : BufTy).Contents (Elt F) → (⟨S32x2048, .f32⟩ : BufTy).Contents (Elt F)) ]

/-- Region 7: corner (0, 11), side 21. -/
abbrev reg7 : List (HloOp τ sig (Elt F)) :=
  [ unary main_arg0 main_v45 ((extractStridedSlice S32x2048x21x21 ![0, 0, 0, 11] · slices_S32x2048x32x32_S32x2048x21x21_0_0_0_11) : (⟨S32x2048x32x32, .f32⟩ : BufTy).Contents (Elt F) → (⟨S32x2048x21x21, .f32⟩ : BufTy).Contents (Elt F)),
    nullary main_cst_12 (constant S_ .f32 0xFF800000#32),
    binary main_v45 main_cst_12 main_v46 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v46) (TRef.of (T := ⟨S32x2048, .f32⟩) main_v46) main_call6.v0 mulf,
    TRef.nullary main_call6.cst (constant S_ .f32 0x00000000#32),
    TRef.binary main_call6.v0 main_call6.cst main_call6.v1 (fun x v => Host.reduceAdd x v reducesTo_S32x2048_S32_d1 h_S_),
    TRef.unary main_call6.v1 main_call6.v2 (broadcastInDim S32x1 ![0] bcast_S32_S32x1_0),
    TRef.unary main_call6.v2 main_call6.v3 Host.sqrt,
    nullary main_cst_13 (constant S_ .f32 0x358637BD#32),
    unary main_cst_13 main_v48 (broadcastInDim S32x1 ![] bcast_S_S32x1 : (⟨S_, .f32⟩ : BufTy).Contents (Elt F) → (⟨S32x1, .f32⟩ : BufTy).Contents (Elt F)),
    binary main_v47 main_v48 main_v49 (addf : (⟨S32x1, .f32⟩ : BufTy).Contents (Elt F) → (⟨S32x1, .f32⟩ : BufTy).Contents (Elt F) → (⟨S32x1, .f32⟩ : BufTy).Contents (Elt F)),
    unary main_v49 main_v50 (broadcastInDim S32x2048 ![0, 1] bcast_S32x1_S32x2048_0_1 : (⟨S32x1, .f32⟩ : BufTy).Contents (Elt F) → (⟨S32x2048, .f32⟩ : BufTy).Contents (Elt F)),
    binary main_v46 main_v50 main_v51 (Host.divf : (⟨S32x2048, .f32⟩ : BufTy).Contents (Elt F) → (⟨S32x2048, .f32⟩ : BufTy).Contents (Elt F) → (⟨S32x2048, .f32⟩ : BufTy).Contents (Elt F)),
    binary main_v44 main_v51 main_v52 (addf : (⟨S32x2048, .f32⟩ : BufTy).Contents (Elt F) → (⟨S32x2048, .f32⟩ : BufTy).Contents (Elt F) → (⟨S32x2048, .f32⟩ : BufTy).Contents (Elt F)) ]

/-- Region 8: corner (6, 0), side 21. -/
abbrev reg8 : List (HloOp τ sig (Elt F)) :=
  [ unary main_arg0 main_v53 ((extractStridedSlice S32x2048x21x21 ![0, 0, 6, 0] · slices_S32x2048x32x32_S32x2048x21x21_0_0_6_0) : (⟨S32x2048x32x32, .f32⟩ : BufTy).Contents (Elt F) → (⟨S32x2048x21x21, .f32⟩ : BufTy).Contents (Elt F)),
    nullary main_cst_14 (constant S_ .f32 0xFF800000#32),
    binary main_v53 main_cst_14 main_v54 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v54) (TRef.of (T := ⟨S32x2048, .f32⟩) main_v54) main_call7.v0 mulf,
    TRef.nullary main_call7.cst (constant S_ .f32 0x00000000#32),
    TRef.binary main_call7.v0 main_call7.cst main_call7.v1 (fun x v => Host.reduceAdd x v reducesTo_S32x2048_S32_d1 h_S_),
    TRef.unary main_call7.v1 main_call7.v2 (broadcastInDim S32x1 ![0] bcast_S32_S32x1_0),
    TRef.unary main_call7.v2 main_call7.v3 Host.sqrt,
    nullary main_cst_15 (constant S_ .f32 0x358637BD#32),
    unary main_cst_15 main_v56 (broadcastInDim S32x1 ![] bcast_S_S32x1 : (⟨S_, .f32⟩ : BufTy).Contents (Elt F) → (⟨S32x1, .f32⟩ : BufTy).Contents (Elt F)),
    binary main_v55 main_v56 main_v57 (addf : (⟨S32x1, .f32⟩ : BufTy).Contents (Elt F) → (⟨S32x1, .f32⟩ : BufTy).Contents (Elt F) → (⟨S32x1, .f32⟩ : BufTy).Contents (Elt F)),
    unary main_v57 main_v58 (broadcastInDim S32x2048 ![0, 1] bcast_S32x1_S32x2048_0_1 : (⟨S32x1, .f32⟩ : BufTy).Contents (Elt F) → (⟨S32x2048, .f32⟩ : BufTy).Contents (Elt F)),
    binary main_v54 main_v58 main_v59 (Host.divf : (⟨S32x2048, .f32⟩ : BufTy).Contents (Elt F) → (⟨S32x2048, .f32⟩ : BufTy).Contents (Elt F) → (⟨S32x2048, .f32⟩ : BufTy).Contents (Elt F)),
    binary main_v52 main_v59 main_v60 (addf : (⟨S32x2048, .f32⟩ : BufTy).Contents (Elt F) → (⟨S32x2048, .f32⟩ : BufTy).Contents (Elt F) → (⟨S32x2048, .f32⟩ : BufTy).Contents (Elt F)) ]

/-- Region 9: corner (6, 6), side 21. -/
abbrev reg9 : List (HloOp τ sig (Elt F)) :=
  [ unary main_arg0 main_v61 ((extractStridedSlice S32x2048x21x21 ![0, 0, 6, 6] · slices_S32x2048x32x32_S32x2048x21x21_0_0_6_6) : (⟨S32x2048x32x32, .f32⟩ : BufTy).Contents (Elt F) → (⟨S32x2048x21x21, .f32⟩ : BufTy).Contents (Elt F)),
    nullary main_cst_16 (constant S_ .f32 0xFF800000#32),
    binary main_v61 main_cst_16 main_v62 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v62) (TRef.of (T := ⟨S32x2048, .f32⟩) main_v62) main_call8.v0 mulf,
    TRef.nullary main_call8.cst (constant S_ .f32 0x00000000#32),
    TRef.binary main_call8.v0 main_call8.cst main_call8.v1 (fun x v => Host.reduceAdd x v reducesTo_S32x2048_S32_d1 h_S_),
    TRef.unary main_call8.v1 main_call8.v2 (broadcastInDim S32x1 ![0] bcast_S32_S32x1_0),
    TRef.unary main_call8.v2 main_call8.v3 Host.sqrt,
    nullary main_cst_17 (constant S_ .f32 0x358637BD#32),
    unary main_cst_17 main_v64 (broadcastInDim S32x1 ![] bcast_S_S32x1 : (⟨S_, .f32⟩ : BufTy).Contents (Elt F) → (⟨S32x1, .f32⟩ : BufTy).Contents (Elt F)),
    binary main_v63 main_v64 main_v65 (addf : (⟨S32x1, .f32⟩ : BufTy).Contents (Elt F) → (⟨S32x1, .f32⟩ : BufTy).Contents (Elt F) → (⟨S32x1, .f32⟩ : BufTy).Contents (Elt F)),
    unary main_v65 main_v66 (broadcastInDim S32x2048 ![0, 1] bcast_S32x1_S32x2048_0_1 : (⟨S32x1, .f32⟩ : BufTy).Contents (Elt F) → (⟨S32x2048, .f32⟩ : BufTy).Contents (Elt F)),
    binary main_v62 main_v66 main_v67 (Host.divf : (⟨S32x2048, .f32⟩ : BufTy).Contents (Elt F) → (⟨S32x2048, .f32⟩ : BufTy).Contents (Elt F) → (⟨S32x2048, .f32⟩ : BufTy).Contents (Elt F)),
    binary main_v60 main_v67 main_v68 (addf : (⟨S32x2048, .f32⟩ : BufTy).Contents (Elt F) → (⟨S32x2048, .f32⟩ : BufTy).Contents (Elt F) → (⟨S32x2048, .f32⟩ : BufTy).Contents (Elt F)) ]

/-- Region 10: corner (6, 11), side 21. -/
abbrev reg10 : List (HloOp τ sig (Elt F)) :=
  [ unary main_arg0 main_v69 ((extractStridedSlice S32x2048x21x21 ![0, 0, 6, 11] · slices_S32x2048x32x32_S32x2048x21x21_0_0_6_11) : (⟨S32x2048x32x32, .f32⟩ : BufTy).Contents (Elt F) → (⟨S32x2048x21x21, .f32⟩ : BufTy).Contents (Elt F)),
    nullary main_cst_18 (constant S_ .f32 0xFF800000#32),
    binary main_v69 main_cst_18 main_v70 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v70) (TRef.of (T := ⟨S32x2048, .f32⟩) main_v70) main_call9.v0 mulf,
    TRef.nullary main_call9.cst (constant S_ .f32 0x00000000#32),
    TRef.binary main_call9.v0 main_call9.cst main_call9.v1 (fun x v => Host.reduceAdd x v reducesTo_S32x2048_S32_d1 h_S_),
    TRef.unary main_call9.v1 main_call9.v2 (broadcastInDim S32x1 ![0] bcast_S32_S32x1_0),
    TRef.unary main_call9.v2 main_call9.v3 Host.sqrt,
    nullary main_cst_19 (constant S_ .f32 0x358637BD#32),
    unary main_cst_19 main_v72 (broadcastInDim S32x1 ![] bcast_S_S32x1 : (⟨S_, .f32⟩ : BufTy).Contents (Elt F) → (⟨S32x1, .f32⟩ : BufTy).Contents (Elt F)),
    binary main_v71 main_v72 main_v73 (addf : (⟨S32x1, .f32⟩ : BufTy).Contents (Elt F) → (⟨S32x1, .f32⟩ : BufTy).Contents (Elt F) → (⟨S32x1, .f32⟩ : BufTy).Contents (Elt F)),
    unary main_v73 main_v74 (broadcastInDim S32x2048 ![0, 1] bcast_S32x1_S32x2048_0_1 : (⟨S32x1, .f32⟩ : BufTy).Contents (Elt F) → (⟨S32x2048, .f32⟩ : BufTy).Contents (Elt F)),
    binary main_v70 main_v74 main_v75 (Host.divf : (⟨S32x2048, .f32⟩ : BufTy).Contents (Elt F) → (⟨S32x2048, .f32⟩ : BufTy).Contents (Elt F) → (⟨S32x2048, .f32⟩ : BufTy).Contents (Elt F)),
    binary main_v68 main_v75 main_v76 (addf : (⟨S32x2048, .f32⟩ : BufTy).Contents (Elt F) → (⟨S32x2048, .f32⟩ : BufTy).Contents (Elt F) → (⟨S32x2048, .f32⟩ : BufTy).Contents (Elt F)) ]

/-- Region 11: corner (11, 0), side 21. -/
abbrev reg11 : List (HloOp τ sig (Elt F)) :=
  [ unary main_arg0 main_v77 ((extractStridedSlice S32x2048x21x21 ![0, 0, 11, 0] · slices_S32x2048x32x32_S32x2048x21x21_0_0_11_0) : (⟨S32x2048x32x32, .f32⟩ : BufTy).Contents (Elt F) → (⟨S32x2048x21x21, .f32⟩ : BufTy).Contents (Elt F)),
    nullary main_cst_20 (constant S_ .f32 0xFF800000#32),
    binary main_v77 main_cst_20 main_v78 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v78) (TRef.of (T := ⟨S32x2048, .f32⟩) main_v78) main_call10.v0 mulf,
    TRef.nullary main_call10.cst (constant S_ .f32 0x00000000#32),
    TRef.binary main_call10.v0 main_call10.cst main_call10.v1 (fun x v => Host.reduceAdd x v reducesTo_S32x2048_S32_d1 h_S_),
    TRef.unary main_call10.v1 main_call10.v2 (broadcastInDim S32x1 ![0] bcast_S32_S32x1_0),
    TRef.unary main_call10.v2 main_call10.v3 Host.sqrt,
    nullary main_cst_21 (constant S_ .f32 0x358637BD#32),
    unary main_cst_21 main_v80 (broadcastInDim S32x1 ![] bcast_S_S32x1 : (⟨S_, .f32⟩ : BufTy).Contents (Elt F) → (⟨S32x1, .f32⟩ : BufTy).Contents (Elt F)),
    binary main_v79 main_v80 main_v81 (addf : (⟨S32x1, .f32⟩ : BufTy).Contents (Elt F) → (⟨S32x1, .f32⟩ : BufTy).Contents (Elt F) → (⟨S32x1, .f32⟩ : BufTy).Contents (Elt F)),
    unary main_v81 main_v82 (broadcastInDim S32x2048 ![0, 1] bcast_S32x1_S32x2048_0_1 : (⟨S32x1, .f32⟩ : BufTy).Contents (Elt F) → (⟨S32x2048, .f32⟩ : BufTy).Contents (Elt F)),
    binary main_v78 main_v82 main_v83 (Host.divf : (⟨S32x2048, .f32⟩ : BufTy).Contents (Elt F) → (⟨S32x2048, .f32⟩ : BufTy).Contents (Elt F) → (⟨S32x2048, .f32⟩ : BufTy).Contents (Elt F)),
    binary main_v76 main_v83 main_v84 (addf : (⟨S32x2048, .f32⟩ : BufTy).Contents (Elt F) → (⟨S32x2048, .f32⟩ : BufTy).Contents (Elt F) → (⟨S32x2048, .f32⟩ : BufTy).Contents (Elt F)) ]

/-- Region 12: corner (11, 6), side 21. -/
abbrev reg12 : List (HloOp τ sig (Elt F)) :=
  [ unary main_arg0 main_v85 ((extractStridedSlice S32x2048x21x21 ![0, 0, 11, 6] · slices_S32x2048x32x32_S32x2048x21x21_0_0_11_6) : (⟨S32x2048x32x32, .f32⟩ : BufTy).Contents (Elt F) → (⟨S32x2048x21x21, .f32⟩ : BufTy).Contents (Elt F)),
    nullary main_cst_22 (constant S_ .f32 0xFF800000#32),
    binary main_v85 main_cst_22 main_v86 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v86) (TRef.of (T := ⟨S32x2048, .f32⟩) main_v86) main_call11.v0 mulf,
    TRef.nullary main_call11.cst (constant S_ .f32 0x00000000#32),
    TRef.binary main_call11.v0 main_call11.cst main_call11.v1 (fun x v => Host.reduceAdd x v reducesTo_S32x2048_S32_d1 h_S_),
    TRef.unary main_call11.v1 main_call11.v2 (broadcastInDim S32x1 ![0] bcast_S32_S32x1_0),
    TRef.unary main_call11.v2 main_call11.v3 Host.sqrt,
    nullary main_cst_23 (constant S_ .f32 0x358637BD#32),
    unary main_cst_23 main_v88 (broadcastInDim S32x1 ![] bcast_S_S32x1 : (⟨S_, .f32⟩ : BufTy).Contents (Elt F) → (⟨S32x1, .f32⟩ : BufTy).Contents (Elt F)),
    binary main_v87 main_v88 main_v89 (addf : (⟨S32x1, .f32⟩ : BufTy).Contents (Elt F) → (⟨S32x1, .f32⟩ : BufTy).Contents (Elt F) → (⟨S32x1, .f32⟩ : BufTy).Contents (Elt F)),
    unary main_v89 main_v90 (broadcastInDim S32x2048 ![0, 1] bcast_S32x1_S32x2048_0_1 : (⟨S32x1, .f32⟩ : BufTy).Contents (Elt F) → (⟨S32x2048, .f32⟩ : BufTy).Contents (Elt F)),
    binary main_v86 main_v90 main_v91 (Host.divf : (⟨S32x2048, .f32⟩ : BufTy).Contents (Elt F) → (⟨S32x2048, .f32⟩ : BufTy).Contents (Elt F) → (⟨S32x2048, .f32⟩ : BufTy).Contents (Elt F)),
    binary main_v84 main_v91 main_v92 (addf : (⟨S32x2048, .f32⟩ : BufTy).Contents (Elt F) → (⟨S32x2048, .f32⟩ : BufTy).Contents (Elt F) → (⟨S32x2048, .f32⟩ : BufTy).Contents (Elt F)) ]

/-- Region 13: corner (11, 11), side 21. -/
abbrev reg13 : List (HloOp τ sig (Elt F)) :=
  [ unary main_arg0 main_v93 ((extractStridedSlice S32x2048x21x21 ![0, 0, 11, 11] · slices_S32x2048x32x32_S32x2048x21x21_0_0_11_11) : (⟨S32x2048x32x32, .f32⟩ : BufTy).Contents (Elt F) → (⟨S32x2048x21x21, .f32⟩ : BufTy).Contents (Elt F)),
    nullary main_cst_24 (constant S_ .f32 0xFF800000#32),
    binary main_v93 main_cst_24 main_v94 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)),
    TRef.binary (TRef.of (T := ⟨S32x2048, .f32⟩) main_v94) (TRef.of (T := ⟨S32x2048, .f32⟩) main_v94) main_call12.v0 mulf,
    TRef.nullary main_call12.cst (constant S_ .f32 0x00000000#32),
    TRef.binary main_call12.v0 main_call12.cst main_call12.v1 (fun x v => Host.reduceAdd x v reducesTo_S32x2048_S32_d1 h_S_),
    TRef.unary main_call12.v1 main_call12.v2 (broadcastInDim S32x1 ![0] bcast_S32_S32x1_0),
    TRef.unary main_call12.v2 main_call12.v3 Host.sqrt,
    nullary main_cst_25 (constant S_ .f32 0x358637BD#32),
    unary main_cst_25 main_v96 (broadcastInDim S32x1 ![] bcast_S_S32x1 : (⟨S_, .f32⟩ : BufTy).Contents (Elt F) → (⟨S32x1, .f32⟩ : BufTy).Contents (Elt F)),
    binary main_v95 main_v96 main_v97 (addf : (⟨S32x1, .f32⟩ : BufTy).Contents (Elt F) → (⟨S32x1, .f32⟩ : BufTy).Contents (Elt F) → (⟨S32x1, .f32⟩ : BufTy).Contents (Elt F)),
    unary main_v97 main_v98 (broadcastInDim S32x2048 ![0, 1] bcast_S32x1_S32x2048_0_1 : (⟨S32x1, .f32⟩ : BufTy).Contents (Elt F) → (⟨S32x2048, .f32⟩ : BufTy).Contents (Elt F)),
    binary main_v94 main_v98 main_v99 (Host.divf : (⟨S32x2048, .f32⟩ : BufTy).Contents (Elt F) → (⟨S32x2048, .f32⟩ : BufTy).Contents (Elt F) → (⟨S32x2048, .f32⟩ : BufTy).Contents (Elt F)),
    binary main_v92 main_v99 main_v100 (addf : (⟨S32x2048, .f32⟩ : BufTy).Contents (Elt F) → (⟨S32x2048, .f32⟩ : BufTy).Contents (Elt F) → (⟨S32x2048, .f32⟩ : BufTy).Contents (Elt F)) ]

/-- Region 14: corner (0, 0), side 16. -/
abbrev reg14 : List (HloOp τ sig (Elt F)) :=
  [ unary main_arg0 main_v101 ((extractStridedSlice S32x2048x16x16 ![0, 0, 0, 0] · slices_S32x2048x32x32_S32x2048x16x16_0_0_0_0) : (⟨S32x2048x32x32, .f32⟩ : BufTy).Contents (Elt F) → (⟨S32x2048x16x16, .f32⟩ : BufTy).Contents (Elt F)),
    nullary main_cst_26 (constant S_ .f32 0xFF800000#32),
    binary main_v101 main_cst_26 main_v102 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v102) (TRef.of (T := ⟨S32x2048, .f32⟩) main_v102) main_call13.v0 mulf,
    TRef.nullary main_call13.cst (constant S_ .f32 0x00000000#32),
    TRef.binary main_call13.v0 main_call13.cst main_call13.v1 (fun x v => Host.reduceAdd x v reducesTo_S32x2048_S32_d1 h_S_),
    TRef.unary main_call13.v1 main_call13.v2 (broadcastInDim S32x1 ![0] bcast_S32_S32x1_0),
    TRef.unary main_call13.v2 main_call13.v3 Host.sqrt,
    nullary main_cst_27 (constant S_ .f32 0x358637BD#32),
    unary main_cst_27 main_v104 (broadcastInDim S32x1 ![] bcast_S_S32x1 : (⟨S_, .f32⟩ : BufTy).Contents (Elt F) → (⟨S32x1, .f32⟩ : BufTy).Contents (Elt F)),
    binary main_v103 main_v104 main_v105 (addf : (⟨S32x1, .f32⟩ : BufTy).Contents (Elt F) → (⟨S32x1, .f32⟩ : BufTy).Contents (Elt F) → (⟨S32x1, .f32⟩ : BufTy).Contents (Elt F)),
    unary main_v105 main_v106 (broadcastInDim S32x2048 ![0, 1] bcast_S32x1_S32x2048_0_1 : (⟨S32x1, .f32⟩ : BufTy).Contents (Elt F) → (⟨S32x2048, .f32⟩ : BufTy).Contents (Elt F)),
    binary main_v102 main_v106 main_v107 (Host.divf : (⟨S32x2048, .f32⟩ : BufTy).Contents (Elt F) → (⟨S32x2048, .f32⟩ : BufTy).Contents (Elt F) → (⟨S32x2048, .f32⟩ : BufTy).Contents (Elt F)),
    binary main_v100 main_v107 main_v108 (addf : (⟨S32x2048, .f32⟩ : BufTy).Contents (Elt F) → (⟨S32x2048, .f32⟩ : BufTy).Contents (Elt F) → (⟨S32x2048, .f32⟩ : BufTy).Contents (Elt F)) ]

/-- Region 15: corner (0, 5), side 16. -/
abbrev reg15 : List (HloOp τ sig (Elt F)) :=
  [ unary main_arg0 main_v109 ((extractStridedSlice S32x2048x16x16 ![0, 0, 0, 5] · slices_S32x2048x32x32_S32x2048x16x16_0_0_0_5) : (⟨S32x2048x32x32, .f32⟩ : BufTy).Contents (Elt F) → (⟨S32x2048x16x16, .f32⟩ : BufTy).Contents (Elt F)),
    nullary main_cst_28 (constant S_ .f32 0xFF800000#32),
    binary main_v109 main_cst_28 main_v110 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v110) (TRef.of (T := ⟨S32x2048, .f32⟩) main_v110) main_call14.v0 mulf,
    TRef.nullary main_call14.cst (constant S_ .f32 0x00000000#32),
    TRef.binary main_call14.v0 main_call14.cst main_call14.v1 (fun x v => Host.reduceAdd x v reducesTo_S32x2048_S32_d1 h_S_),
    TRef.unary main_call14.v1 main_call14.v2 (broadcastInDim S32x1 ![0] bcast_S32_S32x1_0),
    TRef.unary main_call14.v2 main_call14.v3 Host.sqrt,
    nullary main_cst_29 (constant S_ .f32 0x358637BD#32),
    unary main_cst_29 main_v112 (broadcastInDim S32x1 ![] bcast_S_S32x1 : (⟨S_, .f32⟩ : BufTy).Contents (Elt F) → (⟨S32x1, .f32⟩ : BufTy).Contents (Elt F)),
    binary main_v111 main_v112 main_v113 (addf : (⟨S32x1, .f32⟩ : BufTy).Contents (Elt F) → (⟨S32x1, .f32⟩ : BufTy).Contents (Elt F) → (⟨S32x1, .f32⟩ : BufTy).Contents (Elt F)),
    unary main_v113 main_v114 (broadcastInDim S32x2048 ![0, 1] bcast_S32x1_S32x2048_0_1 : (⟨S32x1, .f32⟩ : BufTy).Contents (Elt F) → (⟨S32x2048, .f32⟩ : BufTy).Contents (Elt F)),
    binary main_v110 main_v114 main_v115 (Host.divf : (⟨S32x2048, .f32⟩ : BufTy).Contents (Elt F) → (⟨S32x2048, .f32⟩ : BufTy).Contents (Elt F) → (⟨S32x2048, .f32⟩ : BufTy).Contents (Elt F)),
    binary main_v108 main_v115 main_v116 (addf : (⟨S32x2048, .f32⟩ : BufTy).Contents (Elt F) → (⟨S32x2048, .f32⟩ : BufTy).Contents (Elt F) → (⟨S32x2048, .f32⟩ : BufTy).Contents (Elt F)) ]

/-- Region 16: corner (0, 11), side 16. -/
abbrev reg16 : List (HloOp τ sig (Elt F)) :=
  [ unary main_arg0 main_v117 ((extractStridedSlice S32x2048x16x16 ![0, 0, 0, 11] · slices_S32x2048x32x32_S32x2048x16x16_0_0_0_11) : (⟨S32x2048x32x32, .f32⟩ : BufTy).Contents (Elt F) → (⟨S32x2048x16x16, .f32⟩ : BufTy).Contents (Elt F)),
    nullary main_cst_30 (constant S_ .f32 0xFF800000#32),
    binary main_v117 main_cst_30 main_v118 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v118) (TRef.of (T := ⟨S32x2048, .f32⟩) main_v118) main_call15.v0 mulf,
    TRef.nullary main_call15.cst (constant S_ .f32 0x00000000#32),
    TRef.binary main_call15.v0 main_call15.cst main_call15.v1 (fun x v => Host.reduceAdd x v reducesTo_S32x2048_S32_d1 h_S_),
    TRef.unary main_call15.v1 main_call15.v2 (broadcastInDim S32x1 ![0] bcast_S32_S32x1_0),
    TRef.unary main_call15.v2 main_call15.v3 Host.sqrt,
    nullary main_cst_31 (constant S_ .f32 0x358637BD#32),
    unary main_cst_31 main_v120 (broadcastInDim S32x1 ![] bcast_S_S32x1 : (⟨S_, .f32⟩ : BufTy).Contents (Elt F) → (⟨S32x1, .f32⟩ : BufTy).Contents (Elt F)),
    binary main_v119 main_v120 main_v121 (addf : (⟨S32x1, .f32⟩ : BufTy).Contents (Elt F) → (⟨S32x1, .f32⟩ : BufTy).Contents (Elt F) → (⟨S32x1, .f32⟩ : BufTy).Contents (Elt F)),
    unary main_v121 main_v122 (broadcastInDim S32x2048 ![0, 1] bcast_S32x1_S32x2048_0_1 : (⟨S32x1, .f32⟩ : BufTy).Contents (Elt F) → (⟨S32x2048, .f32⟩ : BufTy).Contents (Elt F)),
    binary main_v118 main_v122 main_v123 (Host.divf : (⟨S32x2048, .f32⟩ : BufTy).Contents (Elt F) → (⟨S32x2048, .f32⟩ : BufTy).Contents (Elt F) → (⟨S32x2048, .f32⟩ : BufTy).Contents (Elt F)),
    binary main_v116 main_v123 main_v124 (addf : (⟨S32x2048, .f32⟩ : BufTy).Contents (Elt F) → (⟨S32x2048, .f32⟩ : BufTy).Contents (Elt F) → (⟨S32x2048, .f32⟩ : BufTy).Contents (Elt F)) ]

/-- Region 17: corner (0, 16), side 16. -/
abbrev reg17 : List (HloOp τ sig (Elt F)) :=
  [ unary main_arg0 main_v125 ((extractStridedSlice S32x2048x16x16 ![0, 0, 0, 16] · slices_S32x2048x32x32_S32x2048x16x16_0_0_0_16) : (⟨S32x2048x32x32, .f32⟩ : BufTy).Contents (Elt F) → (⟨S32x2048x16x16, .f32⟩ : BufTy).Contents (Elt F)),
    nullary main_cst_32 (constant S_ .f32 0xFF800000#32),
    binary main_v125 main_cst_32 main_v126 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v126) (TRef.of (T := ⟨S32x2048, .f32⟩) main_v126) main_call16.v0 mulf,
    TRef.nullary main_call16.cst (constant S_ .f32 0x00000000#32),
    TRef.binary main_call16.v0 main_call16.cst main_call16.v1 (fun x v => Host.reduceAdd x v reducesTo_S32x2048_S32_d1 h_S_),
    TRef.unary main_call16.v1 main_call16.v2 (broadcastInDim S32x1 ![0] bcast_S32_S32x1_0),
    TRef.unary main_call16.v2 main_call16.v3 Host.sqrt,
    nullary main_cst_33 (constant S_ .f32 0x358637BD#32),
    unary main_cst_33 main_v128 (broadcastInDim S32x1 ![] bcast_S_S32x1 : (⟨S_, .f32⟩ : BufTy).Contents (Elt F) → (⟨S32x1, .f32⟩ : BufTy).Contents (Elt F)),
    binary main_v127 main_v128 main_v129 (addf : (⟨S32x1, .f32⟩ : BufTy).Contents (Elt F) → (⟨S32x1, .f32⟩ : BufTy).Contents (Elt F) → (⟨S32x1, .f32⟩ : BufTy).Contents (Elt F)),
    unary main_v129 main_v130 (broadcastInDim S32x2048 ![0, 1] bcast_S32x1_S32x2048_0_1 : (⟨S32x1, .f32⟩ : BufTy).Contents (Elt F) → (⟨S32x2048, .f32⟩ : BufTy).Contents (Elt F)),
    binary main_v126 main_v130 main_v131 (Host.divf : (⟨S32x2048, .f32⟩ : BufTy).Contents (Elt F) → (⟨S32x2048, .f32⟩ : BufTy).Contents (Elt F) → (⟨S32x2048, .f32⟩ : BufTy).Contents (Elt F)),
    binary main_v124 main_v131 main_v132 (addf : (⟨S32x2048, .f32⟩ : BufTy).Contents (Elt F) → (⟨S32x2048, .f32⟩ : BufTy).Contents (Elt F) → (⟨S32x2048, .f32⟩ : BufTy).Contents (Elt F)) ]

/-- Region 18: corner (5, 0), side 16. -/
abbrev reg18 : List (HloOp τ sig (Elt F)) :=
  [ unary main_arg0 main_v133 ((extractStridedSlice S32x2048x16x16 ![0, 0, 5, 0] · slices_S32x2048x32x32_S32x2048x16x16_0_0_5_0) : (⟨S32x2048x32x32, .f32⟩ : BufTy).Contents (Elt F) → (⟨S32x2048x16x16, .f32⟩ : BufTy).Contents (Elt F)),
    nullary main_cst_34 (constant S_ .f32 0xFF800000#32),
    binary main_v133 main_cst_34 main_v134 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v134) (TRef.of (T := ⟨S32x2048, .f32⟩) main_v134) main_call17.v0 mulf,
    TRef.nullary main_call17.cst (constant S_ .f32 0x00000000#32),
    TRef.binary main_call17.v0 main_call17.cst main_call17.v1 (fun x v => Host.reduceAdd x v reducesTo_S32x2048_S32_d1 h_S_),
    TRef.unary main_call17.v1 main_call17.v2 (broadcastInDim S32x1 ![0] bcast_S32_S32x1_0),
    TRef.unary main_call17.v2 main_call17.v3 Host.sqrt,
    nullary main_cst_35 (constant S_ .f32 0x358637BD#32),
    unary main_cst_35 main_v136 (broadcastInDim S32x1 ![] bcast_S_S32x1 : (⟨S_, .f32⟩ : BufTy).Contents (Elt F) → (⟨S32x1, .f32⟩ : BufTy).Contents (Elt F)),
    binary main_v135 main_v136 main_v137 (addf : (⟨S32x1, .f32⟩ : BufTy).Contents (Elt F) → (⟨S32x1, .f32⟩ : BufTy).Contents (Elt F) → (⟨S32x1, .f32⟩ : BufTy).Contents (Elt F)),
    unary main_v137 main_v138 (broadcastInDim S32x2048 ![0, 1] bcast_S32x1_S32x2048_0_1 : (⟨S32x1, .f32⟩ : BufTy).Contents (Elt F) → (⟨S32x2048, .f32⟩ : BufTy).Contents (Elt F)),
    binary main_v134 main_v138 main_v139 (Host.divf : (⟨S32x2048, .f32⟩ : BufTy).Contents (Elt F) → (⟨S32x2048, .f32⟩ : BufTy).Contents (Elt F) → (⟨S32x2048, .f32⟩ : BufTy).Contents (Elt F)),
    binary main_v132 main_v139 main_v140 (addf : (⟨S32x2048, .f32⟩ : BufTy).Contents (Elt F) → (⟨S32x2048, .f32⟩ : BufTy).Contents (Elt F) → (⟨S32x2048, .f32⟩ : BufTy).Contents (Elt F)) ]

/-- Region 19: corner (5, 5), side 16. -/
abbrev reg19 : List (HloOp τ sig (Elt F)) :=
  [ unary main_arg0 main_v141 ((extractStridedSlice S32x2048x16x16 ![0, 0, 5, 5] · slices_S32x2048x32x32_S32x2048x16x16_0_0_5_5) : (⟨S32x2048x32x32, .f32⟩ : BufTy).Contents (Elt F) → (⟨S32x2048x16x16, .f32⟩ : BufTy).Contents (Elt F)),
    nullary main_cst_36 (constant S_ .f32 0xFF800000#32),
    binary main_v141 main_cst_36 main_v142 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v142) (TRef.of (T := ⟨S32x2048, .f32⟩) main_v142) main_call18.v0 mulf,
    TRef.nullary main_call18.cst (constant S_ .f32 0x00000000#32),
    TRef.binary main_call18.v0 main_call18.cst main_call18.v1 (fun x v => Host.reduceAdd x v reducesTo_S32x2048_S32_d1 h_S_),
    TRef.unary main_call18.v1 main_call18.v2 (broadcastInDim S32x1 ![0] bcast_S32_S32x1_0),
    TRef.unary main_call18.v2 main_call18.v3 Host.sqrt,
    nullary main_cst_37 (constant S_ .f32 0x358637BD#32),
    unary main_cst_37 main_v144 (broadcastInDim S32x1 ![] bcast_S_S32x1 : (⟨S_, .f32⟩ : BufTy).Contents (Elt F) → (⟨S32x1, .f32⟩ : BufTy).Contents (Elt F)),
    binary main_v143 main_v144 main_v145 (addf : (⟨S32x1, .f32⟩ : BufTy).Contents (Elt F) → (⟨S32x1, .f32⟩ : BufTy).Contents (Elt F) → (⟨S32x1, .f32⟩ : BufTy).Contents (Elt F)),
    unary main_v145 main_v146 (broadcastInDim S32x2048 ![0, 1] bcast_S32x1_S32x2048_0_1 : (⟨S32x1, .f32⟩ : BufTy).Contents (Elt F) → (⟨S32x2048, .f32⟩ : BufTy).Contents (Elt F)),
    binary main_v142 main_v146 main_v147 (Host.divf : (⟨S32x2048, .f32⟩ : BufTy).Contents (Elt F) → (⟨S32x2048, .f32⟩ : BufTy).Contents (Elt F) → (⟨S32x2048, .f32⟩ : BufTy).Contents (Elt F)),
    binary main_v140 main_v147 main_v148 (addf : (⟨S32x2048, .f32⟩ : BufTy).Contents (Elt F) → (⟨S32x2048, .f32⟩ : BufTy).Contents (Elt F) → (⟨S32x2048, .f32⟩ : BufTy).Contents (Elt F)) ]

/-- Region 20: corner (5, 11), side 16. -/
abbrev reg20 : List (HloOp τ sig (Elt F)) :=
  [ unary main_arg0 main_v149 ((extractStridedSlice S32x2048x16x16 ![0, 0, 5, 11] · slices_S32x2048x32x32_S32x2048x16x16_0_0_5_11) : (⟨S32x2048x32x32, .f32⟩ : BufTy).Contents (Elt F) → (⟨S32x2048x16x16, .f32⟩ : BufTy).Contents (Elt F)),
    nullary main_cst_38 (constant S_ .f32 0xFF800000#32),
    binary main_v149 main_cst_38 main_v150 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v150) (TRef.of (T := ⟨S32x2048, .f32⟩) main_v150) main_call19.v0 mulf,
    TRef.nullary main_call19.cst (constant S_ .f32 0x00000000#32),
    TRef.binary main_call19.v0 main_call19.cst main_call19.v1 (fun x v => Host.reduceAdd x v reducesTo_S32x2048_S32_d1 h_S_),
    TRef.unary main_call19.v1 main_call19.v2 (broadcastInDim S32x1 ![0] bcast_S32_S32x1_0),
    TRef.unary main_call19.v2 main_call19.v3 Host.sqrt,
    nullary main_cst_39 (constant S_ .f32 0x358637BD#32),
    unary main_cst_39 main_v152 (broadcastInDim S32x1 ![] bcast_S_S32x1 : (⟨S_, .f32⟩ : BufTy).Contents (Elt F) → (⟨S32x1, .f32⟩ : BufTy).Contents (Elt F)),
    binary main_v151 main_v152 main_v153 (addf : (⟨S32x1, .f32⟩ : BufTy).Contents (Elt F) → (⟨S32x1, .f32⟩ : BufTy).Contents (Elt F) → (⟨S32x1, .f32⟩ : BufTy).Contents (Elt F)),
    unary main_v153 main_v154 (broadcastInDim S32x2048 ![0, 1] bcast_S32x1_S32x2048_0_1 : (⟨S32x1, .f32⟩ : BufTy).Contents (Elt F) → (⟨S32x2048, .f32⟩ : BufTy).Contents (Elt F)),
    binary main_v150 main_v154 main_v155 (Host.divf : (⟨S32x2048, .f32⟩ : BufTy).Contents (Elt F) → (⟨S32x2048, .f32⟩ : BufTy).Contents (Elt F) → (⟨S32x2048, .f32⟩ : BufTy).Contents (Elt F)),
    binary main_v148 main_v155 main_v156 (addf : (⟨S32x2048, .f32⟩ : BufTy).Contents (Elt F) → (⟨S32x2048, .f32⟩ : BufTy).Contents (Elt F) → (⟨S32x2048, .f32⟩ : BufTy).Contents (Elt F)) ]

/-- Region 21: corner (5, 16), side 16. -/
abbrev reg21 : List (HloOp τ sig (Elt F)) :=
  [ unary main_arg0 main_v157 ((extractStridedSlice S32x2048x16x16 ![0, 0, 5, 16] · slices_S32x2048x32x32_S32x2048x16x16_0_0_5_16) : (⟨S32x2048x32x32, .f32⟩ : BufTy).Contents (Elt F) → (⟨S32x2048x16x16, .f32⟩ : BufTy).Contents (Elt F)),
    nullary main_cst_40 (constant S_ .f32 0xFF800000#32),
    binary main_v157 main_cst_40 main_v158 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v158) (TRef.of (T := ⟨S32x2048, .f32⟩) main_v158) main_call20.v0 mulf,
    TRef.nullary main_call20.cst (constant S_ .f32 0x00000000#32),
    TRef.binary main_call20.v0 main_call20.cst main_call20.v1 (fun x v => Host.reduceAdd x v reducesTo_S32x2048_S32_d1 h_S_),
    TRef.unary main_call20.v1 main_call20.v2 (broadcastInDim S32x1 ![0] bcast_S32_S32x1_0),
    TRef.unary main_call20.v2 main_call20.v3 Host.sqrt,
    nullary main_cst_41 (constant S_ .f32 0x358637BD#32),
    unary main_cst_41 main_v160 (broadcastInDim S32x1 ![] bcast_S_S32x1 : (⟨S_, .f32⟩ : BufTy).Contents (Elt F) → (⟨S32x1, .f32⟩ : BufTy).Contents (Elt F)),
    binary main_v159 main_v160 main_v161 (addf : (⟨S32x1, .f32⟩ : BufTy).Contents (Elt F) → (⟨S32x1, .f32⟩ : BufTy).Contents (Elt F) → (⟨S32x1, .f32⟩ : BufTy).Contents (Elt F)),
    unary main_v161 main_v162 (broadcastInDim S32x2048 ![0, 1] bcast_S32x1_S32x2048_0_1 : (⟨S32x1, .f32⟩ : BufTy).Contents (Elt F) → (⟨S32x2048, .f32⟩ : BufTy).Contents (Elt F)),
    binary main_v158 main_v162 main_v163 (Host.divf : (⟨S32x2048, .f32⟩ : BufTy).Contents (Elt F) → (⟨S32x2048, .f32⟩ : BufTy).Contents (Elt F) → (⟨S32x2048, .f32⟩ : BufTy).Contents (Elt F)),
    binary main_v156 main_v163 main_v164 (addf : (⟨S32x2048, .f32⟩ : BufTy).Contents (Elt F) → (⟨S32x2048, .f32⟩ : BufTy).Contents (Elt F) → (⟨S32x2048, .f32⟩ : BufTy).Contents (Elt F)) ]

/-- Region 22: corner (11, 0), side 16. -/
abbrev reg22 : List (HloOp τ sig (Elt F)) :=
  [ unary main_arg0 main_v165 ((extractStridedSlice S32x2048x16x16 ![0, 0, 11, 0] · slices_S32x2048x32x32_S32x2048x16x16_0_0_11_0) : (⟨S32x2048x32x32, .f32⟩ : BufTy).Contents (Elt F) → (⟨S32x2048x16x16, .f32⟩ : BufTy).Contents (Elt F)),
    nullary main_cst_42 (constant S_ .f32 0xFF800000#32),
    binary main_v165 main_cst_42 main_v166 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v166) (TRef.of (T := ⟨S32x2048, .f32⟩) main_v166) main_call21.v0 mulf,
    TRef.nullary main_call21.cst (constant S_ .f32 0x00000000#32),
    TRef.binary main_call21.v0 main_call21.cst main_call21.v1 (fun x v => Host.reduceAdd x v reducesTo_S32x2048_S32_d1 h_S_),
    TRef.unary main_call21.v1 main_call21.v2 (broadcastInDim S32x1 ![0] bcast_S32_S32x1_0),
    TRef.unary main_call21.v2 main_call21.v3 Host.sqrt,
    nullary main_cst_43 (constant S_ .f32 0x358637BD#32),
    unary main_cst_43 main_v168 (broadcastInDim S32x1 ![] bcast_S_S32x1 : (⟨S_, .f32⟩ : BufTy).Contents (Elt F) → (⟨S32x1, .f32⟩ : BufTy).Contents (Elt F)),
    binary main_v167 main_v168 main_v169 (addf : (⟨S32x1, .f32⟩ : BufTy).Contents (Elt F) → (⟨S32x1, .f32⟩ : BufTy).Contents (Elt F) → (⟨S32x1, .f32⟩ : BufTy).Contents (Elt F)),
    unary main_v169 main_v170 (broadcastInDim S32x2048 ![0, 1] bcast_S32x1_S32x2048_0_1 : (⟨S32x1, .f32⟩ : BufTy).Contents (Elt F) → (⟨S32x2048, .f32⟩ : BufTy).Contents (Elt F)),
    binary main_v166 main_v170 main_v171 (Host.divf : (⟨S32x2048, .f32⟩ : BufTy).Contents (Elt F) → (⟨S32x2048, .f32⟩ : BufTy).Contents (Elt F) → (⟨S32x2048, .f32⟩ : BufTy).Contents (Elt F)),
    binary main_v164 main_v171 main_v172 (addf : (⟨S32x2048, .f32⟩ : BufTy).Contents (Elt F) → (⟨S32x2048, .f32⟩ : BufTy).Contents (Elt F) → (⟨S32x2048, .f32⟩ : BufTy).Contents (Elt F)) ]

/-- Region 23: corner (11, 5), side 16. -/
abbrev reg23 : List (HloOp τ sig (Elt F)) :=
  [ unary main_arg0 main_v173 ((extractStridedSlice S32x2048x16x16 ![0, 0, 11, 5] · slices_S32x2048x32x32_S32x2048x16x16_0_0_11_5) : (⟨S32x2048x32x32, .f32⟩ : BufTy).Contents (Elt F) → (⟨S32x2048x16x16, .f32⟩ : BufTy).Contents (Elt F)),
    nullary main_cst_44 (constant S_ .f32 0xFF800000#32),
    binary main_v173 main_cst_44 main_v174 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v174) (TRef.of (T := ⟨S32x2048, .f32⟩) main_v174) main_call22.v0 mulf,
    TRef.nullary main_call22.cst (constant S_ .f32 0x00000000#32),
    TRef.binary main_call22.v0 main_call22.cst main_call22.v1 (fun x v => Host.reduceAdd x v reducesTo_S32x2048_S32_d1 h_S_),
    TRef.unary main_call22.v1 main_call22.v2 (broadcastInDim S32x1 ![0] bcast_S32_S32x1_0),
    TRef.unary main_call22.v2 main_call22.v3 Host.sqrt,
    nullary main_cst_45 (constant S_ .f32 0x358637BD#32),
    unary main_cst_45 main_v176 (broadcastInDim S32x1 ![] bcast_S_S32x1 : (⟨S_, .f32⟩ : BufTy).Contents (Elt F) → (⟨S32x1, .f32⟩ : BufTy).Contents (Elt F)),
    binary main_v175 main_v176 main_v177 (addf : (⟨S32x1, .f32⟩ : BufTy).Contents (Elt F) → (⟨S32x1, .f32⟩ : BufTy).Contents (Elt F) → (⟨S32x1, .f32⟩ : BufTy).Contents (Elt F)),
    unary main_v177 main_v178 (broadcastInDim S32x2048 ![0, 1] bcast_S32x1_S32x2048_0_1 : (⟨S32x1, .f32⟩ : BufTy).Contents (Elt F) → (⟨S32x2048, .f32⟩ : BufTy).Contents (Elt F)),
    binary main_v174 main_v178 main_v179 (Host.divf : (⟨S32x2048, .f32⟩ : BufTy).Contents (Elt F) → (⟨S32x2048, .f32⟩ : BufTy).Contents (Elt F) → (⟨S32x2048, .f32⟩ : BufTy).Contents (Elt F)),
    binary main_v172 main_v179 main_v180 (addf : (⟨S32x2048, .f32⟩ : BufTy).Contents (Elt F) → (⟨S32x2048, .f32⟩ : BufTy).Contents (Elt F) → (⟨S32x2048, .f32⟩ : BufTy).Contents (Elt F)) ]

/-- Region 24: corner (11, 11), side 16. -/
abbrev reg24 : List (HloOp τ sig (Elt F)) :=
  [ unary main_arg0 main_v181 ((extractStridedSlice S32x2048x16x16 ![0, 0, 11, 11] · slices_S32x2048x32x32_S32x2048x16x16_0_0_11_11) : (⟨S32x2048x32x32, .f32⟩ : BufTy).Contents (Elt F) → (⟨S32x2048x16x16, .f32⟩ : BufTy).Contents (Elt F)),
    nullary main_cst_46 (constant S_ .f32 0xFF800000#32),
    binary main_v181 main_cst_46 main_v182 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v182) (TRef.of (T := ⟨S32x2048, .f32⟩) main_v182) main_call23.v0 mulf,
    TRef.nullary main_call23.cst (constant S_ .f32 0x00000000#32),
    TRef.binary main_call23.v0 main_call23.cst main_call23.v1 (fun x v => Host.reduceAdd x v reducesTo_S32x2048_S32_d1 h_S_),
    TRef.unary main_call23.v1 main_call23.v2 (broadcastInDim S32x1 ![0] bcast_S32_S32x1_0),
    TRef.unary main_call23.v2 main_call23.v3 Host.sqrt,
    nullary main_cst_47 (constant S_ .f32 0x358637BD#32),
    unary main_cst_47 main_v184 (broadcastInDim S32x1 ![] bcast_S_S32x1 : (⟨S_, .f32⟩ : BufTy).Contents (Elt F) → (⟨S32x1, .f32⟩ : BufTy).Contents (Elt F)),
    binary main_v183 main_v184 main_v185 (addf : (⟨S32x1, .f32⟩ : BufTy).Contents (Elt F) → (⟨S32x1, .f32⟩ : BufTy).Contents (Elt F) → (⟨S32x1, .f32⟩ : BufTy).Contents (Elt F)),
    unary main_v185 main_v186 (broadcastInDim S32x2048 ![0, 1] bcast_S32x1_S32x2048_0_1 : (⟨S32x1, .f32⟩ : BufTy).Contents (Elt F) → (⟨S32x2048, .f32⟩ : BufTy).Contents (Elt F)),
    binary main_v182 main_v186 main_v187 (Host.divf : (⟨S32x2048, .f32⟩ : BufTy).Contents (Elt F) → (⟨S32x2048, .f32⟩ : BufTy).Contents (Elt F) → (⟨S32x2048, .f32⟩ : BufTy).Contents (Elt F)),
    binary main_v180 main_v187 main_v188 (addf : (⟨S32x2048, .f32⟩ : BufTy).Contents (Elt F) → (⟨S32x2048, .f32⟩ : BufTy).Contents (Elt F) → (⟨S32x2048, .f32⟩ : BufTy).Contents (Elt F)) ]

/-- Region 25: corner (11, 16), side 16. -/
abbrev reg25 : List (HloOp τ sig (Elt F)) :=
  [ unary main_arg0 main_v189 ((extractStridedSlice S32x2048x16x16 ![0, 0, 11, 16] · slices_S32x2048x32x32_S32x2048x16x16_0_0_11_16) : (⟨S32x2048x32x32, .f32⟩ : BufTy).Contents (Elt F) → (⟨S32x2048x16x16, .f32⟩ : BufTy).Contents (Elt F)),
    nullary main_cst_48 (constant S_ .f32 0xFF800000#32),
    binary main_v189 main_cst_48 main_v190 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v190) (TRef.of (T := ⟨S32x2048, .f32⟩) main_v190) main_call24.v0 mulf,
    TRef.nullary main_call24.cst (constant S_ .f32 0x00000000#32),
    TRef.binary main_call24.v0 main_call24.cst main_call24.v1 (fun x v => Host.reduceAdd x v reducesTo_S32x2048_S32_d1 h_S_),
    TRef.unary main_call24.v1 main_call24.v2 (broadcastInDim S32x1 ![0] bcast_S32_S32x1_0),
    TRef.unary main_call24.v2 main_call24.v3 Host.sqrt,
    nullary main_cst_49 (constant S_ .f32 0x358637BD#32),
    unary main_cst_49 main_v192 (broadcastInDim S32x1 ![] bcast_S_S32x1 : (⟨S_, .f32⟩ : BufTy).Contents (Elt F) → (⟨S32x1, .f32⟩ : BufTy).Contents (Elt F)),
    binary main_v191 main_v192 main_v193 (addf : (⟨S32x1, .f32⟩ : BufTy).Contents (Elt F) → (⟨S32x1, .f32⟩ : BufTy).Contents (Elt F) → (⟨S32x1, .f32⟩ : BufTy).Contents (Elt F)),
    unary main_v193 main_v194 (broadcastInDim S32x2048 ![0, 1] bcast_S32x1_S32x2048_0_1 : (⟨S32x1, .f32⟩ : BufTy).Contents (Elt F) → (⟨S32x2048, .f32⟩ : BufTy).Contents (Elt F)),
    binary main_v190 main_v194 main_v195 (Host.divf : (⟨S32x2048, .f32⟩ : BufTy).Contents (Elt F) → (⟨S32x2048, .f32⟩ : BufTy).Contents (Elt F) → (⟨S32x2048, .f32⟩ : BufTy).Contents (Elt F)),
    binary main_v188 main_v195 main_v196 (addf : (⟨S32x2048, .f32⟩ : BufTy).Contents (Elt F) → (⟨S32x2048, .f32⟩ : BufTy).Contents (Elt F) → (⟨S32x2048, .f32⟩ : BufTy).Contents (Elt F)) ]

/-- Region 26: corner (16, 0), side 16. -/
abbrev reg26 : List (HloOp τ sig (Elt F)) :=
  [ unary main_arg0 main_v197 ((extractStridedSlice S32x2048x16x16 ![0, 0, 16, 0] · slices_S32x2048x32x32_S32x2048x16x16_0_0_16_0) : (⟨S32x2048x32x32, .f32⟩ : BufTy).Contents (Elt F) → (⟨S32x2048x16x16, .f32⟩ : BufTy).Contents (Elt F)),
    nullary main_cst_50 (constant S_ .f32 0xFF800000#32),
    binary main_v197 main_cst_50 main_v198 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v198) (TRef.of (T := ⟨S32x2048, .f32⟩) main_v198) main_call25.v0 mulf,
    TRef.nullary main_call25.cst (constant S_ .f32 0x00000000#32),
    TRef.binary main_call25.v0 main_call25.cst main_call25.v1 (fun x v => Host.reduceAdd x v reducesTo_S32x2048_S32_d1 h_S_),
    TRef.unary main_call25.v1 main_call25.v2 (broadcastInDim S32x1 ![0] bcast_S32_S32x1_0),
    TRef.unary main_call25.v2 main_call25.v3 Host.sqrt,
    nullary main_cst_51 (constant S_ .f32 0x358637BD#32),
    unary main_cst_51 main_v200 (broadcastInDim S32x1 ![] bcast_S_S32x1 : (⟨S_, .f32⟩ : BufTy).Contents (Elt F) → (⟨S32x1, .f32⟩ : BufTy).Contents (Elt F)),
    binary main_v199 main_v200 main_v201 (addf : (⟨S32x1, .f32⟩ : BufTy).Contents (Elt F) → (⟨S32x1, .f32⟩ : BufTy).Contents (Elt F) → (⟨S32x1, .f32⟩ : BufTy).Contents (Elt F)),
    unary main_v201 main_v202 (broadcastInDim S32x2048 ![0, 1] bcast_S32x1_S32x2048_0_1 : (⟨S32x1, .f32⟩ : BufTy).Contents (Elt F) → (⟨S32x2048, .f32⟩ : BufTy).Contents (Elt F)),
    binary main_v198 main_v202 main_v203 (Host.divf : (⟨S32x2048, .f32⟩ : BufTy).Contents (Elt F) → (⟨S32x2048, .f32⟩ : BufTy).Contents (Elt F) → (⟨S32x2048, .f32⟩ : BufTy).Contents (Elt F)),
    binary main_v196 main_v203 main_v204 (addf : (⟨S32x2048, .f32⟩ : BufTy).Contents (Elt F) → (⟨S32x2048, .f32⟩ : BufTy).Contents (Elt F) → (⟨S32x2048, .f32⟩ : BufTy).Contents (Elt F)) ]

/-- Region 27: corner (16, 5), side 16. -/
abbrev reg27 : List (HloOp τ sig (Elt F)) :=
  [ unary main_arg0 main_v205 ((extractStridedSlice S32x2048x16x16 ![0, 0, 16, 5] · slices_S32x2048x32x32_S32x2048x16x16_0_0_16_5) : (⟨S32x2048x32x32, .f32⟩ : BufTy).Contents (Elt F) → (⟨S32x2048x16x16, .f32⟩ : BufTy).Contents (Elt F)),
    nullary main_cst_52 (constant S_ .f32 0xFF800000#32),
    binary main_v205 main_cst_52 main_v206 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v206) (TRef.of (T := ⟨S32x2048, .f32⟩) main_v206) main_call26.v0 mulf,
    TRef.nullary main_call26.cst (constant S_ .f32 0x00000000#32),
    TRef.binary main_call26.v0 main_call26.cst main_call26.v1 (fun x v => Host.reduceAdd x v reducesTo_S32x2048_S32_d1 h_S_),
    TRef.unary main_call26.v1 main_call26.v2 (broadcastInDim S32x1 ![0] bcast_S32_S32x1_0),
    TRef.unary main_call26.v2 main_call26.v3 Host.sqrt,
    nullary main_cst_53 (constant S_ .f32 0x358637BD#32),
    unary main_cst_53 main_v208 (broadcastInDim S32x1 ![] bcast_S_S32x1 : (⟨S_, .f32⟩ : BufTy).Contents (Elt F) → (⟨S32x1, .f32⟩ : BufTy).Contents (Elt F)),
    binary main_v207 main_v208 main_v209 (addf : (⟨S32x1, .f32⟩ : BufTy).Contents (Elt F) → (⟨S32x1, .f32⟩ : BufTy).Contents (Elt F) → (⟨S32x1, .f32⟩ : BufTy).Contents (Elt F)),
    unary main_v209 main_v210 (broadcastInDim S32x2048 ![0, 1] bcast_S32x1_S32x2048_0_1 : (⟨S32x1, .f32⟩ : BufTy).Contents (Elt F) → (⟨S32x2048, .f32⟩ : BufTy).Contents (Elt F)),
    binary main_v206 main_v210 main_v211 (Host.divf : (⟨S32x2048, .f32⟩ : BufTy).Contents (Elt F) → (⟨S32x2048, .f32⟩ : BufTy).Contents (Elt F) → (⟨S32x2048, .f32⟩ : BufTy).Contents (Elt F)),
    binary main_v204 main_v211 main_v212 (addf : (⟨S32x2048, .f32⟩ : BufTy).Contents (Elt F) → (⟨S32x2048, .f32⟩ : BufTy).Contents (Elt F) → (⟨S32x2048, .f32⟩ : BufTy).Contents (Elt F)) ]

/-- Region 28: corner (16, 11), side 16. -/
abbrev reg28 : List (HloOp τ sig (Elt F)) :=
  [ unary main_arg0 main_v213 ((extractStridedSlice S32x2048x16x16 ![0, 0, 16, 11] · slices_S32x2048x32x32_S32x2048x16x16_0_0_16_11) : (⟨S32x2048x32x32, .f32⟩ : BufTy).Contents (Elt F) → (⟨S32x2048x16x16, .f32⟩ : BufTy).Contents (Elt F)),
    nullary main_cst_54 (constant S_ .f32 0xFF800000#32),
    binary main_v213 main_cst_54 main_v214 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v214) (TRef.of (T := ⟨S32x2048, .f32⟩) main_v214) main_call27.v0 mulf,
    TRef.nullary main_call27.cst (constant S_ .f32 0x00000000#32),
    TRef.binary main_call27.v0 main_call27.cst main_call27.v1 (fun x v => Host.reduceAdd x v reducesTo_S32x2048_S32_d1 h_S_),
    TRef.unary main_call27.v1 main_call27.v2 (broadcastInDim S32x1 ![0] bcast_S32_S32x1_0),
    TRef.unary main_call27.v2 main_call27.v3 Host.sqrt,
    nullary main_cst_55 (constant S_ .f32 0x358637BD#32),
    unary main_cst_55 main_v216 (broadcastInDim S32x1 ![] bcast_S_S32x1 : (⟨S_, .f32⟩ : BufTy).Contents (Elt F) → (⟨S32x1, .f32⟩ : BufTy).Contents (Elt F)),
    binary main_v215 main_v216 main_v217 (addf : (⟨S32x1, .f32⟩ : BufTy).Contents (Elt F) → (⟨S32x1, .f32⟩ : BufTy).Contents (Elt F) → (⟨S32x1, .f32⟩ : BufTy).Contents (Elt F)),
    unary main_v217 main_v218 (broadcastInDim S32x2048 ![0, 1] bcast_S32x1_S32x2048_0_1 : (⟨S32x1, .f32⟩ : BufTy).Contents (Elt F) → (⟨S32x2048, .f32⟩ : BufTy).Contents (Elt F)),
    binary main_v214 main_v218 main_v219 (Host.divf : (⟨S32x2048, .f32⟩ : BufTy).Contents (Elt F) → (⟨S32x2048, .f32⟩ : BufTy).Contents (Elt F) → (⟨S32x2048, .f32⟩ : BufTy).Contents (Elt F)),
    binary main_v212 main_v219 main_v220 (addf : (⟨S32x2048, .f32⟩ : BufTy).Contents (Elt F) → (⟨S32x2048, .f32⟩ : BufTy).Contents (Elt F) → (⟨S32x2048, .f32⟩ : BufTy).Contents (Elt F)) ]

/-- Region 29: corner (16, 16), side 16. -/
abbrev reg29 : List (HloOp τ sig (Elt F)) :=
  [ unary main_arg0 main_v221 ((extractStridedSlice S32x2048x16x16 ![0, 0, 16, 16] · slices_S32x2048x32x32_S32x2048x16x16_0_0_16_16) : (⟨S32x2048x32x32, .f32⟩ : BufTy).Contents (Elt F) → (⟨S32x2048x16x16, .f32⟩ : BufTy).Contents (Elt F)),
    nullary main_cst_56 (constant S_ .f32 0xFF800000#32),
    binary main_v221 main_cst_56 main_v222 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)),
    TRef.binary (TRef.of (T := ⟨S32x2048, .f32⟩) main_v222) (TRef.of (T := ⟨S32x2048, .f32⟩) main_v222) main_call28.v0 mulf,
    TRef.nullary main_call28.cst (constant S_ .f32 0x00000000#32),
    TRef.binary main_call28.v0 main_call28.cst main_call28.v1 (fun x v => Host.reduceAdd x v reducesTo_S32x2048_S32_d1 h_S_),
    TRef.unary main_call28.v1 main_call28.v2 (broadcastInDim S32x1 ![0] bcast_S32_S32x1_0),
    TRef.unary main_call28.v2 main_call28.v3 Host.sqrt,
    nullary main_cst_57 (constant S_ .f32 0x358637BD#32),
    unary main_cst_57 main_v224 (broadcastInDim S32x1 ![] bcast_S_S32x1 : (⟨S_, .f32⟩ : BufTy).Contents (Elt F) → (⟨S32x1, .f32⟩ : BufTy).Contents (Elt F)),
    binary main_v223 main_v224 main_v225 (addf : (⟨S32x1, .f32⟩ : BufTy).Contents (Elt F) → (⟨S32x1, .f32⟩ : BufTy).Contents (Elt F) → (⟨S32x1, .f32⟩ : BufTy).Contents (Elt F)),
    unary main_v225 main_v226 (broadcastInDim S32x2048 ![0, 1] bcast_S32x1_S32x2048_0_1 : (⟨S32x1, .f32⟩ : BufTy).Contents (Elt F) → (⟨S32x2048, .f32⟩ : BufTy).Contents (Elt F)),
    binary main_v222 main_v226 main_v227 (Host.divf : (⟨S32x2048, .f32⟩ : BufTy).Contents (Elt F) → (⟨S32x2048, .f32⟩ : BufTy).Contents (Elt F) → (⟨S32x2048, .f32⟩ : BufTy).Contents (Elt F)),
    binary main_v220 main_v227 main_v228 (addf : (⟨S32x2048, .f32⟩ : BufTy).Contents (Elt F) → (⟨S32x2048, .f32⟩ : BufTy).Contents (Elt F) → (⟨S32x2048, .f32⟩ : BufTy).Contents (Elt F)) ]

/-- The last ten operations: the sum divided, row by row, by its norm plus ε. -/
abbrev tailOps : List (HloOp τ sig (Elt F)) :=
  [ TRef.binary (TRef.of (T := ⟨S32x2048, .f32⟩) main_v228) (TRef.of (T := ⟨S32x2048, .f32⟩) main_v228) main_call29.v0 mulf,
    TRef.nullary main_call29.cst (constant S_ .f32 0x00000000#32),
    TRef.binary main_call29.v0 main_call29.cst main_call29.v1 (fun x v => Host.reduceAdd x v reducesTo_S32x2048_S32_d1 h_S_),
    TRef.unary main_call29.v1 main_call29.v2 (broadcastInDim S32x1 ![0] bcast_S32_S32x1_0),
    TRef.unary main_call29.v2 main_call29.v3 Host.sqrt,
    nullary main_cst_58 (constant S_ .f32 0x358637BD#32),
    unary main_cst_58 main_v230 (broadcastInDim S32x1 ![] bcast_S_S32x1 : (⟨S_, .f32⟩ : BufTy).Contents (Elt F) → (⟨S32x1, .f32⟩ : BufTy).Contents (Elt F)),
    binary main_v229 main_v230 main_v231 (addf : (⟨S32x1, .f32⟩ : BufTy).Contents (Elt F) → (⟨S32x1, .f32⟩ : BufTy).Contents (Elt F) → (⟨S32x1, .f32⟩ : BufTy).Contents (Elt F)),
    unary main_v231 main_v232 (broadcastInDim S32x2048 ![0, 1] bcast_S32x1_S32x2048_0_1 : (⟨S32x1, .f32⟩ : BufTy).Contents (Elt F) → (⟨S32x2048, .f32⟩ : BufTy).Contents (Elt F)),
    binary main_v228 main_v232 main_v233 (Host.divf : (⟨S32x2048, .f32⟩ : BufTy).Contents (Elt F) → (⟨S32x2048, .f32⟩ : BufTy).Contents (Elt F) → (⟨S32x2048, .f32⟩ : BufTy).Contents (Elt F)) ]

set_option maxRecDepth 16384 in
set_option maxHeartbeats 16000000 in
/-- The windows joined and the regions joined are one list. -/
theorem ops_regroup : (ops : List (HloOp τ sig (Elt F))) = reg1 ++ (reg2 ++ (reg3 ++ (reg4 ++ (reg5 ++ (reg6 ++ (reg7 ++ (reg8 ++ (reg9 ++ (reg10 ++ (reg11 ++ (reg12 ++ (reg13 ++ (reg14 ++ (reg15 ++ (reg16 ++ (reg17 ++ (reg18 ++ (reg19 ++ (reg20 ++ (reg21 ++ (reg22 ++ (reg23 ++ (reg24 ++ (reg25 ++ (reg26 ++ (reg27 ++ (reg28 ++ (reg29 ++ (tailOps))))))))))))))))))))))))))))) := rfl

end Cert.ReferenceIdeal.RefRun

end
-- ==== Proof.RefStep.lean ====
/-
  The pure functions the reference is made of, written with the host operations the program itself uses.
  rowNorm v is the column of Euclidean norms of v's rows (the square root of the sum over the channel axis of the squares);
  normed v is v with each row divided by (its norm plus ε); zeros is the array the running sum starts from;
  maxFull / max21 / max16 take the maximum of the input over a whole plane, or over a square of side 21 or 16 of it whose
  corner is at row oh, column ow, starting from minus infinity.
-/
import proofs.«131176_j28467043238140_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The column of the rows' Euclidean norms. -/
def rowNorm (v : (⟨S32x2048, .f32⟩ : BufTy).Contents (Elt F)) : (⟨S32x1, .f32⟩ : BufTy).Contents (Elt F) :=
  Host.sqrt (broadcastInDim S32x1 ![0] bcast_S32_S32x1_0
    (Host.reduceAdd (mulf v v) (constant S_ .f32 0x00000000#32) reducesTo_S32x2048_S32_d1 h_S_))

/-- Each row divided by its norm plus ε. -/
def normed (v : (⟨S32x2048, .f32⟩ : BufTy).Contents (Elt F)) : (⟨S32x2048, .f32⟩ : BufTy).Contents (Elt F) :=
  Host.divf v (broadcastInDim S32x2048 ![0, 1] bcast_S32x1_S32x2048_0_1
    (addf (rowNorm v) (broadcastInDim S32x1 ![] bcast_S_S32x1 (constant S_ .f32 0x358637BD#32))))

/-- The array of zeros the running sum starts from. -/
def zeros : (⟨S32x2048, .f32⟩ : BufTy).Contents (Elt F) :=
  broadcastInDim S32x2048 ![] bcast_S_S32x2048 (constant S_ .f32 0x00000000#32)

/-- The maximum over the whole 32 x 32 plane, from minus infinity. -/
def maxFull (x : (⟨S32x2048x32x32, .f32⟩ : BufTy).Contents (Elt F)) : (⟨S32x2048, .f32⟩ : BufTy).Contents (Elt F) :=
  Host.reduce FloatOps.maximumf x (constant S_ .f32 0xFF800000#32) reducesTo_S32x2048x32x32_S32x2048_d2_3 h_S_

/-- The maximum over the square of side 21 with corner (oh, ow), from minus infinity. -/
def max21 (oh ow : ℕ) (hs : S32x2048x32x32.Slices ![0, 0, oh, ow] S32x2048x21x21) (x : (⟨S32x2048x32x32, .f32⟩ : BufTy).Contents (Elt F)) :
    (⟨S32x2048, .f32⟩ : BufTy).Contents (Elt F) :=
  Host.reduce FloatOps.maximumf (extractStridedSlice S32x2048x21x21 ![0, 0, oh, ow] x hs) (constant S_ .f32 0xFF800000#32)
    reducesTo_S32x2048x21x21_S32x2048_d2_3 h_S_

/-- The maximum over the square of side 16 with corner (oh, ow), from minus infinity. -/
def max16 (oh ow : ℕ) (hs : S32x2048x32x32.Slices ![0, 0, oh, ow] S32x2048x16x16) (x : (⟨S32x2048x32x32, .f32⟩ : BufTy).Contents (Elt F)) :
    (⟨S32x2048, .f32⟩ : BufTy).Contents (Elt F) :=
  Host.reduce FloatOps.maximumf (extractStridedSlice S32x2048x16x16 ![0, 0, oh, ow] x hs) (constant S_ .f32 0xFF800000#32)
    reducesTo_S32x2048x16x16_S32x2048_d2_3 h_S_

end Cert.ReferenceIdeal.RefRun

end
-- ==== Proof.RefRegionsA.lean ====
/-
  The reference's regions 1 to 10, each cut after its maximum. The first part of a region leaves the region's maximum of the argument
  in its buffer and touches neither the argument nor the running sum (the very first also makes the zero array); the second part
  adds the maximum, divided row by row by its norm plus ε, to the running sum. Joined: what each region does to the running sum.
-/
import proofs.«131176_j28467043238140_1_alg».proof.Proof.RefRegions
import proofs.«131176_j28467043238140_1_alg».proof.Proof.RefStep

set_option maxRecDepth 8192
set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Region 1, first part: the operations up to the region's maximum. -/
abbrev regM1 : List (HloOp τ sig (Elt F)) :=
  [ nullary main_cst (constant S_ .f32 0x00000000#32),
    unary main_cst main_v0 (broadcastInDim S32x2048 ![] bcast_S_S32x2048 : (⟨S_, .f32⟩ : BufTy).Contents (Elt F) → (⟨S32x2048, .f32⟩ : BufTy).Contents (Elt F)),
    nullary main_cst_0 (constant S_ .f32 0xFF800000#32),
    binary main_arg0 main_cst_0 main_v1 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)) ]
/-- Region 1, second part: the norm of the maximum, the quotient, the addition to the running sum. -/
abbrev regN1 : List (HloOp τ sig (Elt F)) :=
  [ TRef.binary (TRef.of (T := ⟨S32x2048, .f32⟩) main_v1) (TRef.of (T := ⟨S32x2048, .f32⟩) main_v1) main_call0.v0 mulf,
    TRef.nullary main_call0.cst (constant S_ .f32 0x00000000#32),
    TRef.binary main_call0.v0 main_call0.cst main_call0.v1 (fun x v => Host.reduceAdd x v reducesTo_S32x2048_S32_d1 h_S_),
    TRef.unary main_call0.v1 main_call0.v2 (broadcastInDim S32x1 ![0] bcast_S32_S32x1_0),
    TRef.unary main_call0.v2 main_call0.v3 Host.sqrt,
    nullary main_cst_1 (constant S_ .f32 0x358637BD#32),
    unary main_cst_1 main_v3 (broadcastInDim S32x1 ![] bcast_S_S32x1 : (⟨S_, .f32⟩ : BufTy).Contents (Elt F) → (⟨S32x1, .f32⟩ : BufTy).Contents (Elt F)),
    binary main_v2 main_v3 main_v4 (addf : (⟨S32x1, .f32⟩ : BufTy).Contents (Elt F) → (⟨S32x1, .f32⟩ : BufTy).Contents (Elt F) → (⟨S32x1, .f32⟩ : BufTy).Contents (Elt F)),
    unary main_v4 main_v5 (broadcastInDim S32x2048 ![0, 1] bcast_S32x1_S32x2048_0_1 : (⟨S32x1, .f32⟩ : BufTy).Contents (Elt F) → (⟨S32x2048, .f32⟩ : BufTy).Contents (Elt F)),
    binary main_v1 main_v5 main_v6 (Host.divf : (⟨S32x2048, .f32⟩ : BufTy).Contents (Elt F) → (⟨S32x2048, .f32⟩ : BufTy).Contents (Elt F) → (⟨S32x2048, .f32⟩ : BufTy).Contents (Elt F)),
    binary main_v0 main_v6 main_v7 (addf : (⟨S32x2048, .f32⟩ : BufTy).Contents (Elt F) → (⟨S32x2048, .f32⟩ : BufTy).Contents (Elt F) → (⟨S32x2048, .f32⟩ : BufTy).Contents (Elt F)) ]
theorem reg1_split : (reg1 : List (HloOp τ sig (Elt F))) = regM1 ++ regN1 := rfl

/-- The first part leaves the region's maximum of the argument in its buffer. -/
theorem regM1_max (V : Valuation τ sig (Elt F)) :
    after regM1 V (Proc.devRef .tc main_v1) = maxFull (V (Proc.devRef .tc main_arg0)) := by
  unfold maxFull
  after_results_simp
/-- The first part does not write the argument array. -/
theorem regM1_arg (V : Valuation τ sig (Elt F)) : after regM1 V (Proc.devRef .tc main_arg0) = V (Proc.devRef .tc main_arg0) := by
  after_results_simp
/-- The first part makes the zero array the running sum starts from. -/
theorem regM1_acc (V : Valuation τ sig (Elt F)) : after regM1 V (Proc.devRef .tc main_v0) = zeros := by
  unfold zeros
  after_results_simp
/-- The second part adds the normalized maximum to the running sum. -/
theorem regN1_acc (V : Valuation τ sig (Elt F)) :
    after regN1 V (Proc.devRef .tc main_v7) = addf (V (Proc.devRef .tc main_v0)) (normed (V (Proc.devRef .tc main_v1))) := by
  after_results_simp <;> rfl
/-- The second part does not write the argument array. -/
theorem regN1_arg (V : Valuation τ sig (Elt F)) : after regN1 V (Proc.devRef .tc main_arg0) = V (Proc.devRef .tc main_arg0) := by
  after_results_simp
/-- Region 1 adds its normalized maximum to the running sum. -/
theorem reg1_acc (V : Valuation τ sig (Elt F)) :
    after reg1 V (Proc.devRef .tc main_v7) = addf zeros (normed (maxFull (V (Proc.devRef .tc main_arg0)))) := by
  rw [reg1_split, after_append, regN1_acc, regM1_acc, regM1_max]
/-- Region 1 does not write the argument array. -/
theorem reg1_arg (V : Valuation τ sig (Elt F)) : after reg1 V (Proc.devRef .tc main_arg0) = V (Proc.devRef .tc main_arg0) := by
  rw [reg1_split, after_append, regN1_arg, regM1_arg]

/-- Region 2, first part: the operations up to the region's maximum. -/
abbrev regM2 : List (HloOp τ sig (Elt F)) :=
  [ nullary main_cst_2 (constant S_ .f32 0xFF800000#32),
    binary main_arg0 main_cst_2 main_v8 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)) ]
/-- Region 2, second part: the norm of the maximum, the quotient, the addition to the running sum. -/
abbrev regN2 : List (HloOp τ sig (Elt F)) :=
  [ TRef.binary (TRef.of (T := ⟨S32x2048, .f32⟩) main_v8) (TRef.of (T := ⟨S32x2048, .f32⟩) main_v8) main_call1.v0 mulf,
    TRef.nullary main_call1.cst (constant S_ .f32 0x00000000#32),
    TRef.binary main_call1.v0 main_call1.cst main_call1.v1 (fun x v => Host.reduceAdd x v reducesTo_S32x2048_S32_d1 h_S_),
    TRef.unary main_call1.v1 main_call1.v2 (broadcastInDim S32x1 ![0] bcast_S32_S32x1_0),
    TRef.unary main_call1.v2 main_call1.v3 Host.sqrt,
    nullary main_cst_3 (constant S_ .f32 0x358637BD#32),
    unary main_cst_3 main_v10 (broadcastInDim S32x1 ![] bcast_S_S32x1 : (⟨S_, .f32⟩ : BufTy).Contents (Elt F) → (⟨S32x1, .f32⟩ : BufTy).Contents (Elt F)),
    binary main_v9 main_v10 main_v11 (addf : (⟨S32x1, .f32⟩ : BufTy).Contents (Elt F) → (⟨S32x1, .f32⟩ : BufTy).Contents (Elt F) → (⟨S32x1, .f32⟩ : BufTy).Contents (Elt F)),
    unary main_v11 main_v12 (broadcastInDim S32x2048 ![0, 1] bcast_S32x1_S32x2048_0_1 : (⟨S32x1, .f32⟩ : BufTy).Contents (Elt F) → (⟨S32x2048, .f32⟩ : BufTy).Contents (Elt F)),
    binary main_v8 main_v12 main_v13 (Host.divf : (⟨S32x2048, .f32⟩ : BufTy).Contents (Elt F) → (⟨S32x2048, .f32⟩ : BufTy).Contents (Elt F) → (⟨S32x2048, .f32⟩ : BufTy).Contents (Elt F)),
    binary main_v7 main_v13 main_v14 (addf : (⟨S32x2048, .f32⟩ : BufTy).Contents (Elt F) → (⟨S32x2048, .f32⟩ : BufTy).Contents (Elt F) → (⟨S32x2048, .f32⟩ : BufTy).Contents (Elt F)) ]
theorem reg2_split : (reg2 : List (HloOp τ sig (Elt F))) = regM2 ++ regN2 := rfl

/-- The first part leaves the region's maximum of the argument in its buffer. -/
theorem regM2_max (V : Valuation τ sig (Elt F)) :
    after regM2 V (Proc.devRef .tc main_v8) = maxFull (V (Proc.devRef .tc main_arg0)) := by
  unfold maxFull
  after_results_simp
/-- The first part does not write the argument array. -/
theorem regM2_arg (V : Valuation τ sig (Elt F)) : after regM2 V (Proc.devRef .tc main_arg0) = V (Proc.devRef .tc main_arg0) := by
  after_results_simp
/-- The first part does not write the running sum. -/
theorem regM2_acc (V : Valuation τ sig (Elt F)) : after regM2 V (Proc.devRef .tc main_v7) = V (Proc.devRef .tc main_v7) := by
  after_results_simp
/-- The second part adds the normalized maximum to the running sum. -/
theorem regN2_acc (V : Valuation τ sig (Elt F)) :
    after regN2 V (Proc.devRef .tc main_v14) = addf (V (Proc.devRef .tc main_v7)) (normed (V (Proc.devRef .tc main_v8))) := by
  after_results_simp <;> rfl
/-- The second part does not write the argument array. -/
theorem regN2_arg (V : Valuation τ sig (Elt F)) : after regN2 V (Proc.devRef .tc main_arg0) = V (Proc.devRef .tc main_arg0) := by
  after_results_simp
/-- Region 2 adds its normalized maximum to the running sum. -/
theorem reg2_acc (V : Valuation τ sig (Elt F)) :
    after reg2 V (Proc.devRef .tc main_v14) = addf (V (Proc.devRef .tc main_v7)) (normed (maxFull (V (Proc.devRef .tc main_arg0)))) := by
  rw [reg2_split, after_append, regN2_acc, regM2_acc, regM2_max]
/-- Region 2 does not write the argument array. -/
theorem reg2_arg (V : Valuation τ sig (Elt F)) : after reg2 V (Proc.devRef .tc main_arg0) = V (Proc.devRef .tc main_arg0) := by
  rw [reg2_split, after_append, regN2_arg, regM2_arg]

/-- Region 3, first part: the operations up to the region's maximum. -/
abbrev regM3 : List (HloOp τ sig (Elt F)) :=
  [ nullary main_cst_4 (constant S_ .f32 0xFF800000#32),
    binary main_arg0 main_cst_4 main_v15 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)) ]
/-- Region 3, second part: the norm of the maximum, the quotient, the addition to the running sum. -/
abbrev regN3 : List (HloOp τ sig (Elt F)) :=
  [ TRef.binary (TRef.of (T := ⟨S32x2048, .f32⟩) main_v15) (TRef.of (T := ⟨S32x2048, .f32⟩) main_v15) main_call2.v0 mulf,
    TRef.nullary main_call2.cst (constant S_ .f32 0x00000000#32),
    TRef.binary main_call2.v0 main_call2.cst main_call2.v1 (fun x v => Host.reduceAdd x v reducesTo_S32x2048_S32_d1 h_S_),
    TRef.unary main_call2.v1 main_call2.v2 (broadcastInDim S32x1 ![0] bcast_S32_S32x1_0),
    TRef.unary main_call2.v2 main_call2.v3 Host.sqrt,
    nullary main_cst_5 (constant S_ .f32 0x358637BD#32),
    unary main_cst_5 main_v17 (broadcastInDim S32x1 ![] bcast_S_S32x1 : (⟨S_, .f32⟩ : BufTy).Contents (Elt F) → (⟨S32x1, .f32⟩ : BufTy).Contents (Elt F)),
    binary main_v16 main_v17 main_v18 (addf : (⟨S32x1, .f32⟩ : BufTy).Contents (Elt F) → (⟨S32x1, .f32⟩ : BufTy).Contents (Elt F) → (⟨S32x1, .f32⟩ : BufTy).Contents (Elt F)),
    unary main_v18 main_v19 (broadcastInDim S32x2048 ![0, 1] bcast_S32x1_S32x2048_0_1 : (⟨S32x1, .f32⟩ : BufTy).Contents (Elt F) → (⟨S32x2048, .f32⟩ : BufTy).Contents (Elt F)),
    binary main_v15 main_v19 main_v20 (Host.divf : (⟨S32x2048, .f32⟩ : BufTy).Contents (Elt F) → (⟨S32x2048, .f32⟩ : BufTy).Contents (Elt F) → (⟨S32x2048, .f32⟩ : BufTy).Contents (Elt F)),
    binary main_v14 main_v20 main_v21 (addf : (⟨S32x2048, .f32⟩ : BufTy).Contents (Elt F) → (⟨S32x2048, .f32⟩ : BufTy).Contents (Elt F) → (⟨S32x2048, .f32⟩ : BufTy).Contents (Elt F)) ]
theorem reg3_split : (reg3 : List (HloOp τ sig (Elt F))) = regM3 ++ regN3 := rfl

/-- The first part leaves the region's maximum of the argument in its buffer. -/
theorem regM3_max (V : Valuation τ sig (Elt F)) :
    after regM3 V (Proc.devRef .tc main_v15) = maxFull (V (Proc.devRef .tc main_arg0)) := by
  unfold maxFull
  after_results_simp
/-- The first part does not write the argument array. -/
theorem regM3_arg (V : Valuation τ sig (Elt F)) : after regM3 V (Proc.devRef .tc main_arg0) = V (Proc.devRef .tc main_arg0) := by
  after_results_simp
/-- The first part does not write the running sum. -/
theorem regM3_acc (V : Valuation τ sig (Elt F)) : after regM3 V (Proc.devRef .tc main_v14) = V (Proc.devRef .tc main_v14) := by
  after_results_simp
/-- The second part adds the normalized maximum to the running sum. -/
theorem regN3_acc (V : Valuation τ sig (Elt F)) :
    after regN3 V (Proc.devRef .tc main_v21) = addf (V (Proc.devRef .tc main_v14)) (normed (V (Proc.devRef .tc main_v15))) := by
  after_results_simp <;> rfl
/-- The second part does not write the argument array. -/
theorem regN3_arg (V : Valuation τ sig (Elt F)) : after regN3 V (Proc.devRef .tc main_arg0) = V (Proc.devRef .tc main_arg0) := by
  after_results_simp
/-- Region 3 adds its normalized maximum to the running sum. -/
theorem reg3_acc (V : Valuation τ sig (Elt F)) :
    after reg3 V (Proc.devRef .tc main_v21) = addf (V (Proc.devRef .tc main_v14)) (normed (maxFull (V (Proc.devRef .tc main_arg0)))) := by
  rw [reg3_split, after_append, regN3_acc, regM3_acc, regM3_max]
/-- Region 3 does not write the argument array. -/
theorem reg3_arg (V : Valuation τ sig (Elt F)) : after reg3 V (Proc.devRef .tc main_arg0) = V (Proc.devRef .tc main_arg0) := by
  rw [reg3_split, after_append, regN3_arg, regM3_arg]

/-- Region 4, first part: the operations up to the region's maximum. -/
abbrev regM4 : List (HloOp τ sig (Elt F)) :=
  [ nullary main_cst_6 (constant S_ .f32 0xFF800000#32),
    binary main_arg0 main_cst_6 main_v22 ((fun x v => Host.reduce FloatOps.maximumf x v reducesTo_S32x2048x32x32_S32x2048_d2_3 h_S_) : (⟨S32x2048x32x32, .f32⟩ : BufTy).Contents (Elt F) → (⟨S_, .f32⟩ : BufTy).Contents (Elt F) → (⟨S32x2048, .f32⟩ : BufTy).Contents (Elt F)) ]
/-- Region 4, second part: the norm of the maximum, the quotient, the addition to the running sum. -/
abbrev regN4 : List (HloOp τ sig (Elt F)) :=
  [ TRef.binary (TRef.of (T := ⟨S32x2048, .f32⟩) main_v22) (TRef.of (T := ⟨S32x2048, .f32⟩) main_v22) main_call3.v0 mulf,
    TRef.nullary main_call3.cst (constant S_ .f32 0x00000000#32),
    TRef.binary main_call3.v0 main_call3.cst main_call3.v1 (fun x v => Host.reduceAdd x v reducesTo_S32x2048_S32_d1 h_S_),
    TRef.unary main_call3.v1 main_call3.v2 (broadcastInDim S32x1 ![0] bcast_S32_S32x1_0),
    TRef.unary main_call3.v2 main_call3.v3 Host.sqrt,
    nullary main_cst_7 (constant S_ .f32 0x358637BD#32),
    unary main_cst_7 main_v24 (broadcastInDim S32x1 ![] bcast_S_S32x1 : (⟨S_, .f32⟩ : BufTy).Contents (Elt F) → (⟨S32x1, .f32⟩ : BufTy).Contents (Elt F)),
    binary main_v23 main_v24 main_v25 (addf : (⟨S32x1, .f32⟩ : BufTy).Contents (Elt F) → (⟨S32x1, .f32⟩ : BufTy).Contents (Elt F) → (⟨S32x1, .f32⟩ : BufTy).Contents (Elt F)),
    unary main_v25 main_v26 (broadcastInDim S32x2048 ![0, 1] bcast_S32x1_S32x2048_0_1 : (⟨S32x1, .f32⟩ : BufTy).Contents (Elt F) → (⟨S32x2048, .f32⟩ : BufTy).Contents (Elt F)),
    binary main_v22 main_v26 main_v27 (Host.divf : (⟨S32x2048, .f32⟩ : BufTy).Contents (Elt F) → (⟨S32x2048, .f32⟩ : BufTy).Contents (Elt F) → (⟨S32x2048, .f32⟩ : BufTy).Contents (Elt F)),
    binary main_v21 main_v27 main_v28 (addf : (⟨S32x2048, .f32⟩ : BufTy).Contents (Elt F) → (⟨S32x2048, .f32⟩ : BufTy).Contents (Elt F) → (⟨S32x2048, .f32⟩ : BufTy).Contents (Elt F)) ]
theorem reg4_split : (reg4 : List (HloOp τ sig (Elt F))) = regM4 ++ regN4 := rfl

/-- The first part leaves the region's maximum of the argument in its buffer. -/
theorem regM4_max (V : Valuation τ sig (Elt F)) :
    after regM4 V (Proc.devRef .tc main_v22) = maxFull (V (Proc.devRef .tc main_arg0)) := by
  unfold maxFull
  after_results_simp
/-- The first part does not write the argument array. -/
theorem regM4_arg (V : Valuation τ sig (Elt F)) : after regM4 V (Proc.devRef .tc main_arg0) = V (Proc.devRef .tc main_arg0) := by
  after_results_simp
/-- The first part does not write the running sum. -/
theorem regM4_acc (V : Valuation τ sig (Elt F)) : after regM4 V (Proc.devRef .tc main_v21) = V (Proc.devRef .tc main_v21) := by
  after_results_simp
/-- The second part adds the normalized maximum to the running sum. -/
theorem regN4_acc (V : Valuation τ sig (Elt F)) :
    after regN4 V (Proc.devRef .tc main_v28) = addf (V (Proc.devRef .tc main_v21)) (normed (V (Proc.devRef .tc main_v22))) := by
  after_results_simp <;> rfl
/-- The second part does not write the argument array. -/
theorem regN4_arg (V : Valuation τ sig (Elt F)) : after regN4 V (Proc.devRef .tc main_arg0) = V (Proc.devRef .tc main_arg0) := by
  after_results_simp
/-- Region 4 adds its normalized maximum to the running sum. -/
theorem reg4_acc (V : Valuation τ sig (Elt F)) :
    after reg4 V (Proc.devRef .tc main_v28) = addf (V (Proc.devRef .tc main_v21)) (normed (maxFull (V (Proc.devRef .tc main_arg0)))) := by
  rw [reg4_split, after_append, regN4_acc, regM4_acc, regM4_max]
/-- Region 4 does not write the argument array. -/
theorem reg4_arg (V : Valuation τ sig (Elt F)) : after reg4 V (Proc.devRef .tc main_arg0) = V (Proc.devRef .tc main_arg0) := by
  rw [reg4_split, after_append, regN4_arg, regM4_arg]

/-- Region 5, first part: the operations up to the region's maximum. -/
abbrev regM5 : List (HloOp τ sig (Elt F)) :=
  [ unary main_arg0 main_v29 ((extractStridedSlice S32x2048x21x21 ![0, 0, 0, 0] · slices_S32x2048x32x32_S32x2048x21x21_0_0_0_0) : (⟨S32x2048x32x32, .f32⟩ : BufTy).Contents (Elt F) → (⟨S32x2048x21x21, .f32⟩ : BufTy).Contents (Elt F)),
    nullary main_cst_8 (constant S_ .f32 0xFF800000#32),
    binary main_v29 main_cst_8 main_v30 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 5, second part: the norm of the maximum, the quotient, the addition to the running sum. -/
abbrev regN5 : List (HloOp τ sig (Elt F)) :=
  [ TRef.binary (TRef.of (T := ⟨S32x2048, .f32⟩) main_v30) (TRef.of (T := ⟨S32x2048, .f32⟩) main_v30) main_call4.v0 mulf,
    TRef.nullary main_call4.cst (constant S_ .f32 0x00000000#32),
    TRef.binary main_call4.v0 main_call4.cst main_call4.v1 (fun x v => Host.reduceAdd x v reducesTo_S32x2048_S32_d1 h_S_),
    TRef.unary main_call4.v1 main_call4.v2 (broadcastInDim S32x1 ![0] bcast_S32_S32x1_0),
    TRef.unary main_call4.v2 main_call4.v3 Host.sqrt,
    nullary main_cst_9 (constant S_ .f32 0x358637BD#32),
    unary main_cst_9 main_v32 (broadcastInDim S32x1 ![] bcast_S_S32x1 : (⟨S_, .f32⟩ : BufTy).Contents (Elt F) → (⟨S32x1, .f32⟩ : BufTy).Contents (Elt F)),
    binary main_v31 main_v32 main_v33 (addf : (⟨S32x1, .f32⟩ : BufTy).Contents (Elt F) → (⟨S32x1, .f32⟩ : BufTy).Contents (Elt F) → (⟨S32x1, .f32⟩ : BufTy).Contents (Elt F)),
    unary main_v33 main_v34 (broadcastInDim S32x2048 ![0, 1] bcast_S32x1_S32x2048_0_1 : (⟨S32x1, .f32⟩ : BufTy).Contents (Elt F) → (⟨S32x2048, .f32⟩ : BufTy).Contents (Elt F)),
    binary main_v30 main_v34 main_v35 (Host.divf : (⟨S32x2048, .f32⟩ : BufTy).Contents (Elt F) → (⟨S32x2048, .f32⟩ : BufTy).Contents (Elt F) → (⟨S32x2048, .f32⟩ : BufTy).Contents (Elt F)),
    binary main_v28 main_v35 main_v36 (addf : (⟨S32x2048, .f32⟩ : BufTy).Contents (Elt F) → (⟨S32x2048, .f32⟩ : BufTy).Contents (Elt F) → (⟨S32x2048, .f32⟩ : BufTy).Contents (Elt F)) ]
theorem reg5_split : (reg5 : List (HloOp τ sig (Elt F))) = regM5 ++ regN5 := rfl

/-- The first part leaves the region's maximum of the argument in its buffer. -/
theorem regM5_max (V : Valuation τ sig (Elt F)) :
    after regM5 V (Proc.devRef .tc main_v30) = max21 0 0 slices_S32x2048x32x32_S32x2048x21x21_0_0_0_0 (V (Proc.devRef .tc main_arg0)) := by
  unfold max21
  after_results_simp
/-- The first part does not write the argument array. -/
theorem regM5_arg (V : Valuation τ sig (Elt F)) : after regM5 V (Proc.devRef .tc main_arg0) = V (Proc.devRef .tc main_arg0) := by
  after_results_simp
/-- The first part does not write the running sum. -/
theorem regM5_acc (V : Valuation τ sig (Elt F)) : after regM5 V (Proc.devRef .tc main_v28) = V (Proc.devRef .tc main_v28) := by
  after_results_simp
/-- The second part adds the normalized maximum to the running sum. -/
theorem regN5_acc (V : Valuation τ sig (Elt F)) :
    after regN5 V (Proc.devRef .tc main_v36) = addf (V (Proc.devRef .tc main_v28)) (normed (V (Proc.devRef .tc main_v30))) := by
  after_results_simp <;> rfl
/-- The second part does not write the argument array. -/
theorem regN5_arg (V : Valuation τ sig (Elt F)) : after regN5 V (Proc.devRef .tc main_arg0) = V (Proc.devRef .tc main_arg0) := by
  after_results_simp
/-- Region 5 adds its normalized maximum to the running sum. -/
theorem reg5_acc (V : Valuation τ sig (Elt F)) :
    after reg5 V (Proc.devRef .tc main_v36) = addf (V (Proc.devRef .tc main_v28)) (normed (max21 0 0 slices_S32x2048x32x32_S32x2048x21x21_0_0_0_0 (V (Proc.devRef .tc main_arg0)))) := by
  rw [reg5_split, after_append, regN5_acc, regM5_acc, regM5_max]
/-- Region 5 does not write the argument array. -/
theorem reg5_arg (V : Valuation τ sig (Elt F)) : after reg5 V (Proc.devRef .tc main_arg0) = V (Proc.devRef .tc main_arg0) := by
  rw [reg5_split, after_append, regN5_arg, regM5_arg]

/-- Region 6, first part: the operations up to the region's maximum. -/
abbrev regM6 : List (HloOp τ sig (Elt F)) :=
  [ unary main_arg0 main_v37 ((extractStridedSlice S32x2048x21x21 ![0, 0, 0, 6] · slices_S32x2048x32x32_S32x2048x21x21_0_0_0_6) : (⟨S32x2048x32x32, .f32⟩ : BufTy).Contents (Elt F) → (⟨S32x2048x21x21, .f32⟩ : BufTy).Contents (Elt F)),
    nullary main_cst_10 (constant S_ .f32 0xFF800000#32),
    binary main_v37 main_cst_10 main_v38 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 6, second part: the norm of the maximum, the quotient, the addition to the running sum. -/
abbrev regN6 : List (HloOp τ sig (Elt F)) :=
  [ TRef.binary (TRef.of (T := ⟨S32x2048, .f32⟩) main_v38) (TRef.of (T := ⟨S32x2048, .f32⟩) main_v38) main_call5.v0 mulf,
    TRef.nullary main_call5.cst (constant S_ .f32 0x00000000#32),
    TRef.binary main_call5.v0 main_call5.cst main_call5.v1 (fun x v => Host.reduceAdd x v reducesTo_S32x2048_S32_d1 h_S_),
    TRef.unary main_call5.v1 main_call5.v2 (broadcastInDim S32x1 ![0] bcast_S32_S32x1_0),
    TRef.unary main_call5.v2 main_call5.v3 Host.sqrt,
    nullary main_cst_11 (constant S_ .f32 0x358637BD#32),
    unary main_cst_11 main_v40 (broadcastInDim S32x1 ![] bcast_S_S32x1 : (⟨S_, .f32⟩ : BufTy).Contents (Elt F) → (⟨S32x1, .f32⟩ : BufTy).Contents (Elt F)),
    binary main_v39 main_v40 main_v41 (addf : (⟨S32x1, .f32⟩ : BufTy).Contents (Elt F) → (⟨S32x1, .f32⟩ : BufTy).Contents (Elt F) → (⟨S32x1, .f32⟩ : BufTy).Contents (Elt F)),
    unary main_v41 main_v42 (broadcastInDim S32x2048 ![0, 1] bcast_S32x1_S32x2048_0_1 : (⟨S32x1, .f32⟩ : BufTy).Contents (Elt F) → (⟨S32x2048, .f32⟩ : BufTy).Contents (Elt F)),
    binary main_v38 main_v42 main_v43 (Host.divf : (⟨S32x2048, .f32⟩ : BufTy).Contents (Elt F) → (⟨S32x2048, .f32⟩ : BufTy).Contents (Elt F) → (⟨S32x2048, .f32⟩ : BufTy).Contents (Elt F)),
    binary main_v36 main_v43 main_v44 (addf : (⟨S32x2048, .f32⟩ : BufTy).Contents (Elt F) → (⟨S32x2048, .f32⟩ : BufTy).Contents (Elt F) → (⟨S32x2048, .f32⟩ : BufTy).Contents (Elt F)) ]
theorem reg6_split : (reg6 : List (HloOp τ sig (Elt F))) = regM6 ++ regN6 := rfl

/-- The first part leaves the region's maximum of the argument in its buffer. -/
theorem regM6_max (V : Valuation τ sig (Elt F)) :
    after regM6 V (Proc.devRef .tc main_v38) = max21 0 6 slices_S32x2048x32x32_S32x2048x21x21_0_0_0_6 (V (Proc.devRef .tc main_arg0)) := by
  unfold max21
  after_results_simp
/-- The first part does not write the argument array. -/
theorem regM6_arg (V : Valuation τ sig (Elt F)) : after regM6 V (Proc.devRef .tc main_arg0) = V (Proc.devRef .tc main_arg0) := by
  after_results_simp
/-- The first part does not write the running sum. -/
theorem regM6_acc (V : Valuation τ sig (Elt F)) : after regM6 V (Proc.devRef .tc main_v36) = V (Proc.devRef .tc main_v36) := by
  after_results_simp
/-- The second part adds the normalized maximum to the running sum. -/
theorem regN6_acc (V : Valuation τ sig (Elt F)) :
    after regN6 V (Proc.devRef .tc main_v44) = addf (V (Proc.devRef .tc main_v36)) (normed (V (Proc.devRef .tc main_v38))) := by
  after_results_simp <;> rfl
/-- The second part does not write the argument array. -/
theorem regN6_arg (V : Valuation τ sig (Elt F)) : after regN6 V (Proc.devRef .tc main_arg0) = V (Proc.devRef .tc main_arg0) := by
  after_results_simp
/-- Region 6 adds its normalized maximum to the running sum. -/
theorem reg6_acc (V : Valuation τ sig (Elt F)) :
    after reg6 V (Proc.devRef .tc main_v44) = addf (V (Proc.devRef .tc main_v36)) (normed (max21 0 6 slices_S32x2048x32x32_S32x2048x21x21_0_0_0_6 (V (Proc.devRef .tc main_arg0)))) := by
  rw [reg6_split, after_append, regN6_acc, regM6_acc, regM6_max]
/-- Region 6 does not write the argument array. -/
theorem reg6_arg (V : Valuation τ sig (Elt F)) : after reg6 V (Proc.devRef .tc main_arg0) = V (Proc.devRef .tc main_arg0) := by
  rw [reg6_split, after_append, regN6_arg, regM6_arg]

/-- Region 7, first part: the operations up to the region's maximum. -/
abbrev regM7 : List (HloOp τ sig (Elt F)) :=
  [ unary main_arg0 main_v45 ((extractStridedSlice S32x2048x21x21 ![0, 0, 0, 11] · slices_S32x2048x32x32_S32x2048x21x21_0_0_0_11) : (⟨S32x2048x32x32, .f32⟩ : BufTy).Contents (Elt F) → (⟨S32x2048x21x21, .f32⟩ : BufTy).Contents (Elt F)),
    nullary main_cst_12 (constant S_ .f32 0xFF800000#32),
    binary main_v45 main_cst_12 main_v46 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 7, second part: the norm of the maximum, the quotient, the addition to the running sum. -/
abbrev regN7 : List (HloOp τ sig (Elt F)) :=
  [ TRef.binary (TRef.of (T := ⟨S32x2048, .f32⟩) main_v46) (TRef.of (T := ⟨S32x2048, .f32⟩) main_v46) main_call6.v0 mulf,
    TRef.nullary main_call6.cst (constant S_ .f32 0x00000000#32),
    TRef.binary main_call6.v0 main_call6.cst main_call6.v1 (fun x v => Host.reduceAdd x v reducesTo_S32x2048_S32_d1 h_S_),
    TRef.unary main_call6.v1 main_call6.v2 (broadcastInDim S32x1 ![0] bcast_S32_S32x1_0),
    TRef.unary main_call6.v2 main_call6.v3 Host.sqrt,
    nullary main_cst_13 (constant S_ .f32 0x358637BD#32),
    unary main_cst_13 main_v48 (broadcastInDim S32x1 ![] bcast_S_S32x1 : (⟨S_, .f32⟩ : BufTy).Contents (Elt F) → (⟨S32x1, .f32⟩ : BufTy).Contents (Elt F)),
    binary main_v47 main_v48 main_v49 (addf : (⟨S32x1, .f32⟩ : BufTy).Contents (Elt F) → (⟨S32x1, .f32⟩ : BufTy).Contents (Elt F) → (⟨S32x1, .f32⟩ : BufTy).Contents (Elt F)),
    unary main_v49 main_v50 (broadcastInDim S32x2048 ![0, 1] bcast_S32x1_S32x2048_0_1 : (⟨S32x1, .f32⟩ : BufTy).Contents (Elt F) → (⟨S32x2048, .f32⟩ : BufTy).Contents (Elt F)),
    binary main_v46 main_v50 main_v51 (Host.divf : (⟨S32x2048, .f32⟩ : BufTy).Contents (Elt F) → (⟨S32x2048, .f32⟩ : BufTy).Contents (Elt F) → (⟨S32x2048, .f32⟩ : BufTy).Contents (Elt F)),
    binary main_v44 main_v51 main_v52 (addf : (⟨S32x2048, .f32⟩ : BufTy).Contents (Elt F) → (⟨S32x2048, .f32⟩ : BufTy).Contents (Elt F) → (⟨S32x2048, .f32⟩ : BufTy).Contents (Elt F)) ]
theorem reg7_split : (reg7 : List (HloOp τ sig (Elt F))) = regM7 ++ regN7 := rfl

/-- The first part leaves the region's maximum of the argument in its buffer. -/
theorem regM7_max (V : Valuation τ sig (Elt F)) :
    after regM7 V (Proc.devRef .tc main_v46) = max21 0 11 slices_S32x2048x32x32_S32x2048x21x21_0_0_0_11 (V (Proc.devRef .tc main_arg0)) := by
  unfold max21
  after_results_simp
/-- The first part does not write the argument array. -/
theorem regM7_arg (V : Valuation τ sig (Elt F)) : after regM7 V (Proc.devRef .tc main_arg0) = V (Proc.devRef .tc main_arg0) := by
  after_results_simp
/-- The first part does not write the running sum. -/
theorem regM7_acc (V : Valuation τ sig (Elt F)) : after regM7 V (Proc.devRef .tc main_v44) = V (Proc.devRef .tc main_v44) := by
  after_results_simp
/-- The second part adds the normalized maximum to the running sum. -/
theorem regN7_acc (V : Valuation τ sig (Elt F)) :
    after regN7 V (Proc.devRef .tc main_v52) = addf (V (Proc.devRef .tc main_v44)) (normed (V (Proc.devRef .tc main_v46))) := by
  after_results_simp <;> rfl
/-- The second part does not write the argument array. -/
theorem regN7_arg (V : Valuation τ sig (Elt F)) : after regN7 V (Proc.devRef .tc main_arg0) = V (Proc.devRef .tc main_arg0) := by
  after_results_simp
/-- Region 7 adds its normalized maximum to the running sum. -/
theorem reg7_acc (V : Valuation τ sig (Elt F)) :
    after reg7 V (Proc.devRef .tc main_v52) = addf (V (Proc.devRef .tc main_v44)) (normed (max21 0 11 slices_S32x2048x32x32_S32x2048x21x21_0_0_0_11 (V (Proc.devRef .tc main_arg0)))) := by
  rw [reg7_split, after_append, regN7_acc, regM7_acc, regM7_max]
/-- Region 7 does not write the argument array. -/
theorem reg7_arg (V : Valuation τ sig (Elt F)) : after reg7 V (Proc.devRef .tc main_arg0) = V (Proc.devRef .tc main_arg0) := by
  rw [reg7_split, after_append, regN7_arg, regM7_arg]

/-- Region 8, first part: the operations up to the region's maximum. -/
abbrev regM8 : List (HloOp τ sig (Elt F)) :=
  [ unary main_arg0 main_v53 ((extractStridedSlice S32x2048x21x21 ![0, 0, 6, 0] · slices_S32x2048x32x32_S32x2048x21x21_0_0_6_0) : (⟨S32x2048x32x32, .f32⟩ : BufTy).Contents (Elt F) → (⟨S32x2048x21x21, .f32⟩ : BufTy).Contents (Elt F)),
    nullary main_cst_14 (constant S_ .f32 0xFF800000#32),
    binary main_v53 main_cst_14 main_v54 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 8, second part: the norm of the maximum, the quotient, the addition to the running sum. -/
abbrev regN8 : List (HloOp τ sig (Elt F)) :=
  [ TRef.binary (TRef.of (T := ⟨S32x2048, .f32⟩) main_v54) (TRef.of (T := ⟨S32x2048, .f32⟩) main_v54) main_call7.v0 mulf,
    TRef.nullary main_call7.cst (constant S_ .f32 0x00000000#32),
    TRef.binary main_call7.v0 main_call7.cst main_call7.v1 (fun x v => Host.reduceAdd x v reducesTo_S32x2048_S32_d1 h_S_),
    TRef.unary main_call7.v1 main_call7.v2 (broadcastInDim S32x1 ![0] bcast_S32_S32x1_0),
    TRef.unary main_call7.v2 main_call7.v3 Host.sqrt,
    nullary main_cst_15 (constant S_ .f32 0x358637BD#32),
    unary main_cst_15 main_v56 (broadcastInDim S32x1 ![] bcast_S_S32x1 : (⟨S_, .f32⟩ : BufTy).Contents (Elt F) → (⟨S32x1, .f32⟩ : BufTy).Contents (Elt F)),
    binary main_v55 main_v56 main_v57 (addf : (⟨S32x1, .f32⟩ : BufTy).Contents (Elt F) → (⟨S32x1, .f32⟩ : BufTy).Contents (Elt F) → (⟨S32x1, .f32⟩ : BufTy).Contents (Elt F)),
    unary main_v57 main_v58 (broadcastInDim S32x2048 ![0, 1] bcast_S32x1_S32x2048_0_1 : (⟨S32x1, .f32⟩ : BufTy).Contents (Elt F) → (⟨S32x2048, .f32⟩ : BufTy).Contents (Elt F)),
    binary main_v54 main_v58 main_v59 (Host.divf : (⟨S32x2048, .f32⟩ : BufTy).Contents (Elt F) → (⟨S32x2048, .f32⟩ : BufTy).Contents (Elt F) → (⟨S32x2048, .f32⟩ : BufTy).Contents (Elt F)),
    binary main_v52 main_v59 main_v60 (addf : (⟨S32x2048, .f32⟩ : BufTy).Contents (Elt F) → (⟨S32x2048, .f32⟩ : BufTy).Contents (Elt F) → (⟨S32x2048, .f32⟩ : BufTy).Contents (Elt F)) ]
theorem reg8_split : (reg8 : List (HloOp τ sig (Elt F))) = regM8 ++ regN8 := rfl

/-- The first part leaves the region's maximum of the argument in its buffer. -/
theorem regM8_max (V : Valuation τ sig (Elt F)) :
    after regM8 V (Proc.devRef .tc main_v54) = max21 6 0 slices_S32x2048x32x32_S32x2048x21x21_0_0_6_0 (V (Proc.devRef .tc main_arg0)) := by
  unfold max21
  after_results_simp
/-- The first part does not write the argument array. -/
theorem regM8_arg (V : Valuation τ sig (Elt F)) : after regM8 V (Proc.devRef .tc main_arg0) = V (Proc.devRef .tc main_arg0) := by
  after_results_simp
/-- The first part does not write the running sum. -/
theorem regM8_acc (V : Valuation τ sig (Elt F)) : after regM8 V (Proc.devRef .tc main_v52) = V (Proc.devRef .tc main_v52) := by
  after_results_simp
/-- The second part adds the normalized maximum to the running sum. -/
theorem regN8_acc (V : Valuation τ sig (Elt F)) :
    after regN8 V (Proc.devRef .tc main_v60) = addf (V (Proc.devRef .tc main_v52)) (normed (V (Proc.devRef .tc main_v54))) := by
  after_results_simp <;> rfl
/-- The second part does not write the argument array. -/
theorem regN8_arg (V : Valuation τ sig (Elt F)) : after regN8 V (Proc.devRef .tc main_arg0) = V (Proc.devRef .tc main_arg0) := by
  after_results_simp
/-- Region 8 adds its normalized maximum to the running sum. -/
theorem reg8_acc (V : Valuation τ sig (Elt F)) :
    after reg8 V (Proc.devRef .tc main_v60) = addf (V (Proc.devRef .tc main_v52)) (normed (max21 6 0 slices_S32x2048x32x32_S32x2048x21x21_0_0_6_0 (V (Proc.devRef .tc main_arg0)))) := by
  rw [reg8_split, after_append, regN8_acc, regM8_acc, regM8_max]
/-- Region 8 does not write the argument array. -/
theorem reg8_arg (V : Valuation τ sig (Elt F)) : after reg8 V (Proc.devRef .tc main_arg0) = V (Proc.devRef .tc main_arg0) := by
  rw [reg8_split, after_append, regN8_arg, regM8_arg]

/-- Region 9, first part: the operations up to the region's maximum. -/
abbrev regM9 : List (HloOp τ sig (Elt F)) :=
  [ unary main_arg0 main_v61 ((extractStridedSlice S32x2048x21x21 ![0, 0, 6, 6] · slices_S32x2048x32x32_S32x2048x21x21_0_0_6_6) : (⟨S32x2048x32x32, .f32⟩ : BufTy).Contents (Elt F) → (⟨S32x2048x21x21, .f32⟩ : BufTy).Contents (Elt F)),
    nullary main_cst_16 (constant S_ .f32 0xFF800000#32),
    binary main_v61 main_cst_16 main_v62 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 9, second part: the norm of the maximum, the quotient, the addition to the running sum. -/
abbrev regN9 : List (HloOp τ sig (Elt F)) :=
  [ TRef.binary (TRef.of (T := ⟨S32x2048, .f32⟩) main_v62) (TRef.of (T := ⟨S32x2048, .f32⟩) main_v62) main_call8.v0 mulf,
    TRef.nullary main_call8.cst (constant S_ .f32 0x00000000#32),
    TRef.binary main_call8.v0 main_call8.cst main_call8.v1 (fun x v => Host.reduceAdd x v reducesTo_S32x2048_S32_d1 h_S_),
    TRef.unary main_call8.v1 main_call8.v2 (broadcastInDim S32x1 ![0] bcast_S32_S32x1_0),
    TRef.unary main_call8.v2 main_call8.v3 Host.sqrt,
    nullary main_cst_17 (constant S_ .f32 0x358637BD#32),
    unary main_cst_17 main_v64 (broadcastInDim S32x1 ![] bcast_S_S32x1 : (⟨S_, .f32⟩ : BufTy).Contents (Elt F) → (⟨S32x1, .f32⟩ : BufTy).Contents (Elt F)),
    binary main_v63 main_v64 main_v65 (addf : (⟨S32x1, .f32⟩ : BufTy).Contents (Elt F) → (⟨S32x1, .f32⟩ : BufTy).Contents (Elt F) → (⟨S32x1, .f32⟩ : BufTy).Contents (Elt F)),
    unary main_v65 main_v66 (broadcastInDim S32x2048 ![0, 1] bcast_S32x1_S32x2048_0_1 : (⟨S32x1, .f32⟩ : BufTy).Contents (Elt F) → (⟨S32x2048, .f32⟩ : BufTy).Contents (Elt F)),
    binary main_v62 main_v66 main_v67 (Host.divf : (⟨S32x2048, .f32⟩ : BufTy).Contents (Elt F) → (⟨S32x2048, .f32⟩ : BufTy).Contents (Elt F) → (⟨S32x2048, .f32⟩ : BufTy).Contents (Elt F)),
    binary main_v60 main_v67 main_v68 (addf : (⟨S32x2048, .f32⟩ : BufTy).Contents (Elt F) → (⟨S32x2048, .f32⟩ : BufTy).Contents (Elt F) → (⟨S32x2048, .f32⟩ : BufTy).Contents (Elt F)) ]
theorem reg9_split : (reg9 : List (HloOp τ sig (Elt F))) = regM9 ++ regN9 := rfl

/-- The first part leaves the region's maximum of the argument in its buffer. -/
theorem regM9_max (V : Valuation τ sig (Elt F)) :
    after regM9 V (Proc.devRef .tc main_v62) = max21 6 6 slices_S32x2048x32x32_S32x2048x21x21_0_0_6_6 (V (Proc.devRef .tc main_arg0)) := by
  unfold max21
  after_results_simp
/-- The first part does not write the argument array. -/
theorem regM9_arg (V : Valuation τ sig (Elt F)) : after regM9 V (Proc.devRef .tc main_arg0) = V (Proc.devRef .tc main_arg0) := by
  after_results_simp
/-- The first part does not write the running sum. -/
theorem regM9_acc (V : Valuation τ sig (Elt F)) : after regM9 V (Proc.devRef .tc main_v60) = V (Proc.devRef .tc main_v60) := by
  after_results_simp
/-- The second part adds the normalized maximum to the running sum. -/
theorem regN9_acc (V : Valuation τ sig (Elt F)) :
    after regN9 V (Proc.devRef .tc main_v68) = addf (V (Proc.devRef .tc main_v60)) (normed (V (Proc.devRef .tc main_v62))) := by
  after_results_simp <;> rfl
/-- The second part does not write the argument array. -/
theorem regN9_arg (V : Valuation τ sig (Elt F)) : after regN9 V (Proc.devRef .tc main_arg0) = V (Proc.devRef .tc main_arg0) := by
  after_results_simp
/-- Region 9 adds its normalized maximum to the running sum. -/
theorem reg9_acc (V : Valuation τ sig (Elt F)) :
    after reg9 V (Proc.devRef .tc main_v68) = addf (V (Proc.devRef .tc main_v60)) (normed (max21 6 6 slices_S32x2048x32x32_S32x2048x21x21_0_0_6_6 (V (Proc.devRef .tc main_arg0)))) := by
  rw [reg9_split, after_append, regN9_acc, regM9_acc, regM9_max]
/-- Region 9 does not write the argument array. -/
theorem reg9_arg (V : Valuation τ sig (Elt F)) : after reg9 V (Proc.devRef .tc main_arg0) = V (Proc.devRef .tc main_arg0) := by
  rw [reg9_split, after_append, regN9_arg, regM9_arg]

/-- Region 10, first part: the operations up to the region's maximum. -/
abbrev regM10 : List (HloOp τ sig (Elt F)) :=
  [ unary main_arg0 main_v69 ((extractStridedSlice S32x2048x21x21 ![0, 0, 6, 11] · slices_S32x2048x32x32_S32x2048x21x21_0_0_6_11) : (⟨S32x2048x32x32, .f32⟩ : BufTy).Contents (Elt F) → (⟨S32x2048x21x21, .f32⟩ : BufTy).Contents (Elt F)),
    nullary main_cst_18 (constant S_ .f32 0xFF800000#32),
    binary main_v69 main_cst_18 main_v70 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 10, second part: the norm of the maximum, the quotient, the addition to the running sum. -/
abbrev regN10 : List (HloOp τ sig (Elt F)) :=
  [ TRef.binary (TRef.of (T := ⟨S32x2048, .f32⟩) main_v70) (TRef.of (T := ⟨S32x2048, .f32⟩) main_v70) main_call9.v0 mulf,
    TRef.nullary main_call9.cst (constant S_ .f32 0x00000000#32),
    TRef.binary main_call9.v0 main_call9.cst main_call9.v1 (fun x v => Host.reduceAdd x v reducesTo_S32x2048_S32_d1 h_S_),
    TRef.unary main_call9.v1 main_call9.v2 (broadcastInDim S32x1 ![0] bcast_S32_S32x1_0),
    TRef.unary main_call9.v2 main_call9.v3 Host.sqrt,
    nullary main_cst_19 (constant S_ .f32 0x358637BD#32),
    unary main_cst_19 main_v72 (broadcastInDim S32x1 ![] bcast_S_S32x1 : (⟨S_, .f32⟩ : BufTy).Contents (Elt F) → (⟨S32x1, .f32⟩ : BufTy).Contents (Elt F)),
    binary main_v71 main_v72 main_v73 (addf : (⟨S32x1, .f32⟩ : BufTy).Contents (Elt F) → (⟨S32x1, .f32⟩ : BufTy).Contents (Elt F) → (⟨S32x1, .f32⟩ : BufTy).Contents (Elt F)),
    unary main_v73 main_v74 (broadcastInDim S32x2048 ![0, 1] bcast_S32x1_S32x2048_0_1 : (⟨S32x1, .f32⟩ : BufTy).Contents (Elt F) → (⟨S32x2048, .f32⟩ : BufTy).Contents (Elt F)),
    binary main_v70 main_v74 main_v75 (Host.divf : (⟨S32x2048, .f32⟩ : BufTy).Contents (Elt F) → (⟨S32x2048, .f32⟩ : BufTy).Contents (Elt F) → (⟨S32x2048, .f32⟩ : BufTy).Contents (Elt F)),
    binary main_v68 main_v75 main_v76 (addf : (⟨S32x2048, .f32⟩ : BufTy).Contents (Elt F) → (⟨S32x2048, .f32⟩ : BufTy).Contents (Elt F) → (⟨S32x2048, .f32⟩ : BufTy).Contents (Elt F)) ]
theorem reg10_split : (reg10 : List (HloOp τ sig (Elt F))) = regM10 ++ regN10 := rfl

/-- The first part leaves the region's maximum of the argument in its buffer. -/
theorem regM10_max (V : Valuation τ sig (Elt F)) :
    after regM10 V (Proc.devRef .tc main_v70) = max21 6 11 slices_S32x2048x32x32_S32x2048x21x21_0_0_6_11 (V (Proc.devRef .tc main_arg0)) := by
  unfold max21
  after_results_simp
/-- The first part does not write the argument array. -/
theorem regM10_arg (V : Valuation τ sig (Elt F)) : after regM10 V (Proc.devRef .tc main_arg0) = V (Proc.devRef .tc main_arg0) := by
  after_results_simp
/-- The first part does not write the running sum. -/
theorem regM10_acc (V : Valuation τ sig (Elt F)) : after regM10 V (Proc.devRef .tc main_v68) = V (Proc.devRef .tc main_v68) := by
  after_results_simp
/-- The second part adds the normalized maximum to the running sum. -/
theorem regN10_acc (V : Valuation τ sig (Elt F)) :
    after regN10 V (Proc.devRef .tc main_v76) = addf (V (Proc.devRef .tc main_v68)) (normed (V (Proc.devRef .tc main_v70))) := by
  after_results_simp <;> rfl
/-- The second part does not write the argument array. -/
theorem regN10_arg (V : Valuation τ sig (Elt F)) : after regN10 V (Proc.devRef .tc main_arg0) = V (Proc.devRef .tc main_arg0) := by
  after_results_simp
/-- Region 10 adds its normalized maximum to the running sum. -/
theorem reg10_acc (V : Valuation τ sig (Elt F)) :
    after reg10 V (Proc.devRef .tc main_v76) = addf (V (Proc.devRef .tc main_v68)) (normed (max21 6 11 slices_S32x2048x32x32_S32x2048x21x21_0_0_6_11 (V (Proc.devRef .tc main_arg0)))) := by
  rw [reg10_split, after_append, regN10_acc, regM10_acc, regM10_max]
/-- Region 10 does not write the argument array. -/
theorem reg10_arg (V : Valuation τ sig (Elt F)) : after reg10 V (Proc.devRef .tc main_arg0) = V (Proc.devRef .tc main_arg0) := by
  rw [reg10_split, after_append, regN10_arg, regM10_arg]

end Cert.ReferenceIdeal.RefRun

end
-- ==== Proof.RefRegionsB.lean ====
/-
  The reference's regions 11 to 20, each cut after its maximum. The first part of a region leaves the region's maximum of the argument
  in its buffer and touches neither the argument nor the running sum (the very first also makes the zero array); the second part
  adds the maximum, divided row by row by its norm plus ε, to the running sum. Joined: what each region does to the running sum.
-/
import proofs.«131176_j28467043238140_1_alg».proof.Proof.RefRegions
import proofs.«131176_j28467043238140_1_alg».proof.Proof.RefStep

set_option maxRecDepth 8192
set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Region 11, first part: the operations up to the region's maximum. -/
abbrev regM11 : List (HloOp τ sig (Elt F)) :=
  [ unary main_arg0 main_v77 ((extractStridedSlice S32x2048x21x21 ![0, 0, 11, 0] · slices_S32x2048x32x32_S32x2048x21x21_0_0_11_0) : (⟨S32x2048x32x32, .f32⟩ : BufTy).Contents (Elt F) → (⟨S32x2048x21x21, .f32⟩ : BufTy).Contents (Elt F)),
    nullary main_cst_20 (constant S_ .f32 0xFF800000#32),
    binary main_v77 main_cst_20 main_v78 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 11, second part: the norm of the maximum, the quotient, the addition to the running sum. -/
abbrev regN11 : List (HloOp τ sig (Elt F)) :=
  [ TRef.binary (TRef.of (T := ⟨S32x2048, .f32⟩) main_v78) (TRef.of (T := ⟨S32x2048, .f32⟩) main_v78) main_call10.v0 mulf,
    TRef.nullary main_call10.cst (constant S_ .f32 0x00000000#32),
    TRef.binary main_call10.v0 main_call10.cst main_call10.v1 (fun x v => Host.reduceAdd x v reducesTo_S32x2048_S32_d1 h_S_),
    TRef.unary main_call10.v1 main_call10.v2 (broadcastInDim S32x1 ![0] bcast_S32_S32x1_0),
    TRef.unary main_call10.v2 main_call10.v3 Host.sqrt,
    nullary main_cst_21 (constant S_ .f32 0x358637BD#32),
    unary main_cst_21 main_v80 (broadcastInDim S32x1 ![] bcast_S_S32x1 : (⟨S_, .f32⟩ : BufTy).Contents (Elt F) → (⟨S32x1, .f32⟩ : BufTy).Contents (Elt F)),
    binary main_v79 main_v80 main_v81 (addf : (⟨S32x1, .f32⟩ : BufTy).Contents (Elt F) → (⟨S32x1, .f32⟩ : BufTy).Contents (Elt F) → (⟨S32x1, .f32⟩ : BufTy).Contents (Elt F)),
    unary main_v81 main_v82 (broadcastInDim S32x2048 ![0, 1] bcast_S32x1_S32x2048_0_1 : (⟨S32x1, .f32⟩ : BufTy).Contents (Elt F) → (⟨S32x2048, .f32⟩ : BufTy).Contents (Elt F)),
    binary main_v78 main_v82 main_v83 (Host.divf : (⟨S32x2048, .f32⟩ : BufTy).Contents (Elt F) → (⟨S32x2048, .f32⟩ : BufTy).Contents (Elt F) → (⟨S32x2048, .f32⟩ : BufTy).Contents (Elt F)),
    binary main_v76 main_v83 main_v84 (addf : (⟨S32x2048, .f32⟩ : BufTy).Contents (Elt F) → (⟨S32x2048, .f32⟩ : BufTy).Contents (Elt F) → (⟨S32x2048, .f32⟩ : BufTy).Contents (Elt F)) ]
theorem reg11_split : (reg11 : List (HloOp τ sig (Elt F))) = regM11 ++ regN11 := rfl

/-- The first part leaves the region's maximum of the argument in its buffer. -/
theorem regM11_max (V : Valuation τ sig (Elt F)) :
    after regM11 V (Proc.devRef .tc main_v78) = max21 11 0 slices_S32x2048x32x32_S32x2048x21x21_0_0_11_0 (V (Proc.devRef .tc main_arg0)) := by
  unfold max21
  after_results_simp
/-- The first part does not write the argument array. -/
theorem regM11_arg (V : Valuation τ sig (Elt F)) : after regM11 V (Proc.devRef .tc main_arg0) = V (Proc.devRef .tc main_arg0) := by
  after_results_simp
/-- The first part does not write the running sum. -/
theorem regM11_acc (V : Valuation τ sig (Elt F)) : after regM11 V (Proc.devRef .tc main_v76) = V (Proc.devRef .tc main_v76) := by
  after_results_simp
/-- The second part adds the normalized maximum to the running sum. -/
theorem regN11_acc (V : Valuation τ sig (Elt F)) :
    after regN11 V (Proc.devRef .tc main_v84) = addf (V (Proc.devRef .tc main_v76)) (normed (V (Proc.devRef .tc main_v78))) := by
  after_results_simp <;> rfl
/-- The second part does not write the argument array. -/
theorem regN11_arg (V : Valuation τ sig (Elt F)) : after regN11 V (Proc.devRef .tc main_arg0) = V (Proc.devRef .tc main_arg0) := by
  after_results_simp
/-- Region 11 adds its normalized maximum to the running sum. -/
theorem reg11_acc (V : Valuation τ sig (Elt F)) :
    after reg11 V (Proc.devRef .tc main_v84) = addf (V (Proc.devRef .tc main_v76)) (normed (max21 11 0 slices_S32x2048x32x32_S32x2048x21x21_0_0_11_0 (V (Proc.devRef .tc main_arg0)))) := by
  rw [reg11_split, after_append, regN11_acc, regM11_acc, regM11_max]
/-- Region 11 does not write the argument array. -/
theorem reg11_arg (V : Valuation τ sig (Elt F)) : after reg11 V (Proc.devRef .tc main_arg0) = V (Proc.devRef .tc main_arg0) := by
  rw [reg11_split, after_append, regN11_arg, regM11_arg]

/-- Region 12, first part: the operations up to the region's maximum. -/
abbrev regM12 : List (HloOp τ sig (Elt F)) :=
  [ unary main_arg0 main_v85 ((extractStridedSlice S32x2048x21x21 ![0, 0, 11, 6] · slices_S32x2048x32x32_S32x2048x21x21_0_0_11_6) : (⟨S32x2048x32x32, .f32⟩ : BufTy).Contents (Elt F) → (⟨S32x2048x21x21, .f32⟩ : BufTy).Contents (Elt F)),
    nullary main_cst_22 (constant S_ .f32 0xFF800000#32),
    binary main_v85 main_cst_22 main_v86 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 12, second part: the norm of the maximum, the quotient, the addition to the running sum. -/
abbrev regN12 : List (HloOp τ sig (Elt F)) :=
  [ TRef.binary (TRef.of (T := ⟨S32x2048, .f32⟩) main_v86) (TRef.of (T := ⟨S32x2048, .f32⟩) main_v86) main_call11.v0 mulf,
    TRef.nullary main_call11.cst (constant S_ .f32 0x00000000#32),
    TRef.binary main_call11.v0 main_call11.cst main_call11.v1 (fun x v => Host.reduceAdd x v reducesTo_S32x2048_S32_d1 h_S_),
    TRef.unary main_call11.v1 main_call11.v2 (broadcastInDim S32x1 ![0] bcast_S32_S32x1_0),
    TRef.unary main_call11.v2 main_call11.v3 Host.sqrt,
    nullary main_cst_23 (constant S_ .f32 0x358637BD#32),
    unary main_cst_23 main_v88 (broadcastInDim S32x1 ![] bcast_S_S32x1 : (⟨S_, .f32⟩ : BufTy).Contents (Elt F) → (⟨S32x1, .f32⟩ : BufTy).Contents (Elt F)),
    binary main_v87 main_v88 main_v89 (addf : (⟨S32x1, .f32⟩ : BufTy).Contents (Elt F) → (⟨S32x1, .f32⟩ : BufTy).Contents (Elt F) → (⟨S32x1, .f32⟩ : BufTy).Contents (Elt F)),
    unary main_v89 main_v90 (broadcastInDim S32x2048 ![0, 1] bcast_S32x1_S32x2048_0_1 : (⟨S32x1, .f32⟩ : BufTy).Contents (Elt F) → (⟨S32x2048, .f32⟩ : BufTy).Contents (Elt F)),
    binary main_v86 main_v90 main_v91 (Host.divf : (⟨S32x2048, .f32⟩ : BufTy).Contents (Elt F) → (⟨S32x2048, .f32⟩ : BufTy).Contents (Elt F) → (⟨S32x2048, .f32⟩ : BufTy).Contents (Elt F)),
    binary main_v84 main_v91 main_v92 (addf : (⟨S32x2048, .f32⟩ : BufTy).Contents (Elt F) → (⟨S32x2048, .f32⟩ : BufTy).Contents (Elt F) → (⟨S32x2048, .f32⟩ : BufTy).Contents (Elt F)) ]
theorem reg12_split : (reg12 : List (HloOp τ sig (Elt F))) = regM12 ++ regN12 := rfl

/-- The first part leaves the region's maximum of the argument in its buffer. -/
theorem regM12_max (V : Valuation τ sig (Elt F)) :
    after regM12 V (Proc.devRef .tc main_v86) = max21 11 6 slices_S32x2048x32x32_S32x2048x21x21_0_0_11_6 (V (Proc.devRef .tc main_arg0)) := by
  unfold max21
  after_results_simp
/-- The first part does not write the argument array. -/
theorem regM12_arg (V : Valuation τ sig (Elt F)) : after regM12 V (Proc.devRef .tc main_arg0) = V (Proc.devRef .tc main_arg0) := by
  after_results_simp
/-- The first part does not write the running sum. -/
theorem regM12_acc (V : Valuation τ sig (Elt F)) : after regM12 V (Proc.devRef .tc main_v84) = V (Proc.devRef .tc main_v84) := by
  after_results_simp
/-- The second part adds the normalized maximum to the running sum. -/
theorem regN12_acc (V : Valuation τ sig (Elt F)) :
    after regN12 V (Proc.devRef .tc main_v92) = addf (V (Proc.devRef .tc main_v84)) (normed (V (Proc.devRef .tc main_v86))) := by
  after_results_simp <;> rfl
/-- The second part does not write the argument array. -/
theorem regN12_arg (V : Valuation τ sig (Elt F)) : after regN12 V (Proc.devRef .tc main_arg0) = V (Proc.devRef .tc main_arg0) := by
  after_results_simp
/-- Region 12 adds its normalized maximum to the running sum. -/
theorem reg12_acc (V : Valuation τ sig (Elt F)) :
    after reg12 V (Proc.devRef .tc main_v92) = addf (V (Proc.devRef .tc main_v84)) (normed (max21 11 6 slices_S32x2048x32x32_S32x2048x21x21_0_0_11_6 (V (Proc.devRef .tc main_arg0)))) := by
  rw [reg12_split, after_append, regN12_acc, regM12_acc, regM12_max]
/-- Region 12 does not write the argument array. -/
theorem reg12_arg (V : Valuation τ sig (Elt F)) : after reg12 V (Proc.devRef .tc main_arg0) = V (Proc.devRef .tc main_arg0) := by
  rw [reg12_split, after_append, regN12_arg, regM12_arg]

/-- Region 13, first part: the operations up to the region's maximum. -/
abbrev regM13 : List (HloOp τ sig (Elt F)) :=
  [ unary main_arg0 main_v93 ((extractStridedSlice S32x2048x21x21 ![0, 0, 11, 11] · slices_S32x2048x32x32_S32x2048x21x21_0_0_11_11) : (⟨S32x2048x32x32, .f32⟩ : BufTy).Contents (Elt F) → (⟨S32x2048x21x21, .f32⟩ : BufTy).Contents (Elt F)),
    nullary main_cst_24 (constant S_ .f32 0xFF800000#32),
    binary main_v93 main_cst_24 main_v94 ((fun x v => Host.reduce FloatOps.maximumf x v reducesTo_S32x2048x21x21_S32x2048_d2_3 h_S_) : (⟨S32x2048x21x21, .f32⟩ : BufTy).Contents (Elt F) → (⟨S_, .f32⟩ : BufTy).Contents (Elt F) → (⟨S32x2048, .f32⟩ : BufTy).Contents (Elt F)) ]
/-- Region 13, second part: the norm of the maximum, the quotient, the addition to the running sum. -/
abbrev regN13 : List (HloOp τ sig (Elt F)) :=
  [ TRef.binary (TRef.of (T := ⟨S32x2048, .f32⟩) main_v94) (TRef.of (T := ⟨S32x2048, .f32⟩) main_v94) main_call12.v0 mulf,
    TRef.nullary main_call12.cst (constant S_ .f32 0x00000000#32),
    TRef.binary main_call12.v0 main_call12.cst main_call12.v1 (fun x v => Host.reduceAdd x v reducesTo_S32x2048_S32_d1 h_S_),
    TRef.unary main_call12.v1 main_call12.v2 (broadcastInDim S32x1 ![0] bcast_S32_S32x1_0),
    TRef.unary main_call12.v2 main_call12.v3 Host.sqrt,
    nullary main_cst_25 (constant S_ .f32 0x358637BD#32),
    unary main_cst_25 main_v96 (broadcastInDim S32x1 ![] bcast_S_S32x1 : (⟨S_, .f32⟩ : BufTy).Contents (Elt F) → (⟨S32x1, .f32⟩ : BufTy).Contents (Elt F)),
    binary main_v95 main_v96 main_v97 (addf : (⟨S32x1, .f32⟩ : BufTy).Contents (Elt F) → (⟨S32x1, .f32⟩ : BufTy).Contents (Elt F) → (⟨S32x1, .f32⟩ : BufTy).Contents (Elt F)),
    unary main_v97 main_v98 (broadcastInDim S32x2048 ![0, 1] bcast_S32x1_S32x2048_0_1 : (⟨S32x1, .f32⟩ : BufTy).Contents (Elt F) → (⟨S32x2048, .f32⟩ : BufTy).Contents (Elt F)),
    binary main_v94 main_v98 main_v99 (Host.divf : (⟨S32x2048, .f32⟩ : BufTy).Contents (Elt F) → (⟨S32x2048, .f32⟩ : BufTy).Contents (Elt F) → (⟨S32x2048, .f32⟩ : BufTy).Contents (Elt F)),
    binary main_v92 main_v99 main_v100 (addf : (⟨S32x2048, .f32⟩ : BufTy).Contents (Elt F) → (⟨S32x2048, .f32⟩ : BufTy).Contents (Elt F) → (⟨S32x2048, .f32⟩ : BufTy).Contents (Elt F)) ]
theorem reg13_split : (reg13 : List (HloOp τ sig (Elt F))) = regM13 ++ regN13 := rfl

/-- The first part leaves the region's maximum of the argument in its buffer. -/
theorem regM13_max (V : Valuation τ sig (Elt F)) :
    after regM13 V (Proc.devRef .tc main_v94) = max21 11 11 slices_S32x2048x32x32_S32x2048x21x21_0_0_11_11 (V (Proc.devRef .tc main_arg0)) := by
  unfold max21
  after_results_simp
/-- The first part does not write the argument array. -/
theorem regM13_arg (V : Valuation τ sig (Elt F)) : after regM13 V (Proc.devRef .tc main_arg0) = V (Proc.devRef .tc main_arg0) := by
  after_results_simp
/-- The first part does not write the running sum. -/
theorem regM13_acc (V : Valuation τ sig (Elt F)) : after regM13 V (Proc.devRef .tc main_v92) = V (Proc.devRef .tc main_v92) := by
  after_results_simp
/-- The second part adds the normalized maximum to the running sum. -/
theorem regN13_acc (V : Valuation τ sig (Elt F)) :
    after regN13 V (Proc.devRef .tc main_v100) = addf (V (Proc.devRef .tc main_v92)) (normed (V (Proc.devRef .tc main_v94))) := by
  after_results_simp <;> rfl
/-- The second part does not write the argument array. -/
theorem regN13_arg (V : Valuation τ sig (Elt F)) : after regN13 V (Proc.devRef .tc main_arg0) = V (Proc.devRef .tc main_arg0) := by
  after_results_simp
/-- Region 13 adds its normalized maximum to the running sum. -/
theorem reg13_acc (V : Valuation τ sig (Elt F)) :
    after reg13 V (Proc.devRef .tc main_v100) = addf (V (Proc.devRef .tc main_v92)) (normed (max21 11 11 slices_S32x2048x32x32_S32x2048x21x21_0_0_11_11 (V (Proc.devRef .tc main_arg0)))) := by
  rw [reg13_split, after_append, regN13_acc, regM13_acc, regM13_max]
/-- Region 13 does not write the argument array. -/
theorem reg13_arg (V : Valuation τ sig (Elt F)) : after reg13 V (Proc.devRef .tc main_arg0) = V (Proc.devRef .tc main_arg0) := by
  rw [reg13_split, after_append, regN13_arg, regM13_arg]

/-- Region 14, first part: the operations up to the region's maximum. -/
abbrev regM14 : List (HloOp τ sig (Elt F)) :=
  [ unary main_arg0 main_v101 ((extractStridedSlice S32x2048x16x16 ![0, 0, 0, 0] · slices_S32x2048x32x32_S32x2048x16x16_0_0_0_0) : (⟨S32x2048x32x32, .f32⟩ : BufTy).Contents (Elt F) → (⟨S32x2048x16x16, .f32⟩ : BufTy).Contents (Elt F)),
    nullary main_cst_26 (constant S_ .f32 0xFF800000#32),
    binary main_v101 main_cst_26 main_v102 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 14, second part: the norm of the maximum, the quotient, the addition to the running sum. -/
abbrev regN14 : List (HloOp τ sig (Elt F)) :=
  [ TRef.binary (TRef.of (T := ⟨S32x2048, .f32⟩) main_v102) (TRef.of (T := ⟨S32x2048, .f32⟩) main_v102) main_call13.v0 mulf,
    TRef.nullary main_call13.cst (constant S_ .f32 0x00000000#32),
    TRef.binary main_call13.v0 main_call13.cst main_call13.v1 (fun x v => Host.reduceAdd x v reducesTo_S32x2048_S32_d1 h_S_),
    TRef.unary main_call13.v1 main_call13.v2 (broadcastInDim S32x1 ![0] bcast_S32_S32x1_0),
    TRef.unary main_call13.v2 main_call13.v3 Host.sqrt,
    nullary main_cst_27 (constant S_ .f32 0x358637BD#32),
    unary main_cst_27 main_v104 (broadcastInDim S32x1 ![] bcast_S_S32x1 : (⟨S_, .f32⟩ : BufTy).Contents (Elt F) → (⟨S32x1, .f32⟩ : BufTy).Contents (Elt F)),
    binary main_v103 main_v104 main_v105 (addf : (⟨S32x1, .f32⟩ : BufTy).Contents (Elt F) → (⟨S32x1, .f32⟩ : BufTy).Contents (Elt F) → (⟨S32x1, .f32⟩ : BufTy).Contents (Elt F)),
    unary main_v105 main_v106 (broadcastInDim S32x2048 ![0, 1] bcast_S32x1_S32x2048_0_1 : (⟨S32x1, .f32⟩ : BufTy).Contents (Elt F) → (⟨S32x2048, .f32⟩ : BufTy).Contents (Elt F)),
    binary main_v102 main_v106 main_v107 (Host.divf : (⟨S32x2048, .f32⟩ : BufTy).Contents (Elt F) → (⟨S32x2048, .f32⟩ : BufTy).Contents (Elt F) → (⟨S32x2048, .f32⟩ : BufTy).Contents (Elt F)),
    binary main_v100 main_v107 main_v108 (addf : (⟨S32x2048, .f32⟩ : BufTy).Contents (Elt F) → (⟨S32x2048, .f32⟩ : BufTy).Contents (Elt F) → (⟨S32x2048, .f32⟩ : BufTy).Contents (Elt F)) ]
theorem reg14_split : (reg14 : List (HloOp τ sig (Elt F))) = regM14 ++ regN14 := rfl

/-- The first part leaves the region's maximum of the argument in its buffer. -/
theorem regM14_max (V : Valuation τ sig (Elt F)) :
    after regM14 V (Proc.devRef .tc main_v102) = max16 0 0 slices_S32x2048x32x32_S32x2048x16x16_0_0_0_0 (V (Proc.devRef .tc main_arg0)) := by
  unfold max16
  after_results_simp
/-- The first part does not write the argument array. -/
theorem regM14_arg (V : Valuation τ sig (Elt F)) : after regM14 V (Proc.devRef .tc main_arg0) = V (Proc.devRef .tc main_arg0) := by
  after_results_simp
/-- The first part does not write the running sum. -/
theorem regM14_acc (V : Valuation τ sig (Elt F)) : after regM14 V (Proc.devRef .tc main_v100) = V (Proc.devRef .tc main_v100) := by
  after_results_simp
/-- The second part adds the normalized maximum to the running sum. -/
theorem regN14_acc (V : Valuation τ sig (Elt F)) :
    after regN14 V (Proc.devRef .tc main_v108) = addf (V (Proc.devRef .tc main_v100)) (normed (V (Proc.devRef .tc main_v102))) := by
  after_results_simp <;> rfl
/-- The second part does not write the argument array. -/
theorem regN14_arg (V : Valuation τ sig (Elt F)) : after regN14 V (Proc.devRef .tc main_arg0) = V (Proc.devRef .tc main_arg0) := by
  after_results_simp
/-- Region 14 adds its normalized maximum to the running sum. -/
theorem reg14_acc (V : Valuation τ sig (Elt F)) :
    after reg14 V (Proc.devRef .tc main_v108) = addf (V (Proc.devRef .tc main_v100)) (normed (max16 0 0 slices_S32x2048x32x32_S32x2048x16x16_0_0_0_0 (V (Proc.devRef .tc main_arg0)))) := by
  rw [reg14_split, after_append, regN14_acc, regM14_acc, regM14_max]
/-- Region 14 does not write the argument array. -/
theorem reg14_arg (V : Valuation τ sig (Elt F)) : after reg14 V (Proc.devRef .tc main_arg0) = V (Proc.devRef .tc main_arg0) := by
  rw [reg14_split, after_append, regN14_arg, regM14_arg]

/-- Region 15, first part: the operations up to the region's maximum. -/
abbrev regM15 : List (HloOp τ sig (Elt F)) :=
  [ unary main_arg0 main_v109 ((extractStridedSlice S32x2048x16x16 ![0, 0, 0, 5] · slices_S32x2048x32x32_S32x2048x16x16_0_0_0_5) : (⟨S32x2048x32x32, .f32⟩ : BufTy).Contents (Elt F) → (⟨S32x2048x16x16, .f32⟩ : BufTy).Contents (Elt F)),
    nullary main_cst_28 (constant S_ .f32 0xFF800000#32),
    binary main_v109 main_cst_28 main_v110 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 15, second part: the norm of the maximum, the quotient, the addition to the running sum. -/
abbrev regN15 : List (HloOp τ sig (Elt F)) :=
  [ TRef.binary (TRef.of (T := ⟨S32x2048, .f32⟩) main_v110) (TRef.of (T := ⟨S32x2048, .f32⟩) main_v110) main_call14.v0 mulf,
    TRef.nullary main_call14.cst (constant S_ .f32 0x00000000#32),
    TRef.binary main_call14.v0 main_call14.cst main_call14.v1 (fun x v => Host.reduceAdd x v reducesTo_S32x2048_S32_d1 h_S_),
    TRef.unary main_call14.v1 main_call14.v2 (broadcastInDim S32x1 ![0] bcast_S32_S32x1_0),
    TRef.unary main_call14.v2 main_call14.v3 Host.sqrt,
    nullary main_cst_29 (constant S_ .f32 0x358637BD#32),
    unary main_cst_29 main_v112 (broadcastInDim S32x1 ![] bcast_S_S32x1 : (⟨S_, .f32⟩ : BufTy).Contents (Elt F) → (⟨S32x1, .f32⟩ : BufTy).Contents (Elt F)),
    binary main_v111 main_v112 main_v113 (addf : (⟨S32x1, .f32⟩ : BufTy).Contents (Elt F) → (⟨S32x1, .f32⟩ : BufTy).Contents (Elt F) → (⟨S32x1, .f32⟩ : BufTy).Contents (Elt F)),
    unary main_v113 main_v114 (broadcastInDim S32x2048 ![0, 1] bcast_S32x1_S32x2048_0_1 : (⟨S32x1, .f32⟩ : BufTy).Contents (Elt F) → (⟨S32x2048, .f32⟩ : BufTy).Contents (Elt F)),
    binary main_v110 main_v114 main_v115 (Host.divf : (⟨S32x2048, .f32⟩ : BufTy).Contents (Elt F) → (⟨S32x2048, .f32⟩ : BufTy).Contents (Elt F) → (⟨S32x2048, .f32⟩ : BufTy).Contents (Elt F)),
    binary main_v108 main_v115 main_v116 (addf : (⟨S32x2048, .f32⟩ : BufTy).Contents (Elt F) → (⟨S32x2048, .f32⟩ : BufTy).Contents (Elt F) → (⟨S32x2048, .f32⟩ : BufTy).Contents (Elt F)) ]
theorem reg15_split : (reg15 : List (HloOp τ sig (Elt F))) = regM15 ++ regN15 := rfl

/-- The first part leaves the region's maximum of the argument in its buffer. -/
theorem regM15_max (V : Valuation τ sig (Elt F)) :
    after regM15 V (Proc.devRef .tc main_v110) = max16 0 5 slices_S32x2048x32x32_S32x2048x16x16_0_0_0_5 (V (Proc.devRef .tc main_arg0)) := by
  unfold max16
  after_results_simp
/-- The first part does not write the argument array. -/
theorem regM15_arg (V : Valuation τ sig (Elt F)) : after regM15 V (Proc.devRef .tc main_arg0) = V (Proc.devRef .tc main_arg0) := by
  after_results_simp
/-- The first part does not write the running sum. -/
theorem regM15_acc (V : Valuation τ sig (Elt F)) : after regM15 V (Proc.devRef .tc main_v108) = V (Proc.devRef .tc main_v108) := by
  after_results_simp
/-- The second part adds the normalized maximum to the running sum. -/
theorem regN15_acc (V : Valuation τ sig (Elt F)) :
    after regN15 V (Proc.devRef .tc main_v116) = addf (V (Proc.devRef .tc main_v108)) (normed (V (Proc.devRef .tc main_v110))) := by
  after_results_simp <;> rfl
/-- The second part does not write the argument array. -/
theorem regN15_arg (V : Valuation τ sig (Elt F)) : after regN15 V (Proc.devRef .tc main_arg0) = V (Proc.devRef .tc main_arg0) := by
  after_results_simp
/-- Region 15 adds its normalized maximum to the running sum. -/
theorem reg15_acc (V : Valuation τ sig (Elt F)) :
    after reg15 V (Proc.devRef .tc main_v116) = addf (V (Proc.devRef .tc main_v108)) (normed (max16 0 5 slices_S32x2048x32x32_S32x2048x16x16_0_0_0_5 (V (Proc.devRef .tc main_arg0)))) := by
  rw [reg15_split, after_append, regN15_acc, regM15_acc, regM15_max]
/-- Region 15 does not write the argument array. -/
theorem reg15_arg (V : Valuation τ sig (Elt F)) : after reg15 V (Proc.devRef .tc main_arg0) = V (Proc.devRef .tc main_arg0) := by
  rw [reg15_split, after_append, regN15_arg, regM15_arg]

/-- Region 16, first part: the operations up to the region's maximum. -/
abbrev regM16 : List (HloOp τ sig (Elt F)) :=
  [ unary main_arg0 main_v117 ((extractStridedSlice S32x2048x16x16 ![0, 0, 0, 11] · slices_S32x2048x32x32_S32x2048x16x16_0_0_0_11) : (⟨S32x2048x32x32, .f32⟩ : BufTy).Contents (Elt F) → (⟨S32x2048x16x16, .f32⟩ : BufTy).Contents (Elt F)),
    nullary main_cst_30 (constant S_ .f32 0xFF800000#32),
    binary main_v117 main_cst_30 main_v118 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 16, second part: the norm of the maximum, the quotient, the addition to the running sum. -/
abbrev regN16 : List (HloOp τ sig (Elt F)) :=
  [ TRef.binary (TRef.of (T := ⟨S32x2048, .f32⟩) main_v118) (TRef.of (T := ⟨S32x2048, .f32⟩) main_v118) main_call15.v0 mulf,
    TRef.nullary main_call15.cst (constant S_ .f32 0x00000000#32),
    TRef.binary main_call15.v0 main_call15.cst main_call15.v1 (fun x v => Host.reduceAdd x v reducesTo_S32x2048_S32_d1 h_S_),
    TRef.unary main_call15.v1 main_call15.v2 (broadcastInDim S32x1 ![0] bcast_S32_S32x1_0),
    TRef.unary main_call15.v2 main_call15.v3 Host.sqrt,
    nullary main_cst_31 (constant S_ .f32 0x358637BD#32),
    unary main_cst_31 main_v120 (broadcastInDim S32x1 ![] bcast_S_S32x1 : (⟨S_, .f32⟩ : BufTy).Contents (Elt F) → (⟨S32x1, .f32⟩ : BufTy).Contents (Elt F)),
    binary main_v119 main_v120 main_v121 (addf : (⟨S32x1, .f32⟩ : BufTy).Contents (Elt F) → (⟨S32x1, .f32⟩ : BufTy).Contents (Elt F) → (⟨S32x1, .f32⟩ : BufTy).Contents (Elt F)),
    unary main_v121 main_v122 (broadcastInDim S32x2048 ![0, 1] bcast_S32x1_S32x2048_0_1 : (⟨S32x1, .f32⟩ : BufTy).Contents (Elt F) → (⟨S32x2048, .f32⟩ : BufTy).Contents (Elt F)),
    binary main_v118 main_v122 main_v123 (Host.divf : (⟨S32x2048, .f32⟩ : BufTy).Contents (Elt F) → (⟨S32x2048, .f32⟩ : BufTy).Contents (Elt F) → (⟨S32x2048, .f32⟩ : BufTy).Contents (Elt F)),
    binary main_v116 main_v123 main_v124 (addf : (⟨S32x2048, .f32⟩ : BufTy).Contents (Elt F) → (⟨S32x2048, .f32⟩ : BufTy).Contents (Elt F) → (⟨S32x2048, .f32⟩ : BufTy).Contents (Elt F)) ]
theorem reg16_split : (reg16 : List (HloOp τ sig (Elt F))) = regM16 ++ regN16 := rfl

/-- The first part leaves the region's maximum of the argument in its buffer. -/
theorem regM16_max (V : Valuation τ sig (Elt F)) :
    after regM16 V (Proc.devRef .tc main_v118) = max16 0 11 slices_S32x2048x32x32_S32x2048x16x16_0_0_0_11 (V (Proc.devRef .tc main_arg0)) := by
  unfold max16
  after_results_simp
/-- The first part does not write the argument array. -/
theorem regM16_arg (V : Valuation τ sig (Elt F)) : after regM16 V (Proc.devRef .tc main_arg0) = V (Proc.devRef .tc main_arg0) := by
  after_results_simp
/-- The first part does not write the running sum. -/
theorem regM16_acc (V : Valuation τ sig (Elt F)) : after regM16 V (Proc.devRef .tc main_v116) = V (Proc.devRef .tc main_v116) := by
  after_results_simp
/-- The second part adds the normalized maximum to the running sum. -/
theorem regN16_acc (V : Valuation τ sig (Elt F)) :
    after regN16 V (Proc.devRef .tc main_v124) = addf (V (Proc.devRef .tc main_v116)) (normed (V (Proc.devRef .tc main_v118))) := by
  after_results_simp <;> rfl
/-- The second part does not write the argument array. -/
theorem regN16_arg (V : Valuation τ sig (Elt F)) : after regN16 V (Proc.devRef .tc main_arg0) = V (Proc.devRef .tc main_arg0) := by
  after_results_simp
/-- Region 16 adds its normalized maximum to the running sum. -/
theorem reg16_acc (V : Valuation τ sig (Elt F)) :
    after reg16 V (Proc.devRef .tc main_v124) = addf (V (Proc.devRef .tc main_v116)) (normed (max16 0 11 slices_S32x2048x32x32_S32x2048x16x16_0_0_0_11 (V (Proc.devRef .tc main_arg0)))) := by
  rw [reg16_split, after_append, regN16_acc, regM16_acc, regM16_max]
/-- Region 16 does not write the argument array. -/
theorem reg16_arg (V : Valuation τ sig (Elt F)) : after reg16 V (Proc.devRef .tc main_arg0) = V (Proc.devRef .tc main_arg0) := by
  rw [reg16_split, after_append, regN16_arg, regM16_arg]

/-- Region 17, first part: the operations up to the region's maximum. -/
abbrev regM17 : List (HloOp τ sig (Elt F)) :=
  [ unary main_arg0 main_v125 ((extractStridedSlice S32x2048x16x16 ![0, 0, 0, 16] · slices_S32x2048x32x32_S32x2048x16x16_0_0_0_16) : (⟨S32x2048x32x32, .f32⟩ : BufTy).Contents (Elt F) → (⟨S32x2048x16x16, .f32⟩ : BufTy).Contents (Elt F)),
    nullary main_cst_32 (constant S_ .f32 0xFF800000#32),
    binary main_v125 main_cst_32 main_v126 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 17, second part: the norm of the maximum, the quotient, the addition to the running sum. -/
abbrev regN17 : List (HloOp τ sig (Elt F)) :=
  [ TRef.binary (TRef.of (T := ⟨S32x2048, .f32⟩) main_v126) (TRef.of (T := ⟨S32x2048, .f32⟩) main_v126) main_call16.v0 mulf,
    TRef.nullary main_call16.cst (constant S_ .f32 0x00000000#32),
    TRef.binary main_call16.v0 main_call16.cst main_call16.v1 (fun x v => Host.reduceAdd x v reducesTo_S32x2048_S32_d1 h_S_),
    TRef.unary main_call16.v1 main_call16.v2 (broadcastInDim S32x1 ![0] bcast_S32_S32x1_0),
    TRef.unary main_call16.v2 main_call16.v3 Host.sqrt,
    nullary main_cst_33 (constant S_ .f32 0x358637BD#32),
    unary main_cst_33 main_v128 (broadcastInDim S32x1 ![] bcast_S_S32x1 : (⟨S_, .f32⟩ : BufTy).Contents (Elt F) → (⟨S32x1, .f32⟩ : BufTy).Contents (Elt F)),
    binary main_v127 main_v128 main_v129 (addf : (⟨S32x1, .f32⟩ : BufTy).Contents (Elt F) → (⟨S32x1, .f32⟩ : BufTy).Contents (Elt F) → (⟨S32x1, .f32⟩ : BufTy).Contents (Elt F)),
    unary main_v129 main_v130 (broadcastInDim S32x2048 ![0, 1] bcast_S32x1_S32x2048_0_1 : (⟨S32x1, .f32⟩ : BufTy).Contents (Elt F) → (⟨S32x2048, .f32⟩ : BufTy).Contents (Elt F)),
    binary main_v126 main_v130 main_v131 (Host.divf : (⟨S32x2048, .f32⟩ : BufTy).Contents (Elt F) → (⟨S32x2048, .f32⟩ : BufTy).Contents (Elt F) → (⟨S32x2048, .f32⟩ : BufTy).Contents (Elt F)),
    binary main_v124 main_v131 main_v132 (addf : (⟨S32x2048, .f32⟩ : BufTy).Contents (Elt F) → (⟨S32x2048, .f32⟩ : BufTy).Contents (Elt F) → (⟨S32x2048, .f32⟩ : BufTy).Contents (Elt F)) ]
theorem reg17_split : (reg17 : List (HloOp τ sig (Elt F))) = regM17 ++ regN17 := rfl

/-- The first part leaves the region's maximum of the argument in its buffer. -/
theorem regM17_max (V : Valuation τ sig (Elt F)) :
    after regM17 V (Proc.devRef .tc main_v126) = max16 0 16 slices_S32x2048x32x32_S32x2048x16x16_0_0_0_16 (V (Proc.devRef .tc main_arg0)) := by
  unfold max16
  after_results_simp
/-- The first part does not write the argument array. -/
theorem regM17_arg (V : Valuation τ sig (Elt F)) : after regM17 V (Proc.devRef .tc main_arg0) = V (Proc.devRef .tc main_arg0) := by
  after_results_simp
/-- The first part does not write the running sum. -/
theorem regM17_acc (V : Valuation τ sig (Elt F)) : after regM17 V (Proc.devRef .tc main_v124) = V (Proc.devRef .tc main_v124) := by
  after_results_simp
/-- The second part adds the normalized maximum to the running sum. -/
theorem regN17_acc (V : Valuation τ sig (Elt F)) :
    after regN17 V (Proc.devRef .tc main_v132) = addf (V (Proc.devRef .tc main_v124)) (normed (V (Proc.devRef .tc main_v126))) := by
  after_results_simp <;> rfl
/-- The second part does not write the argument array. -/
theorem regN17_arg (V : Valuation τ sig (Elt F)) : after regN17 V (Proc.devRef .tc main_arg0) = V (Proc.devRef .tc main_arg0) := by
  after_results_simp
/-- Region 17 adds its normalized maximum to the running sum. -/
theorem reg17_acc (V : Valuation τ sig (Elt F)) :
    after reg17 V (Proc.devRef .tc main_v132) = addf (V (Proc.devRef .tc main_v124)) (normed (max16 0 16 slices_S32x2048x32x32_S32x2048x16x16_0_0_0_16 (V (Proc.devRef .tc main_arg0)))) := by
  rw [reg17_split, after_append, regN17_acc, regM17_acc, regM17_max]
/-- Region 17 does not write the argument array. -/
theorem reg17_arg (V : Valuation τ sig (Elt F)) : after reg17 V (Proc.devRef .tc main_arg0) = V (Proc.devRef .tc main_arg0) := by
  rw [reg17_split, after_append, regN17_arg, regM17_arg]

/-- Region 18, first part: the operations up to the region's maximum. -/
abbrev regM18 : List (HloOp τ sig (Elt F)) :=
  [ unary main_arg0 main_v133 ((extractStridedSlice S32x2048x16x16 ![0, 0, 5, 0] · slices_S32x2048x32x32_S32x2048x16x16_0_0_5_0) : (⟨S32x2048x32x32, .f32⟩ : BufTy).Contents (Elt F) → (⟨S32x2048x16x16, .f32⟩ : BufTy).Contents (Elt F)),
    nullary main_cst_34 (constant S_ .f32 0xFF800000#32),
    binary main_v133 main_cst_34 main_v134 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 18, second part: the norm of the maximum, the quotient, the addition to the running sum. -/
abbrev regN18 : List (HloOp τ sig (Elt F)) :=
  [ TRef.binary (TRef.of (T := ⟨S32x2048, .f32⟩) main_v134) (TRef.of (T := ⟨S32x2048, .f32⟩) main_v134) main_call17.v0 mulf,
    TRef.nullary main_call17.cst (constant S_ .f32 0x00000000#32),
    TRef.binary main_call17.v0 main_call17.cst main_call17.v1 (fun x v => Host.reduceAdd x v reducesTo_S32x2048_S32_d1 h_S_),
    TRef.unary main_call17.v1 main_call17.v2 (broadcastInDim S32x1 ![0] bcast_S32_S32x1_0),
    TRef.unary main_call17.v2 main_call17.v3 Host.sqrt,
    nullary main_cst_35 (constant S_ .f32 0x358637BD#32),
    unary main_cst_35 main_v136 (broadcastInDim S32x1 ![] bcast_S_S32x1 : (⟨S_, .f32⟩ : BufTy).Contents (Elt F) → (⟨S32x1, .f32⟩ : BufTy).Contents (Elt F)),
    binary main_v135 main_v136 main_v137 (addf : (⟨S32x1, .f32⟩ : BufTy).Contents (Elt F) → (⟨S32x1, .f32⟩ : BufTy).Contents (Elt F) → (⟨S32x1, .f32⟩ : BufTy).Contents (Elt F)),
    unary main_v137 main_v138 (broadcastInDim S32x2048 ![0, 1] bcast_S32x1_S32x2048_0_1 : (⟨S32x1, .f32⟩ : BufTy).Contents (Elt F) → (⟨S32x2048, .f32⟩ : BufTy).Contents (Elt F)),
    binary main_v134 main_v138 main_v139 (Host.divf : (⟨S32x2048, .f32⟩ : BufTy).Contents (Elt F) → (⟨S32x2048, .f32⟩ : BufTy).Contents (Elt F) → (⟨S32x2048, .f32⟩ : BufTy).Contents (Elt F)),
    binary main_v132 main_v139 main_v140 (addf : (⟨S32x2048, .f32⟩ : BufTy).Contents (Elt F) → (⟨S32x2048, .f32⟩ : BufTy).Contents (Elt F) → (⟨S32x2048, .f32⟩ : BufTy).Contents (Elt F)) ]
theorem reg18_split : (reg18 : List (HloOp τ sig (Elt F))) = regM18 ++ regN18 := rfl

/-- The first part leaves the region's maximum of the argument in its buffer. -/
theorem regM18_max (V : Valuation τ sig (Elt F)) :
    after regM18 V (Proc.devRef .tc main_v134) = max16 5 0 slices_S32x2048x32x32_S32x2048x16x16_0_0_5_0 (V (Proc.devRef .tc main_arg0)) := by
  unfold max16
  after_results_simp
/-- The first part does not write the argument array. -/
theorem regM18_arg (V : Valuation τ sig (Elt F)) : after regM18 V (Proc.devRef .tc main_arg0) = V (Proc.devRef .tc main_arg0) := by
  after_results_simp
/-- The first part does not write the running sum. -/
theorem regM18_acc (V : Valuation τ sig (Elt F)) : after regM18 V (Proc.devRef .tc main_v132) = V (Proc.devRef .tc main_v132) := by
  after_results_simp
/-- The second part adds the normalized maximum to the running sum. -/
theorem regN18_acc (V : Valuation τ sig (Elt F)) :
    after regN18 V (Proc.devRef .tc main_v140) = addf (V (Proc.devRef .tc main_v132)) (normed (V (Proc.devRef .tc main_v134))) := by
  after_results_simp <;> rfl
/-- The second part does not write the argument array. -/
theorem regN18_arg (V : Valuation τ sig (Elt F)) : after regN18 V (Proc.devRef .tc main_arg0) = V (Proc.devRef .tc main_arg0) := by
  after_results_simp
/-- Region 18 adds its normalized maximum to the running sum. -/
theorem reg18_acc (V : Valuation τ sig (Elt F)) :
    after reg18 V (Proc.devRef .tc main_v140) = addf (V (Proc.devRef .tc main_v132)) (normed (max16 5 0 slices_S32x2048x32x32_S32x2048x16x16_0_0_5_0 (V (Proc.devRef .tc main_arg0)))) := by
  rw [reg18_split, after_append, regN18_acc, regM18_acc, regM18_max]
/-- Region 18 does not write the argument array. -/
theorem reg18_arg (V : Valuation τ sig (Elt F)) : after reg18 V (Proc.devRef .tc main_arg0) = V (Proc.devRef .tc main_arg0) := by
  rw [reg18_split, after_append, regN18_arg, regM18_arg]

/-- Region 19, first part: the operations up to the region's maximum. -/
abbrev regM19 : List (HloOp τ sig (Elt F)) :=
  [ unary main_arg0 main_v141 ((extractStridedSlice S32x2048x16x16 ![0, 0, 5, 5] · slices_S32x2048x32x32_S32x2048x16x16_0_0_5_5) : (⟨S32x2048x32x32, .f32⟩ : BufTy).Contents (Elt F) → (⟨S32x2048x16x16, .f32⟩ : BufTy).Contents (Elt F)),
    nullary main_cst_36 (constant S_ .f32 0xFF800000#32),
    binary main_v141 main_cst_36 main_v142 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 19, second part: the norm of the maximum, the quotient, the addition to the running sum. -/
abbrev regN19 : List (HloOp τ sig (Elt F)) :=
  [ TRef.binary (TRef.of (T := ⟨S32x2048, .f32⟩) main_v142) (TRef.of (T := ⟨S32x2048, .f32⟩) main_v142) main_call18.v0 mulf,
    TRef.nullary main_call18.cst (constant S_ .f32 0x00000000#32),
    TRef.binary main_call18.v0 main_call18.cst main_call18.v1 (fun x v => Host.reduceAdd x v reducesTo_S32x2048_S32_d1 h_S_),
    TRef.unary main_call18.v1 main_call18.v2 (broadcastInDim S32x1 ![0] bcast_S32_S32x1_0),
    TRef.unary main_call18.v2 main_call18.v3 Host.sqrt,
    nullary main_cst_37 (constant S_ .f32 0x358637BD#32),
    unary main_cst_37 main_v144 (broadcastInDim S32x1 ![] bcast_S_S32x1 : (⟨S_, .f32⟩ : BufTy).Contents (Elt F) → (⟨S32x1, .f32⟩ : BufTy).Contents (Elt F)),
    binary main_v143 main_v144 main_v145 (addf : (⟨S32x1, .f32⟩ : BufTy).Contents (Elt F) → (⟨S32x1, .f32⟩ : BufTy).Contents (Elt F) → (⟨S32x1, .f32⟩ : BufTy).Contents (Elt F)),
    unary main_v145 main_v146 (broadcastInDim S32x2048 ![0, 1] bcast_S32x1_S32x2048_0_1 : (⟨S32x1, .f32⟩ : BufTy).Contents (Elt F) → (⟨S32x2048, .f32⟩ : BufTy).Contents (Elt F)),
    binary main_v142 main_v146 main_v147 (Host.divf : (⟨S32x2048, .f32⟩ : BufTy).Contents (Elt F) → (⟨S32x2048, .f32⟩ : BufTy).Contents (Elt F) → (⟨S32x2048, .f32⟩ : BufTy).Contents (Elt F)),
    binary main_v140 main_v147 main_v148 (addf : (⟨S32x2048, .f32⟩ : BufTy).Contents (Elt F) → (⟨S32x2048, .f32⟩ : BufTy).Contents (Elt F) → (⟨S32x2048, .f32⟩ : BufTy).Contents (Elt F)) ]
theorem reg19_split : (reg19 : List (HloOp τ sig (Elt F))) = regM19 ++ regN19 := rfl

/-- The first part leaves the region's maximum of the argument in its buffer. -/
theorem regM19_max (V : Valuation τ sig (Elt F)) :
    after regM19 V (Proc.devRef .tc main_v142) = max16 5 5 slices_S32x2048x32x32_S32x2048x16x16_0_0_5_5 (V (Proc.devRef .tc main_arg0)) := by
  unfold max16
  after_results_simp
/-- The first part does not write the argument array. -/
theorem regM19_arg (V : Valuation τ sig (Elt F)) : after regM19 V (Proc.devRef .tc main_arg0) = V (Proc.devRef .tc main_arg0) := by
  after_results_simp
/-- The first part does not write the running sum. -/
theorem regM19_acc (V : Valuation τ sig (Elt F)) : after regM19 V (Proc.devRef .tc main_v140) = V (Proc.devRef .tc main_v140) := by
  after_results_simp
/-- The second part adds the normalized maximum to the running sum. -/
theorem regN19_acc (V : Valuation τ sig (Elt F)) :
    after regN19 V (Proc.devRef .tc main_v148) = addf (V (Proc.devRef .tc main_v140)) (normed (V (Proc.devRef .tc main_v142))) := by
  after_results_simp <;> rfl
/-- The second part does not write the argument array. -/
theorem regN19_arg (V : Valuation τ sig (Elt F)) : after regN19 V (Proc.devRef .tc main_arg0) = V (Proc.devRef .tc main_arg0) := by
  after_results_simp
/-- Region 19 adds its normalized maximum to the running sum. -/
theorem reg19_acc (V : Valuation τ sig (Elt F)) :
    after reg19 V (Proc.devRef .tc main_v148) = addf (V (Proc.devRef .tc main_v140)) (normed (max16 5 5 slices_S32x2048x32x32_S32x2048x16x16_0_0_5_5 (V (Proc.devRef .tc main_arg0)))) := by
  rw [reg19_split, after_append, regN19_acc, regM19_acc, regM19_max]
/-- Region 19 does not write the argument array. -/
theorem reg19_arg (V : Valuation τ sig (Elt F)) : after reg19 V (Proc.devRef .tc main_arg0) = V (Proc.devRef .tc main_arg0) := by
  rw [reg19_split, after_append, regN19_arg, regM19_arg]

/-- Region 20, first part: the operations up to the region's maximum. -/
abbrev regM20 : List (HloOp τ sig (Elt F)) :=
  [ unary main_arg0 main_v149 ((extractStridedSlice S32x2048x16x16 ![0, 0, 5, 11] · slices_S32x2048x32x32_S32x2048x16x16_0_0_5_11) : (⟨S32x2048x32x32, .f32⟩ : BufTy).Contents (Elt F) → (⟨S32x2048x16x16, .f32⟩ : BufTy).Contents (Elt F)),
    nullary main_cst_38 (constant S_ .f32 0xFF800000#32),
    binary main_v149 main_cst_38 main_v150 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 20, second part: the norm of the maximum, the quotient, the addition to the running sum. -/
abbrev regN20 : List (HloOp τ sig (Elt F)) :=
  [ TRef.binary (TRef.of (T := ⟨S32x2048, .f32⟩) main_v150) (TRef.of (T := ⟨S32x2048, .f32⟩) main_v150) main_call19.v0 mulf,
    TRef.nullary main_call19.cst (constant S_ .f32 0x00000000#32),
    TRef.binary main_call19.v0 main_call19.cst main_call19.v1 (fun x v => Host.reduceAdd x v reducesTo_S32x2048_S32_d1 h_S_),
    TRef.unary main_call19.v1 main_call19.v2 (broadcastInDim S32x1 ![0] bcast_S32_S32x1_0),
    TRef.unary main_call19.v2 main_call19.v3 Host.sqrt,
    nullary main_cst_39 (constant S_ .f32 0x358637BD#32),
    unary main_cst_39 main_v152 (broadcastInDim S32x1 ![] bcast_S_S32x1 : (⟨S_, .f32⟩ : BufTy).Contents (Elt F) → (⟨S32x1, .f32⟩ : BufTy).Contents (Elt F)),
    binary main_v151 main_v152 main_v153 (addf : (⟨S32x1, .f32⟩ : BufTy).Contents (Elt F) → (⟨S32x1, .f32⟩ : BufTy).Contents (Elt F) → (⟨S32x1, .f32⟩ : BufTy).Contents (Elt F)),
    unary main_v153 main_v154 (broadcastInDim S32x2048 ![0, 1] bcast_S32x1_S32x2048_0_1 : (⟨S32x1, .f32⟩ : BufTy).Contents (Elt F) → (⟨S32x2048, .f32⟩ : BufTy).Contents (Elt F)),
    binary main_v150 main_v154 main_v155 (Host.divf : (⟨S32x2048, .f32⟩ : BufTy).Contents (Elt F) → (⟨S32x2048, .f32⟩ : BufTy).Contents (Elt F) → (⟨S32x2048, .f32⟩ : BufTy).Contents (Elt F)),
    binary main_v148 main_v155 main_v156 (addf : (⟨S32x2048, .f32⟩ : BufTy).Contents (Elt F) → (⟨S32x2048, .f32⟩ : BufTy).Contents (Elt F) → (⟨S32x2048, .f32⟩ : BufTy).Contents (Elt F)) ]
theorem reg20_split : (reg20 : List (HloOp τ sig (Elt F))) = regM20 ++ regN20 := rfl

/-- The first part leaves the region's maximum of the argument in its buffer. -/
theorem regM20_max (V : Valuation τ sig (Elt F)) :
    after regM20 V (Proc.devRef .tc main_v150) = max16 5 11 slices_S32x2048x32x32_S32x2048x16x16_0_0_5_11 (V (Proc.devRef .tc main_arg0)) := by
  unfold max16
  after_results_simp
/-- The first part does not write the argument array. -/
theorem regM20_arg (V : Valuation τ sig (Elt F)) : after regM20 V (Proc.devRef .tc main_arg0) = V (Proc.devRef .tc main_arg0) := by
  after_results_simp
/-- The first part does not write the running sum. -/
theorem regM20_acc (V : Valuation τ sig (Elt F)) : after regM20 V (Proc.devRef .tc main_v148) = V (Proc.devRef .tc main_v148) := by
  after_results_simp
/-- The second part adds the normalized maximum to the running sum. -/
theorem regN20_acc (V : Valuation τ sig (Elt F)) :
    after regN20 V (Proc.devRef .tc main_v156) = addf (V (Proc.devRef .tc main_v148)) (normed (V (Proc.devRef .tc main_v150))) := by
  after_results_simp <;> rfl
/-- The second part does not write the argument array. -/
theorem regN20_arg (V : Valuation τ sig (Elt F)) : after regN20 V (Proc.devRef .tc main_arg0) = V (Proc.devRef .tc main_arg0) := by
  after_results_simp
/-- Region 20 adds its normalized maximum to the running sum. -/
theorem reg20_acc (V : Valuation τ sig (Elt F)) :
    after reg20 V (Proc.devRef .tc main_v156) = addf (V (Proc.devRef .tc main_v148)) (normed (max16 5 11 slices_S32x2048x32x32_S32x2048x16x16_0_0_5_11 (V (Proc.devRef .tc main_arg0)))) := by
  rw [reg20_split, after_append, regN20_acc, regM20_acc, regM20_max]
/-- Region 20 does not write the argument array. -/
theorem reg20_arg (V : Valuation τ sig (Elt F)) : after reg20 V (Proc.devRef .tc main_arg0) = V (Proc.devRef .tc main_arg0) := by
  rw [reg20_split, after_append, regN20_arg, regM20_arg]

end Cert.ReferenceIdeal.RefRun

end
-- ==== Proof.RefRegionsC.lean ====
/-
  The reference's regions 21 to 29 and the final normalization, each cut after its maximum. The first part of a region leaves the region's maximum of the argument
  in its buffer and touches neither the argument nor the running sum (the very first also makes the zero array); the second part
  adds the maximum, divided row by row by its norm plus ε, to the running sum. Joined: what each region does to the running sum.
-/
import proofs.«131176_j28467043238140_1_alg».proof.Proof.RefRegions
import proofs.«131176_j28467043238140_1_alg».proof.Proof.RefStep

set_option maxRecDepth 8192
set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Region 21, first part: the operations up to the region's maximum. -/
abbrev regM21 : List (HloOp τ sig (Elt F)) :=
  [ unary main_arg0 main_v157 ((extractStridedSlice S32x2048x16x16 ![0, 0, 5, 16] · slices_S32x2048x32x32_S32x2048x16x16_0_0_5_16) : (⟨S32x2048x32x32, .f32⟩ : BufTy).Contents (Elt F) → (⟨S32x2048x16x16, .f32⟩ : BufTy).Contents (Elt F)),
    nullary main_cst_40 (constant S_ .f32 0xFF800000#32),
    binary main_v157 main_cst_40 main_v158 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 21, second part: the norm of the maximum, the quotient, the addition to the running sum. -/
abbrev regN21 : List (HloOp τ sig (Elt F)) :=
  [ TRef.binary (TRef.of (T := ⟨S32x2048, .f32⟩) main_v158) (TRef.of (T := ⟨S32x2048, .f32⟩) main_v158) main_call20.v0 mulf,
    TRef.nullary main_call20.cst (constant S_ .f32 0x00000000#32),
    TRef.binary main_call20.v0 main_call20.cst main_call20.v1 (fun x v => Host.reduceAdd x v reducesTo_S32x2048_S32_d1 h_S_),
    TRef.unary main_call20.v1 main_call20.v2 (broadcastInDim S32x1 ![0] bcast_S32_S32x1_0),
    TRef.unary main_call20.v2 main_call20.v3 Host.sqrt,
    nullary main_cst_41 (constant S_ .f32 0x358637BD#32),
    unary main_cst_41 main_v160 (broadcastInDim S32x1 ![] bcast_S_S32x1 : (⟨S_, .f32⟩ : BufTy).Contents (Elt F) → (⟨S32x1, .f32⟩ : BufTy).Contents (Elt F)),
    binary main_v159 main_v160 main_v161 (addf : (⟨S32x1, .f32⟩ : BufTy).Contents (Elt F) → (⟨S32x1, .f32⟩ : BufTy).Contents (Elt F) → (⟨S32x1, .f32⟩ : BufTy).Contents (Elt F)),
    unary main_v161 main_v162 (broadcastInDim S32x2048 ![0, 1] bcast_S32x1_S32x2048_0_1 : (⟨S32x1, .f32⟩ : BufTy).Contents (Elt F) → (⟨S32x2048, .f32⟩ : BufTy).Contents (Elt F)),
    binary main_v158 main_v162 main_v163 (Host.divf : (⟨S32x2048, .f32⟩ : BufTy).Contents (Elt F) → (⟨S32x2048, .f32⟩ : BufTy).Contents (Elt F) → (⟨S32x2048, .f32⟩ : BufTy).Contents (Elt F)),
    binary main_v156 main_v163 main_v164 (addf : (⟨S32x2048, .f32⟩ : BufTy).Contents (Elt F) → (⟨S32x2048, .f32⟩ : BufTy).Contents (Elt F) → (⟨S32x2048, .f32⟩ : BufTy).Contents (Elt F)) ]
theorem reg21_split : (reg21 : List (HloOp τ sig (Elt F))) = regM21 ++ regN21 := rfl

/-- The first part leaves the region's maximum of the argument in its buffer. -/
theorem regM21_max (V : Valuation τ sig (Elt F)) :
    after regM21 V (Proc.devRef .tc main_v158) = max16 5 16 slices_S32x2048x32x32_S32x2048x16x16_0_0_5_16 (V (Proc.devRef .tc main_arg0)) := by
  unfold max16
  after_results_simp
/-- The first part does not write the argument array. -/
theorem regM21_arg (V : Valuation τ sig (Elt F)) : after regM21 V (Proc.devRef .tc main_arg0) = V (Proc.devRef .tc main_arg0) := by
  after_results_simp
/-- The first part does not write the running sum. -/
theorem regM21_acc (V : Valuation τ sig (Elt F)) : after regM21 V (Proc.devRef .tc main_v156) = V (Proc.devRef .tc main_v156) := by
  after_results_simp
/-- The second part adds the normalized maximum to the running sum. -/
theorem regN21_acc (V : Valuation τ sig (Elt F)) :
    after regN21 V (Proc.devRef .tc main_v164) = addf (V (Proc.devRef .tc main_v156)) (normed (V (Proc.devRef .tc main_v158))) := by
  after_results_simp <;> rfl
/-- The second part does not write the argument array. -/
theorem regN21_arg (V : Valuation τ sig (Elt F)) : after regN21 V (Proc.devRef .tc main_arg0) = V (Proc.devRef .tc main_arg0) := by
  after_results_simp
/-- Region 21 adds its normalized maximum to the running sum. -/
theorem reg21_acc (V : Valuation τ sig (Elt F)) :
    after reg21 V (Proc.devRef .tc main_v164) = addf (V (Proc.devRef .tc main_v156)) (normed (max16 5 16 slices_S32x2048x32x32_S32x2048x16x16_0_0_5_16 (V (Proc.devRef .tc main_arg0)))) := by
  rw [reg21_split, after_append, regN21_acc, regM21_acc, regM21_max]
/-- Region 21 does not write the argument array. -/
theorem reg21_arg (V : Valuation τ sig (Elt F)) : after reg21 V (Proc.devRef .tc main_arg0) = V (Proc.devRef .tc main_arg0) := by
  rw [reg21_split, after_append, regN21_arg, regM21_arg]

/-- Region 22, first part: the operations up to the region's maximum. -/
abbrev regM22 : List (HloOp τ sig (Elt F)) :=
  [ unary main_arg0 main_v165 ((extractStridedSlice S32x2048x16x16 ![0, 0, 11, 0] · slices_S32x2048x32x32_S32x2048x16x16_0_0_11_0) : (⟨S32x2048x32x32, .f32⟩ : BufTy).Contents (Elt F) → (⟨S32x2048x16x16, .f32⟩ : BufTy).Contents (Elt F)),
    nullary main_cst_42 (constant S_ .f32 0xFF800000#32),
    binary main_v165 main_cst_42 main_v166 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 22, second part: the norm of the maximum, the quotient, the addition to the running sum. -/
abbrev regN22 : List (HloOp τ sig (Elt F)) :=
  [ TRef.binary (TRef.of (T := ⟨S32x2048, .f32⟩) main_v166) (TRef.of (T := ⟨S32x2048, .f32⟩) main_v166) main_call21.v0 mulf,
    TRef.nullary main_call21.cst (constant S_ .f32 0x00000000#32),
    TRef.binary main_call21.v0 main_call21.cst main_call21.v1 (fun x v => Host.reduceAdd x v reducesTo_S32x2048_S32_d1 h_S_),
    TRef.unary main_call21.v1 main_call21.v2 (broadcastInDim S32x1 ![0] bcast_S32_S32x1_0),
    TRef.unary main_call21.v2 main_call21.v3 Host.sqrt,
    nullary main_cst_43 (constant S_ .f32 0x358637BD#32),
    unary main_cst_43 main_v168 (broadcastInDim S32x1 ![] bcast_S_S32x1 : (⟨S_, .f32⟩ : BufTy).Contents (Elt F) → (⟨S32x1, .f32⟩ : BufTy).Contents (Elt F)),
    binary main_v167 main_v168 main_v169 (addf : (⟨S32x1, .f32⟩ : BufTy).Contents (Elt F) → (⟨S32x1, .f32⟩ : BufTy).Contents (Elt F) → (⟨S32x1, .f32⟩ : BufTy).Contents (Elt F)),
    unary main_v169 main_v170 (broadcastInDim S32x2048 ![0, 1] bcast_S32x1_S32x2048_0_1 : (⟨S32x1, .f32⟩ : BufTy).Contents (Elt F) → (⟨S32x2048, .f32⟩ : BufTy).Contents (Elt F)),
    binary main_v166 main_v170 main_v171 (Host.divf : (⟨S32x2048, .f32⟩ : BufTy).Contents (Elt F) → (⟨S32x2048, .f32⟩ : BufTy).Contents (Elt F) → (⟨S32x2048, .f32⟩ : BufTy).Contents (Elt F)),
    binary main_v164 main_v171 main_v172 (addf : (⟨S32x2048, .f32⟩ : BufTy).Contents (Elt F) → (⟨S32x2048, .f32⟩ : BufTy).Contents (Elt F) → (⟨S32x2048, .f32⟩ : BufTy).Contents (Elt F)) ]
theorem reg22_split : (reg22 : List (HloOp τ sig (Elt F))) = regM22 ++ regN22 := rfl

/-- The first part leaves the region's maximum of the argument in its buffer. -/
theorem regM22_max (V : Valuation τ sig (Elt F)) :
    after regM22 V (Proc.devRef .tc main_v166) = max16 11 0 slices_S32x2048x32x32_S32x2048x16x16_0_0_11_0 (V (Proc.devRef .tc main_arg0)) := by
  unfold max16
  after_results_simp
/-- The first part does not write the argument array. -/
theorem regM22_arg (V : Valuation τ sig (Elt F)) : after regM22 V (Proc.devRef .tc main_arg0) = V (Proc.devRef .tc main_arg0) := by
  after_results_simp
/-- The first part does not write the running sum. -/
theorem regM22_acc (V : Valuation τ sig (Elt F)) : after regM22 V (Proc.devRef .tc main_v164) = V (Proc.devRef .tc main_v164) := by
  after_results_simp
/-- The second part adds the normalized maximum to the running sum. -/
theorem regN22_acc (V : Valuation τ sig (Elt F)) :
    after regN22 V (Proc.devRef .tc main_v172) = addf (V (Proc.devRef .tc main_v164)) (normed (V (Proc.devRef .tc main_v166))) := by
  after_results_simp <;> rfl
/-- The second part does not write the argument array. -/
theorem regN22_arg (V : Valuation τ sig (Elt F)) : after regN22 V (Proc.devRef .tc main_arg0) = V (Proc.devRef .tc main_arg0) := by
  after_results_simp
/-- Region 22 adds its normalized maximum to the running sum. -/
theorem reg22_acc (V : Valuation τ sig (Elt F)) :
    after reg22 V (Proc.devRef .tc main_v172) = addf (V (Proc.devRef .tc main_v164)) (normed (max16 11 0 slices_S32x2048x32x32_S32x2048x16x16_0_0_11_0 (V (Proc.devRef .tc main_arg0)))) := by
  rw [reg22_split, after_append, regN22_acc, regM22_acc, regM22_max]
/-- Region 22 does not write the argument array. -/
theorem reg22_arg (V : Valuation τ sig (Elt F)) : after reg22 V (Proc.devRef .tc main_arg0) = V (Proc.devRef .tc main_arg0) := by
  rw [reg22_split, after_append, regN22_arg, regM22_arg]

/-- Region 23, first part: the operations up to the region's maximum. -/
abbrev regM23 : List (HloOp τ sig (Elt F)) :=
  [ unary main_arg0 main_v173 ((extractStridedSlice S32x2048x16x16 ![0, 0, 11, 5] · slices_S32x2048x32x32_S32x2048x16x16_0_0_11_5) : (⟨S32x2048x32x32, .f32⟩ : BufTy).Contents (Elt F) → (⟨S32x2048x16x16, .f32⟩ : BufTy).Contents (Elt F)),
    nullary main_cst_44 (constant S_ .f32 0xFF800000#32),
    binary main_v173 main_cst_44 main_v174 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 23, second part: the norm of the maximum, the quotient, the addition to the running sum. -/
abbrev regN23 : List (HloOp τ sig (Elt F)) :=
  [ TRef.binary (TRef.of (T := ⟨S32x2048, .f32⟩) main_v174) (TRef.of (T := ⟨S32x2048, .f32⟩) main_v174) main_call22.v0 mulf,
    TRef.nullary main_call22.cst (constant S_ .f32 0x00000000#32),
    TRef.binary main_call22.v0 main_call22.cst main_call22.v1 (fun x v => Host.reduceAdd x v reducesTo_S32x2048_S32_d1 h_S_),
    TRef.unary main_call22.v1 main_call22.v2 (broadcastInDim S32x1 ![0] bcast_S32_S32x1_0),
    TRef.unary main_call22.v2 main_call22.v3 Host.sqrt,
    nullary main_cst_45 (constant S_ .f32 0x358637BD#32),
    unary main_cst_45 main_v176 (broadcastInDim S32x1 ![] bcast_S_S32x1 : (⟨S_, .f32⟩ : BufTy).Contents (Elt F) → (⟨S32x1, .f32⟩ : BufTy).Contents (Elt F)),
    binary main_v175 main_v176 main_v177 (addf : (⟨S32x1, .f32⟩ : BufTy).Contents (Elt F) → (⟨S32x1, .f32⟩ : BufTy).Contents (Elt F) → (⟨S32x1, .f32⟩ : BufTy).Contents (Elt F)),
    unary main_v177 main_v178 (broadcastInDim S32x2048 ![0, 1] bcast_S32x1_S32x2048_0_1 : (⟨S32x1, .f32⟩ : BufTy).Contents (Elt F) → (⟨S32x2048, .f32⟩ : BufTy).Contents (Elt F)),
    binary main_v174 main_v178 main_v179 (Host.divf : (⟨S32x2048, .f32⟩ : BufTy).Contents (Elt F) → (⟨S32x2048, .f32⟩ : BufTy).Contents (Elt F) → (⟨S32x2048, .f32⟩ : BufTy).Contents (Elt F)),
    binary main_v172 main_v179 main_v180 (addf : (⟨S32x2048, .f32⟩ : BufTy).Contents (Elt F) → (⟨S32x2048, .f32⟩ : BufTy).Contents (Elt F) → (⟨S32x2048, .f32⟩ : BufTy).Contents (Elt F)) ]
theorem reg23_split : (reg23 : List (HloOp τ sig (Elt F))) = regM23 ++ regN23 := rfl

/-- The first part leaves the region's maximum of the argument in its buffer. -/
theorem regM23_max (V : Valuation τ sig (Elt F)) :
    after regM23 V (Proc.devRef .tc main_v174) = max16 11 5 slices_S32x2048x32x32_S32x2048x16x16_0_0_11_5 (V (Proc.devRef .tc main_arg0)) := by
  unfold max16
  after_results_simp
/-- The first part does not write the argument array. -/
theorem regM23_arg (V : Valuation τ sig (Elt F)) : after regM23 V (Proc.devRef .tc main_arg0) = V (Proc.devRef .tc main_arg0) := by
  after_results_simp
/-- The first part does not write the running sum. -/
theorem regM23_acc (V : Valuation τ sig (Elt F)) : after regM23 V (Proc.devRef .tc main_v172) = V (Proc.devRef .tc main_v172) := by
  after_results_simp
/-- The second part adds the normalized maximum to the running sum. -/
theorem regN23_acc (V : Valuation τ sig (Elt F)) :
    after regN23 V (Proc.devRef .tc main_v180) = addf (V (Proc.devRef .tc main_v172)) (normed (V (Proc.devRef .tc main_v174))) := by
  after_results_simp <;> rfl
/-- The second part does not write the argument array. -/
theorem regN23_arg (V : Valuation τ sig (Elt F)) : after regN23 V (Proc.devRef .tc main_arg0) = V (Proc.devRef .tc main_arg0) := by
  after_results_simp
/-- Region 23 adds its normalized maximum to the running sum. -/
theorem reg23_acc (V : Valuation τ sig (Elt F)) :
    after reg23 V (Proc.devRef .tc main_v180) = addf (V (Proc.devRef .tc main_v172)) (normed (max16 11 5 slices_S32x2048x32x32_S32x2048x16x16_0_0_11_5 (V (Proc.devRef .tc main_arg0)))) := by
  rw [reg23_split, after_append, regN23_acc, regM23_acc, regM23_max]
/-- Region 23 does not write the argument array. -/
theorem reg23_arg (V : Valuation τ sig (Elt F)) : after reg23 V (Proc.devRef .tc main_arg0) = V (Proc.devRef .tc main_arg0) := by
  rw [reg23_split, after_append, regN23_arg, regM23_arg]

/-- Region 24, first part: the operations up to the region's maximum. -/
abbrev regM24 : List (HloOp τ sig (Elt F)) :=
  [ unary main_arg0 main_v181 ((extractStridedSlice S32x2048x16x16 ![0, 0, 11, 11] · slices_S32x2048x32x32_S32x2048x16x16_0_0_11_11) : (⟨S32x2048x32x32, .f32⟩ : BufTy).Contents (Elt F) → (⟨S32x2048x16x16, .f32⟩ : BufTy).Contents (Elt F)),
    nullary main_cst_46 (constant S_ .f32 0xFF800000#32),
    binary main_v181 main_cst_46 main_v182 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 24, second part: the norm of the maximum, the quotient, the addition to the running sum. -/
abbrev regN24 : List (HloOp τ sig (Elt F)) :=
  [ TRef.binary (TRef.of (T := ⟨S32x2048, .f32⟩) main_v182) (TRef.of (T := ⟨S32x2048, .f32⟩) main_v182) main_call23.v0 mulf,
    TRef.nullary main_call23.cst (constant S_ .f32 0x00000000#32),
    TRef.binary main_call23.v0 main_call23.cst main_call23.v1 (fun x v => Host.reduceAdd x v reducesTo_S32x2048_S32_d1 h_S_),
    TRef.unary main_call23.v1 main_call23.v2 (broadcastInDim S32x1 ![0] bcast_S32_S32x1_0),
    TRef.unary main_call23.v2 main_call23.v3 Host.sqrt,
    nullary main_cst_47 (constant S_ .f32 0x358637BD#32),
    unary main_cst_47 main_v184 (broadcastInDim S32x1 ![] bcast_S_S32x1 : (⟨S_, .f32⟩ : BufTy).Contents (Elt F) → (⟨S32x1, .f32⟩ : BufTy).Contents (Elt F)),
    binary main_v183 main_v184 main_v185 (addf : (⟨S32x1, .f32⟩ : BufTy).Contents (Elt F) → (⟨S32x1, .f32⟩ : BufTy).Contents (Elt F) → (⟨S32x1, .f32⟩ : BufTy).Contents (Elt F)),
    unary main_v185 main_v186 (broadcastInDim S32x2048 ![0, 1] bcast_S32x1_S32x2048_0_1 : (⟨S32x1, .f32⟩ : BufTy).Contents (Elt F) → (⟨S32x2048, .f32⟩ : BufTy).Contents (Elt F)),
    binary main_v182 main_v186 main_v187 (Host.divf : (⟨S32x2048, .f32⟩ : BufTy).Contents (Elt F) → (⟨S32x2048, .f32⟩ : BufTy).Contents (Elt F) → (⟨S32x2048, .f32⟩ : BufTy).Contents (Elt F)),
    binary main_v180 main_v187 main_v188 (addf : (⟨S32x2048, .f32⟩ : BufTy).Contents (Elt F) → (⟨S32x2048, .f32⟩ : BufTy).Contents (Elt F) → (⟨S32x2048, .f32⟩ : BufTy).Contents (Elt F)) ]
theorem reg24_split : (reg24 : List (HloOp τ sig (Elt F))) = regM24 ++ regN24 := rfl

/-- The first part leaves the region's maximum of the argument in its buffer. -/
theorem regM24_max (V : Valuation τ sig (Elt F)) :
    after regM24 V (Proc.devRef .tc main_v182) = max16 11 11 slices_S32x2048x32x32_S32x2048x16x16_0_0_11_11 (V (Proc.devRef .tc main_arg0)) := by
  unfold max16
  after_results_simp
/-- The first part does not write the argument array. -/
theorem regM24_arg (V : Valuation τ sig (Elt F)) : after regM24 V (Proc.devRef .tc main_arg0) = V (Proc.devRef .tc main_arg0) := by
  after_results_simp
/-- The first part does not write the running sum. -/
theorem regM24_acc (V : Valuation τ sig (Elt F)) : after regM24 V (Proc.devRef .tc main_v180) = V (Proc.devRef .tc main_v180) := by
  after_results_simp
/-- The second part adds the normalized maximum to the running sum. -/
theorem regN24_acc (V : Valuation τ sig (Elt F)) :
    after regN24 V (Proc.devRef .tc main_v188) = addf (V (Proc.devRef .tc main_v180)) (normed (V (Proc.devRef .tc main_v182))) := by
  after_results_simp <;> rfl
/-- The second part does not write the argument array. -/
theorem regN24_arg (V : Valuation τ sig (Elt F)) : after regN24 V (Proc.devRef .tc main_arg0) = V (Proc.devRef .tc main_arg0) := by
  after_results_simp
/-- Region 24 adds its normalized maximum to the running sum. -/
theorem reg24_acc (V : Valuation τ sig (Elt F)) :
    after reg24 V (Proc.devRef .tc main_v188) = addf (V (Proc.devRef .tc main_v180)) (normed (max16 11 11 slices_S32x2048x32x32_S32x2048x16x16_0_0_11_11 (V (Proc.devRef .tc main_arg0)))) := by
  rw [reg24_split, after_append, regN24_acc, regM24_acc, regM24_max]
/-- Region 24 does not write the argument array. -/
theorem reg24_arg (V : Valuation τ sig (Elt F)) : after reg24 V (Proc.devRef .tc main_arg0) = V (Proc.devRef .tc main_arg0) := by
  rw [reg24_split, after_append, regN24_arg, regM24_arg]

/-- Region 25, first part: the operations up to the region's maximum. -/
abbrev regM25 : List (HloOp τ sig (Elt F)) :=
  [ unary main_arg0 main_v189 ((extractStridedSlice S32x2048x16x16 ![0, 0, 11, 16] · slices_S32x2048x32x32_S32x2048x16x16_0_0_11_16) : (⟨S32x2048x32x32, .f32⟩ : BufTy).Contents (Elt F) → (⟨S32x2048x16x16, .f32⟩ : BufTy).Contents (Elt F)),
    nullary main_cst_48 (constant S_ .f32 0xFF800000#32),
    binary main_v189 main_cst_48 main_v190 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 25, second part: the norm of the maximum, the quotient, the addition to the running sum. -/
abbrev regN25 : List (HloOp τ sig (Elt F)) :=
  [ TRef.binary (TRef.of (T := ⟨S32x2048, .f32⟩) main_v190) (TRef.of (T := ⟨S32x2048, .f32⟩) main_v190) main_call24.v0 mulf,
    TRef.nullary main_call24.cst (constant S_ .f32 0x00000000#32),
    TRef.binary main_call24.v0 main_call24.cst main_call24.v1 (fun x v => Host.reduceAdd x v reducesTo_S32x2048_S32_d1 h_S_),
    TRef.unary main_call24.v1 main_call24.v2 (broadcastInDim S32x1 ![0] bcast_S32_S32x1_0),
    TRef.unary main_call24.v2 main_call24.v3 Host.sqrt,
    nullary main_cst_49 (constant S_ .f32 0x358637BD#32),
    unary main_cst_49 main_v192 (broadcastInDim S32x1 ![] bcast_S_S32x1 : (⟨S_, .f32⟩ : BufTy).Contents (Elt F) → (⟨S32x1, .f32⟩ : BufTy).Contents (Elt F)),
    binary main_v191 main_v192 main_v193 (addf : (⟨S32x1, .f32⟩ : BufTy).Contents (Elt F) → (⟨S32x1, .f32⟩ : BufTy).Contents (Elt F) → (⟨S32x1, .f32⟩ : BufTy).Contents (Elt F)),
    unary main_v193 main_v194 (broadcastInDim S32x2048 ![0, 1] bcast_S32x1_S32x2048_0_1 : (⟨S32x1, .f32⟩ : BufTy).Contents (Elt F) → (⟨S32x2048, .f32⟩ : BufTy).Contents (Elt F)),
    binary main_v190 main_v194 main_v195 (Host.divf : (⟨S32x2048, .f32⟩ : BufTy).Contents (Elt F) → (⟨S32x2048, .f32⟩ : BufTy).Contents (Elt F) → (⟨S32x2048, .f32⟩ : BufTy).Contents (Elt F)),
    binary main_v188 main_v195 main_v196 (addf : (⟨S32x2048, .f32⟩ : BufTy).Contents (Elt F) → (⟨S32x2048, .f32⟩ : BufTy).Contents (Elt F) → (⟨S32x2048, .f32⟩ : BufTy).Contents (Elt F)) ]
theorem reg25_split : (reg25 : List (HloOp τ sig (Elt F))) = regM25 ++ regN25 := rfl

/-- The first part leaves the region's maximum of the argument in its buffer. -/
theorem regM25_max (V : Valuation τ sig (Elt F)) :
    after regM25 V (Proc.devRef .tc main_v190) = max16 11 16 slices_S32x2048x32x32_S32x2048x16x16_0_0_11_16 (V (Proc.devRef .tc main_arg0)) := by
  unfold max16
  after_results_simp
/-- The first part does not write the argument array. -/
theorem regM25_arg (V : Valuation τ sig (Elt F)) : after regM25 V (Proc.devRef .tc main_arg0) = V (Proc.devRef .tc main_arg0) := by
  after_results_simp
/-- The first part does not write the running sum. -/
theorem regM25_acc (V : Valuation τ sig (Elt F)) : after regM25 V (Proc.devRef .tc main_v188) = V (Proc.devRef .tc main_v188) := by
  after_results_simp
/-- The second part adds the normalized maximum to the running sum. -/
theorem regN25_acc (V : Valuation τ sig (Elt F)) :
    after regN25 V (Proc.devRef .tc main_v196) = addf (V (Proc.devRef .tc main_v188)) (normed (V (Proc.devRef .tc main_v190))) := by
  after_results_simp <;> rfl
/-- The second part does not write the argument array. -/
theorem regN25_arg (V : Valuation τ sig (Elt F)) : after regN25 V (Proc.devRef .tc main_arg0) = V (Proc.devRef .tc main_arg0) := by
  after_results_simp
/-- Region 25 adds its normalized maximum to the running sum. -/
theorem reg25_acc (V : Valuation τ sig (Elt F)) :
    after reg25 V (Proc.devRef .tc main_v196) = addf (V (Proc.devRef .tc main_v188)) (normed (max16 11 16 slices_S32x2048x32x32_S32x2048x16x16_0_0_11_16 (V (Proc.devRef .tc main_arg0)))) := by
  rw [reg25_split, after_append, regN25_acc, regM25_acc, regM25_max]
/-- Region 25 does not write the argument array. -/
theorem reg25_arg (V : Valuation τ sig (Elt F)) : after reg25 V (Proc.devRef .tc main_arg0) = V (Proc.devRef .tc main_arg0) := by
  rw [reg25_split, after_append, regN25_arg, regM25_arg]

/-- Region 26, first part: the operations up to the region's maximum. -/
abbrev regM26 : List (HloOp τ sig (Elt F)) :=
  [ unary main_arg0 main_v197 ((extractStridedSlice S32x2048x16x16 ![0, 0, 16, 0] · slices_S32x2048x32x32_S32x2048x16x16_0_0_16_0) : (⟨S32x2048x32x32, .f32⟩ : BufTy).Contents (Elt F) → (⟨S32x2048x16x16, .f32⟩ : BufTy).Contents (Elt F)),
    nullary main_cst_50 (constant S_ .f32 0xFF800000#32),
    binary main_v197 main_cst_50 main_v198 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 26, second part: the norm of the maximum, the quotient, the addition to the running sum. -/
abbrev regN26 : List (HloOp τ sig (Elt F)) :=
  [ TRef.binary (TRef.of (T := ⟨S32x2048, .f32⟩) main_v198) (TRef.of (T := ⟨S32x2048, .f32⟩) main_v198) main_call25.v0 mulf,
    TRef.nullary main_call25.cst (constant S_ .f32 0x00000000#32),
    TRef.binary main_call25.v0 main_call25.cst main_call25.v1 (fun x v => Host.reduceAdd x v reducesTo_S32x2048_S32_d1 h_S_),
    TRef.unary main_call25.v1 main_call25.v2 (broadcastInDim S32x1 ![0] bcast_S32_S32x1_0),
    TRef.unary main_call25.v2 main_call25.v3 Host.sqrt,
    nullary main_cst_51 (constant S_ .f32 0x358637BD#32),
    unary main_cst_51 main_v200 (broadcastInDim S32x1 ![] bcast_S_S32x1 : (⟨S_, .f32⟩ : BufTy).Contents (Elt F) → (⟨S32x1, .f32⟩ : BufTy).Contents (Elt F)),
    binary main_v199 main_v200 main_v201 (addf : (⟨S32x1, .f32⟩ : BufTy).Contents (Elt F) → (⟨S32x1, .f32⟩ : BufTy).Contents (Elt F) → (⟨S32x1, .f32⟩ : BufTy).Contents (Elt F)),
    unary main_v201 main_v202 (broadcastInDim S32x2048 ![0, 1] bcast_S32x1_S32x2048_0_1 : (⟨S32x1, .f32⟩ : BufTy).Contents (Elt F) → (⟨S32x2048, .f32⟩ : BufTy).Contents (Elt F)),
    binary main_v198 main_v202 main_v203 (Host.divf : (⟨S32x2048, .f32⟩ : BufTy).Contents (Elt F) → (⟨S32x2048, .f32⟩ : BufTy).Contents (Elt F) → (⟨S32x2048, .f32⟩ : BufTy).Contents (Elt F)),
    binary main_v196 main_v203 main_v204 (addf : (⟨S32x2048, .f32⟩ : BufTy).Contents (Elt F) → (⟨S32x2048, .f32⟩ : BufTy).Contents (Elt F) → (⟨S32x2048, .f32⟩ : BufTy).Contents (Elt F)) ]
theorem reg26_split : (reg26 : List (HloOp τ sig (Elt F))) = regM26 ++ regN26 := rfl

/-- The first part leaves the region's maximum of the argument in its buffer. -/
theorem regM26_max (V : Valuation τ sig (Elt F)) :
    after regM26 V (Proc.devRef .tc main_v198) = max16 16 0 slices_S32x2048x32x32_S32x2048x16x16_0_0_16_0 (V (Proc.devRef .tc main_arg0)) := by
  unfold max16
  after_results_simp
/-- The first part does not write the argument array. -/
theorem regM26_arg (V : Valuation τ sig (Elt F)) : after regM26 V (Proc.devRef .tc main_arg0) = V (Proc.devRef .tc main_arg0) := by
  after_results_simp
/-- The first part does not write the running sum. -/
theorem regM26_acc (V : Valuation τ sig (Elt F)) : after regM26 V (Proc.devRef .tc main_v196) = V (Proc.devRef .tc main_v196) := by
  after_results_simp
/-- The second part adds the normalized maximum to the running sum. -/
theorem regN26_acc (V : Valuation τ sig (Elt F)) :
    after regN26 V (Proc.devRef .tc main_v204) = addf (V (Proc.devRef .tc main_v196)) (normed (V (Proc.devRef .tc main_v198))) := by
  after_results_simp <;> rfl
/-- The second part does not write the argument array. -/
theorem regN26_arg (V : Valuation τ sig (Elt F)) : after regN26 V (Proc.devRef .tc main_arg0) = V (Proc.devRef .tc main_arg0) := by
  after_results_simp
/-- Region 26 adds its normalized maximum to the running sum. -/
theorem reg26_acc (V : Valuation τ sig (Elt F)) :
    after reg26 V (Proc.devRef .tc main_v204) = addf (V (Proc.devRef .tc main_v196)) (normed (max16 16 0 slices_S32x2048x32x32_S32x2048x16x16_0_0_16_0 (V (Proc.devRef .tc main_arg0)))) := by
  rw [reg26_split, after_append, regN26_acc, regM26_acc, regM26_max]
/-- Region 26 does not write the argument array. -/
theorem reg26_arg (V : Valuation τ sig (Elt F)) : after reg26 V (Proc.devRef .tc main_arg0) = V (Proc.devRef .tc main_arg0) := by
  rw [reg26_split, after_append, regN26_arg, regM26_arg]

/-- Region 27, first part: the operations up to the region's maximum. -/
abbrev regM27 : List (HloOp τ sig (Elt F)) :=
  [ unary main_arg0 main_v205 ((extractStridedSlice S32x2048x16x16 ![0, 0, 16, 5] · slices_S32x2048x32x32_S32x2048x16x16_0_0_16_5) : (⟨S32x2048x32x32, .f32⟩ : BufTy).Contents (Elt F) → (⟨S32x2048x16x16, .f32⟩ : BufTy).Contents (Elt F)),
    nullary main_cst_52 (constant S_ .f32 0xFF800000#32),
    binary main_v205 main_cst_52 main_v206 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 27, second part: the norm of the maximum, the quotient, the addition to the running sum. -/
abbrev regN27 : List (HloOp τ sig (Elt F)) :=
  [ TRef.binary (TRef.of (T := ⟨S32x2048, .f32⟩) main_v206) (TRef.of (T := ⟨S32x2048, .f32⟩) main_v206) main_call26.v0 mulf,
    TRef.nullary main_call26.cst (constant S_ .f32 0x00000000#32),
    TRef.binary main_call26.v0 main_call26.cst main_call26.v1 (fun x v => Host.reduceAdd x v reducesTo_S32x2048_S32_d1 h_S_),
    TRef.unary main_call26.v1 main_call26.v2 (broadcastInDim S32x1 ![0] bcast_S32_S32x1_0),
    TRef.unary main_call26.v2 main_call26.v3 Host.sqrt,
    nullary main_cst_53 (constant S_ .f32 0x358637BD#32),
    unary main_cst_53 main_v208 (broadcastInDim S32x1 ![] bcast_S_S32x1 : (⟨S_, .f32⟩ : BufTy).Contents (Elt F) → (⟨S32x1, .f32⟩ : BufTy).Contents (Elt F)),
    binary main_v207 main_v208 main_v209 (addf : (⟨S32x1, .f32⟩ : BufTy).Contents (Elt F) → (⟨S32x1, .f32⟩ : BufTy).Contents (Elt F) → (⟨S32x1, .f32⟩ : BufTy).Contents (Elt F)),
    unary main_v209 main_v210 (broadcastInDim S32x2048 ![0, 1] bcast_S32x1_S32x2048_0_1 : (⟨S32x1, .f32⟩ : BufTy).Contents (Elt F) → (⟨S32x2048, .f32⟩ : BufTy).Contents (Elt F)),
    binary main_v206 main_v210 main_v211 (Host.divf : (⟨S32x2048, .f32⟩ : BufTy).Contents (Elt F) → (⟨S32x2048, .f32⟩ : BufTy).Contents (Elt F) → (⟨S32x2048, .f32⟩ : BufTy).Contents (Elt F)),
    binary main_v204 main_v211 main_v212 (addf : (⟨S32x2048, .f32⟩ : BufTy).Contents (Elt F) → (⟨S32x2048, .f32⟩ : BufTy).Contents (Elt F) → (⟨S32x2048, .f32⟩ : BufTy).Contents (Elt F)) ]
theorem reg27_split : (reg27 : List (HloOp τ sig (Elt F))) = regM27 ++ regN27 := rfl

/-- The first part leaves the region's maximum of the argument in its buffer. -/
theorem regM27_max (V : Valuation τ sig (Elt F)) :
    after regM27 V (Proc.devRef .tc main_v206) = max16 16 5 slices_S32x2048x32x32_S32x2048x16x16_0_0_16_5 (V (Proc.devRef .tc main_arg0)) := by
  unfold max16
  after_results_simp
/-- The first part does not write the argument array. -/
theorem regM27_arg (V : Valuation τ sig (Elt F)) : after regM27 V (Proc.devRef .tc main_arg0) = V (Proc.devRef .tc main_arg0) := by
  after_results_simp
/-- The first part does not write the running sum. -/
theorem regM27_acc (V : Valuation τ sig (Elt F)) : after regM27 V (Proc.devRef .tc main_v204) = V (Proc.devRef .tc main_v204) := by
  after_results_simp
/-- The second part adds the normalized maximum to the running sum. -/
theorem regN27_acc (V : Valuation τ sig (Elt F)) :
    after regN27 V (Proc.devRef .tc main_v212) = addf (V (Proc.devRef .tc main_v204)) (normed (V (Proc.devRef .tc main_v206))) := by
  after_results_simp <;> rfl
/-- The second part does not write the argument array. -/
theorem regN27_arg (V : Valuation τ sig (Elt F)) : after regN27 V (Proc.devRef .tc main_arg0) = V (Proc.devRef .tc main_arg0) := by
  after_results_simp
/-- Region 27 adds its normalized maximum to the running sum. -/
theorem reg27_acc (V : Valuation τ sig (Elt F)) :
    after reg27 V (Proc.devRef .tc main_v212) = addf (V (Proc.devRef .tc main_v204)) (normed (max16 16 5 slices_S32x2048x32x32_S32x2048x16x16_0_0_16_5 (V (Proc.devRef .tc main_arg0)))) := by
  rw [reg27_split, after_append, regN27_acc, regM27_acc, regM27_max]
/-- Region 27 does not write the argument array. -/
theorem reg27_arg (V : Valuation τ sig (Elt F)) : after reg27 V (Proc.devRef .tc main_arg0) = V (Proc.devRef .tc main_arg0) := by
  rw [reg27_split, after_append, regN27_arg, regM27_arg]

/-- Region 28, first part: the operations up to the region's maximum. -/
abbrev regM28 : List (HloOp τ sig (Elt F)) :=
  [ unary main_arg0 main_v213 ((extractStridedSlice S32x2048x16x16 ![0, 0, 16, 11] · slices_S32x2048x32x32_S32x2048x16x16_0_0_16_11) : (⟨S32x2048x32x32, .f32⟩ : BufTy).Contents (Elt F) → (⟨S32x2048x16x16, .f32⟩ : BufTy).Contents (Elt F)),
    nullary main_cst_54 (constant S_ .f32 0xFF800000#32),
    binary main_v213 main_cst_54 main_v214 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 28, second part: the norm of the maximum, the quotient, the addition to the running sum. -/
abbrev regN28 : List (HloOp τ sig (Elt F)) :=
  [ TRef.binary (TRef.of (T := ⟨S32x2048, .f32⟩) main_v214) (TRef.of (T := ⟨S32x2048, .f32⟩) main_v214) main_call27.v0 mulf,
    TRef.nullary main_call27.cst (constant S_ .f32 0x00000000#32),
    TRef.binary main_call27.v0 main_call27.cst main_call27.v1 (fun x v => Host.reduceAdd x v reducesTo_S32x2048_S32_d1 h_S_),
    TRef.unary main_call27.v1 main_call27.v2 (broadcastInDim S32x1 ![0] bcast_S32_S32x1_0),
    TRef.unary main_call27.v2 main_call27.v3 Host.sqrt,
    nullary main_cst_55 (constant S_ .f32 0x358637BD#32),
    unary main_cst_55 main_v216 (broadcastInDim S32x1 ![] bcast_S_S32x1 : (⟨S_, .f32⟩ : BufTy).Contents (Elt F) → (⟨S32x1, .f32⟩ : BufTy).Contents (Elt F)),
    binary main_v215 main_v216 main_v217 (addf : (⟨S32x1, .f32⟩ : BufTy).Contents (Elt F) → (⟨S32x1, .f32⟩ : BufTy).Contents (Elt F) → (⟨S32x1, .f32⟩ : BufTy).Contents (Elt F)),
    unary main_v217 main_v218 (broadcastInDim S32x2048 ![0, 1] bcast_S32x1_S32x2048_0_1 : (⟨S32x1, .f32⟩ : BufTy).Contents (Elt F) → (⟨S32x2048, .f32⟩ : BufTy).Contents (Elt F)),
    binary main_v214 main_v218 main_v219 (Host.divf : (⟨S32x2048, .f32⟩ : BufTy).Contents (Elt F) → (⟨S32x2048, .f32⟩ : BufTy).Contents (Elt F) → (⟨S32x2048, .f32⟩ : BufTy).Contents (Elt F)),
    binary main_v212 main_v219 main_v220 (addf : (⟨S32x2048, .f32⟩ : BufTy).Contents (Elt F) → (⟨S32x2048, .f32⟩ : BufTy).Contents (Elt F) → (⟨S32x2048, .f32⟩ : BufTy).Contents (Elt F)) ]
theorem reg28_split : (reg28 : List (HloOp τ sig (Elt F))) = regM28 ++ regN28 := rfl

/-- The first part leaves the region's maximum of the argument in its buffer. -/
theorem regM28_max (V : Valuation τ sig (Elt F)) :
    after regM28 V (Proc.devRef .tc main_v214) = max16 16 11 slices_S32x2048x32x32_S32x2048x16x16_0_0_16_11 (V (Proc.devRef .tc main_arg0)) := by
  unfold max16
  after_results_simp
/-- The first part does not write the argument array. -/
theorem regM28_arg (V : Valuation τ sig (Elt F)) : after regM28 V (Proc.devRef .tc main_arg0) = V (Proc.devRef .tc main_arg0) := by
  after_results_simp
/-- The first part does not write the running sum. -/
theorem regM28_acc (V : Valuation τ sig (Elt F)) : after regM28 V (Proc.devRef .tc main_v212) = V (Proc.devRef .tc main_v212) := by
  after_results_simp
/-- The second part adds the normalized maximum to the running sum. -/
theorem regN28_acc (V : Valuation τ sig (Elt F)) :
    after regN28 V (Proc.devRef .tc main_v220) = addf (V (Proc.devRef .tc main_v212)) (normed (V (Proc.devRef .tc main_v214))) := by
  after_results_simp <;> rfl
/-- The second part does not write the argument array. -/
theorem regN28_arg (V : Valuation τ sig (Elt F)) : after regN28 V (Proc.devRef .tc main_arg0) = V (Proc.devRef .tc main_arg0) := by
  after_results_simp
/-- Region 28 adds its normalized maximum to the running sum. -/
theorem reg28_acc (V : Valuation τ sig (Elt F)) :
    after reg28 V (Proc.devRef .tc main_v220) = addf (V (Proc.devRef .tc main_v212)) (normed (max16 16 11 slices_S32x2048x32x32_S32x2048x16x16_0_0_16_11 (V (Proc.devRef .tc main_arg0)))) := by
  rw [reg28_split, after_append, regN28_acc, regM28_acc, regM28_max]
/-- Region 28 does not write the argument array. -/
theorem reg28_arg (V : Valuation τ sig (Elt F)) : after reg28 V (Proc.devRef .tc main_arg0) = V (Proc.devRef .tc main_arg0) := by
  rw [reg28_split, after_append, regN28_arg, regM28_arg]

/-- Region 29, first part: the operations up to the region's maximum. -/
abbrev regM29 : List (HloOp τ sig (Elt F)) :=
  [ unary main_arg0 main_v221 ((extractStridedSlice S32x2048x16x16 ![0, 0, 16, 16] · slices_S32x2048x32x32_S32x2048x16x16_0_0_16_16) : (⟨S32x2048x32x32, .f32⟩ : BufTy).Contents (Elt F) → (⟨S32x2048x16x16, .f32⟩ : BufTy).Contents (Elt F)),
    nullary main_cst_56 (constant S_ .f32 0xFF800000#32),
    binary main_v221 main_cst_56 main_v222 ((fun x v => Host.reduce FloatOps.maximumf x v reducesTo_S32x2048x16x16_S32x2048_d2_3 h_S_) : (⟨S32x2048x16x16, .f32⟩ : BufTy).Contents (Elt F) → (⟨S_, .f32⟩ : BufTy).Contents (Elt F) → (⟨S32x2048, .f32⟩ : BufTy).Contents (Elt F)) ]
/-- Region 29, second part: the norm of the maximum, the quotient, the addition to the running sum. -/
abbrev regN29 : List (HloOp τ sig (Elt F)) :=
  [ TRef.binary (TRef.of (T := ⟨S32x2048, .f32⟩) main_v222) (TRef.of (T := ⟨S32x2048, .f32⟩) main_v222) main_call28.v0 mulf,
    TRef.nullary main_call28.cst (constant S_ .f32 0x00000000#32),
    TRef.binary main_call28.v0 main_call28.cst main_call28.v1 (fun x v => Host.reduceAdd x v reducesTo_S32x2048_S32_d1 h_S_),
    TRef.unary main_call28.v1 main_call28.v2 (broadcastInDim S32x1 ![0] bcast_S32_S32x1_0),
    TRef.unary main_call28.v2 main_call28.v3 Host.sqrt,
    nullary main_cst_57 (constant S_ .f32 0x358637BD#32),
    unary main_cst_57 main_v224 (broadcastInDim S32x1 ![] bcast_S_S32x1 : (⟨S_, .f32⟩ : BufTy).Contents (Elt F) → (⟨S32x1, .f32⟩ : BufTy).Contents (Elt F)),
    binary main_v223 main_v224 main_v225 (addf : (⟨S32x1, .f32⟩ : BufTy).Contents (Elt F) → (⟨S32x1, .f32⟩ : BufTy).Contents (Elt F) → (⟨S32x1, .f32⟩ : BufTy).Contents (Elt F)),
    unary main_v225 main_v226 (broadcastInDim S32x2048 ![0, 1] bcast_S32x1_S32x2048_0_1 : (⟨S32x1, .f32⟩ : BufTy).Contents (Elt F) → (⟨S32x2048, .f32⟩ : BufTy).Contents (Elt F)),
    binary main_v222 main_v226 main_v227 (Host.divf : (⟨S32x2048, .f32⟩ : BufTy).Contents (Elt F) → (⟨S32x2048, .f32⟩ : BufTy).Contents (Elt F) → (⟨S32x2048, .f32⟩ : BufTy).Contents (Elt F)),
    binary main_v220 main_v227 main_v228 (addf : (⟨S32x2048, .f32⟩ : BufTy).Contents (Elt F) → (⟨S32x2048, .f32⟩ : BufTy).Contents (Elt F) → (⟨S32x2048, .f32⟩ : BufTy).Contents (Elt F)) ]
theorem reg29_split : (reg29 : List (HloOp τ sig (Elt F))) = regM29 ++ regN29 := rfl

/-- The first part leaves the region's maximum of the argument in its buffer. -/
theorem regM29_max (V : Valuation τ sig (Elt F)) :
    after regM29 V (Proc.devRef .tc main_v222) = max16 16 16 slices_S32x2048x32x32_S32x2048x16x16_0_0_16_16 (V (Proc.devRef .tc main_arg0)) := by
  unfold max16
  after_results_simp
/-- The first part does not write the argument array. -/
theorem regM29_arg (V : Valuation τ sig (Elt F)) : after regM29 V (Proc.devRef .tc main_arg0) = V (Proc.devRef .tc main_arg0) := by
  after_results_simp
/-- The first part does not write the running sum. -/
theorem regM29_acc (V : Valuation τ sig (Elt F)) : after regM29 V (Proc.devRef .tc main_v220) = V (Proc.devRef .tc main_v220) := by
  after_results_simp
/-- The second part adds the normalized maximum to the running sum. -/
theorem regN29_acc (V : Valuation τ sig (Elt F)) :
    after regN29 V (Proc.devRef .tc main_v228) = addf (V (Proc.devRef .tc main_v220)) (normed (V (Proc.devRef .tc main_v222))) := by
  after_results_simp <;> rfl
/-- The second part does not write the argument array. -/
theorem regN29_arg (V : Valuation τ sig (Elt F)) : after regN29 V (Proc.devRef .tc main_arg0) = V (Proc.devRef .tc main_arg0) := by
  after_results_simp
/-- Region 29 adds its normalized maximum to the running sum. -/
theorem reg29_acc (V : Valuation τ sig (Elt F)) :
    after reg29 V (Proc.devRef .tc main_v228) = addf (V (Proc.devRef .tc main_v220)) (normed (max16 16 16 slices_S32x2048x32x32_S32x2048x16x16_0_0_16_16 (V (Proc.devRef .tc main_arg0)))) := by
  rw [reg29_split, after_append, regN29_acc, regM29_acc, regM29_max]
/-- Region 29 does not write the argument array. -/
theorem reg29_arg (V : Valuation τ sig (Elt F)) : after reg29 V (Proc.devRef .tc main_arg0) = V (Proc.devRef .tc main_arg0) := by
  rw [reg29_split, after_append, regN29_arg, regM29_arg]

/-- The last ten operations normalize the running sum into the result. -/
theorem tail_res (V : Valuation τ sig (Elt F)) :
    after tailOps V (Proc.devRef .tc main_v233) = normed (V (Proc.devRef .tc main_v228)) := by
  after_results_simp <;> rfl

/-- The last ten operations do not write the argument array. -/
theorem tail_arg (V : Valuation τ sig (Elt F)) : after tailOps V (Proc.devRef .tc main_arg0) = V (Proc.devRef .tc main_arg0) := by
  after_results_simp

end Cert.ReferenceIdeal.RefRun

end
-- ==== Proof.RefValue.lean ====
/-
  The reference's result as one function of its argument. The 29 regional maxima, as functions of the input, in program order;
  the running sum after them, starting from zeros and adding each maximum divided row by row by its norm plus ε; the result,
  that sum normalized the same way. Read through the regions one after the other, the buffer the program returns holds exactly
  this function of the argument array, and the argument array is as it was.
-/
import proofs.«131176_j28467043238140_1_alg».proof.Proof.RefRegionsA
import proofs.«131176_j28467043238140_1_alg».proof.Proof.RefRegionsB
import proofs.«131176_j28467043238140_1_alg».proof.Proof.RefRegionsC
import proofs.«131176_j28467043238140_1_alg».proof.Proof.RefFrame

set_option maxRecDepth 8192
set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 29 regional maxima as functions of the input, in program order. -/
def maxes : List ((⟨S32x2048x32x32, .f32⟩ : BufTy).Contents (Elt F) → (⟨S32x2048, .f32⟩ : BufTy).Contents (Elt F)) :=
  [ maxFull,
    maxFull,
    maxFull,
    maxFull,
    max21 0 0 slices_S32x2048x32x32_S32x2048x21x21_0_0_0_0,
    max21 0 6 slices_S32x2048x32x32_S32x2048x21x21_0_0_0_6,
    max21 0 11 slices_S32x2048x32x32_S32x2048x21x21_0_0_0_11,
    max21 6 0 slices_S32x2048x32x32_S32x2048x21x21_0_0_6_0,
    max21 6 6 slices_S32x2048x32x32_S32x2048x21x21_0_0_6_6,
    max21 6 11 slices_S32x2048x32x32_S32x2048x21x21_0_0_6_11,
    max21 11 0 slices_S32x2048x32x32_S32x2048x21x21_0_0_11_0,
    max21 11 6 slices_S32x2048x32x32_S32x2048x21x21_0_0_11_6,
    max21 11 11 slices_S32x2048x32x32_S32x2048x21x21_0_0_11_11,
    max16 0 0 slices_S32x2048x32x32_S32x2048x16x16_0_0_0_0,
    max16 0 5 slices_S32x2048x32x32_S32x2048x16x16_0_0_0_5,
    max16 0 11 slices_S32x2048x32x32_S32x2048x16x16_0_0_0_11,
    max16 0 16 slices_S32x2048x32x32_S32x2048x16x16_0_0_0_16,
    max16 5 0 slices_S32x2048x32x32_S32x2048x16x16_0_0_5_0,
    max16 5 5 slices_S32x2048x32x32_S32x2048x16x16_0_0_5_5,
    max16 5 11 slices_S32x2048x32x32_S32x2048x16x16_0_0_5_11,
    max16 5 16 slices_S32x2048x32x32_S32x2048x16x16_0_0_5_16,
    max16 11 0 slices_S32x2048x32x32_S32x2048x16x16_0_0_11_0,
    max16 11 5 slices_S32x2048x32x32_S32x2048x16x16_0_0_11_5,
    max16 11 11 slices_S32x2048x32x32_S32x2048x16x16_0_0_11_11,
    max16 11 16 slices_S32x2048x32x32_S32x2048x16x16_0_0_11_16,
    max16 16 0 slices_S32x2048x32x32_S32x2048x16x16_0_0_16_0,
    max16 16 5 slices_S32x2048x32x32_S32x2048x16x16_0_0_16_5,
    max16 16 11 slices_S32x2048x32x32_S32x2048x16x16_0_0_16_11,
    max16 16 16 slices_S32x2048x32x32_S32x2048x16x16_0_0_16_16 ]

/-- The running sum after the listed maxima, from the running sum a. -/
def accum (x : (⟨S32x2048x32x32, .f32⟩ : BufTy).Contents (Elt F)) : List ((⟨S32x2048x32x32, .f32⟩ : BufTy).Contents (Elt F) → (⟨S32x2048, .f32⟩ : BufTy).Contents (Elt F)) → (⟨S32x2048, .f32⟩ : BufTy).Contents (Elt F) → (⟨S32x2048, .f32⟩ : BufTy).Contents (Elt F)
  | [], a => a
  | f :: fs, a => accum x fs (addf a (normed (f x)))

/-- The reference's result as a function of its argument. -/
def refResult (x : (⟨S32x2048x32x32, .f32⟩ : BufTy).Contents (Elt F)) : (⟨S32x2048, .f32⟩ : BufTy).Contents (Elt F) := normed (accum x maxes zeros)

/-- After all the operations the result buffer holds refResult of the argument array as it was before them. -/
theorem result_after (V : Valuation τ sig (Elt F)) :
    after ops V (Proc.devRef .tc main_v233) = refResult (V (Proc.devRef .tc main_arg0)) := by
  rw [ops_regroup]
  simp only [after_append]
  rw [tail_res]
  rw [reg29_acc, reg28_acc, reg28_arg, reg27_acc, reg27_arg, reg26_acc,
    reg26_arg, reg25_acc, reg25_arg, reg24_acc, reg24_arg, reg23_acc,
    reg23_arg, reg22_acc, reg22_arg, reg21_acc, reg21_arg, reg20_acc,
    reg20_arg, reg19_acc, reg19_arg, reg18_acc, reg18_arg, reg17_acc,
    reg17_arg, reg16_acc, reg16_arg, reg15_acc, reg15_arg, reg14_acc,
    reg14_arg, reg13_acc, reg13_arg, reg12_acc, reg12_arg, reg11_acc,
    reg11_arg, reg10_acc, reg10_arg, reg9_acc, reg9_arg, reg8_acc,
    reg8_arg, reg7_acc, reg7_arg, reg6_acc, reg6_arg, reg5_acc,
    reg5_arg, reg4_acc, reg4_arg, reg3_acc, reg3_arg, reg2_acc,
    reg2_arg, reg1_acc, reg1_arg]
  simp only [refResult, maxes, accum]

/-- Every weakly fair execution of the reference terminates, without a fault, with the result buffer at refResult of the
    argument array and the argument array as it was. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v233) = refResult (m ((c.tc : Thread nD τ).loc main_arg0))
      ∧ r.2.mem ((c.tc : Thread nD τ).loc main_arg0) = m ((c.tc : Thread nD τ).loc main_arg0) :=
  (θ_run defs _ _).mono
    (fun _ h c => ⟨(h c main_v233).trans (result_after _), (h c main_arg0).trans (ops_keeps_arg _)⟩) (run_after m ρ)

end Cert.ReferenceIdeal.RefRun

end
-- ==== Proof.RefIndex.lean ====
/-
  The reference's pure functions read at an index, over the extended reals. At row b and channel c, normed v is v(b, c) divided
  by (the square root of (zero plus the sum over the channels k of v(b, k)²) plus ε): the sum over the channel axis read as a
  finite sum, the column of norms and the column of ε broadcast back along the row, the division and the square root pointwise.
-/
import proofs.«131176_j28467043238140_1_alg».proof.Proof.RefStep
import Idealize.ShloMosaic.Lib.ValueIdx
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem
open Idealize.ShloMosaic.ValueIdx

/-- The sum over the channel axis of the squares of row b, from the zero the sum starts at. -/
theorem rowSum_apply (v : FVec Ideal S32x2048 .f32) (b : Fin 32) :
    Host.reduceAdd (F := Ideal) (mulf v v) (constant S_ .f32 0x00000000#32) reducesTo_S32x2048_S32_d1 h_S_ (ix1 b)
      = Ideal.ofBits .f32 0x00000000#32 + ∑ k : Fin 2048, v (ix2 b k) * v (ix2 b k) := by
  generalize hy : mulf v v = y
  simp only [Host.reduceAdd, Ideal.hostReduceAdd_def]
  rw [Ideal.hostReduceAdd_single reducesTo_S32x2048_S32_d1 (by decide)]
  subst hy
  refine congrArg (_ + ·) (Finset.sum_congr rfl fun k _ => ?_)
  refine congrArg (fun i => v i * v i) (funext fun a => Fin.ext ?_)
  match a with
  | ⟨0, _⟩ => rfl
  | ⟨1, _⟩ => rfl

/-- A vector over the rows, as a column, read at row b. -/
theorem colOfRows_apply (r : FVec Ideal S32 .f32) (b : Fin 32) (z : Fin 1) :
    broadcastInDim S32x1 ![0] bcast_S32_S32x1_0 r (ix2 b z) = r (ix1 b) :=
  broadcastInDim_apply _ bcast_S32_S32x1_0 r (ix2 b z) (ix1 b) (fun a => match a with
    | ⟨0, _⟩ => by show b.val = if (32 : Nat) = 1 then 0 else b.val; rw [if_neg (by decide)])

/-- The column of ε: the constant at every row. -/
theorem epsCol_apply (b : Fin 32) (z : Fin 1) :
    broadcastInDim S32x1 ![] bcast_S_S32x1 (constant (F := Ideal) S_ .f32 0x358637BD#32) (ix2 b z)
      = Ideal.ofBits .f32 0x358637BD#32 :=
  (broadcastInDim_apply _ bcast_S_S32x1 (constant (F := Ideal) S_ .f32 0x358637BD#32) (ix2 b z) ix0 (fun a => a.elim0)).trans rfl

/-- A column broadcast back along the channel axis, read at row b and channel c. -/
theorem rowOfCol_apply (w : FVec Ideal S32x1 .f32) (b : Fin 32) (c : Fin 2048) :
    broadcastInDim S32x2048 ![0, 1] bcast_S32x1_S32x2048_0_1 w (ix2 b c) = w (ix2 b ⟨0, Nat.one_pos⟩) :=
  broadcastInDim_apply _ bcast_S32x1_S32x2048_0_1 w (ix2 b c) (ix2 b ⟨0, Nat.one_pos⟩) (fun a => match a with
    | ⟨0, _⟩ => by show b.val = if (32 : Nat) = 1 then 0 else b.val; rw [if_neg (by decide)]
    | ⟨1, _⟩ => by show (0 : Nat) = if (1 : Nat) = 1 then 0 else c.val; rw [if_pos rfl])

/-- The norm of row b: the square root of zero plus the sum of the row's squares. -/
theorem rowNorm_apply (v : FVec Ideal S32x2048 .f32) (b : Fin 32) (z : Fin 1) :
    rowNorm (F := Ideal) v (ix2 b z)
      = Ideal.sqrt (Ideal.ofBits .f32 0x00000000#32 + ∑ k : Fin 2048, v (ix2 b k) * v (ix2 b k)) := by
  unfold rowNorm
  exact congrArg Ideal.sqrt ((colOfRows_apply _ b z).trans (rowSum_apply v b))

/-- normed v at row b, channel c: v(b, c) over (the norm of row b plus ε). -/
theorem normed_apply (v : FVec Ideal S32x2048 .f32) (b : Fin 32) (c : Fin 2048) :
    normed (F := Ideal) v (ix2 b c)
      = Ideal.div (v (ix2 b c))
          (Ideal.sqrt (Ideal.ofBits .f32 0x00000000#32 + ∑ k : Fin 2048, v (ix2 b k) * v (ix2 b k))
            + Ideal.ofBits .f32 0x358637BD#32) := by
  unfold normed
  refine congrArg (Ideal.div (v (ix2 b c))) ?_
  refine (rowOfCol_apply _ b c).trans ?_
  exact congrArg₂ (· + ·) (rowNorm_apply v b _) (epsCol_apply b _)

/-- The zero array at any index. -/
theorem zeros_apply (b : Fin 32) (c : Fin 2048) : zeros (F := Ideal) (ix2 b c) = Ideal.ofBits .f32 0x00000000#32 :=
  (broadcastInDim_apply _ bcast_S_S32x2048 (constant (F := Ideal) S_ .f32 0x00000000#32) (ix2 b c) ix0 (fun a => a.elim0)).trans rfl

end Cert.ReferenceIdeal.RefRun

end
-- ==== Proof.Spec.lean ====
/-
  What both programs compute, as one function of the input x : [32, 2048, 32, 32] over the extended reals.
  There are 29 square regions of the 32 x 32 plane: four times the whole plane; nine of side 21 with corners at rows and
  columns 0, 6, 11; sixteen of side 16 with corners at 0, 5, 11, 16 (the row offset varying slowest). For a region, v(b, c) is
  the maximum of x(b, c, ·, ·) over the region; v is divided by (the square root of the sum over c of v(b, c)², plus a small
  constant ε), and the 29 quotients are added up, in order, starting from zero; the sum is normalized the same way once more.
  The maximum of a finite family is characterized by its upper bounds, which is how two different arrangements of one
  rectangle's maximum are identified.
-/
import Idealize.ShloMosaic.PureOps.Ideal

noncomputable section

namespace Cert.Spec

open Idealize.ShloMosaic

/-- The input as a function of four coordinates. -/
abbrev Input := Fin 32 → Fin 2048 → Fin 32 → Fin 32 → EReal
/-- A [32, 2048] array as a function of two coordinates. -/
abbrev Plane := Fin 32 → Fin 2048 → EReal

/-- The input at row h and column w given as natural numbers: bottom outside the 32 x 32 plane (never read there). -/
def at4 (x : Input) (b : Fin 32) (c : Fin 2048) (h w : ℕ) : EReal :=
  if hh : h < 32 then if hw : w < 32 then x b c ⟨h, hh⟩ ⟨w, hw⟩ else ⊥ else ⊥

/-- The maximum of x(b, c, ·, ·) over the square of side n whose corner is at row sh, column sw. -/
def rectMax (x : Input) (sh sw n : ℕ) : Plane := fun b c =>
  (Finset.univ : Finset (Fin n × Fin n)).sup fun p => at4 x b c (sh + p.1.val) (sw + p.2.val)

/-- A bound of the rectangle's maximum is a bound of every entry of the rectangle. -/
theorem rectMax_le_iff (x : Input) (sh sw n : ℕ) (b : Fin 32) (c : Fin 2048) (z : EReal) :
    rectMax x sh sw n b c ≤ z ↔ ∀ (h w : Fin n), at4 x b c (sh + h.val) (sw + w.val) ≤ z := by
  unfold rectMax
  rw [Finset.sup_le_iff]
  constructor
  · intro H h w
    exact H (h, w) (Finset.mem_univ _)
  · intro H p _
    exact H p.1 p.2

/-- Two extended reals with the same upper bounds are equal. -/
theorem eq_of_bounds {a b : EReal} (h : ∀ z, a ≤ z ↔ b ≤ z) : a = b :=
  le_antisymm ((h b).2 le_rfl) ((h a).1 le_rfl)

/-- The small constant ε added to every norm: the f32 word both programs carry. -/
def eps : EReal := Ideal.ofBits .f32 0x358637BD#32

/-- v divided, row by row, by its row's Euclidean norm plus ε. -/
def normalize (v : Plane) : Plane := fun b c =>
  Ideal.div (v b c) (Ideal.sqrt (∑ c' : Fin 2048, v b c' * v b c') + eps)

/-- The 29 regions as (row of the corner, column of the corner, side), in the order both programs take them. -/
def regions : List (ℕ × ℕ × ℕ) :=
  [(0, 0, 32), (0, 0, 32), (0, 0, 32), (0, 0, 32),
   (0, 0, 21), (0, 6, 21), (0, 11, 21), (6, 0, 21), (6, 6, 21), (6, 11, 21), (11, 0, 21), (11, 6, 21), (11, 11, 21),
   (0, 0, 16), (0, 5, 16), (0, 11, 16), (0, 16, 16), (5, 0, 16), (5, 5, 16), (5, 11, 16), (5, 16, 16),
   (11, 0, 16), (11, 5, 16), (11, 11, 16), (11, 16, 16), (16, 0, 16), (16, 5, 16), (16, 11, 16), (16, 16, 16)]

/-- The running sum after the listed regions, from the running sum a. -/
def accumulate (x : Input) : List (ℕ × ℕ × ℕ) → Plane → Plane
  | [], a => a
  | (sh, sw, n) :: rs, a => accumulate x rs fun b c => a b c + normalize (rectMax x sh sw n) b c

/-- The result: the 29 normalized regional maxima added up from zero, normalized once more. -/
def G (x : Input) : Plane := normalize (accumulate x regions fun _ _ => 0)

theorem regions_length : regions.length = 29 := rfl

end Cert.Spec

end
-- ==== Proof.RefMax.lean ====
/-
  The reference's regional maxima read at an index. The maximum over a square of the plane, taken by the host's reduce from
  minus infinity over a slice of the input, is bounded by z exactly when every entry of the square is; the specification's
  maximum over the same rectangle has the same bounds; so the two are equal.
-/
import proofs.«131176_j28467043238140_1_alg».proof.Proof.RefStep
import proofs.«131176_j28467043238140_1_alg».proof.Proof.Spec
import Idealize.ShloMosaic.Lib.ValueIdx
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem
open Idealize.ShloMosaic.ValueIdx

/-- The input array as a function of its four coordinates. -/
def toInput (x : FVec Ideal S32x2048x32x32 .f32) : Cert.Spec.Input := fun b c h w => x (ix4 b c h w)

/-- The word the maxima start from is minus infinity, the bottom of the extended reals. -/
theorem negInf : Ideal.ofBits .f32 0xFF800000#32 = ⊥ := by simp [Ideal.ofBits, Ideal.ieee]

/-- The square of side 21 at corner (oh, ow) lies inside the 32 x 32 plane. -/
theorem corner21_le {oh ow : ℕ} (hs : S32x2048x32x32.Slices ![0, 0, oh, ow] S32x2048x21x21) : oh + 21 ≤ 32 ∧ ow + 21 ≤ 32 := by
  have h2 : oh + 21 ≤ 32 := hs.2 (2 : Fin 4)
  have h3 : ow + 21 ≤ 32 := hs.2 (3 : Fin 4)
  exact ⟨h2, h3⟩

/-- The slice of side 21 at corner (oh, ow), read at an index whose first two coordinates are b and c: the input at
    (b, c, oh + the third coordinate, ow + the fourth). -/
theorem slice21_at (oh ow : ℕ) (hs : S32x2048x32x32.Slices ![0, 0, oh, ow] S32x2048x21x21) (x : FVec Ideal S32x2048x32x32 .f32)
    (b : Fin 32) (c : Fin 2048) (i : S32x2048x21x21.Idx) (h0 : (i 0).val = b.val) (h1 : (i 1).val = c.val) :
    extractStridedSlice S32x2048x21x21 ![0, 0, oh, ow] x hs i = Cert.Spec.at4 (toInput x) b c (oh + (i 2).val) (ow + (i 3).val) := by
  have hc := corner21_le hs
  have h2 : (i 2).val < 21 := (i 2).isLt
  have h3 : (i 3).val < 21 := (i 3).isLt
  unfold Cert.Spec.at4
  rw [dif_pos (by omega), dif_pos (by omega)]
  unfold toInput extractStridedSlice
  refine congrArg x (funext fun a => Fin.ext ?_)
  match a with
  | ⟨0, _⟩ => exact (Nat.zero_add _).trans h0
  | ⟨1, _⟩ => exact (Nat.zero_add _).trans h1
  | ⟨2, _⟩ => rfl
  | ⟨3, _⟩ => rfl

/-- The maximum over the square of side 21 at corner (oh, ow), read at row b and channel c, is the specification's
    maximum over that rectangle: both are bounded by z exactly when every entry of the rectangle is. -/
theorem max21_apply (oh ow : ℕ) (hs : S32x2048x32x32.Slices ![0, 0, oh, ow] S32x2048x21x21) (x : FVec Ideal S32x2048x32x32 .f32)
    (b : Fin 32) (c : Fin 2048) :
    max21 (F := Ideal) oh ow hs x (ix2 b c) = Cert.Spec.rectMax (toInput x) oh ow 21 b c := by
  refine Cert.Spec.eq_of_bounds fun z => ?_
  rw [Cert.Spec.rectMax_le_iff]
  unfold max21
  rw [Host.reduce_eq_fold FloatOps.maximumf _ _ reducesTo_S32x2048x21x21_S32x2048_d2_3 h_S_ (ix2 b c)]
  change Finset.fold max _ _ _ ≤ z ↔ _
  rw [Finset.fold_max_le]
  constructor
  · rintro ⟨_, H⟩ h w
    have hm : (ix4 b c h w : S32x2048x21x21.Idx) ∈ Finset.univ.filter fun i => reducesTo_S32x2048x21x21_S32x2048_d2_3.drop i = ix2 b c := by
      rw [Finset.mem_filter]
      refine ⟨Finset.mem_univ _, funext fun a => Fin.ext ?_⟩
      match a with
      | ⟨0, _⟩ => rfl
      | ⟨1, _⟩ => rfl
    exact (slice21_at oh ow hs x b c (ix4 b c h w) rfl rfl).symm.le.trans (H _ hm)
  · intro H
    refine ⟨by rw [constant_apply, negInf]; exact bot_le, fun i hi => ?_⟩
    have hd := (Finset.mem_filter.1 hi).2
    have h0 : (i 0).val = b.val := congrArg Fin.val (congrFun hd 0)
    have h1 : (i 1).val = c.val := congrArg Fin.val (congrFun hd 1)
    exact (slice21_at oh ow hs x b c i h0 h1).le.trans (H (i 2) (i 3))

/-- The square of side 16 at corner (oh, ow) lies inside the 32 x 32 plane. -/
theorem corner16_le {oh ow : ℕ} (hs : S32x2048x32x32.Slices ![0, 0, oh, ow] S32x2048x16x16) : oh + 16 ≤ 32 ∧ ow + 16 ≤ 32 := by
  have h2 : oh + 16 ≤ 32 := hs.2 (2 : Fin 4)
  have h3 : ow + 16 ≤ 32 := hs.2 (3 : Fin 4)
  exact ⟨h2, h3⟩

/-- The slice of side 16 at corner (oh, ow), read at an index whose first two coordinates are b and c: the input at
    (b, c, oh + the third coordinate, ow + the fourth). -/
theorem slice16_at (oh ow : ℕ) (hs : S32x2048x32x32.Slices ![0, 0, oh, ow] S32x2048x16x16) (x : FVec Ideal S32x2048x32x32 .f32)
    (b : Fin 32) (c : Fin 2048) (i : S32x2048x16x16.Idx) (h0 : (i 0).val = b.val) (h1 : (i 1).val = c.val) :
    extractStridedSlice S32x2048x16x16 ![0, 0, oh, ow] x hs i = Cert.Spec.at4 (toInput x) b c (oh + (i 2).val) (ow + (i 3).val) := by
  have hc := corner16_le hs
  have h2 : (i 2).val < 16 := (i 2).isLt
  have h3 : (i 3).val < 16 := (i 3).isLt
  unfold Cert.Spec.at4
  rw [dif_pos (by omega), dif_pos (by omega)]
  unfold toInput extractStridedSlice
  refine congrArg x (funext fun a => Fin.ext ?_)
  match a with
  | ⟨0, _⟩ => exact (Nat.zero_add _).trans h0
  | ⟨1, _⟩ => exact (Nat.zero_add _).trans h1
  | ⟨2, _⟩ => rfl
  | ⟨3, _⟩ => rfl

/-- The maximum over the square of side 16 at corner (oh, ow), read at row b and channel c, is the specification's
    maximum over that rectangle: both are bounded by z exactly when every entry of the rectangle is. -/
theorem max16_apply (oh ow : ℕ) (hs : S32x2048x32x32.Slices ![0, 0, oh, ow] S32x2048x16x16) (x : FVec Ideal S32x2048x32x32 .f32)
    (b : Fin 32) (c : Fin 2048) :
    max16 (F := Ideal) oh ow hs x (ix2 b c) = Cert.Spec.rectMax (toInput x) oh ow 16 b c := by
  refine Cert.Spec.eq_of_bounds fun z => ?_
  rw [Cert.Spec.rectMax_le_iff]
  unfold max16
  rw [Host.reduce_eq_fold FloatOps.maximumf _ _ reducesTo_S32x2048x16x16_S32x2048_d2_3 h_S_ (ix2 b c)]
  change Finset.fold max _ _ _ ≤ z ↔ _
  rw [Finset.fold_max_le]
  constructor
  · rintro ⟨_, H⟩ h w
    have hm : (ix4 b c h w : S32x2048x16x16.Idx) ∈ Finset.univ.filter fun i => reducesTo_S32x2048x16x16_S32x2048_d2_3.drop i = ix2 b c := by
      rw [Finset.mem_filter]
      refine ⟨Finset.mem_univ _, funext fun a => Fin.ext ?_⟩
      match a with
      | ⟨0, _⟩ => rfl
      | ⟨1, _⟩ => rfl
    exact (slice16_at oh ow hs x b c (ix4 b c h w) rfl rfl).symm.le.trans (H _ hm)
  · intro H
    refine ⟨by rw [constant_apply, negInf]; exact bot_le, fun i hi => ?_⟩
    have hd := (Finset.mem_filter.1 hi).2
    have h0 : (i 0).val = b.val := congrArg Fin.val (congrFun hd 0)
    have h1 : (i 1).val = c.val := congrArg Fin.val (congrFun hd 1)
    exact (slice16_at oh ow hs x b c i h0 h1).le.trans (H (i 2) (i 3))

/-- The input read at an index whose first two coordinates are b and c, as the specification reads it (corner (0, 0)). -/
theorem full_at (x : FVec Ideal S32x2048x32x32 .f32) (b : Fin 32) (c : Fin 2048) (i : S32x2048x32x32.Idx)
    (h0 : (i 0).val = b.val) (h1 : (i 1).val = c.val) :
    x i = Cert.Spec.at4 (toInput x) b c (0 + (i 2).val) (0 + (i 3).val) := by
  have h2 : (i 2).val < 32 := (i 2).isLt
  have h3 : (i 3).val < 32 := (i 3).isLt
  unfold Cert.Spec.at4
  rw [dif_pos (by omega), dif_pos (by omega)]
  unfold toInput
  refine congrArg x (funext fun a => Fin.ext ?_)
  match a with
  | ⟨0, _⟩ => exact h0
  | ⟨1, _⟩ => exact h1
  | ⟨2, _⟩ => exact (Nat.zero_add _).symm
  | ⟨3, _⟩ => exact (Nat.zero_add _).symm

/-- The maximum over the whole plane, read at row b and channel c, is the specification's maximum over the square of side
    32 at corner (0, 0). -/
theorem maxFull_apply (x : FVec Ideal S32x2048x32x32 .f32) (b : Fin 32) (c : Fin 2048) :
    maxFull (F := Ideal) x (ix2 b c) = Cert.Spec.rectMax (toInput x) 0 0 32 b c := by
  refine Cert.Spec.eq_of_bounds fun z => ?_
  rw [Cert.Spec.rectMax_le_iff]
  unfold maxFull
  rw [Host.reduce_eq_fold FloatOps.maximumf _ _ reducesTo_S32x2048x32x32_S32x2048_d2_3 h_S_ (ix2 b c)]
  change Finset.fold max _ _ _ ≤ z ↔ _
  rw [Finset.fold_max_le]
  constructor
  · rintro ⟨_, H⟩ h w
    have hm : (ix4 b c h w : S32x2048x32x32.Idx) ∈ Finset.univ.filter fun i => reducesTo_S32x2048x32x32_S32x2048_d2_3.drop i = ix2 b c := by
      rw [Finset.mem_filter]
      refine ⟨Finset.mem_univ _, funext fun a => Fin.ext ?_⟩
      match a with
      | ⟨0, _⟩ => rfl
      | ⟨1, _⟩ => rfl
    exact (full_at x b c (ix4 b c h w) rfl rfl).symm.le.trans (H _ hm)
  · intro H
    refine ⟨by rw [constant_apply, negInf]; exact bot_le, fun i hi => ?_⟩
    have hd := (Finset.mem_filter.1 hi).2
    have h0 : (i 0).val = b.val := congrArg Fin.val (congrFun hd 0)
    have h1 : (i 1).val = c.val := congrArg Fin.val (congrFun hd 1)
    exact (full_at x b c i h0 h1).le.trans (H (i 2) (i 3))

end Cert.ReferenceIdeal.RefRun

end
-- ==== Proof.RefSpec.lean ====
/-
  The reference computes the specification. The running sum over the list of regional maxima and the specification's running
  sum over the table of regions agree at every index as soon as the starting sums do and each maximum is the specification's
  maximum over its region's rectangle: one step adds to both the same quotient, v(b, c) over (the norm of row b of v plus ε),
  the zero the host's sum starts from changing nothing. The 29 maxima are the 29 rectangles' maxima, the starting sums are
  zero on both sides, and the final normalization is the same step once more.
-/
import proofs.«131176_j28467043238140_1_alg».proof.Proof.RefValue
import proofs.«131176_j28467043238140_1_alg».proof.Proof.RefIndex
import proofs.«131176_j28467043238140_1_alg».proof.Proof.RefMax

noncomputable section

namespace Cert.ReferenceIdeal.RefRun

open Cert.ReferenceIdeal Cert.ReferenceIdeal.Gen Idealize.ShloMosaic Idealize.ShloMosaic.TcCoe Idealize.SL.Sem
open Idealize.ShloMosaic.ValueIdx

/-- normed of an array that agrees with a plane at every index is the specification's normalize of the plane. -/
theorem normed_eq_normalize (v : FVec Ideal S32x2048 .f32) (v' : Cert.Spec.Plane) (hv : ∀ b c, v (ix2 b c) = v' b c)
    (b : Fin 32) (c : Fin 2048) : normed (F := Ideal) v (ix2 b c) = Cert.Spec.normalize v' b c := by
  rw [normed_apply, Ideal.ofBits_zero_f32, zero_add]
  unfold Cert.Spec.normalize Cert.Spec.eps
  simp only [hv]

/-- The running sums agree after any list of maxima paired with regions whose rectangles' maxima they are. -/
theorem accum_apply (x : FVec Ideal S32x2048x32x32 .f32) :
    ∀ (fs : List (FVec Ideal S32x2048x32x32 .f32 → FVec Ideal S32x2048 .f32)) (rs : List (ℕ × ℕ × ℕ)),
      List.Forall₂ (fun f r => ∀ b c, f x (ix2 b c) = Cert.Spec.rectMax (toInput x) r.1 r.2.1 r.2.2 b c) fs rs →
      ∀ (a : FVec Ideal S32x2048 .f32) (a' : Cert.Spec.Plane), (∀ b c, a (ix2 b c) = a' b c) →
      ∀ b c, accum (F := Ideal) x fs a (ix2 b c) = Cert.Spec.accumulate (toInput x) rs a' b c := by
  intro fs rs hp
  induction hp with
  | nil => intro a a' ha b c; exact ha b c
  | @cons f r fs rs hfr _ ih =>
    intro a a' ha b c
    obtain ⟨sh, sw, n⟩ := r
    show accum (F := Ideal) x fs (addf a (normed (F := Ideal) (f x))) (ix2 b c) = Cert.Spec.accumulate (toInput x) rs _ b c
    refine ih _ _ (fun b c => ?_) b c
    show a (ix2 b c) + normed (F := Ideal) (f x) (ix2 b c) = a' b c + Cert.Spec.normalize (Cert.Spec.rectMax (toInput x) sh sw n) b c
    rw [ha b c, normed_eq_normalize (f x) _ hfr b c]

/-- Each of the 29 maxima is the specification's maximum over its region's rectangle. -/
theorem maxes_regions (x : FVec Ideal S32x2048x32x32 .f32) :
    List.Forall₂ (fun f r => ∀ b c, f x (ix2 b c) = Cert.Spec.rectMax (toInput x) r.1 r.2.1 r.2.2 b c)
      (maxes (F := Ideal)) Cert.Spec.regions :=
    (List.Forall₂.cons (fun b c => maxFull_apply x b c)
    (List.Forall₂.cons (fun b c => maxFull_apply x b c)
    (List.Forall₂.cons (fun b c => maxFull_apply x b c)
    (List.Forall₂.cons (fun b c => maxFull_apply x b c)
    (List.Forall₂.cons (fun b c => max21_apply 0 0 slices_S32x2048x32x32_S32x2048x21x21_0_0_0_0 x b c)
    (List.Forall₂.cons (fun b c => max21_apply 0 6 slices_S32x2048x32x32_S32x2048x21x21_0_0_0_6 x b c)
    (List.Forall₂.cons (fun b c => max21_apply 0 11 slices_S32x2048x32x32_S32x2048x21x21_0_0_0_11 x b c)
    (List.Forall₂.cons (fun b c => max21_apply 6 0 slices_S32x2048x32x32_S32x2048x21x21_0_0_6_0 x b c)
    (List.Forall₂.cons (fun b c => max21_apply 6 6 slices_S32x2048x32x32_S32x2048x21x21_0_0_6_6 x b c)
    (List.Forall₂.cons (fun b c => max21_apply 6 11 slices_S32x2048x32x32_S32x2048x21x21_0_0_6_11 x b c)
    (List.Forall₂.cons (fun b c => max21_apply 11 0 slices_S32x2048x32x32_S32x2048x21x21_0_0_11_0 x b c)
    (List.Forall₂.cons (fun b c => max21_apply 11 6 slices_S32x2048x32x32_S32x2048x21x21_0_0_11_6 x b c)
    (List.Forall₂.cons (fun b c => max21_apply 11 11 slices_S32x2048x32x32_S32x2048x21x21_0_0_11_11 x b c)
    (List.Forall₂.cons (fun b c => max16_apply 0 0 slices_S32x2048x32x32_S32x2048x16x16_0_0_0_0 x b c)
    (List.Forall₂.cons (fun b c => max16_apply 0 5 slices_S32x2048x32x32_S32x2048x16x16_0_0_0_5 x b c)
    (List.Forall₂.cons (fun b c => max16_apply 0 11 slices_S32x2048x32x32_S32x2048x16x16_0_0_0_11 x b c)
    (List.Forall₂.cons (fun b c => max16_apply 0 16 slices_S32x2048x32x32_S32x2048x16x16_0_0_0_16 x b c)
    (List.Forall₂.cons (fun b c => max16_apply 5 0 slices_S32x2048x32x32_S32x2048x16x16_0_0_5_0 x b c)
    (List.Forall₂.cons (fun b c => max16_apply 5 5 slices_S32x2048x32x32_S32x2048x16x16_0_0_5_5 x b c)
    (List.Forall₂.cons (fun b c => max16_apply 5 11 slices_S32x2048x32x32_S32x2048x16x16_0_0_5_11 x b c)
    (List.Forall₂.cons (fun b c => max16_apply 5 16 slices_S32x2048x32x32_S32x2048x16x16_0_0_5_16 x b c)
    (List.Forall₂.cons (fun b c => max16_apply 11 0 slices_S32x2048x32x32_S32x2048x16x16_0_0_11_0 x b c)
    (List.Forall₂.cons (fun b c => max16_apply 11 5 slices_S32x2048x32x32_S32x2048x16x16_0_0_11_5 x b c)
    (List.Forall₂.cons (fun b c => max16_apply 11 11 slices_S32x2048x32x32_S32x2048x16x16_0_0_11_11 x b c)
    (List.Forall₂.cons (fun b c => max16_apply 11 16 slices_S32x2048x32x32_S32x2048x16x16_0_0_11_16 x b c)
    (List.Forall₂.cons (fun b c => max16_apply 16 0 slices_S32x2048x32x32_S32x2048x16x16_0_0_16_0 x b c)
    (List.Forall₂.cons (fun b c => max16_apply 16 5 slices_S32x2048x32x32_S32x2048x16x16_0_0_16_5 x b c)
    (List.Forall₂.cons (fun b c => max16_apply 16 11 slices_S32x2048x32x32_S32x2048x16x16_0_0_16_11 x b c)
    (List.Forall₂.cons (fun b c => max16_apply 16 16 slices_S32x2048x32x32_S32x2048x16x16_0_0_16_16 x b c)
    List.Forall₂.nil)))))))))))))))))))))))))))))

/-- The reference's result is the specification's function of the input, at every index. -/
theorem refResult_eq (x : FVec Ideal S32x2048x32x32 .f32) (b : Fin 32) (c : Fin 2048) :
    refResult (F := Ideal) x (ix2 b c) = Cert.Spec.G (toInput x) b c := by
  unfold refResult Cert.Spec.G
  refine normed_eq_normalize _ _ (fun b c => ?_) b c
  exact accum_apply x _ _ (maxes_regions x) _ _ (fun b c => (zeros_apply b c).trans Ideal.ofBits_zero_f32) b c

end Cert.ReferenceIdeal.RefRun

end
-- ==== Proof.KerStep.lean ====
/-
  The kernel body's arithmetic, written as what it is. One grid point holds two batch rows: a block x0 : [2, 2048, 1024], the
  32 x 32 plane flattened along its last axis (entry 32 h + w is row h, column w). A region's maximum is taken row by row: each
  row of the region is one contiguous stretch of the flattened axis (a region as wide as the plane is one stretch), the stretch's
  maximum is a lane reduction from minus infinity, and the rows' maxima are combined by maximum from the first row on. The
  maximum v is divided, for each batch row, by (the square root of the sum over channels of v², plus ε) and added to the
  running sum, which starts at zero; after the 29 regions the sum is normalized the same way and given a trailing unit axis.
-/
import proofs.«131176_j28467043238140_1_alg».proof.Proof.Gen.KernelIdeal.Frame

set_option maxRecDepth 16384

noncomputable section

namespace Cert.KernelIdeal.KerValue

open Cert.KernelIdeal Cert.KernelIdeal.Gen Idealize.ShloMosaic Idealize.SL.Sem

variable {F : FTy → Type} [FloatOps F]

/-- The maximum along the flattened plane of a whole block. -/
def kRow1024 (l : Vec F S2x2048x1024 .f32) : FVec F S2x2048 .f32 :=
  multiReduction .maximumf [2] S2x2048 (shapeCast S2x2048x1024 l shapeCasts_S2x2048x1024_S2x2048x1024) 0xFF800000#32
    reduces_S2x2048x1024_S2x2048 (.inl rfl) rfl

/-- The maximum of a stretch of 21 entries. -/
def kRow21 (l : Vec F S2x2048x21 .f32) : FVec F S2x2048 .f32 :=
  multiReduction .maximumf [2] S2x2048 (shapeCast S2x2048x21 l shapeCasts_S2x2048x21_S2x2048x21) 0xFF800000#32
    reduces_S2x2048x21_S2x2048 (.inl rfl) rfl

/-- The maximum of a stretch of 16 entries. -/
def kRow16 (l : Vec F S2x2048x16 .f32) : FVec F S2x2048 .f32 :=
  multiReduction .maximumf [2] S2x2048 (shapeCast S2x2048x16 l shapeCasts_S2x2048x16_S2x2048x16) 0xFF800000#32
    reduces_S2x2048x16_S2x2048 (.inl rfl) rfl

/-- The rows' maxima combined, from the first row on. -/
def kMaxOf (m : FVec F S2x2048 .f32) (ms : List (FVec F S2x2048 .f32)) : FVec F S2x2048 .f32 := ms.foldl maximumf m

/-- Each batch row divided by its Euclidean norm over the channels plus ε. -/
def kNormed (v : FVec F S2x2048 .f32) : FVec F S2x2048 .f32 :=
  divf v (broadcastTo S2x2048
    (addf (sqrt (shapeCast S2x1 (multiReduction .add [1] S2 (mulf v v) 0x00000000#32 reduces_S2x2048_S2 (.inl rfl) rfl) shapeCasts_S2_S2x1))
      (broadcast S2x1 (Scalar.ofBits .f32 0x358637BD#32)))
    broadcasts_S2x1_S2x2048)

/-- The zero block the running sum starts from. -/
def kZeros : FVec F S2x2048 .f32 := broadcast S2x2048 (Scalar.ofBits .f32 0x00000000#32)

/-- The 29 regional maxima of a block, in order. -/
def kMaxes (x0 : Vec F S2x2048x1024 .f32) : List (FVec F S2x2048 .f32) :=
  [ kMaxOf (kRow1024 (View.ld x0 r0_0)) [],
    kMaxOf (kRow1024 (View.ld x0 r0_0)) [],
    kMaxOf (kRow1024 (View.ld x0 r0_0)) [],
    kMaxOf (kRow1024 (View.ld x0 r0_0)) [],
    kMaxOf (kRow21 (View.ld x0 r0_1))
      [kRow21 (View.ld x0 r0_2),
       kRow21 (View.ld x0 r0_3),
       kRow21 (View.ld x0 r0_4),
       kRow21 (View.ld x0 r0_5),
       kRow21 (View.ld x0 r0_6),
       kRow21 (View.ld x0 r0_7),
       kRow21 (View.ld x0 r0_8),
       kRow21 (View.ld x0 r0_9),
       kRow21 (View.ld x0 r0_10),
       kRow21 (View.ld x0 r0_11),
       kRow21 (View.ld x0 r0_12),
       kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21)],
    kMaxOf (kRow21 (View.ld x0 r0_22))
      [kRow21 (View.ld x0 r0_23),
       kRow21 (View.ld x0 r0_24),
       kRow21 (View.ld x0 r0_25),
       kRow21 (View.ld x0 r0_26),
       kRow21 (View.ld x0 r0_27),
       kRow21 (View.ld x0 r0_28),
       kRow21 (View.ld x0 r0_29),
       kRow21 (View.ld x0 r0_30),
       kRow21 (View.ld x0 r0_31),
       kRow21 (View.ld x0 r0_32),
       kRow21 (View.ld x0 r0_33),
       kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42)],
    kMaxOf (kRow21 (View.ld x0 r0_43))
      [kRow21 (View.ld x0 r0_44),
       kRow21 (View.ld x0 r0_45),
       kRow21 (View.ld x0 r0_46),
       kRow21 (View.ld x0 r0_47),
       kRow21 (View.ld x0 r0_48),
       kRow21 (View.ld x0 r0_49),
       kRow21 (View.ld x0 r0_50),
       kRow21 (View.ld x0 r0_51),
       kRow21 (View.ld x0 r0_52),
       kRow21 (View.ld x0 r0_53),
       kRow21 (View.ld x0 r0_54),
       kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63)],
    kMaxOf (kRow21 (View.ld x0 r0_7))
      [kRow21 (View.ld x0 r0_8),
       kRow21 (View.ld x0 r0_9),
       kRow21 (View.ld x0 r0_10),
       kRow21 (View.ld x0 r0_11),
       kRow21 (View.ld x0 r0_12),
       kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21),
       kRow21 (View.ld x0 r0_64),
       kRow21 (View.ld x0 r0_65),
       kRow21 (View.ld x0 r0_66),
       kRow21 (View.ld x0 r0_67),
       kRow21 (View.ld x0 r0_68),
       kRow21 (View.ld x0 r0_69)],
    kMaxOf (kRow21 (View.ld x0 r0_28))
      [kRow21 (View.ld x0 r0_29),
       kRow21 (View.ld x0 r0_30),
       kRow21 (View.ld x0 r0_31),
       kRow21 (View.ld x0 r0_32),
       kRow21 (View.ld x0 r0_33),
       kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42),
       kRow21 (View.ld x0 r0_70),
       kRow21 (View.ld x0 r0_71),
       kRow21 (View.ld x0 r0_72),
       kRow21 (View.ld x0 r0_73),
       kRow21 (View.ld x0 r0_74),
       kRow21 (View.ld x0 r0_75)],
    kMaxOf (kRow21 (View.ld x0 r0_49))
      [kRow21 (View.ld x0 r0_50),
       kRow21 (View.ld x0 r0_51),
       kRow21 (View.ld x0 r0_52),
       kRow21 (View.ld x0 r0_53),
       kRow21 (View.ld x0 r0_54),
       kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63),
       kRow21 (View.ld x0 r0_76),
       kRow21 (View.ld x0 r0_77),
       kRow21 (View.ld x0 r0_78),
       kRow21 (View.ld x0 r0_79),
       kRow21 (View.ld x0 r0_80),
       kRow21 (View.ld x0 r0_81)],
    kMaxOf (kRow21 (View.ld x0 r0_12))
      [kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21),
       kRow21 (View.ld x0 r0_64),
       kRow21 (View.ld x0 r0_65),
       kRow21 (View.ld x0 r0_66),
       kRow21 (View.ld x0 r0_67),
       kRow21 (View.ld x0 r0_68),
       kRow21 (View.ld x0 r0_69),
       kRow21 (View.ld x0 r0_82),
       kRow21 (View.ld x0 r0_83),
       kRow21 (View.ld x0 r0_84),
       kRow21 (View.ld x0 r0_85),
       kRow21 (View.ld x0 r0_86)],
    kMaxOf (kRow21 (View.ld x0 r0_33))
      [kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42),
       kRow21 (View.ld x0 r0_70),
       kRow21 (View.ld x0 r0_71),
       kRow21 (View.ld x0 r0_72),
       kRow21 (View.ld x0 r0_73),
       kRow21 (View.ld x0 r0_74),
       kRow21 (View.ld x0 r0_75),
       kRow21 (View.ld x0 r0_87),
       kRow21 (View.ld x0 r0_88),
       kRow21 (View.ld x0 r0_89),
       kRow21 (View.ld x0 r0_90),
       kRow21 (View.ld x0 r0_91)],
    kMaxOf (kRow21 (View.ld x0 r0_54))
      [kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63),
       kRow21 (View.ld x0 r0_76),
       kRow21 (View.ld x0 r0_77),
       kRow21 (View.ld x0 r0_78),
       kRow21 (View.ld x0 r0_79),
       kRow21 (View.ld x0 r0_80),
       kRow21 (View.ld x0 r0_81),
       kRow21 (View.ld x0 r0_92),
       kRow21 (View.ld x0 r0_93),
       kRow21 (View.ld x0 r0_94),
       kRow21 (View.ld x0 r0_95),
       kRow21 (View.ld x0 r0_96)],
    kMaxOf (kRow16 (View.ld x0 r0_97))
      [kRow16 (View.ld x0 r0_98),
       kRow16 (View.ld x0 r0_99),
       kRow16 (View.ld x0 r0_100),
       kRow16 (View.ld x0 r0_101),
       kRow16 (View.ld x0 r0_102),
       kRow16 (View.ld x0 r0_103),
       kRow16 (View.ld x0 r0_104),
       kRow16 (View.ld x0 r0_105),
       kRow16 (View.ld x0 r0_106),
       kRow16 (View.ld x0 r0_107),
       kRow16 (View.ld x0 r0_108),
       kRow16 (View.ld x0 r0_109),
       kRow16 (View.ld x0 r0_110),
       kRow16 (View.ld x0 r0_111),
       kRow16 (View.ld x0 r0_112)],
    kMaxOf (kRow16 (View.ld x0 r0_113))
      [kRow16 (View.ld x0 r0_114),
       kRow16 (View.ld x0 r0_115),
       kRow16 (View.ld x0 r0_116),
       kRow16 (View.ld x0 r0_117),
       kRow16 (View.ld x0 r0_118),
       kRow16 (View.ld x0 r0_119),
       kRow16 (View.ld x0 r0_120),
       kRow16 (View.ld x0 r0_121),
       kRow16 (View.ld x0 r0_122),
       kRow16 (View.ld x0 r0_123),
       kRow16 (View.ld x0 r0_124),
       kRow16 (View.ld x0 r0_125),
       kRow16 (View.ld x0 r0_126),
       kRow16 (View.ld x0 r0_127),
       kRow16 (View.ld x0 r0_128)],
    kMaxOf (kRow16 (View.ld x0 r0_129))
      [kRow16 (View.ld x0 r0_130),
       kRow16 (View.ld x0 r0_131),
       kRow16 (View.ld x0 r0_132),
       kRow16 (View.ld x0 r0_133),
       kRow16 (View.ld x0 r0_134),
       kRow16 (View.ld x0 r0_135),
       kRow16 (View.ld x0 r0_136),
       kRow16 (View.ld x0 r0_137),
       kRow16 (View.ld x0 r0_138),
       kRow16 (View.ld x0 r0_139),
       kRow16 (View.ld x0 r0_140),
       kRow16 (View.ld x0 r0_141),
       kRow16 (View.ld x0 r0_142),
       kRow16 (View.ld x0 r0_143),
       kRow16 (View.ld x0 r0_144)],
    kMaxOf (kRow16 (View.ld x0 r0_145))
      [kRow16 (View.ld x0 r0_146),
       kRow16 (View.ld x0 r0_147),
       kRow16 (View.ld x0 r0_148),
       kRow16 (View.ld x0 r0_149),
       kRow16 (View.ld x0 r0_150),
       kRow16 (View.ld x0 r0_151),
       kRow16 (View.ld x0 r0_152),
       kRow16 (View.ld x0 r0_153),
       kRow16 (View.ld x0 r0_154),
       kRow16 (View.ld x0 r0_155),
       kRow16 (View.ld x0 r0_156),
       kRow16 (View.ld x0 r0_157),
       kRow16 (View.ld x0 r0_158),
       kRow16 (View.ld x0 r0_159),
       kRow16 (View.ld x0 r0_160)],
    kMaxOf (kRow16 (View.ld x0 r0_102))
      [kRow16 (View.ld x0 r0_103),
       kRow16 (View.ld x0 r0_104),
       kRow16 (View.ld x0 r0_105),
       kRow16 (View.ld x0 r0_106),
       kRow16 (View.ld x0 r0_107),
       kRow16 (View.ld x0 r0_108),
       kRow16 (View.ld x0 r0_109),
       kRow16 (View.ld x0 r0_110),
       kRow16 (View.ld x0 r0_111),
       kRow16 (View.ld x0 r0_112),
       kRow16 (View.ld x0 r0_161),
       kRow16 (View.ld x0 r0_162),
       kRow16 (View.ld x0 r0_163),
       kRow16 (View.ld x0 r0_164),
       kRow16 (View.ld x0 r0_165)],
    kMaxOf (kRow16 (View.ld x0 r0_118))
      [kRow16 (View.ld x0 r0_119),
       kRow16 (View.ld x0 r0_120),
       kRow16 (View.ld x0 r0_121),
       kRow16 (View.ld x0 r0_122),
       kRow16 (View.ld x0 r0_123),
       kRow16 (View.ld x0 r0_124),
       kRow16 (View.ld x0 r0_125),
       kRow16 (View.ld x0 r0_126),
       kRow16 (View.ld x0 r0_127),
       kRow16 (View.ld x0 r0_128),
       kRow16 (View.ld x0 r0_166),
       kRow16 (View.ld x0 r0_167),
       kRow16 (View.ld x0 r0_168),
       kRow16 (View.ld x0 r0_169),
       kRow16 (View.ld x0 r0_170)],
    kMaxOf (kRow16 (View.ld x0 r0_134))
      [kRow16 (View.ld x0 r0_135),
       kRow16 (View.ld x0 r0_136),
       kRow16 (View.ld x0 r0_137),
       kRow16 (View.ld x0 r0_138),
       kRow16 (View.ld x0 r0_139),
       kRow16 (View.ld x0 r0_140),
       kRow16 (View.ld x0 r0_141),
       kRow16 (View.ld x0 r0_142),
       kRow16 (View.ld x0 r0_143),
       kRow16 (View.ld x0 r0_144),
       kRow16 (View.ld x0 r0_171),
       kRow16 (View.ld x0 r0_172),
       kRow16 (View.ld x0 r0_173),
       kRow16 (View.ld x0 r0_174),
       kRow16 (View.ld x0 r0_175)],
    kMaxOf (kRow16 (View.ld x0 r0_150))
      [kRow16 (View.ld x0 r0_151),
       kRow16 (View.ld x0 r0_152),
       kRow16 (View.ld x0 r0_153),
       kRow16 (View.ld x0 r0_154),
       kRow16 (View.ld x0 r0_155),
       kRow16 (View.ld x0 r0_156),
       kRow16 (View.ld x0 r0_157),
       kRow16 (View.ld x0 r0_158),
       kRow16 (View.ld x0 r0_159),
       kRow16 (View.ld x0 r0_160),
       kRow16 (View.ld x0 r0_176),
       kRow16 (View.ld x0 r0_177),
       kRow16 (View.ld x0 r0_178),
       kRow16 (View.ld x0 r0_179),
       kRow16 (View.ld x0 r0_180)],
    kMaxOf (kRow16 (View.ld x0 r0_108))
      [kRow16 (View.ld x0 r0_109),
       kRow16 (View.ld x0 r0_110),
       kRow16 (View.ld x0 r0_111),
       kRow16 (View.ld x0 r0_112),
       kRow16 (View.ld x0 r0_161),
       kRow16 (View.ld x0 r0_162),
       kRow16 (View.ld x0 r0_163),
       kRow16 (View.ld x0 r0_164),
       kRow16 (View.ld x0 r0_165),
       kRow16 (View.ld x0 r0_181),
       kRow16 (View.ld x0 r0_182),
       kRow16 (View.ld x0 r0_183),
       kRow16 (View.ld x0 r0_184),
       kRow16 (View.ld x0 r0_185),
       kRow16 (View.ld x0 r0_186)],
    kMaxOf (kRow16 (View.ld x0 r0_124))
      [kRow16 (View.ld x0 r0_125),
       kRow16 (View.ld x0 r0_126),
       kRow16 (View.ld x0 r0_127),
       kRow16 (View.ld x0 r0_128),
       kRow16 (View.ld x0 r0_166),
       kRow16 (View.ld x0 r0_167),
       kRow16 (View.ld x0 r0_168),
       kRow16 (View.ld x0 r0_169),
       kRow16 (View.ld x0 r0_170),
       kRow16 (View.ld x0 r0_187),
       kRow16 (View.ld x0 r0_188),
       kRow16 (View.ld x0 r0_189),
       kRow16 (View.ld x0 r0_190),
       kRow16 (View.ld x0 r0_191),
       kRow16 (View.ld x0 r0_192)],
    kMaxOf (kRow16 (View.ld x0 r0_140))
      [kRow16 (View.ld x0 r0_141),
       kRow16 (View.ld x0 r0_142),
       kRow16 (View.ld x0 r0_143),
       kRow16 (View.ld x0 r0_144),
       kRow16 (View.ld x0 r0_171),
       kRow16 (View.ld x0 r0_172),
       kRow16 (View.ld x0 r0_173),
       kRow16 (View.ld x0 r0_174),
       kRow16 (View.ld x0 r0_175),
       kRow16 (View.ld x0 r0_193),
       kRow16 (View.ld x0 r0_194),
       kRow16 (View.ld x0 r0_195),
       kRow16 (View.ld x0 r0_196),
       kRow16 (View.ld x0 r0_197),
       kRow16 (View.ld x0 r0_198)],
    kMaxOf (kRow16 (View.ld x0 r0_156))
      [kRow16 (View.ld x0 r0_157),
       kRow16 (View.ld x0 r0_158),
       kRow16 (View.ld x0 r0_159),
       kRow16 (View.ld x0 r0_160),
       kRow16 (View.ld x0 r0_176),
       kRow16 (View.ld x0 r0_177),
       kRow16 (View.ld x0 r0_178),
       kRow16 (View.ld x0 r0_179),
       kRow16 (View.ld x0 r0_180),
       kRow16 (View.ld x0 r0_199),
       kRow16 (View.ld x0 r0_200),
       kRow16 (View.ld x0 r0_201),
       kRow16 (View.ld x0 r0_202),
       kRow16 (View.ld x0 r0_203),
       kRow16 (View.ld x0 r0_204)],
    kMaxOf (kRow16 (View.ld x0 r0_161))
      [kRow16 (View.ld x0 r0_162),
       kRow16 (View.ld x0 r0_163),
       kRow16 (View.ld x0 r0_164),
       kRow16 (View.ld x0 r0_165),
       kRow16 (View.ld x0 r0_181),
       kRow16 (View.ld x0 r0_182),
       kRow16 (View.ld x0 r0_183),
       kRow16 (View.ld x0 r0_184),
       kRow16 (View.ld x0 r0_185),
       kRow16 (View.ld x0 r0_186),
       kRow16 (View.ld x0 r0_205),
       kRow16 (View.ld x0 r0_206),
       kRow16 (View.ld x0 r0_207),
       kRow16 (View.ld x0 r0_208),
       kRow16 (View.ld x0 r0_209)],
    kMaxOf (kRow16 (View.ld x0 r0_166))
      [kRow16 (View.ld x0 r0_167),
       kRow16 (View.ld x0 r0_168),
       kRow16 (View.ld x0 r0_169),
       kRow16 (View.ld x0 r0_170),
       kRow16 (View.ld x0 r0_187),
       kRow16 (View.ld x0 r0_188),
       kRow16 (View.ld x0 r0_189),
       kRow16 (View.ld x0 r0_190),
       kRow16 (View.ld x0 r0_191),
       kRow16 (View.ld x0 r0_192),
       kRow16 (View.ld x0 r0_210),
       kRow16 (View.ld x0 r0_211),
       kRow16 (View.ld x0 r0_212),
       kRow16 (View.ld x0 r0_213),
       kRow16 (View.ld x0 r0_214)],
    kMaxOf (kRow16 (View.ld x0 r0_171))
      [kRow16 (View.ld x0 r0_172),
       kRow16 (View.ld x0 r0_173),
       kRow16 (View.ld x0 r0_174),
       kRow16 (View.ld x0 r0_175),
       kRow16 (View.ld x0 r0_193),
       kRow16 (View.ld x0 r0_194),
       kRow16 (View.ld x0 r0_195),
       kRow16 (View.ld x0 r0_196),
       kRow16 (View.ld x0 r0_197),
       kRow16 (View.ld x0 r0_198),
       kRow16 (View.ld x0 r0_215),
       kRow16 (View.ld x0 r0_216),
       kRow16 (View.ld x0 r0_217),
       kRow16 (View.ld x0 r0_218),
       kRow16 (View.ld x0 r0_219)],
    kMaxOf (kRow16 (View.ld x0 r0_176))
      [kRow16 (View.ld x0 r0_177),
       kRow16 (View.ld x0 r0_178),
       kRow16 (View.ld x0 r0_179),
       kRow16 (View.ld x0 r0_180),
       kRow16 (View.ld x0 r0_199),
       kRow16 (View.ld x0 r0_200),
       kRow16 (View.ld x0 r0_201),
       kRow16 (View.ld x0 r0_202),
       kRow16 (View.ld x0 r0_203),
       kRow16 (View.ld x0 r0_204),
       kRow16 (View.ld x0 r0_220),
       kRow16 (View.ld x0 r0_221),
       kRow16 (View.ld x0 r0_222),
       kRow16 (View.ld x0 r0_223),
       kRow16 (View.ld x0 r0_224)] ]

/-- The running sum after the listed maxima, from the running sum a. -/
def kAccum : List (FVec F S2x2048 .f32) → FVec F S2x2048 .f32 → FVec F S2x2048 .f32
  | [], a => a
  | v :: vs, a => kAccum vs (addf a (kNormed v))

/-- What the body stores: the normalized sum with a trailing unit axis. -/
def kBody (x0 : Vec F S2x2048x1024 .f32) : FVec F S2x2048x1 .f32 :=
  shapeCast S2x2048x1 (kNormed (kAccum (kMaxes x0) kZeros)) shapeCasts_S2x2048_S2x2048x1

end Cert.KernelIdeal.KerValue

end
-- ==== Proof.KerBody.lean ====
/-
  The body's output buffer after one grid point, as the generated frame states it, is the structured term: with the body's
  108 named values unfolded and substituted, the one store's value is kBody of the input block, region by region, row by row.
-/
import proofs.«131176_j28467043238140_1_alg».proof.Proof.KerStep

set_option maxRecDepth 16384

noncomputable section

namespace Cert.KernelIdeal.KerValue

open Cert.KernelIdeal Cert.KernelIdeal.Gen Idealize.ShloMosaic Idealize.SL.Sem

variable {F : FTy → Type} [FloatOps F]

set_option maxHeartbeats 40000000 in
/-- The one piece the body stores, over the whole output block, is kBody of the input block. -/
theorem out0_1_eq (x0 : Vec F S2x2048x1024 .f32) : out0_1 x0 = View.canon [⟨r0_225, kBody x0⟩] := by
  unfold out0_1 kBody kMaxes
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108,
    kAccum, kMaxOf, kNormed, kZeros, kRow1024, kRow21, kRow16, List.foldl_cons, List.foldl_nil]

end Cert.KernelIdeal.KerValue

end
-- ==== Proof.KerIndex.lean ====
/-
  The kernel's pure functions read at an index, over the extended reals. A load through a stretch of the flattened plane
  reads the block at (offset + position); a stretch's maximum is bounded by z exactly when each of its entries is, and so is
  the maximum of several rows' maxima, row by row; kNormed v at batch row r and channel c is v(r, c) over (the square root of
  the sum over the channels of v(r, ·)², plus ε).
-/
import proofs.«131176_j28467043238140_1_alg».proof.Proof.KerStep
import Idealize.ShloMosaic.Lib.ValueIdx
import Idealize.ShloMosaic.Lib.Pipeline.Value
import Idealize.ShloMosaic.PureOps.Ideal.Laws

set_option maxRecDepth 16384

noncomputable section

namespace Cert.KernelIdeal.KerValue

open Cert.KernelIdeal Cert.KernelIdeal.Gen Idealize.ShloMosaic Idealize.SL.Sem

open Idealize.ShloMosaic.ValueIdx

/-- The word the maxima start from is minus infinity, the bottom of the extended reals. -/
theorem negInf : Ideal.ofBits .f32 0xFF800000#32 = ⊥ := by simp [Ideal.ofBits, Ideal.ieee]

/-- The block at batch row r, channel c and position p of the flattened plane: bottom outside the plane (never read there). -/
def flatAt (x0 : Vec Ideal S2x2048x1024 .f32) (r : Fin 2) (c : Fin 2048) (p : ℕ) : EReal :=
  if h : p < 1024 then x0 (ix3 r c ⟨p, h⟩) else ⊥

/-- A load through a stretch of 21 entries of the flattened plane starting at off reads the block there. -/
theorem ld21_apply (x0 : Vec Ideal S2x2048x1024 .f32) (off : ℕ)
    (inb : ∀ a, (![0, 0, off] : Fin 3 → ℕ) a + S2x2048x21.size a ≤ S2x2048x1024.size a)
    (r : Fin 2) (c : Fin 2048) (j : Fin 21) (h : off + j.val < 1024) :
    View.ld x0 (Rect.unit (s := S2x2048x1024) ![0, 0, off] S2x2048x21.size inb) (ix3 r c j) = x0 (ix3 r c ⟨off + j.val, h⟩) := by
  show x0 ((Rect.unit (s := S2x2048x1024) ![0, 0, off] S2x2048x21.size inb).emb (ix3 r c j)) = _
  refine congrArg x0 (funext fun a => Fin.ext ?_)
  rw [Rect.emb_apply]
  match a with
  | ⟨0, _⟩ => show 0 + 1 * r.val = r.val; omega
  | ⟨1, _⟩ => show 0 + 1 * c.val = c.val; omega
  | ⟨2, _⟩ => show off + 1 * j.val = off + j.val; omega

/-- The lane index put back beside (r, c). -/
theorem lift21 (r : Fin 2) (c : Fin 2048) (j : Fin 21) : reduces_S2x2048x21_S2x2048.lift (ix2 r c) j = ix3 r c j := by
  funext a; apply Fin.ext
  match a with
  | ⟨0, _⟩ => rfl
  | ⟨1, _⟩ => rfl
  | ⟨2, _⟩ => rfl

/-- The maximum of a stretch of 21 is bounded by z exactly when each of its entries is. -/
theorem kRow21_le_iff (l : FVec Ideal S2x2048x21 .f32) (r : Fin 2) (c : Fin 2048) (z : EReal) :
    kRow21 (F := Ideal) l (ix2 r c) ≤ z ↔ ∀ j : Fin 21, l (ix3 r c j) ≤ z := by
  have e : kRow21 (F := Ideal) l (ix2 r c)
      = (Finset.univ : Finset (Fin (S2x2048x21.size 2))).fold max (FloatOps.ofBits (F := Ideal) .f32 0xFF800000#32) (l ∘ reduces_S2x2048x21_S2x2048.lift (ix2 r c)) := by
    unfold kRow21
    rw [shapeCast_self]
    exact Ideal.multiReduction_maximumf_single (φ := .f32) (s := S2x2048x21) (t := S2x2048) (a := 2) l 0xFF800000#32 reduces_S2x2048x21_S2x2048 (.inl rfl) rfl (ix2 r c)
  rw [e, Finset.fold_max_le]
  constructor
  · rintro ⟨_, H⟩ j
    have e : l (ix3 r c j) = (l ∘ reduces_S2x2048x21_S2x2048.lift (ix2 r c)) j := congrArg l (lift21 r c j).symm
    exact e.le.trans (H j (Finset.mem_univ _))
  · intro H
    refine ⟨by rw [Ideal.ofBits_def, negInf]; exact bot_le, fun j _ => ?_⟩
    have e : (l ∘ reduces_S2x2048x21_S2x2048.lift (ix2 r c)) j = l (ix3 r c j) := congrArg l (lift21 r c j)
    exact e.le.trans (H j)

/-- The maximum of the stretch of 21 entries at off, read at (r, c), is bounded by z exactly when the block's entries
    there are. -/
theorem row21_at (x0 : Vec Ideal S2x2048x1024 .f32) (off : ℕ)
    (inb : ∀ a, (![0, 0, off] : Fin 3 → ℕ) a + S2x2048x21.size a ≤ S2x2048x1024.size a) (r : Fin 2) (c : Fin 2048) (z : EReal) :
    kRow21 (F := Ideal) (View.ld x0 (Rect.unit (s := S2x2048x1024) ![0, 0, off] S2x2048x21.size inb)) (ix2 r c) ≤ z
      ↔ ∀ j : Fin 21, flatAt x0 r c (off + j.val) ≤ z := by
  have hb : off + 21 ≤ 1024 := inb (2 : Fin 3)
  rw [kRow21_le_iff]
  refine forall_congr' fun j => ?_
  have hj : off + j.val < 1024 := by have := j.isLt; omega
  rw [ld21_apply x0 off inb r c j hj, flatAt, dif_pos hj]

/-- A load through a stretch of 16 entries of the flattened plane starting at off reads the block there. -/
theorem ld16_apply (x0 : Vec Ideal S2x2048x1024 .f32) (off : ℕ)
    (inb : ∀ a, (![0, 0, off] : Fin 3 → ℕ) a + S2x2048x16.size a ≤ S2x2048x1024.size a)
    (r : Fin 2) (c : Fin 2048) (j : Fin 16) (h : off + j.val < 1024) :
    View.ld x0 (Rect.unit (s := S2x2048x1024) ![0, 0, off] S2x2048x16.size inb) (ix3 r c j) = x0 (ix3 r c ⟨off + j.val, h⟩) := by
  show x0 ((Rect.unit (s := S2x2048x1024) ![0, 0, off] S2x2048x16.size inb).emb (ix3 r c j)) = _
  refine congrArg x0 (funext fun a => Fin.ext ?_)
  rw [Rect.emb_apply]
  match a with
  | ⟨0, _⟩ => show 0 + 1 * r.val = r.val; omega
  | ⟨1, _⟩ => show 0 + 1 * c.val = c.val; omega
  | ⟨2, _⟩ => show off + 1 * j.val = off + j.val; omega

/-- The lane index put back beside (r, c). -/
theorem lift16 (r : Fin 2) (c : Fin 2048) (j : Fin 16) : reduces_S2x2048x16_S2x2048.lift (ix2 r c) j = ix3 r c j := by
  funext a; apply Fin.ext
  match a with
  | ⟨0, _⟩ => rfl
  | ⟨1, _⟩ => rfl
  | ⟨2, _⟩ => rfl

/-- The maximum of a stretch of 16 is bounded by z exactly when each of its entries is. -/
theorem kRow16_le_iff (l : FVec Ideal S2x2048x16 .f32) (r : Fin 2) (c : Fin 2048) (z : EReal) :
    kRow16 (F := Ideal) l (ix2 r c) ≤ z ↔ ∀ j : Fin 16, l (ix3 r c j) ≤ z := by
  have e : kRow16 (F := Ideal) l (ix2 r c)
      = (Finset.univ : Finset (Fin (S2x2048x16.size 2))).fold max (FloatOps.ofBits (F := Ideal) .f32 0xFF800000#32) (l ∘ reduces_S2x2048x16_S2x2048.lift (ix2 r c)) := by
    unfold kRow16
    rw [shapeCast_self]
    exact Ideal.multiReduction_maximumf_single (φ := .f32) (s := S2x2048x16) (t := S2x2048) (a := 2) l 0xFF800000#32 reduces_S2x2048x16_S2x2048 (.inl rfl) rfl (ix2 r c)
  rw [e, Finset.fold_max_le]
  constructor
  · rintro ⟨_, H⟩ j
    have e : l (ix3 r c j) = (l ∘ reduces_S2x2048x16_S2x2048.lift (ix2 r c)) j := congrArg l (lift16 r c j).symm
    exact e.le.trans (H j (Finset.mem_univ _))
  · intro H
    refine ⟨by rw [Ideal.ofBits_def, negInf]; exact bot_le, fun j _ => ?_⟩
    have e : (l ∘ reduces_S2x2048x16_S2x2048.lift (ix2 r c)) j = l (ix3 r c j) := congrArg l (lift16 r c j)
    exact e.le.trans (H j)

/-- The maximum of the stretch of 16 entries at off, read at (r, c), is bounded by z exactly when the block's entries
    there are. -/
theorem row16_at (x0 : Vec Ideal S2x2048x1024 .f32) (off : ℕ)
    (inb : ∀ a, (![0, 0, off] : Fin 3 → ℕ) a + S2x2048x16.size a ≤ S2x2048x1024.size a) (r : Fin 2) (c : Fin 2048) (z : EReal) :
    kRow16 (F := Ideal) (View.ld x0 (Rect.unit (s := S2x2048x1024) ![0, 0, off] S2x2048x16.size inb)) (ix2 r c) ≤ z
      ↔ ∀ j : Fin 16, flatAt x0 r c (off + j.val) ≤ z := by
  have hb : off + 16 ≤ 1024 := inb (2 : Fin 3)
  rw [kRow16_le_iff]
  refine forall_congr' fun j => ?_
  have hj : off + j.val < 1024 := by have := j.isLt; omega
  rw [ld16_apply x0 off inb r c j hj, flatAt, dif_pos hj]

/-- A load through a stretch of 1024 entries of the flattened plane starting at off reads the block there. -/
theorem ld1024_apply (x0 : Vec Ideal S2x2048x1024 .f32) (off : ℕ)
    (inb : ∀ a, (![0, 0, off] : Fin 3 → ℕ) a + S2x2048x1024.size a ≤ S2x2048x1024.size a)
    (r : Fin 2) (c : Fin 2048) (j : Fin 1024) (h : off + j.val < 1024) :
    View.ld x0 (Rect.unit (s := S2x2048x1024) ![0, 0, off] S2x2048x1024.size inb) (ix3 r c j) = x0 (ix3 r c ⟨off + j.val, h⟩) := by
  show x0 ((Rect.unit (s := S2x2048x1024) ![0, 0, off] S2x2048x1024.size inb).emb (ix3 r c j)) = _
  refine congrArg x0 (funext fun a => Fin.ext ?_)
  rw [Rect.emb_apply]
  match a with
  | ⟨0, _⟩ => show 0 + 1 * r.val = r.val; omega
  | ⟨1, _⟩ => show 0 + 1 * c.val = c.val; omega
  | ⟨2, _⟩ => show off + 1 * j.val = off + j.val; omega

/-- The lane index put back beside (r, c). -/
theorem lift1024 (r : Fin 2) (c : Fin 2048) (j : Fin 1024) : reduces_S2x2048x1024_S2x2048.lift (ix2 r c) j = ix3 r c j := by
  funext a; apply Fin.ext
  match a with
  | ⟨0, _⟩ => rfl
  | ⟨1, _⟩ => rfl
  | ⟨2, _⟩ => rfl

/-- The maximum of a stretch of 1024 is bounded by z exactly when each of its entries is. -/
theorem kRow1024_le_iff (l : FVec Ideal S2x2048x1024 .f32) (r : Fin 2) (c : Fin 2048) (z : EReal) :
    kRow1024 (F := Ideal) l (ix2 r c) ≤ z ↔ ∀ j : Fin 1024, l (ix3 r c j) ≤ z := by
  have e : kRow1024 (F := Ideal) l (ix2 r c)
      = (Finset.univ : Finset (Fin (S2x2048x1024.size 2))).fold max (FloatOps.ofBits (F := Ideal) .f32 0xFF800000#32) (l ∘ reduces_S2x2048x1024_S2x2048.lift (ix2 r c)) := by
    unfold kRow1024
    rw [shapeCast_self]
    exact Ideal.multiReduction_maximumf_single (φ := .f32) (s := S2x2048x1024) (t := S2x2048) (a := 2) l 0xFF800000#32 reduces_S2x2048x1024_S2x2048 (.inl rfl) rfl (ix2 r c)
  rw [e, Finset.fold_max_le]
  constructor
  · rintro ⟨_, H⟩ j
    have e : l (ix3 r c j) = (l ∘ reduces_S2x2048x1024_S2x2048.lift (ix2 r c)) j := congrArg l (lift1024 r c j).symm
    exact e.le.trans (H j (Finset.mem_univ _))
  · intro H
    refine ⟨by rw [Ideal.ofBits_def, negInf]; exact bot_le, fun j _ => ?_⟩
    have e : (l ∘ reduces_S2x2048x1024_S2x2048.lift (ix2 r c)) j = l (ix3 r c j) := congrArg l (lift1024 r c j)
    exact e.le.trans (H j)

/-- The maximum of the stretch of 1024 entries at off, read at (r, c), is bounded by z exactly when the block's entries
    there are. -/
theorem row1024_at (x0 : Vec Ideal S2x2048x1024 .f32) (off : ℕ)
    (inb : ∀ a, (![0, 0, off] : Fin 3 → ℕ) a + S2x2048x1024.size a ≤ S2x2048x1024.size a) (r : Fin 2) (c : Fin 2048) (z : EReal) :
    kRow1024 (F := Ideal) (View.ld x0 (Rect.unit (s := S2x2048x1024) ![0, 0, off] S2x2048x1024.size inb)) (ix2 r c) ≤ z
      ↔ ∀ j : Fin 1024, flatAt x0 r c (off + j.val) ≤ z := by
  have hb : off + 1024 ≤ 1024 := inb (2 : Fin 3)
  rw [kRow1024_le_iff]
  refine forall_congr' fun j => ?_
  have hj : off + j.val < 1024 := by have := j.isLt; omega
  rw [ld1024_apply x0 off inb r c j hj, flatAt, dif_pos hj]

/-- The rows' maxima combined are bounded by z exactly when the first and each of the others is. -/
theorem kMaxOf_le_iff (i : S2x2048.Idx) (z : EReal) :
    ∀ (ms : List (FVec Ideal S2x2048 .f32)) (m : FVec Ideal S2x2048 .f32),
      kMaxOf (F := Ideal) m ms i ≤ z ↔ m i ≤ z ∧ ∀ m' ∈ ms, m' i ≤ z
  | [], m => by
    show m i ≤ z ↔ _
    exact ⟨fun h => ⟨h, fun _ hm => absurd hm (List.not_mem_nil)⟩, fun h => h.1⟩
  | a :: ms, m => by
    show kMaxOf (F := Ideal) (maximumf m a) ms i ≤ z ↔ _
    rw [kMaxOf_le_iff i z ms (maximumf m a)]
    show max (m i) (a i) ≤ z ∧ _ ↔ _
    rw [max_le_iff, List.forall_mem_cons, and_assoc]

/-- The same for rows given as a family indexed from 0: the first row, then the list of the others. -/
theorem kMaxOf_fam_le_iff {n : ℕ} (f : Fin (n + 1) → FVec Ideal S2x2048 .f32) (i : S2x2048.Idx) (z : EReal) :
    kMaxOf (F := Ideal) (f 0) (List.ofFn fun k : Fin n => f k.succ) i ≤ z ↔ ∀ k, f k i ≤ z := by
  rw [kMaxOf_le_iff, List.forall_mem_ofFn_iff]
  exact ⟨fun h k => Fin.cases h.1 h.2 k, fun h => ⟨h 0, fun k => h k.succ⟩⟩

/-- The batch row put back beside the channel. -/
theorem liftRow (r : Fin 2) (k : Fin 2048) : reduces_S2x2048_S2.lift (ix1 r) k = ix2 r k := by
  funext a; apply Fin.ext
  match a with
  | ⟨0, _⟩ => rfl
  | ⟨1, _⟩ => rfl

/-- kNormed v at batch row r and channel c: v(r, c) over (the norm of row r plus ε). -/
theorem kNormed_apply (v : FVec Ideal S2x2048 .f32) (r : Fin 2) (c : Fin 2048) :
    kNormed (F := Ideal) v (ix2 r c)
      = Ideal.div (v (ix2 r c)) (Ideal.sqrt (∑ k : Fin 2048, v (ix2 r k) * v (ix2 r k)) + Ideal.ofBits .f32 0x358637BD#32) := by
  unfold kNormed
  refine congrArg (Ideal.div (v (ix2 r c))) ?_
  refine (broadcastTo_apply _ broadcasts_S2x1_S2x2048 (ix2 r c) (ix2 r ⟨0, Nat.one_pos⟩) (fun a => match a with
    | ⟨0, _⟩ => by show r.val = if (2 : Nat) = 1 then 0 else r.val; rw [if_neg (by decide)]
    | ⟨1, _⟩ => by show (0 : Nat) = if (1 : Nat) = 1 then 0 else c.val; rw [if_pos rfl])).trans ?_
  refine congrArg (fun u => Ideal.sqrt u + Ideal.ofBits .f32 0x358637BD#32) ?_
  refine (shapeCast_apply _ shapeCasts_S2_S2x1 (ix2 r ⟨0, Nat.one_pos⟩) (ix1 r) (by
    rw [Shape.rowMajor_val_one, Shape.rowMajor_val_two]; show r.val = r.val * 1 + 0; omega)).trans ?_
  refine (Ideal.multiReduction_add_single (mulf v v) 0x00000000#32 reduces_S2x2048_S2 (.inl rfl) rfl (ix1 r)).trans ?_
  refine Finset.sum_congr rfl fun k _ => ?_
  exact congrArg (fun i => v i * v i) (liftRow r k)

/-- The zero block at any index. -/
theorem kZeros_apply (i : S2x2048.Idx) : kZeros (F := Ideal) i = Ideal.ofBits .f32 0x00000000#32 := rfl

end Cert.KernelIdeal.KerValue

end
-- ==== Proof.KerRegionBase.lean ====
/-
  The kernel's regional maxima are the specification's. The hypothesis: batch row r of the block is row b of the input X, the
  flattened position 32 h + w being row h, column w of the plane. A region of side n with corner (sh, sw) is then the stretches
  of n positions starting at 32 (sh + k) + sw for k below n, so the maximum over its rows' stretches has the bounds of the
  specification's maximum over the rectangle; a region as wide as the plane is one stretch of all 1024 positions.
-/
import proofs.«131176_j28467043238140_1_alg».proof.Proof.KerIndex
import proofs.«131176_j28467043238140_1_alg».proof.Proof.Spec

set_option maxRecDepth 16384

noncomputable section

namespace Cert.KernelIdeal.KerValue

open Cert.KernelIdeal Cert.KernelIdeal.Gen Idealize.ShloMosaic Idealize.SL.Sem

open Idealize.ShloMosaic.ValueIdx

/-- Batch row r of the block is row b of the input, position 32 h + w of the flattened plane being (h, w). -/
def BlockOf (x0 : Vec Ideal S2x2048x1024 .f32) (r : Fin 2) (X : Cert.Spec.Input) (b : Fin 32) : Prop :=
  ∀ (c : Fin 2048) (h w : Fin 32), flatAt x0 r c (32 * h.val + w.val) = X b c h w

/-- The stretches of n positions at 32 (sh + k) + sw, k below n, are the rectangle of side n at corner (sh, sw). -/
theorem rows_iff_rect {x0 : Vec Ideal S2x2048x1024 .f32} {r : Fin 2} {X : Cert.Spec.Input} {b : Fin 32} (hX : BlockOf x0 r X b)
    (c : Fin 2048) (sh sw n : ℕ) (hh : sh + n ≤ 32) (hw : sw + n ≤ 32) (z : EReal) :
    (∀ k : Fin n, ∀ j : Fin n, flatAt x0 r c (32 * (sh + k.val) + sw + j.val) ≤ z)
      ↔ ∀ h w : Fin n, Cert.Spec.at4 X b c (sh + h.val) (sw + w.val) ≤ z := by
  refine forall_congr' fun k => forall_congr' fun j => ?_
  have hk := k.isLt
  have hj := j.isLt
  have e : flatAt x0 r c (32 * (sh + k.val) + sw + j.val) = Cert.Spec.at4 X b c (sh + k.val) (sw + j.val) := by
    unfold Cert.Spec.at4
    rw [dif_pos (by omega), dif_pos (by omega), ← hX c ⟨sh + k.val, by omega⟩ ⟨sw + j.val, by omega⟩]
    exact congrArg (flatAt x0 r c) (by show 32 * (sh + k.val) + sw + j.val = 32 * (sh + k.val) + (sw + j.val); omega)
  rw [e]

/-- All 1024 positions are the whole plane. -/
theorem flat_iff_plane {x0 : Vec Ideal S2x2048x1024 .f32} {r : Fin 2} {X : Cert.Spec.Input} {b : Fin 32} (hX : BlockOf x0 r X b)
    (c : Fin 2048) (z : EReal) :
    (∀ j : Fin 1024, flatAt x0 r c (0 + j.val) ≤ z) ↔ ∀ h w : Fin 32, Cert.Spec.at4 X b c (0 + h.val) (0 + w.val) ≤ z := by
  constructor
  · intro H h w
    have hh := h.isLt
    have hw := w.isLt
    have e : Cert.Spec.at4 X b c (0 + h.val) (0 + w.val) = flatAt x0 r c (0 + (32 * h.val + w.val)) := by
      unfold Cert.Spec.at4
      rw [dif_pos (by omega), dif_pos (by omega)]
      refine (congrArg₂ (X b c) (Fin.ext (Nat.zero_add _)) (Fin.ext (Nat.zero_add _))).trans ?_
      exact (hX c h w).symm.trans (congrArg (flatAt x0 r c) (Nat.zero_add _).symm)
    rw [e]
    exact H ⟨32 * h.val + w.val, by omega⟩
  · intro H j
    have hj := j.isLt
    have e : flatAt x0 r c (0 + j.val) = Cert.Spec.at4 X b c (0 + j.val / 32) (0 + j.val % 32) := by
      unfold Cert.Spec.at4
      rw [dif_pos (by omega), dif_pos (by omega), ← hX c ⟨0 + j.val / 32, by omega⟩ ⟨0 + j.val % 32, by omega⟩]
      exact congrArg (flatAt x0 r c) (by show 0 + j.val = 32 * (0 + j.val / 32) + (0 + j.val % 32); omega)
    rw [e]
    exact H ⟨j.val / 32, by omega⟩ ⟨j.val % 32, Nat.mod_lt _ (by decide)⟩

/-- With no further rows the combined maximum is the first row's. -/
theorem kMaxOf_nil (m : FVec Ideal S2x2048 .f32) : kMaxOf (F := Ideal) m [] = m := rfl

/-- A bound of every member of the empty list holds. -/
theorem forall_nil {α : Type} (p : α → Prop) : (∀ a ∈ ([] : List α), p a) ↔ True :=
  ⟨fun _ => trivial, fun _ _ h => absurd h List.not_mem_nil⟩

end Cert.KernelIdeal.KerValue

end
-- ==== Proof.KerRegionsA.lean ====
/-
  The kernel's regional maxima, regions 1 to 13: each is the specification's maximum over its rectangle, row by row — the bound of the
  combined maximum is the bound of each row's stretch, and row k of a region of corner (sh, sw) is the stretch at 32 (sh + k) + sw.
-/
import proofs.«131176_j28467043238140_1_alg».proof.Proof.KerRegionBase

set_option maxRecDepth 16384

noncomputable section

namespace Cert.KernelIdeal.KerValue

open Cert.KernelIdeal Cert.KernelIdeal.Gen Idealize.ShloMosaic Idealize.SL.Sem

open Idealize.ShloMosaic.ValueIdx

/-- Region 1: the whole plane. -/
theorem kmax1 (x0 : Vec Ideal S2x2048x1024 .f32) (r : Fin 2) (X : Cert.Spec.Input) (b : Fin 32) (hX : BlockOf x0 r X b) (c : Fin 2048) :
    kMaxOf (F := Ideal) (kRow1024 (View.ld x0 r0_0)) [] (ix2 r c) = Cert.Spec.rectMax X 0 0 32 b c := by
  refine Cert.Spec.eq_of_bounds fun z => ?_
  rw [Cert.Spec.rectMax_le_iff, ← flat_iff_plane hX c z, kMaxOf_nil]
  exact row1024_at x0 0 _ r c z

/-- Region 5: side 21, corner (0, 0); row k of the region is the stretch at 32·(0 + k) + 0. -/
theorem kmax5 (x0 : Vec Ideal S2x2048x1024 .f32) (r : Fin 2) (X : Cert.Spec.Input) (b : Fin 32) (hX : BlockOf x0 r X b) (c : Fin 2048) :
    kMaxOf (F := Ideal) (kRow21 (View.ld x0 r0_1))
      [kRow21 (View.ld x0 r0_2),
       kRow21 (View.ld x0 r0_3),
       kRow21 (View.ld x0 r0_4),
       kRow21 (View.ld x0 r0_5),
       kRow21 (View.ld x0 r0_6),
       kRow21 (View.ld x0 r0_7),
       kRow21 (View.ld x0 r0_8),
       kRow21 (View.ld x0 r0_9),
       kRow21 (View.ld x0 r0_10),
       kRow21 (View.ld x0 r0_11),
       kRow21 (View.ld x0 r0_12),
       kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21)] (ix2 r c)
      = Cert.Spec.rectMax X 0 0 21 b c := by
  refine Cert.Spec.eq_of_bounds fun z => ?_
  rw [Cert.Spec.rectMax_le_iff, ← rows_iff_rect hX c 0 0 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 6: side 21, corner (0, 6); row k of the region is the stretch at 32·(0 + k) + 6. -/
theorem kmax6 (x0 : Vec Ideal S2x2048x1024 .f32) (r : Fin 2) (X : Cert.Spec.Input) (b : Fin 32) (hX : BlockOf x0 r X b) (c : Fin 2048) :
    kMaxOf (F := Ideal) (kRow21 (View.ld x0 r0_22))
      [kRow21 (View.ld x0 r0_23),
       kRow21 (View.ld x0 r0_24),
       kRow21 (View.ld x0 r0_25),
       kRow21 (View.ld x0 r0_26),
       kRow21 (View.ld x0 r0_27),
       kRow21 (View.ld x0 r0_28),
       kRow21 (View.ld x0 r0_29),
       kRow21 (View.ld x0 r0_30),
       kRow21 (View.ld x0 r0_31),
       kRow21 (View.ld x0 r0_32),
       kRow21 (View.ld x0 r0_33),
       kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42)] (ix2 r c)
      = Cert.Spec.rectMax X 0 6 21 b c := by
  refine Cert.Spec.eq_of_bounds fun z => ?_
  rw [Cert.Spec.rectMax_le_iff, ← rows_iff_rect hX c 0 6 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 7: side 21, corner (0, 11); row k of the region is the stretch at 32·(0 + k) + 11. -/
theorem kmax7 (x0 : Vec Ideal S2x2048x1024 .f32) (r : Fin 2) (X : Cert.Spec.Input) (b : Fin 32) (hX : BlockOf x0 r X b) (c : Fin 2048) :
    kMaxOf (F := Ideal) (kRow21 (View.ld x0 r0_43))
      [kRow21 (View.ld x0 r0_44),
       kRow21 (View.ld x0 r0_45),
       kRow21 (View.ld x0 r0_46),
       kRow21 (View.ld x0 r0_47),
       kRow21 (View.ld x0 r0_48),
       kRow21 (View.ld x0 r0_49),
       kRow21 (View.ld x0 r0_50),
       kRow21 (View.ld x0 r0_51),
       kRow21 (View.ld x0 r0_52),
       kRow21 (View.ld x0 r0_53),
       kRow21 (View.ld x0 r0_54),
       kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63)] (ix2 r c)
      = Cert.Spec.rectMax X 0 11 21 b c := by
  refine Cert.Spec.eq_of_bounds fun z => ?_
  rw [Cert.Spec.rectMax_le_iff, ← rows_iff_rect hX c 0 11 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 8: side 21, corner (6, 0); row k of the region is the stretch at 32·(6 + k) + 0. -/
theorem kmax8 (x0 : Vec Ideal S2x2048x1024 .f32) (r : Fin 2) (X : Cert.Spec.Input) (b : Fin 32) (hX : BlockOf x0 r X b) (c : Fin 2048) :
    kMaxOf (F := Ideal) (kRow21 (View.ld x0 r0_7))
      [kRow21 (View.ld x0 r0_8),
       kRow21 (View.ld x0 r0_9),
       kRow21 (View.ld x0 r0_10),
       kRow21 (View.ld x0 r0_11),
       kRow21 (View.ld x0 r0_12),
       kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21),
       kRow21 (View.ld x0 r0_64),
       kRow21 (View.ld x0 r0_65),
       kRow21 (View.ld x0 r0_66),
       kRow21 (View.ld x0 r0_67),
       kRow21 (View.ld x0 r0_68),
       kRow21 (View.ld x0 r0_69)] (ix2 r c)
      = Cert.Spec.rectMax X 6 0 21 b c := by
  refine Cert.Spec.eq_of_bounds fun z => ?_
  rw [Cert.Spec.rectMax_le_iff, ← rows_iff_rect hX c 6 0 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 9: side 21, corner (6, 6); row k of the region is the stretch at 32·(6 + k) + 6. -/
theorem kmax9 (x0 : Vec Ideal S2x2048x1024 .f32) (r : Fin 2) (X : Cert.Spec.Input) (b : Fin 32) (hX : BlockOf x0 r X b) (c : Fin 2048) :
    kMaxOf (F := Ideal) (kRow21 (View.ld x0 r0_28))
      [kRow21 (View.ld x0 r0_29),
       kRow21 (View.ld x0 r0_30),
       kRow21 (View.ld x0 r0_31),
       kRow21 (View.ld x0 r0_32),
       kRow21 (View.ld x0 r0_33),
       kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42),
       kRow21 (View.ld x0 r0_70),
       kRow21 (View.ld x0 r0_71),
       kRow21 (View.ld x0 r0_72),
       kRow21 (View.ld x0 r0_73),
       kRow21 (View.ld x0 r0_74),
       kRow21 (View.ld x0 r0_75)] (ix2 r c)
      = Cert.Spec.rectMax X 6 6 21 b c := by
  refine Cert.Spec.eq_of_bounds fun z => ?_
  rw [Cert.Spec.rectMax_le_iff, ← rows_iff_rect hX c 6 6 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 10: side 21, corner (6, 11); row k of the region is the stretch at 32·(6 + k) + 11. -/
theorem kmax10 (x0 : Vec Ideal S2x2048x1024 .f32) (r : Fin 2) (X : Cert.Spec.Input) (b : Fin 32) (hX : BlockOf x0 r X b) (c : Fin 2048) :
    kMaxOf (F := Ideal) (kRow21 (View.ld x0 r0_49))
      [kRow21 (View.ld x0 r0_50),
       kRow21 (View.ld x0 r0_51),
       kRow21 (View.ld x0 r0_52),
       kRow21 (View.ld x0 r0_53),
       kRow21 (View.ld x0 r0_54),
       kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63),
       kRow21 (View.ld x0 r0_76),
       kRow21 (View.ld x0 r0_77),
       kRow21 (View.ld x0 r0_78),
       kRow21 (View.ld x0 r0_79),
       kRow21 (View.ld x0 r0_80),
       kRow21 (View.ld x0 r0_81)] (ix2 r c)
      = Cert.Spec.rectMax X 6 11 21 b c := by
  refine Cert.Spec.eq_of_bounds fun z => ?_
  rw [Cert.Spec.rectMax_le_iff, ← rows_iff_rect hX c 6 11 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 11: side 21, corner (11, 0); row k of the region is the stretch at 32·(11 + k) + 0. -/
theorem kmax11 (x0 : Vec Ideal S2x2048x1024 .f32) (r : Fin 2) (X : Cert.Spec.Input) (b : Fin 32) (hX : BlockOf x0 r X b) (c : Fin 2048) :
    kMaxOf (F := Ideal) (kRow21 (View.ld x0 r0_12))
      [kRow21 (View.ld x0 r0_13),
       kRow21 (View.ld x0 r0_14),
       kRow21 (View.ld x0 r0_15),
       kRow21 (View.ld x0 r0_16),
       kRow21 (View.ld x0 r0_17),
       kRow21 (View.ld x0 r0_18),
       kRow21 (View.ld x0 r0_19),
       kRow21 (View.ld x0 r0_20),
       kRow21 (View.ld x0 r0_21),
       kRow21 (View.ld x0 r0_64),
       kRow21 (View.ld x0 r0_65),
       kRow21 (View.ld x0 r0_66),
       kRow21 (View.ld x0 r0_67),
       kRow21 (View.ld x0 r0_68),
       kRow21 (View.ld x0 r0_69),
       kRow21 (View.ld x0 r0_82),
       kRow21 (View.ld x0 r0_83),
       kRow21 (View.ld x0 r0_84),
       kRow21 (View.ld x0 r0_85),
       kRow21 (View.ld x0 r0_86)] (ix2 r c)
      = Cert.Spec.rectMax X 11 0 21 b c := by
  refine Cert.Spec.eq_of_bounds fun z => ?_
  rw [Cert.Spec.rectMax_le_iff, ← rows_iff_rect hX c 11 0 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 12: side 21, corner (11, 6); row k of the region is the stretch at 32·(11 + k) + 6. -/
theorem kmax12 (x0 : Vec Ideal S2x2048x1024 .f32) (r : Fin 2) (X : Cert.Spec.Input) (b : Fin 32) (hX : BlockOf x0 r X b) (c : Fin 2048) :
    kMaxOf (F := Ideal) (kRow21 (View.ld x0 r0_33))
      [kRow21 (View.ld x0 r0_34),
       kRow21 (View.ld x0 r0_35),
       kRow21 (View.ld x0 r0_36),
       kRow21 (View.ld x0 r0_37),
       kRow21 (View.ld x0 r0_38),
       kRow21 (View.ld x0 r0_39),
       kRow21 (View.ld x0 r0_40),
       kRow21 (View.ld x0 r0_41),
       kRow21 (View.ld x0 r0_42),
       kRow21 (View.ld x0 r0_70),
       kRow21 (View.ld x0 r0_71),
       kRow21 (View.ld x0 r0_72),
       kRow21 (View.ld x0 r0_73),
       kRow21 (View.ld x0 r0_74),
       kRow21 (View.ld x0 r0_75),
       kRow21 (View.ld x0 r0_87),
       kRow21 (View.ld x0 r0_88),
       kRow21 (View.ld x0 r0_89),
       kRow21 (View.ld x0 r0_90),
       kRow21 (View.ld x0 r0_91)] (ix2 r c)
      = Cert.Spec.rectMax X 11 6 21 b c := by
  refine Cert.Spec.eq_of_bounds fun z => ?_
  rw [Cert.Spec.rectMax_le_iff, ← rows_iff_rect hX c 11 6 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

/-- Region 13: side 21, corner (11, 11); row k of the region is the stretch at 32·(11 + k) + 11. -/
theorem kmax13 (x0 : Vec Ideal S2x2048x1024 .f32) (r : Fin 2) (X : Cert.Spec.Input) (b : Fin 32) (hX : BlockOf x0 r X b) (c : Fin 2048) :
    kMaxOf (F := Ideal) (kRow21 (View.ld x0 r0_54))
      [kRow21 (View.ld x0 r0_55),
       kRow21 (View.ld x0 r0_56),
       kRow21 (View.ld x0 r0_57),
       kRow21 (View.ld x0 r0_58),
       kRow21 (View.ld x0 r0_59),
       kRow21 (View.ld x0 r0_60),
       kRow21 (View.ld x0 r0_61),
       kRow21 (View.ld x0 r0_62),
       kRow21 (View.ld x0 r0_63),
       kRow21 (View.ld x0 r0_76),
       kRow21 (View.ld x0 r0_77),
       kRow21 (View.ld x0 r0_78),
       kRow21 (View.ld x0 r0_79),
       kRow21 (View.ld x0 r0_80),
       kRow21 (View.ld x0 r0_81),
       kRow21 (View.ld x0 r0_92),
       kRow21 (View.ld x0 r0_93),
       kRow21 (View.ld x0 r0_94),
       kRow21 (View.ld x0 r0_95),
       kRow21 (View.ld x0 r0_96)] (ix2 r c)
      = Cert.Spec.rectMax X 11 11 21 b c := by
  refine Cert.Spec.eq_of_bounds fun z => ?_
  rw [Cert.Spec.rectMax_le_iff, ← rows_iff_rect hX c 11 11 21 (by omega) (by omega) z, kMaxOf_le_iff]
  simp only [List.forall_mem_cons, forall_nil]
  constructor
  · rintro ⟨h0, h1, h2, h3, h4, h5, h6, h7, h8, h9, h10, h11, h12, h13, h14, h15, h16, h17, h18, h19, h20, -⟩ k
    fin_cases k
    · exact (row21_at x0 _ _ r c z).1 h0
    · exact (row21_at x0 _ _ r c z).1 h1
    · exact (row21_at x0 _ _ r c z).1 h2
    · exact (row21_at x0 _ _ r c z).1 h3
    · exact (row21_at x0 _ _ r c z).1 h4
    · exact (row21_at x0 _ _ r c z).1 h5
    · exact (row21_at x0 _ _ r c z).1 h6
    · exact (row21_at x0 _ _ r c z).1 h7
    · exact (row21_at x0 _ _ r c z).1 h8
    · exact (row21_at x0 _ _ r c z).1 h9
    · exact (row21_at x0 _ _ r c z).1 h10
    · exact (row21_at x0 _ _ r c z).1 h11
    · exact (row21_at x0 _ _ r c z).1 h12
    · exact (row21_at x0 _ _ r c z).1 h13
    · exact (row21_at x0 _ _ r c z).1 h14
    · exact (row21_at x0 _ _ r c z).1 h15
    · exact (row21_at x0 _ _ r c z).1 h16
    · exact (row21_at x0 _ _ r c z).1 h17
    · exact (row21_at x0 _ _ r c z).1 h18
    · exact (row21_at x0 _ _ r c z).1 h19
    · exact (row21_at x0 _ _ r c z).1 h20
  · intro H
    exact ⟨(row21_at x0 _ _ r c z).2 (H ⟨0, by omega⟩),
      (row21_at x0 _ _ r c z).2 (H ⟨1, by omega⟩),
      (row21_at x0 _ _ r c z).2 (H ⟨2, by omega⟩),
      (row21_at x0 _ _ r c z).2 (H ⟨3, by omega⟩),
      (row21_at x0 _ _ r c z).2 (H ⟨4, by omega⟩),
      (row21_at x0 _ _ r c z).2 (H ⟨5, by omega⟩),
      (row21_at x0 _ _ r c z).2 (H ⟨6, by omega⟩),
      (row21_at x0 _ _ r c z).2 (H ⟨7, by omega⟩),
      (row21_at x0 _ _ r c z).2 (H ⟨8, by omega⟩),
      (row21_at x0 _ _ r c z).2 (H ⟨9, by omega⟩),
      (row21_at x0 _ _ r c z).2 (H ⟨10, by omega⟩),
      (row21_at x0 _ _ r c z).2 (H ⟨11, by omega⟩),
      (row21_at x0 _ _ r c z).2 (H ⟨12, by omega⟩),
      (row21_at x0 _ _ r c z).2 (H ⟨13, by omega⟩),
      (row21_at x0 _ _ r c z).2 (H ⟨14, by omega⟩),
      (row21_at x0 _ _ r c z).2 (H ⟨15, by omega⟩),
      (row21_at x0 _ _ r c z).2 (H ⟨16, by omega⟩),
      (row21_at x0 _ _ r c z).2 (H ⟨17, by omega⟩),
      (row21_at x0 _ _ r c z).2 (H ⟨18, by omega⟩),
      (row21_at x0 _ _ r c z).2 (H ⟨19, by omega⟩),
      (row21_at x0 _ _ r c z).2 (H ⟨20, by omega⟩), trivial⟩

end Cert.KernelIdeal.KerValue

end
-- ==== Proof.KerRegionsB.lean ====
/-
  The kernel's regional maxima, regions 14 to 21: each is the specification's maximum over its rectangle, row by row — the bound of the
  combined maximum is the bound of each row's stretch, and row k of a region of corner (sh, sw) is the stretch at 32 (sh + k) + sw.
-/
import proofs.«131176_j28467043238140_1_alg».proof.Proof.KerRegionBase

set_option maxRecDepth 16384

noncomputable section

namespace Cert.KernelIdeal.KerValue

open Cert.KernelIdeal Cert.KernelIdeal.Gen Idealize.ShloMosaic Idealize.SL.Sem

open Idealize.ShloMosaic.ValueIdx

/-- Region 14: side 16, corner (0, 0); row k of the region is the stretch at 32·(0 + k) + 0. -/
theorem kmax14 (x0 : Vec Ideal S2x2048x1024 .f32) (r : Fin 2) (X : Cert.Spec.Input) (b : Fin 32) (hX : BlockOf x0 r X b) (c : Fin 2048) :
    kMaxOf (F := Ideal) (kRow16 (View.ld x0 r0_97))
      [kRow16 (View.ld x0 r0_98),
       kRow16 (View.ld x0 r0_99),
       kRow16 (View.ld x0 r0_100),
       kRow16 (View.ld x0 r0_101),
       kRow16 (View.ld x0 r0_102),
       kRow16 (View.ld x0 r0_103),
       kRow16 (View.ld x0 r0_104),
       kRow16 (View.ld x0 r0_105),
       kRow16 (View.ld x0 r0_106),
       kRow16 (View.ld x0 r0_107),
       kRow16 (View.ld x0 r0_108),
       kRow16 (View.ld x0 r0_109),
       kRow16 (View.ld x0 r0_110),
       kRow16 (View.ld x0 r0_111),
       kRow16 (View.ld x0 r0_112)] (ix2 r c)
      = Cert.Spec.rectMax X 0 0 16 b c := by
  refine Cert.Spec.eq_of_bounds fun z => ?_
  rw [Cert.Spec.rectMax_le_iff, ← rows_iff_rect hX c 0 0 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 15: side 16, corner (0, 5); row k of the region is the stretch at 32·(0 + k) + 5. -/
theorem kmax15 (x0 : Vec Ideal S2x2048x1024 .f32) (r : Fin 2) (X : Cert.Spec.Input) (b : Fin 32) (hX : BlockOf x0 r X b) (c : Fin 2048) :
    kMaxOf (F := Ideal) (kRow16 (View.ld x0 r0_113))
      [kRow16 (View.ld x0 r0_114),
       kRow16 (View.ld x0 r0_115),
       kRow16 (View.ld x0 r0_116),
       kRow16 (View.ld x0 r0_117),
       kRow16 (View.ld x0 r0_118),
       kRow16 (View.ld x0 r0_119),
       kRow16 (View.ld x0 r0_120),
       kRow16 (View.ld x0 r0_121),
       kRow16 (View.ld x0 r0_122),
       kRow16 (View.ld x0 r0_123),
       kRow16 (View.ld x0 r0_124),
       kRow16 (View.ld x0 r0_125),
       kRow16 (View.ld x0 r0_126),
       kRow16 (View.ld x0 r0_127),
       kRow16 (View.ld x0 r0_128)] (ix2 r c)
      = Cert.Spec.rectMax X 0 5 16 b c := by
  refine Cert.Spec.eq_of_bounds fun z => ?_
  rw [Cert.Spec.rectMax_le_iff, ← rows_iff_rect hX c 0 5 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 16: side 16, corner (0, 11); row k of the region is the stretch at 32·(0 + k) + 11. -/
theorem kmax16 (x0 : Vec Ideal S2x2048x1024 .f32) (r : Fin 2) (X : Cert.Spec.Input) (b : Fin 32) (hX : BlockOf x0 r X b) (c : Fin 2048) :
    kMaxOf (F := Ideal) (kRow16 (View.ld x0 r0_129))
      [kRow16 (View.ld x0 r0_130),
       kRow16 (View.ld x0 r0_131),
       kRow16 (View.ld x0 r0_132),
       kRow16 (View.ld x0 r0_133),
       kRow16 (View.ld x0 r0_134),
       kRow16 (View.ld x0 r0_135),
       kRow16 (View.ld x0 r0_136),
       kRow16 (View.ld x0 r0_137),
       kRow16 (View.ld x0 r0_138),
       kRow16 (View.ld x0 r0_139),
       kRow16 (View.ld x0 r0_140),
       kRow16 (View.ld x0 r0_141),
       kRow16 (View.ld x0 r0_142),
       kRow16 (View.ld x0 r0_143),
       kRow16 (View.ld x0 r0_144)] (ix2 r c)
      = Cert.Spec.rectMax X 0 11 16 b c := by
  refine Cert.Spec.eq_of_bounds fun z => ?_
  rw [Cert.Spec.rectMax_le_iff, ← rows_iff_rect hX c 0 11 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 17: side 16, corner (0, 16); row k of the region is the stretch at 32·(0 + k) + 16. -/
theorem kmax17 (x0 : Vec Ideal S2x2048x1024 .f32) (r : Fin 2) (X : Cert.Spec.Input) (b : Fin 32) (hX : BlockOf x0 r X b) (c : Fin 2048) :
    kMaxOf (F := Ideal) (kRow16 (View.ld x0 r0_145))
      [kRow16 (View.ld x0 r0_146),
       kRow16 (View.ld x0 r0_147),
       kRow16 (View.ld x0 r0_148),
       kRow16 (View.ld x0 r0_149),
       kRow16 (View.ld x0 r0_150),
       kRow16 (View.ld x0 r0_151),
       kRow16 (View.ld x0 r0_152),
       kRow16 (View.ld x0 r0_153),
       kRow16 (View.ld x0 r0_154),
       kRow16 (View.ld x0 r0_155),
       kRow16 (View.ld x0 r0_156),
       kRow16 (View.ld x0 r0_157),
       kRow16 (View.ld x0 r0_158),
       kRow16 (View.ld x0 r0_159),
       kRow16 (View.ld x0 r0_160)] (ix2 r c)
      = Cert.Spec.rectMax X 0 16 16 b c := by
  refine Cert.Spec.eq_of_bounds fun z => ?_
  rw [Cert.Spec.rectMax_le_iff, ← rows_iff_rect hX c 0 16 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 18: side 16, corner (5, 0); row k of the region is the stretch at 32·(5 + k) + 0. -/
theorem kmax18 (x0 : Vec Ideal S2x2048x1024 .f32) (r : Fin 2) (X : Cert.Spec.Input) (b : Fin 32) (hX : BlockOf x0 r X b) (c : Fin 2048) :
    kMaxOf (F := Ideal) (kRow16 (View.ld x0 r0_102))
      [kRow16 (View.ld x0 r0_103),
       kRow16 (View.ld x0 r0_104),
       kRow16 (View.ld x0 r0_105),
       kRow16 (View.ld x0 r0_106),
       kRow16 (View.ld x0 r0_107),
       kRow16 (View.ld x0 r0_108),
       kRow16 (View.ld x0 r0_109),
       kRow16 (View.ld x0 r0_110),
       kRow16 (View.ld x0 r0_111),
       kRow16 (View.ld x0 r0_112),
       kRow16 (View.ld x0 r0_161),
       kRow16 (View.ld x0 r0_162),
       kRow16 (View.ld x0 r0_163),
       kRow16 (View.ld x0 r0_164),
       kRow16 (View.ld x0 r0_165)] (ix2 r c)
      = Cert.Spec.rectMax X 5 0 16 b c := by
  refine Cert.Spec.eq_of_bounds fun z => ?_
  rw [Cert.Spec.rectMax_le_iff, ← rows_iff_rect hX c 5 0 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 19: side 16, corner (5, 5); row k of the region is the stretch at 32·(5 + k) + 5. -/
theorem kmax19 (x0 : Vec Ideal S2x2048x1024 .f32) (r : Fin 2) (X : Cert.Spec.Input) (b : Fin 32) (hX : BlockOf x0 r X b) (c : Fin 2048) :
    kMaxOf (F := Ideal) (kRow16 (View.ld x0 r0_118))
      [kRow16 (View.ld x0 r0_119),
       kRow16 (View.ld x0 r0_120),
       kRow16 (View.ld x0 r0_121),
       kRow16 (View.ld x0 r0_122),
       kRow16 (View.ld x0 r0_123),
       kRow16 (View.ld x0 r0_124),
       kRow16 (View.ld x0 r0_125),
       kRow16 (View.ld x0 r0_126),
       kRow16 (View.ld x0 r0_127),
       kRow16 (View.ld x0 r0_128),
       kRow16 (View.ld x0 r0_166),
       kRow16 (View.ld x0 r0_167),
       kRow16 (View.ld x0 r0_168),
       kRow16 (View.ld x0 r0_169),
       kRow16 (View.ld x0 r0_170)] (ix2 r c)
      = Cert.Spec.rectMax X 5 5 16 b c := by
  refine Cert.Spec.eq_of_bounds fun z => ?_
  rw [Cert.Spec.rectMax_le_iff, ← rows_iff_rect hX c 5 5 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 20: side 16, corner (5, 11); row k of the region is the stretch at 32·(5 + k) + 11. -/
theorem kmax20 (x0 : Vec Ideal S2x2048x1024 .f32) (r : Fin 2) (X : Cert.Spec.Input) (b : Fin 32) (hX : BlockOf x0 r X b) (c : Fin 2048) :
    kMaxOf (F := Ideal) (kRow16 (View.ld x0 r0_134))
      [kRow16 (View.ld x0 r0_135),
       kRow16 (View.ld x0 r0_136),
       kRow16 (View.ld x0 r0_137),
       kRow16 (View.ld x0 r0_138),
       kRow16 (View.ld x0 r0_139),
       kRow16 (View.ld x0 r0_140),
       kRow16 (View.ld x0 r0_141),
       kRow16 (View.ld x0 r0_142),
       kRow16 (View.ld x0 r0_143),
       kRow16 (View.ld x0 r0_144),
       kRow16 (View.ld x0 r0_171),
       kRow16 (View.ld x0 r0_172),
       kRow16 (View.ld x0 r0_173),
       kRow16 (View.ld x0 r0_174),
       kRow16 (View.ld x0 r0_175)] (ix2 r c)
      = Cert.Spec.rectMax X 5 11 16 b c := by
  refine Cert.Spec.eq_of_bounds fun z => ?_
  rw [Cert.Spec.rectMax_le_iff, ← rows_iff_rect hX c 5 11 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 21: side 16, corner (5, 16); row k of the region is the stretch at 32·(5 + k) + 16. -/
theorem kmax21 (x0 : Vec Ideal S2x2048x1024 .f32) (r : Fin 2) (X : Cert.Spec.Input) (b : Fin 32) (hX : BlockOf x0 r X b) (c : Fin 2048) :
    kMaxOf (F := Ideal) (kRow16 (View.ld x0 r0_150))
      [kRow16 (View.ld x0 r0_151),
       kRow16 (View.ld x0 r0_152),
       kRow16 (View.ld x0 r0_153),
       kRow16 (View.ld x0 r0_154),
       kRow16 (View.ld x0 r0_155),
       kRow16 (View.ld x0 r0_156),
       kRow16 (View.ld x0 r0_157),
       kRow16 (View.ld x0 r0_158),
       kRow16 (View.ld x0 r0_159),
       kRow16 (View.ld x0 r0_160),
       kRow16 (View.ld x0 r0_176),
       kRow16 (View.ld x0 r0_177),
       kRow16 (View.ld x0 r0_178),
       kRow16 (View.ld x0 r0_179),
       kRow16 (View.ld x0 r0_180)] (ix2 r c)
      = Cert.Spec.rectMax X 5 16 16 b c := by
  refine Cert.Spec.eq_of_bounds fun z => ?_
  rw [Cert.Spec.rectMax_le_iff, ← rows_iff_rect hX c 5 16 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

end Cert.KernelIdeal.KerValue

end
-- ==== Proof.KerRegionsC.lean ====
/-
  The kernel's regional maxima, regions 22 to 29: each is the specification's maximum over its rectangle, row by row — the bound of the
  combined maximum is the bound of each row's stretch, and row k of a region of corner (sh, sw) is the stretch at 32 (sh + k) + sw.
-/
import proofs.«131176_j28467043238140_1_alg».proof.Proof.KerRegionBase

set_option maxRecDepth 16384

noncomputable section

namespace Cert.KernelIdeal.KerValue

open Cert.KernelIdeal Cert.KernelIdeal.Gen Idealize.ShloMosaic Idealize.SL.Sem

open Idealize.ShloMosaic.ValueIdx

/-- Region 22: side 16, corner (11, 0); row k of the region is the stretch at 32·(11 + k) + 0. -/
theorem kmax22 (x0 : Vec Ideal S2x2048x1024 .f32) (r : Fin 2) (X : Cert.Spec.Input) (b : Fin 32) (hX : BlockOf x0 r X b) (c : Fin 2048) :
    kMaxOf (F := Ideal) (kRow16 (View.ld x0 r0_108))
      [kRow16 (View.ld x0 r0_109),
       kRow16 (View.ld x0 r0_110),
       kRow16 (View.ld x0 r0_111),
       kRow16 (View.ld x0 r0_112),
       kRow16 (View.ld x0 r0_161),
       kRow16 (View.ld x0 r0_162),
       kRow16 (View.ld x0 r0_163),
       kRow16 (View.ld x0 r0_164),
       kRow16 (View.ld x0 r0_165),
       kRow16 (View.ld x0 r0_181),
       kRow16 (View.ld x0 r0_182),
       kRow16 (View.ld x0 r0_183),
       kRow16 (View.ld x0 r0_184),
       kRow16 (View.ld x0 r0_185),
       kRow16 (View.ld x0 r0_186)] (ix2 r c)
      = Cert.Spec.rectMax X 11 0 16 b c := by
  refine Cert.Spec.eq_of_bounds fun z => ?_
  rw [Cert.Spec.rectMax_le_iff, ← rows_iff_rect hX c 11 0 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 23: side 16, corner (11, 5); row k of the region is the stretch at 32·(11 + k) + 5. -/
theorem kmax23 (x0 : Vec Ideal S2x2048x1024 .f32) (r : Fin 2) (X : Cert.Spec.Input) (b : Fin 32) (hX : BlockOf x0 r X b) (c : Fin 2048) :
    kMaxOf (F := Ideal) (kRow16 (View.ld x0 r0_124))
      [kRow16 (View.ld x0 r0_125),
       kRow16 (View.ld x0 r0_126),
       kRow16 (View.ld x0 r0_127),
       kRow16 (View.ld x0 r0_128),
       kRow16 (View.ld x0 r0_166),
       kRow16 (View.ld x0 r0_167),
       kRow16 (View.ld x0 r0_168),
       kRow16 (View.ld x0 r0_169),
       kRow16 (View.ld x0 r0_170),
       kRow16 (View.ld x0 r0_187),
       kRow16 (View.ld x0 r0_188),
       kRow16 (View.ld x0 r0_189),
       kRow16 (View.ld x0 r0_190),
       kRow16 (View.ld x0 r0_191),
       kRow16 (View.ld x0 r0_192)] (ix2 r c)
      = Cert.Spec.rectMax X 11 5 16 b c := by
  refine Cert.Spec.eq_of_bounds fun z => ?_
  rw [Cert.Spec.rectMax_le_iff, ← rows_iff_rect hX c 11 5 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 24: side 16, corner (11, 11); row k of the region is the stretch at 32·(11 + k) + 11. -/
theorem kmax24 (x0 : Vec Ideal S2x2048x1024 .f32) (r : Fin 2) (X : Cert.Spec.Input) (b : Fin 32) (hX : BlockOf x0 r X b) (c : Fin 2048) :
    kMaxOf (F := Ideal) (kRow16 (View.ld x0 r0_140))
      [kRow16 (View.ld x0 r0_141),
       kRow16 (View.ld x0 r0_142),
       kRow16 (View.ld x0 r0_143),
       kRow16 (View.ld x0 r0_144),
       kRow16 (View.ld x0 r0_171),
       kRow16 (View.ld x0 r0_172),
       kRow16 (View.ld x0 r0_173),
       kRow16 (View.ld x0 r0_174),
       kRow16 (View.ld x0 r0_175),
       kRow16 (View.ld x0 r0_193),
       kRow16 (View.ld x0 r0_194),
       kRow16 (View.ld x0 r0_195),
       kRow16 (View.ld x0 r0_196),
       kRow16 (View.ld x0 r0_197),
       kRow16 (View.ld x0 r0_198)] (ix2 r c)
      = Cert.Spec.rectMax X 11 11 16 b c := by
  refine Cert.Spec.eq_of_bounds fun z => ?_
  rw [Cert.Spec.rectMax_le_iff, ← rows_iff_rect hX c 11 11 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 25: side 16, corner (11, 16); row k of the region is the stretch at 32·(11 + k) + 16. -/
theorem kmax25 (x0 : Vec Ideal S2x2048x1024 .f32) (r : Fin 2) (X : Cert.Spec.Input) (b : Fin 32) (hX : BlockOf x0 r X b) (c : Fin 2048) :
    kMaxOf (F := Ideal) (kRow16 (View.ld x0 r0_156))
      [kRow16 (View.ld x0 r0_157),
       kRow16 (View.ld x0 r0_158),
       kRow16 (View.ld x0 r0_159),
       kRow16 (View.ld x0 r0_160),
       kRow16 (View.ld x0 r0_176),
       kRow16 (View.ld x0 r0_177),
       kRow16 (View.ld x0 r0_178),
       kRow16 (View.ld x0 r0_179),
       kRow16 (View.ld x0 r0_180),
       kRow16 (View.ld x0 r0_199),
       kRow16 (View.ld x0 r0_200),
       kRow16 (View.ld x0 r0_201),
       kRow16 (View.ld x0 r0_202),
       kRow16 (View.ld x0 r0_203),
       kRow16 (View.ld x0 r0_204)] (ix2 r c)
      = Cert.Spec.rectMax X 11 16 16 b c := by
  refine Cert.Spec.eq_of_bounds fun z => ?_
  rw [Cert.Spec.rectMax_le_iff, ← rows_iff_rect hX c 11 16 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 26: side 16, corner (16, 0); row k of the region is the stretch at 32·(16 + k) + 0. -/
theorem kmax26 (x0 : Vec Ideal S2x2048x1024 .f32) (r : Fin 2) (X : Cert.Spec.Input) (b : Fin 32) (hX : BlockOf x0 r X b) (c : Fin 2048) :
    kMaxOf (F := Ideal) (kRow16 (View.ld x0 r0_161))
      [kRow16 (View.ld x0 r0_162),
       kRow16 (View.ld x0 r0_163),
       kRow16 (View.ld x0 r0_164),
       kRow16 (View.ld x0 r0_165),
       kRow16 (View.ld x0 r0_181),
       kRow16 (View.ld x0 r0_182),
       kRow16 (View.ld x0 r0_183),
       kRow16 (View.ld x0 r0_184),
       kRow16 (View.ld x0 r0_185),
       kRow16 (View.ld x0 r0_186),
       kRow16 (View.ld x0 r0_205),
       kRow16 (View.ld x0 r0_206),
       kRow16 (View.ld x0 r0_207),
       kRow16 (View.ld x0 r0_208),
       kRow16 (View.ld x0 r0_209)] (ix2 r c)
      = Cert.Spec.rectMax X 16 0 16 b c := by
  refine Cert.Spec.eq_of_bounds fun z => ?_
  rw [Cert.Spec.rectMax_le_iff, ← rows_iff_rect hX c 16 0 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 27: side 16, corner (16, 5); row k of the region is the stretch at 32·(16 + k) + 5. -/
theorem kmax27 (x0 : Vec Ideal S2x2048x1024 .f32) (r : Fin 2) (X : Cert.Spec.Input) (b : Fin 32) (hX : BlockOf x0 r X b) (c : Fin 2048) :
    kMaxOf (F := Ideal) (kRow16 (View.ld x0 r0_166))
      [kRow16 (View.ld x0 r0_167),
       kRow16 (View.ld x0 r0_168),
       kRow16 (View.ld x0 r0_169),
       kRow16 (View.ld x0 r0_170),
       kRow16 (View.ld x0 r0_187),
       kRow16 (View.ld x0 r0_188),
       kRow16 (View.ld x0 r0_189),
       kRow16 (View.ld x0 r0_190),
       kRow16 (View.ld x0 r0_191),
       kRow16 (View.ld x0 r0_192),
       kRow16 (View.ld x0 r0_210),
       kRow16 (View.ld x0 r0_211),
       kRow16 (View.ld x0 r0_212),
       kRow16 (View.ld x0 r0_213),
       kRow16 (View.ld x0 r0_214)] (ix2 r c)
      = Cert.Spec.rectMax X 16 5 16 b c := by
  refine Cert.Spec.eq_of_bounds fun z => ?_
  rw [Cert.Spec.rectMax_le_iff, ← rows_iff_rect hX c 16 5 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 28: side 16, corner (16, 11); row k of the region is the stretch at 32·(16 + k) + 11. -/
theorem kmax28 (x0 : Vec Ideal S2x2048x1024 .f32) (r : Fin 2) (X : Cert.Spec.Input) (b : Fin 32) (hX : BlockOf x0 r X b) (c : Fin 2048) :
    kMaxOf (F := Ideal) (kRow16 (View.ld x0 r0_171))
      [kRow16 (View.ld x0 r0_172),
       kRow16 (View.ld x0 r0_173),
       kRow16 (View.ld x0 r0_174),
       kRow16 (View.ld x0 r0_175),
       kRow16 (View.ld x0 r0_193),
       kRow16 (View.ld x0 r0_194),
       kRow16 (View.ld x0 r0_195),
       kRow16 (View.ld x0 r0_196),
       kRow16 (View.ld x0 r0_197),
       kRow16 (View.ld x0 r0_198),
       kRow16 (View.ld x0 r0_215),
       kRow16 (View.ld x0 r0_216),
       kRow16 (View.ld x0 r0_217),
       kRow16 (View.ld x0 r0_218),
       kRow16 (View.ld x0 r0_219)] (ix2 r c)
      = Cert.Spec.rectMax X 16 11 16 b c := by
  refine Cert.Spec.eq_of_bounds fun z => ?_
  rw [Cert.Spec.rectMax_le_iff, ← rows_iff_rect hX c 16 11 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

/-- Region 29: side 16, corner (16, 16); row k of the region is the stretch at 32·(16 + k) + 16. -/
theorem kmax29 (x0 : Vec Ideal S2x2048x1024 .f32) (r : Fin 2) (X : Cert.Spec.Input) (b : Fin 32) (hX : BlockOf x0 r X b) (c : Fin 2048) :
    kMaxOf (F := Ideal) (kRow16 (View.ld x0 r0_176))
      [kRow16 (View.ld x0 r0_177),
       kRow16 (View.ld x0 r0_178),
       kRow16 (View.ld x0 r0_179),
       kRow16 (View.ld x0 r0_180),
       kRow16 (View.ld x0 r0_199),
       kRow16 (View.ld x0 r0_200),
       kRow16 (View.ld x0 r0_201),
       kRow16 (View.ld x0 r0_202),
       kRow16 (View.ld x0 r0_203),
       kRow16 (View.ld x0 r0_204),
       kRow16 (View.ld x0 r0_220),
       kRow16 (View.ld x0 r0_221),
       kRow16 (View.ld x0 r0_222),
       kRow16 (View.ld x0 r0_223),
       kRow16 (View.ld x0 r0_224)] (ix2 r c)
      = Cert.Spec.rectMax X 16 16 16 b c := by
  refine Cert.Spec.eq_of_bounds fun z => ?_
  rw [Cert.Spec.rectMax_le_iff, ← rows_iff_rect hX c 16 16 16 (by omega) (by omega) z, kMaxOf_le_iff]
  simp only [List.forall_mem_cons, forall_nil]
  constructor
  · rintro ⟨h0, h1, h2, h3, h4, h5, h6, h7, h8, h9, h10, h11, h12, h13, h14, h15, -⟩ k
    fin_cases k
    · exact (row16_at x0 _ _ r c z).1 h0
    · exact (row16_at x0 _ _ r c z).1 h1
    · exact (row16_at x0 _ _ r c z).1 h2
    · exact (row16_at x0 _ _ r c z).1 h3
    · exact (row16_at x0 _ _ r c z).1 h4
    · exact (row16_at x0 _ _ r c z).1 h5
    · exact (row16_at x0 _ _ r c z).1 h6
    · exact (row16_at x0 _ _ r c z).1 h7
    · exact (row16_at x0 _ _ r c z).1 h8
    · exact (row16_at x0 _ _ r c z).1 h9
    · exact (row16_at x0 _ _ r c z).1 h10
    · exact (row16_at x0 _ _ r c z).1 h11
    · exact (row16_at x0 _ _ r c z).1 h12
    · exact (row16_at x0 _ _ r c z).1 h13
    · exact (row16_at x0 _ _ r c z).1 h14
    · exact (row16_at x0 _ _ r c z).1 h15
  · intro H
    exact ⟨(row16_at x0 _ _ r c z).2 (H ⟨0, by omega⟩),
      (row16_at x0 _ _ r c z).2 (H ⟨1, by omega⟩),
      (row16_at x0 _ _ r c z).2 (H ⟨2, by omega⟩),
      (row16_at x0 _ _ r c z).2 (H ⟨3, by omega⟩),
      (row16_at x0 _ _ r c z).2 (H ⟨4, by omega⟩),
      (row16_at x0 _ _ r c z).2 (H ⟨5, by omega⟩),
      (row16_at x0 _ _ r c z).2 (H ⟨6, by omega⟩),
      (row16_at x0 _ _ r c z).2 (H ⟨7, by omega⟩),
      (row16_at x0 _ _ r c z).2 (H ⟨8, by omega⟩),
      (row16_at x0 _ _ r c z).2 (H ⟨9, by omega⟩),
      (row16_at x0 _ _ r c z).2 (H ⟨10, by omega⟩),
      (row16_at x0 _ _ r c z).2 (H ⟨11, by omega⟩),
      (row16_at x0 _ _ r c z).2 (H ⟨12, by omega⟩),
      (row16_at x0 _ _ r c z).2 (H ⟨13, by omega⟩),
      (row16_at x0 _ _ r c z).2 (H ⟨14, by omega⟩),
      (row16_at x0 _ _ r c z).2 (H ⟨15, by omega⟩), trivial⟩

end Cert.KernelIdeal.KerValue

end
-- ==== Proof.KerSpec.lean ====
/-
  The kernel body computes the specification, one batch row at a time. Under the hypothesis that batch row r of the block is
  row b of the input, the running sum over the block's regional maxima and the specification's running sum agree along that row
  as soon as the starting sums do — one step adds to both the same quotient — the 29 maxima being the 29 rectangles' maxima; the
  final normalization is the same step once more, and the trailing unit axis changes no entry.
-/
import proofs.«131176_j28467043238140_1_alg».proof.Proof.KerRegionsA
import proofs.«131176_j28467043238140_1_alg».proof.Proof.KerRegionsB
import proofs.«131176_j28467043238140_1_alg».proof.Proof.KerRegionsC

set_option maxRecDepth 16384

noncomputable section

namespace Cert.KernelIdeal.KerValue

open Cert.KernelIdeal Cert.KernelIdeal.Gen Idealize.ShloMosaic Idealize.SL.Sem

open Idealize.ShloMosaic.ValueIdx

/-- kNormed of a block row that agrees with row b of a plane is the specification's normalize of the plane, on that row. -/
theorem kNormed_eq_normalize (v : FVec Ideal S2x2048 .f32) (r : Fin 2) (v' : Cert.Spec.Plane) (b : Fin 32)
    (hv : ∀ c, v (ix2 r c) = v' b c) (c : Fin 2048) : kNormed (F := Ideal) v (ix2 r c) = Cert.Spec.normalize v' b c := by
  rw [kNormed_apply]
  unfold Cert.Spec.normalize Cert.Spec.eps
  simp only [hv]

/-- The running sums agree along the row after any list of maxima paired with regions whose rectangles' maxima they are. -/
theorem kAccum_apply (r : Fin 2) (X : Cert.Spec.Input) (b : Fin 32) :
    ∀ (vs : List (FVec Ideal S2x2048 .f32)) (rs : List (ℕ × ℕ × ℕ)),
      List.Forall₂ (fun v rg => ∀ c, v (ix2 r c) = Cert.Spec.rectMax X rg.1 rg.2.1 rg.2.2 b c) vs rs →
      ∀ (a : FVec Ideal S2x2048 .f32) (a' : Cert.Spec.Plane), (∀ c, a (ix2 r c) = a' b c) →
      ∀ c, kAccum (F := Ideal) vs a (ix2 r c) = Cert.Spec.accumulate X rs a' b c := by
  intro vs rs hp
  induction hp with
  | nil => intro a a' ha c; exact ha c
  | @cons v rg vs rs hv _ ih =>
    intro a a' ha c
    obtain ⟨sh, sw, n⟩ := rg
    show kAccum (F := Ideal) vs (addf a (kNormed (F := Ideal) v)) (ix2 r c) = Cert.Spec.accumulate X rs _ b c
    refine ih _ _ (fun c => ?_) c
    show a (ix2 r c) + kNormed (F := Ideal) v (ix2 r c) = a' b c + Cert.Spec.normalize (Cert.Spec.rectMax X sh sw n) b c
    rw [ha c, kNormed_eq_normalize v r _ b hv c]

/-- Each of the block's 29 maxima is the specification's maximum over its region's rectangle, on the block's row. -/
theorem kMaxes_regions (x0 : Vec Ideal S2x2048x1024 .f32) (r : Fin 2) (X : Cert.Spec.Input) (b : Fin 32) (hX : BlockOf x0 r X b) :
    List.Forall₂ (fun v rg => ∀ c, v (ix2 r c) = Cert.Spec.rectMax X rg.1 rg.2.1 rg.2.2 b c)
      (kMaxes (F := Ideal) x0) Cert.Spec.regions :=
    (List.Forall₂.cons (kmax1 x0 r X b hX)
    (List.Forall₂.cons (kmax1 x0 r X b hX)
    (List.Forall₂.cons (kmax1 x0 r X b hX)
    (List.Forall₂.cons (kmax1 x0 r X b hX)
    (List.Forall₂.cons (kmax5 x0 r X b hX)
    (List.Forall₂.cons (kmax6 x0 r X b hX)
    (List.Forall₂.cons (kmax7 x0 r X b hX)
    (List.Forall₂.cons (kmax8 x0 r X b hX)
    (List.Forall₂.cons (kmax9 x0 r X b hX)
    (List.Forall₂.cons (kmax10 x0 r X b hX)
    (List.Forall₂.cons (kmax11 x0 r X b hX)
    (List.Forall₂.cons (kmax12 x0 r X b hX)
    (List.Forall₂.cons (kmax13 x0 r X b hX)
    (List.Forall₂.cons (kmax14 x0 r X b hX)
    (List.Forall₂.cons (kmax15 x0 r X b hX)
    (List.Forall₂.cons (kmax16 x0 r X b hX)
    (List.Forall₂.cons (kmax17 x0 r X b hX)
    (List.Forall₂.cons (kmax18 x0 r X b hX)
    (List.Forall₂.cons (kmax19 x0 r X b hX)
    (List.Forall₂.cons (kmax20 x0 r X b hX)
    (List.Forall₂.cons (kmax21 x0 r X b hX)
    (List.Forall₂.cons (kmax22 x0 r X b hX)
    (List.Forall₂.cons (kmax23 x0 r X b hX)
    (List.Forall₂.cons (kmax24 x0 r X b hX)
    (List.Forall₂.cons (kmax25 x0 r X b hX)
    (List.Forall₂.cons (kmax26 x0 r X b hX)
    (List.Forall₂.cons (kmax27 x0 r X b hX)
    (List.Forall₂.cons (kmax28 x0 r X b hX)
    (List.Forall₂.cons (kmax29 x0 r X b hX)
    List.Forall₂.nil)))))))))))))))))))))))))))))

/-- What the body stores at batch row r and channel c is the specification's function of the input at row b. -/
theorem kBody_apply (x0 : Vec Ideal S2x2048x1024 .f32) (r : Fin 2) (X : Cert.Spec.Input) (b : Fin 32) (hX : BlockOf x0 r X b)
    (c : Fin 2048) (u : Fin 1) : kBody (F := Ideal) x0 (ix3 r c u) = Cert.Spec.G X b c := by
  unfold kBody Cert.Spec.G
  refine (shapeCast_apply _ shapeCasts_S2x2048_S2x2048x1 (ix3 r c u) (ix2 r c) (by
    rw [Shape.rowMajor_val_two, Shape.rowMajor_val_three]
    have hu : u.val = 0 := by have := u.isLt; omega
    show r.val * 2048 + c.val = (r.val * 2048 + c.val) * 1 + u.val
    omega)).trans ?_
  refine kNormed_eq_normalize _ r _ b (fun c => ?_) c
  exact kAccum_apply r X b _ _ (kMaxes_regions x0 r X b hX) _ _ (fun c => (kZeros_apply _).trans Ideal.ofBits_zero_f32) c

end Cert.KernelIdeal.KerValue

end
-- ==== Proof.KerArray.lean ====
/-
  From blocks to arrays. The region finds its input array as the argument reshaped to [32, 2048, 1024] (the plane flattened, entry
  32 h + w being row h, column w); grid point t stages batch rows 2 t and 2 t + 1 of it and writes back rows 2 t and 2 t + 1 of the
  output [32, 2048, 1]. What point t writes back is therefore block t of one whole-array function of the input array: the
  specification's G of the input's planes, with a trailing unit axis.
-/
import proofs.«131176_j28467043238140_1_alg».proof.Proof.KerBody
import proofs.«131176_j28467043238140_1_alg».proof.Proof.KerSpec
import Idealize.ShloMosaic.Lib.StableHlo.Run
import Idealize.ShloMosaic.Lib.Pipeline.FrameSuffix

set_option maxRecDepth 16384

noncomputable section

namespace Cert.KernelIdeal.KerValue

open Cert.KernelIdeal Cert.KernelIdeal.Gen Idealize.ShloMosaic Idealize.SL.Sem

open Idealize.ShloMosaic.ValueIdx Idealize.ShloMosaic.StableHlo Idealize.ShloMosaic.TcCoe
open Idealize.ShloMosaic.Pipeline (Dat)

variable (m : (ℓ : Loc nD τ sig) → Buf (Elt Ideal) ℓ) (ρ : Dev nD → PrngReg)

/-- The planes of a [32, 2048, 1024] array: entry 32 h + w of the flattened axis is row h, column w. -/
def planeOf (a : S32x2048x1024.Idx → EReal) : Cert.Spec.Input :=
  fun b c h w => a (ix3 b c ⟨32 * h.val + w.val, by have := h.isLt; have := w.isLt; omega⟩)

/-- The output array: the specification's function of the input's planes, with a trailing unit axis. -/
def Gk (a : S32x2048x1024.Idx → EReal) : S32x2048x1.Idx → EReal :=
  fun i => Cert.Spec.G (planeOf a) ⟨(i 0).val, (i 0).isLt⟩ ⟨(i 1).val, (i 1).isLt⟩

theorem hz3 : (![0, 0, 0] : Fin 3 → Nat) = fun _ => 0 := funext fun a => by fin_cases a <;> rfl

/-- The region finds its input array as the argument with the plane flattened. -/
theorem V_main_v0 (c : Dev nD) :
    (V m c main_v0 : S32x2048x1024.Idx → EReal)
      = shapeCast S32x2048x1024 (m ((c : Thread nD τ).loc main_arg0)) shapeCasts_S32x2048x32x32_S32x2048x1024 := by
  show StableHlo.after hostOps0 (fun b => m (c, b)) (Proc.devRef .tc main_v0) = _
  after_results
  rfl

/-- The printed index maps over the grid: point t is block (t, 0, 0) of both windows. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 16 := by
  have h := t.isLt
  have e : cfg0.N = 16 := N_0
  omega

/-- Batch row r of point t's input block is row 2 t + r of the input array. -/
theorem block_of (c : Dev nD) (t : Fin cfg0.N) (r : Fin 2) :
    BlockOf (iblk m c 0 t) r (planeOf (V m c main_v0)) ⟨2 * t.val + r.val, by have := t_lt t; have := r.isLt; omega⟩ := by
  obtain ⟨f0, f1, f2, -, -, -⟩ := idx_facts t
  intro c' h w
  have hh := h.isLt
  have hw := w.isLt
  have hp : 32 * h.val + w.val < 1024 := by omega
  rw [flatAt, dif_pos hp]
  show V m c main_v0 (((cfg0.win 0).blk t).view.emb (ix3 r c' ⟨32 * h.val + w.val, hp⟩)) = V m c main_v0 _
  refine congrArg (V m c main_v0) (funext fun a => Fin.ext ?_)
  match a with
  | ⟨0, _⟩ => show win0_0.index t (0 : Fin 3) * 2 + 1 * r.val = 2 * t.val + r.val; omega
  | ⟨1, _⟩ => show win0_0.index t (1 : Fin 3) * 2048 + 1 * c'.val = c'.val; omega
  | ⟨2, _⟩ => show win0_0.index t (2 : Fin 3) * 1024 + 1 * (32 * h.val + w.val) = 32 * h.val + w.val; omega

/-- WHAT POINT t WRITES BACK is block t of Gk of the input array as the region finds it. -/
theorem flushed_eq (c : Dev nD) (t : Fin cfg0.N) :
    (dats m 0 c).flushed 1 t = ((cfg0.win 1).blk t).view.read (Elt Ideal) (Gk (V m c main_v0)) := by
  show (cfg0.win 1).cut (grid0.coords t) ((dats m 0 c).after 1 t) = _
  rw [after0_1, out0_1_eq, View.canon_unit_zero hz3]
  obtain ⟨-, -, -, e0, e1, e2⟩ := idx_facts t
  funext j
  show kBody (F := Ideal) (iblk m c 0 t) j = Gk (V m c main_v0) (((cfg0.win 1).blk t).view.emb j)
  have hj0 : (j 0).val < 2 := (j 0).isLt
  have hj1 : (j 1).val < 2048 := (j 1).isLt
  have hj2 : (j 2).val < 1 := (j 2).isLt
  have ej : j = ix3 (⟨(j 0).val, hj0⟩ : Fin 2) (⟨(j 1).val, hj1⟩ : Fin 2048) (⟨(j 2).val, hj2⟩ : Fin 1) := by
    funext a; apply Fin.ext
    match a with
    | ⟨0, _⟩ => rfl
    | ⟨1, _⟩ => rfl
    | ⟨2, _⟩ => rfl
  rw [ej, kBody_apply (iblk m c 0 t) ⟨(j 0).val, hj0⟩ _ _ (block_of m c t ⟨(j 0).val, hj0⟩) ⟨(j 1).val, hj1⟩ ⟨(j 2).val, hj2⟩]
  unfold Gk
  refine congrArg₂ (Cert.Spec.G (planeOf (V m c main_v0))) (Fin.ext ?_) (Fin.ext ?_)
  · show 2 * t.val + (j 0).val = win0_1.index t (0 : Fin 3) * 2 + 1 * (j 0).val; omega
  · show (j 1).val = win0_1.index t (1 : Fin 3) * 2048 + 1 * (j 1).val; omega

/-- An index of the output array is in point t's block exactly when each coordinate is in the block's range on its axis. -/
theorem mem_blk (t : Fin cfg0.N) (i : S32x2048x1.Idx) :
    i ∈ ((cfg0.win 1).blk t).view.set ↔ ∀ a : Fin 3, win0_1.index t a * S2x2048x1.size a ≤ (i a).val
      ∧ (i a).val < win0_1.index t a * S2x2048x1.size a + S2x2048x1.size a := by
  show i ∈ ((View.whole main_v1).slice (win0_1.rect t)).set ↔ _
  rw [View.set_slice_whole, Rect.mem_set_unit]
  exact Iff.rfl

/-- Every index of the output array is in some point's block: batch row i₀ is written at point i₀ / 2. -/
theorem cover (i : S32x2048x1.Idx) :
    ∃ t : Fin cfg0.N, (cfg0.win 1).flush t = true ∧ i ∈ ((cfg0.win 1).blk t).view.set := by
  have hi0 : (i 0).val < 32 := (i 0).isLt
  have hi1 : (i 1).val < 2048 := (i 1).isLt
  have hi2 : (i 2).val < 1 := (i 2).isLt
  have hN : cfg0.N = 16 := N_0
  have ht : (i 0).val / 2 < cfg0.N := by omega
  obtain ⟨-, -, -, e0, e1, e2⟩ := idx_facts ⟨(i 0).val / 2, ht⟩
  have e0' : win0_1.index ⟨(i 0).val / 2, ht⟩ (0 : Fin 3) = (i 0).val / 2 := e0
  refine ⟨⟨(i 0).val / 2, ht⟩, flush0_1 _, ?_⟩
  rw [mem_blk]
  intro a
  match a with
  | ⟨0, _⟩ =>
    show win0_1.index ⟨(i 0).val / 2, ht⟩ (0 : Fin 3) * 2 ≤ (i 0).val ∧ (i 0).val < win0_1.index ⟨(i 0).val / 2, ht⟩ (0 : Fin 3) * 2 + 2
    omega
  | ⟨1, _⟩ =>
    show win0_1.index ⟨(i 0).val / 2, ht⟩ (1 : Fin 3) * 2048 ≤ (i 1).val ∧ (i 1).val < win0_1.index ⟨(i 0).val / 2, ht⟩ (1 : Fin 3) * 2048 + 2048
    omega
  | ⟨2, _⟩ =>
    show win0_1.index ⟨(i 0).val / 2, ht⟩ (2 : Fin 3) * 1 ≤ (i 2).val ∧ (i 2).val < win0_1.index ⟨(i 0).val / 2, ht⟩ (2 : Fin 3) * 1 + 1
    omega

/-- THE OUTPUT ARRAY after the run: Gk of the input array as the region finds it. -/
theorem final (c : Dev nD) : (dats m 0 c).arrAt 1 cfg0.N = Gk (V m c main_v0) :=
  (dats m 0 c).arrAt_eq_of_cover 1 (Gk (V m c main_v0)) (fun t _ => flushed_eq m c t) cover

/-- The buffers the lines after the region start from hold the output array at Gk of the input array. -/
theorem tail_arr (c : Dev nD) :
    Pipeline.withArrays spec0 c (V0 m c) (fun w => (dats m 0 c).arrAt w cfg0.N) (Proc.devRef .tc main_v1)
      = Gk (V m c main_v0) :=
  (Pipeline.withArrays_arr spec0 launch0.win.arr_inj c _ _ 1).trans (final m c)

/-- The result buffer after the lines that follow the region: the output array without its trailing unit axis. -/
theorem result_tail (c : Dev nD) :
    (Pipeline.afterTail₀ cfgs (dats m) 0 (V0 m) [hostOps1] c main_v2 : S32x2048.Idx → EReal)
      = shapeCast S32x2048 (Gk (V m c main_v0)) shapeCasts_S32x2048x1_S32x2048 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Gk (V m c main_v0) := tail_arr m c
  rw [e]
  rfl

/-- The kernel's result as a function of its argument: the argument with the plane flattened, Gk of it, the trailing unit axis
    dropped. -/
def kerResult (x : S32x2048x32x32.Idx → EReal) : S32x2048.Idx → EReal :=
  shapeCast S32x2048 (Gk (shapeCast S32x2048x1024 x shapeCasts_S32x2048x32x32_S32x2048x1024)) shapeCasts_S32x2048x1_S32x2048

/-- Every weakly fair execution of the kernel terminates, without a fault, with the result buffer at kerResult of the argument
    array and the argument array as it was. -/
theorem run_result :
    θ_run defs (onTc (τ := τ) (main (F := Ideal))) ⟨m, fun _ => 0, ρ⟩ fun r => ∀ c : Dev nD,
      r.2.mem ((c.tc : Thread nD τ).loc main_v2) = kerResult (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans
          ((result_tail m c).trans (by unfold kerResult; rw [V_main_v0])),
        ((h c).2 main_arg0 (Pipeline.mem_restRefs_of main_arg0 (by decide) (by decide))).trans (W_main_arg0 m (dats m) c)⟩)
    (run_main m ρ)

/-- The planes of the flattened argument are the argument's own. -/
theorem planeOf_flat (x : S32x2048x32x32.Idx → EReal) (b : Fin 32) (c : Fin 2048) (h w : Fin 32) :
    planeOf (shapeCast S32x2048x1024 x shapeCasts_S32x2048x32x32_S32x2048x1024) b c h w = x (ix4 b c h w) := by
  unfold planeOf
  refine shapeCast_apply x _ _ (ix4 b c h w) ?_
  rw [Shape.rowMajor_val_four, Shape.rowMajor_val_three]
  have hh := h.isLt
  have hw := w.isLt
  show ((b.val * 2048 + c.val) * 32 + h.val) * 32 + w.val = (b.val * 2048 + c.val) * 1024 + (32 * h.val + w.val)
  omega

/-- The kernel's result at row b and channel c is the specification's function of the argument's planes. -/
theorem kerResult_apply (x : S32x2048x32x32.Idx → EReal) (b : Fin 32) (c : Fin 2048) :
    kerResult x (ix2 b c) = Cert.Spec.G (fun b c h w => x (ix4 b c h w)) b c := by
  unfold kerResult
  refine (shapeCast_apply _ shapeCasts_S32x2048x1_S32x2048 (ix2 b c) (ix3 b c ⟨0, Nat.one_pos⟩) (by
    rw [Shape.rowMajor_val_three, Shape.rowMajor_val_two]
    show (b.val * 2048 + c.val) * 1 + 0 = b.val * 2048 + c.val
    omega)).trans ?_
  unfold Gk
  exact congrArg (fun X => Cert.Spec.G X b c) (funext fun b => funext fun c => funext fun h => funext fun w => planeOf_flat x b c h w)

end Cert.KernelIdeal.KerValue

end
-- ==== Proof.lean ====
/-
  The kernel pools 29 overlapping square regions of each 32 x 32 plane of x : [32, 2048, 32, 32] by maximum, divides each pooled
  [32, 2048] array row by row by its Euclidean norm over the channels plus a small constant, adds the 29 quotients up and
  normalizes the sum the same way; the reference does the same with whole-array operations. Over the extended reals both
  compute one function G of x (Proof/Spec.lean): the reference region by region on slices of x (Proof/Ref*.lean), the kernel
  two batch rows per grid point on the plane flattened to 1024 entries, a region's maximum taken row by row (Proof/Ker*.lean).
  The only law between the two arrangements is that the maximum of a finite family is determined by its upper bounds; no
  finiteness of the input is used. Both programs terminate without a fault and leave the argument as it was; the idealized
  kernel is the kernel's own text read over the extended reals (the idealization rewrote nothing).
-/
import proofs.«131176_j28467043238140_1_alg».proof.Defs
import proofs.«131176_j28467043238140_1_alg».proof.Proof.Gen.Kernel
import proofs.«131176_j28467043238140_1_alg».proof.Proof.Gen.Kernel.Skeleton
import proofs.«131176_j28467043238140_1_alg».proof.Proof.Gen.Kernel.Launch
import proofs.«131176_j28467043238140_1_alg».proof.Proof.Gen.Kernel.Points
import proofs.«131176_j28467043238140_1_alg».proof.Proof.Gen.Kernel.Frame
import proofs.«131176_j28467043238140_1_alg».proof.Proof.Gen.KernelIdeal
import proofs.«131176_j28467043238140_1_alg».proof.Proof.Gen.KernelIdeal.Skeleton
import proofs.«131176_j28467043238140_1_alg».proof.Proof.Gen.KernelIdeal.Launch
import proofs.«131176_j28467043238140_1_alg».proof.Proof.Gen.KernelIdeal.Points
import proofs.«131176_j28467043238140_1_alg».proof.Proof.Gen.KernelIdeal.Frame
import proofs.«131176_j28467043238140_1_alg».proof.Proof.Gen.ReferenceIdeal
import proofs.«131176_j28467043238140_1_alg».proof.Proof.Gen.Pre_finite_inputs
import proofs.«131176_j28467043238140_1_alg».proof.Proof.RefFrame
import proofs.«131176_j28467043238140_1_alg».proof.Proof.RefSpec
import proofs.«131176_j28467043238140_1_alg».proof.Proof.KerArray
import Idealize.ShloMosaic.Adequacy
import Idealize.ShloMosaic.Init

noncomputable section

namespace Cert.Proof

open Idealize.ShloMosaic Idealize.SL.Sem Cert.Kernel

/-- The kernel at the word level terminates without a fault and leaves its argument as it was. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- The reference runs its operations in order, none of which writes the argument array. -/
theorem frame_reference : @Cert.frame_ReferenceIdeal Cert.ReferenceIdeal.Gen.facts Cert.Pre_finite_inputs.Gen.facts :=
  fun m ρ _ => Cert.ReferenceIdeal.RefRun.run_keeps (F := Ideal) m ρ

/-- Over the extended reals, from memories that agree on the argument, the kernel ends with its result at G of the argument's
    planes (its run, block by block) and so does the reference (its run, region by region): equal results, index by index. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KerValue.kerResult (m ((c.tc : Thread Cert.KernelIdeal.nD Cert.KernelIdeal.τ).loc Cert.KernelIdeal.main_arg0)),
    Cert.KernelIdeal.KerValue.run_result m ρ, ?_⟩
  refine (θ_run Cert.ReferenceIdeal.defs _ _).mono (fun _ h c => ⟨(h c).1.trans ?_, (h c).2⟩)
    (Cert.ReferenceIdeal.RefRun.run_result (F := Ideal) m' ρ')
  rw [hagree c]
  funext i
  obtain ⟨b, c', rfl⟩ : ∃ (b : Fin 32) (c' : Fin 2048), i = Idealize.ShloMosaic.ValueIdx.ix2 b c' :=
    ⟨i 0, i 1, Idealize.ShloMosaic.ValueIdx.eq_ix2 i⟩
  exact (Cert.ReferenceIdeal.RefRun.refResult_eq _ b c').trans (Cert.KernelIdeal.KerValue.kerResult_apply _ b c').symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
